-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S160000x2 : Shape := ⟨2, ![160000, 2]⟩
abbrev S2x1600000 : Shape := ⟨2, ![2, 1600000]⟩
abbrev S64x1 : Shape := ⟨2, ![64, 1]⟩
abbrev S64 : Shape := ⟨1, ![64]⟩
abbrev S5000x64 : Shape := ⟨2, ![5000, 64]⟩
abbrev S64x128 : Shape := ⟨2, ![64, 128]⟩
abbrev S64x64 : Shape := ⟨2, ![64, 64]⟩
abbrev S128x64 : Shape := ⟨2, ![128, 64]⟩
abbrev S128 : Shape := ⟨1, ![128]⟩
abbrev S1x64 : Shape := ⟨2, ![1, 64]⟩
abbrev S1 : Shape := ⟨1, ![1]⟩
abbrev S_ : Shape := ⟨0, ![]⟩

class Facts : Prop where
  bcast_S_S160000x2 : S_.BroadcastsInDim S160000x2 (![] : Fin 0 → Fin S160000x2.rank)
  reducesTo_S160000x2_S_d0_1 : S160000x2.ReducesTo [0, 1] S_
  h_S_ : 0 < S_.numel
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_
  bcast_S_S5000x64 : S_.BroadcastsInDim S5000x64 (![] : Fin 0 → Fin S5000x64.rank)
  reducesTo_S5000x64_S_d0_1 : S5000x64.ReducesTo [0, 1] S_
  bcast_S_S64x128 : S_.BroadcastsInDim S64x128 (![] : Fin 0 → Fin S64x128.rank)
  reducesTo_S64x128_S_d0_1 : S64x128.ReducesTo [0, 1] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg22 : FVec F S64 .f32) (main_arg23 : FVec F S1x64 .f32) (main_arg24 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg22
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S1x64 .f32 := Host.absf main_arg23
  let main_cst_42 : FVec F S_ .f32 := constant S_ .f32 0x7F800000#32
  let main_v110 : FVec F S1x64 .f32 := broadcastInDim S1x64 ![] bcast_S_S1x64 main_cst_42
  let main_v111 : IVec S1x64 1 := cmpf .olt main_v109 main_v110
  let main_c_43 : IVec S_ 1 := constantI S_ 1 1#1
  let main_v112 : IVec S_ 1 := (fun x v => Host.reduce IntOp.andi x v reducesTo_S1x64_S_d0_1 h_S_) main_v111 main_c_43
  let main_v113 : IVec S_ 1 := andi main_v108 main_v112
  let main_v114 : FVec F S1 .f32 := Host.absf main_arg24
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg19 : FVec F S64x128 .f32) (main_arg20 : FVec F S64 .f32) (main_arg21 : FVec F S64 .f32) (main_arg22 : FVec F S64 .f32) (main_arg23 : FVec F S1x64 .f32) (main_arg24 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S64x128 .f32 := Host.absf main_arg19
  let main_cst_34 : FVec F S_ .f32 := constant S_ .f32 0x7F800000#32
  let main_v90 : FVec F S64x128 .f32 := broadcastInDim S64x128 ![] bcast_S_S64x128 main_cst_34
  let main_v91 : IVec S64x128 1 := cmpf .olt main_v89 main_v90
  let main_c_35 : IVec S_ 1 := constantI S_ 1 1#1
  let main_v92 : IVec S_ 1 := (fun x v => Host.reduce IntOp.andi x v reducesTo_S64x128_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg21
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg22 main_arg23 main_arg24 main_v98 main_v101 main_c_39

def fn_part4 {F : FTy → Type} [FloatOps F] (main_arg15 : FVec F S128x64 .f32) (main_arg16 : FVec F S128 .f32) (main_arg17 : FVec F S128 .f32) (main_arg18 : FVec F S128 .f32) (main_arg19 : FVec F S64x128 .f32) (main_arg20 : FVec F S64 .f32) (main_arg21 : FVec F S64 .f32) (main_arg22 : FVec F S64 .f32) (main_arg23 : FVec F S1x64 .f32) (main_arg24 : FVec F S1 .f32) (main_v63 : IVec S_ 1) (main_v67 : IVec S_ 1) : IVec S_ 1 :=
  let main_v68 : IVec S_ 1 := andi main_v63 main_v67
  let main_v69 : FVec F S128x64 .f32 := Host.absf main_arg15
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_arg23 main_arg24 main_v83 main_v84 main_cst_32

def fn_part3 {F : FTy → Type} [FloatOps F] (main_arg12 : FVec F S64 .f32) (main_arg13 : FVec F S64x64 .f32) (main_arg14 : FVec F S64 .f32) (main_arg15 : FVec F S128x64 .f32) (main_arg16 : FVec F S128 .f32) (main_arg17 : FVec F S128 .f32) (main_arg18 : FVec F S128 .f32) (main_arg19 : FVec F S64x128 .f32) (main_arg20 : FVec F S64 .f32) (main_arg21 : FVec F S64 .f32) (main_arg22 : FVec F S64 .f32) (main_arg23 : FVec F S1x64 .f32) (main_arg24 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_arg20 main_arg21 main_arg22 main_arg23 main_arg24 main_v63 main_v67

def fn_part2 {F : FTy → Type} [FloatOps F] (main_arg8 : FVec F S64 .f32) (main_arg9 : FVec F S64x128 .f32) (main_arg10 : FVec F S64 .f32) (main_arg11 : FVec F S64x64 .f32) (main_arg12 : FVec F S64 .f32) (main_arg13 : FVec F S64x64 .f32) (main_arg14 : FVec F S64 .f32) (main_arg15 : FVec F S128x64 .f32) (main_arg16 : FVec F S128 .f32) (main_arg17 : FVec F S128 .f32) (main_arg18 : FVec F S128 .f32) (main_arg19 : FVec F S64x128 .f32) (main_arg20 : FVec F S64 .f32) (main_arg21 : FVec F S64 .f32) (main_arg22 : FVec F S64 .f32) (main_arg23 : FVec F S1x64 .f32) (main_arg24 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_arg18 main_arg19 main_arg20 main_arg21 main_arg22 main_arg23 main_arg24 main_v48 main_v49 main_v50

def fn_part1 {F : FTy → Type} [FloatOps F] (main_arg5 : FVec F S64 .f32) (main_arg6 : FVec F S5000x64 .f32) (main_arg7 : FVec F S64x128 .f32) (main_arg8 : FVec F S64 .f32) (main_arg9 : FVec F S64x128 .f32) (main_arg10 : FVec F S64 .f32) (main_arg11 : FVec F S64x64 .f32) (main_arg12 : FVec F S64 .f32) (main_arg13 : FVec F S64x64 .f32) (main_arg14 : FVec F S64 .f32) (main_arg15 : FVec F S128x64 .f32) (main_arg16 : FVec F S128 .f32) (main_arg17 : FVec F S128 .f32) (main_arg18 : FVec F S128 .f32) (main_arg19 : FVec F S64x128 .f32) (main_arg20 : FVec F S64 .f32) (main_arg21 : FVec F S64 .f32) (main_arg22 : FVec F S64 .f32) (main_arg23 : FVec F S1x64 .f32) (main_arg24 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S5000x64 .f32 := Host.absf main_arg6
  let main_cst_8 : FVec F S_ .f32 := constant S_ .f32 0x7F800000#32
  let main_v25 : FVec F S5000x64 .f32 := broadcastInDim S5000x64 ![] bcast_S_S5000x64 main_cst_8
  let main_v26 : IVec S5000x64 1 := cmpf .olt main_v24 main_v25
  let main_c_9 : IVec S_ 1 := constantI S_ 1 1#1
  let main_v27 : IVec S_ 1 := (fun x v => Host.reduce IntOp.andi x v reducesTo_S5000x64_S_d0_1 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S160000x2 .f32) (main_arg1 : IVec S2x1600000 32) (main_arg2 : FVec F S64x1 .f32) (main_arg3 : FVec F S64 .f32) (main_arg4 : FVec F S64x1 .f32) (main_arg5 : FVec F S64 .f32) (main_arg6 : FVec F S5000x64 .f32) (main_arg7 : FVec F S64x128 .f32) (main_arg8 : FVec F S64 .f32) (main_arg9 : FVec F S64x128 .f32) (main_arg10 : FVec F S64 .f32) (main_arg11 : FVec F S64x64 .f32) (main_arg12 : FVec F S64 .f32) (main_arg13 : FVec F S64x64 .f32) (main_arg14 : FVec F S64 .f32) (main_arg15 : FVec F S128x64 .f32) (main_arg16 : FVec F S128 .f32) (main_arg17 : FVec F S128 .f32) (main_arg18 : FVec F S128 .f32) (main_arg19 : FVec F S64x128 .f32) (main_arg20 : FVec F S64 .f32) (main_arg21 : FVec F S64 .f32) (main_arg22 : FVec F S64 .f32) (main_arg23 : FVec F S1x64 .f32) (main_arg24 : FVec F S1 .f32) : IVec S_ 1 :=
  let main_v0 : FVec F S160000x2 .f32 := Host.absf main_arg0
  let main_cst : FVec F S_ .f32 := constant S_ .f32 0x7F800000#32
  let main_v1 : FVec F S160000x2 .f32 := broadcastInDim S160000x2 ![] bcast_S_S160000x2 main_cst
  let main_v2 : IVec S160000x2 1 := cmpf .olt main_v0 main_v1
  let main_c : IVec S_ 1 := constantI S_ 1 1#1
  let main_v3 : IVec S_ 1 := (fun x v => Host.reduce IntOp.andi x v reducesTo_S160000x2_S_d0_1 h_S_) main_v2 main_c
  let main_v4 : FVec F S64x1 .f32 := Host.absf main_arg2
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S160000x2 : Shape := ⟨2, ![160000, 2]⟩
abbrev S2x1600000 : Shape := ⟨2, ![2, 1600000]⟩
abbrev S64x1 : Shape := ⟨2, ![64, 1]⟩
abbrev S64 : Shape := ⟨1, ![64]⟩
abbrev S5000x64 : Shape := ⟨2, ![5000, 64]⟩
abbrev S64x128 : Shape := ⟨2, ![64, 128]⟩
abbrev S64x64 : Shape := ⟨2, ![64, 64]⟩
abbrev S128x64 : Shape := ⟨2, ![128, 64]⟩
abbrev S128 : Shape := ⟨1, ![128]⟩
abbrev S1x64 : Shape := ⟨2, ![1, 64]⟩
abbrev S1 : Shape := ⟨1, ![1]⟩
abbrev S160000 : Shape := ⟨1, ![160000]⟩
abbrev S1x1600000 : Shape := ⟨2, ![1, 1600000]⟩
abbrev S1600000 : Shape := ⟨1, ![1600000]⟩
abbrev S1760000 : Shape := ⟨1, ![1760000]⟩
abbrev S_ : Shape := ⟨0, ![]⟩
abbrev S1760000x1 : Shape := ⟨2, ![1760000, 1]⟩
abbrev S5000 : Shape := ⟨1, ![5000]⟩
abbrev S5000x1 : Shape := ⟨2, ![5000, 1]⟩
abbrev S1x128 : Shape := ⟨2, ![1, 128]⟩
abbrev S1x1 : Shape := ⟨2, ![1, 1]⟩
abbrev S160000x64 : Shape := ⟨2, ![160000, 64]⟩
abbrev S5000x2 : Shape := ⟨2, ![5000, 2]⟩
abbrev S5000x128 : Shape := ⟨2, ![5000, 128]⟩
abbrev S1760000x64 : Shape := ⟨2, ![1760000, 64]⟩
abbrev S160000x128 : Shape := ⟨2, ![160000, 128]⟩
abbrev S160000x1 : Shape := ⟨2, ![160000, 1]⟩
abbrev S32x5000 : Shape := ⟨2, ![32, 5000]⟩

abbrev nBuf : Space → Nat
  | .hbm => 212
  | .vmem => 67
  | .smem => 0
  | _ => 0

abbrev hbmTy0_0 (i : Nat) : BufTy := match i % 128 with
  | 0 => ⟨S160000x2, .f32⟩
  | 1 => ⟨S2x1600000, .i32⟩
  | 2 => ⟨S64x1, .f32⟩
  | 3 => ⟨S64, .f32⟩
  | 4 => ⟨S64x1, .f32⟩
  | 5 => ⟨S64, .f32⟩
  | 6 => ⟨S5000x64, .f32⟩
  | 7 => ⟨S64x128, .f32⟩
  | 8 => ⟨S64, .f32⟩
  | 9 => ⟨S64x128, .f32⟩
  | 10 => ⟨S64, .f32⟩
  | 11 => ⟨S64x64, .f32⟩
  | 12 => ⟨S64, .f32⟩
  | 13 => ⟨S64x64, .f32⟩
  | 14 => ⟨S64, .f32⟩
  | 15 => ⟨S128x64, .f32⟩
  | 16 => ⟨S128, .f32⟩
  | 17 => ⟨S128, .f32⟩
  | 18 => ⟨S128, .f32⟩
  | 19 => ⟨S64x128, .f32⟩
  | 20 => ⟨S64, .f32⟩
  | 21 => ⟨S64, .f32⟩
  | 22 => ⟨S64, .f32⟩
  | 23 => ⟨S1x64, .f32⟩
  | 24 => ⟨S1, .f32⟩
  | 25 => ⟨S160000, .i32⟩
  | 26 => ⟨S1x1600000, .i32⟩
  | 27 => ⟨S1600000, .i32⟩
  | 28 => ⟨S1760000, .i32⟩
  | 29 => ⟨S1x1600000, .i32⟩
  | 30 => ⟨S1600000, .i32⟩
  | 31 => ⟨S1760000, .i32⟩
  | 32 => ⟨S_, .f32⟩
  | 33 => ⟨S1760000, .f32⟩
  | 34 => ⟨S_, .f32⟩
  | 35 => ⟨S160000, .f32⟩
  | 36 => ⟨S1760000x1, .i32⟩
  | 37 => ⟨S160000, .f32⟩
  | 38 => ⟨S_, .f32⟩
  | 39 => ⟨S160000, .f32⟩
  | 40 => ⟨S160000, .i1⟩
  | 41 => ⟨S_, .f32⟩
  | 42 => ⟨S160000, .f32⟩
  | 43 => ⟨S160000, .f32⟩
  | 44 => ⟨S160000, .f32⟩
  | 45 => ⟨S_, .f32⟩
  | 46 => ⟨S_, .f32⟩
  | 47 => ⟨S160000, .f32⟩
  | 48 => ⟨S160000, .f32⟩
  | 49 => ⟨S_, .i32⟩
  | 50 => ⟨S1760000, .i32⟩
  | 51 => ⟨S1760000, .i1⟩
  | 52 => ⟨S_, .i32⟩
  | 53 => ⟨S1760000, .i32⟩
  | 54 => ⟨S1760000, .i32⟩
  | 55 => ⟨S1760000, .i32⟩
  | 56 => ⟨S1760000x1, .i32⟩
  | 57 => ⟨S1760000, .f32⟩
  | 58 => ⟨S_, .i32⟩
  | 59 => ⟨S1760000, .i32⟩
  | 60 => ⟨S1760000, .i1⟩
  | 61 => ⟨S_, .i32⟩
  | 62 => ⟨S1760000, .i32⟩
  | 63 => ⟨S1760000, .i32⟩
  | 64 => ⟨S1760000, .i32⟩
  | 65 => ⟨S1760000x1, .i32⟩
  | 66 => ⟨S1760000, .f32⟩
  | 67 => ⟨S1760000, .f32⟩
  | 68 => ⟨S5000x64, .f32⟩
  | 69 => ⟨S_, .f32⟩
  | 70 => ⟨S5000, .f32⟩
  | 71 => ⟨S5000x1, .f32⟩
  | 72 => ⟨S5000x1, .f32⟩
  | 73 => ⟨S_, .f32⟩
  | 74 => ⟨S5000x1, .f32⟩
  | 75 => ⟨S5000x1, .f32⟩
  | 76 => ⟨S_, .f32⟩
  | 77 => ⟨S5000x1, .f32⟩
  | 78 => ⟨S5000x1, .f32⟩
  | 79 => ⟨S_, .f32⟩
  | 80 => ⟨S5000x1, .f32⟩
  | 81 => ⟨S5000x1, .f32⟩
  | 82 => ⟨S5000x64, .f32⟩
  | 83 => ⟨S5000x64, .f32⟩
  | 84 => ⟨S1x64, .f32⟩
  | 85 => ⟨S1x64, .f32⟩
  | 86 => ⟨S1x64, .f32⟩
  | 87 => ⟨S1x64, .f32⟩
  | 88 => ⟨S128x64, .f32⟩
  | 89 => ⟨S1x64, .f32⟩
  | 90 => ⟨S128x64, .f32⟩
  | 91 => ⟨S1x64, .f32⟩
  | 92 => ⟨S64x64, .f32⟩
  | 93 => ⟨S64x64, .f32⟩
  | 94 => ⟨S64x128, .f32⟩
  | 95 => ⟨S1x128, .f32⟩
  | 96 => ⟨S1x128, .f32⟩
  | 97 => ⟨S1x128, .f32⟩
  | 98 => ⟨S128x64, .f32⟩
  | 99 => ⟨S1x64, .f32⟩
  | 100 => ⟨S1x64, .f32⟩
  | 101 => ⟨S1x64, .f32⟩
  | 102 => ⟨S64x1, .f32⟩
  | 103 => ⟨S1x1, .f32⟩
  | 104 => ⟨S160000x64, .f32⟩
  | 105 => ⟨S160000x64, .f32⟩
  | 106 => ⟨S160000x64, .f32⟩
  | 107 => ⟨S1x64, .f32⟩
  | 108 => ⟨S_, .i32⟩
  | 109 => ⟨S1760000, .i32⟩
  | 110 => ⟨S1760000, .i1⟩
  | 111 => ⟨S_, .i32⟩
  | 112 => ⟨S1760000, .i32⟩
  | 113 => ⟨S1760000, .i32⟩
  | 114 => ⟨S1760000, .i32⟩
  | 115 => ⟨S1760000x1, .i32⟩
  | 116 => ⟨S1760000x64, .f32⟩
  | 117 => ⟨S1760000x1, .f32⟩
  | 118 => ⟨S1760000x64, .f32⟩
  | 119 => ⟨S1760000x64, .f32⟩
  | 120 => ⟨S_, .f32⟩
  | 121 => ⟨S160000x64, .f32⟩
  | 122 => ⟨S1760000x1, .i32⟩
  | 123 => ⟨S160000x64, .f32⟩
  | 124 => ⟨S160000x64, .f32⟩
  | 125 => ⟨S160000x64, .f32⟩
  | 126 => ⟨S160000x64, .f32⟩
  | 127 => ⟨S160000x64, .f32⟩
  | _ => ⟨S160000x2, .f32⟩

abbrev hbmTy0_1 (i : Nat) : BufTy := match i % 128 with
  | 0 => ⟨S1x64, .f32⟩
  | 1 => ⟨S_, .i32⟩
  | 2 => ⟨S1760000, .i32⟩
  | 3 => ⟨S1760000, .i1⟩
  | 4 => ⟨S_, .i32⟩
  | 5 => ⟨S1760000, .i32⟩
  | 6 => ⟨S1760000, .i32⟩
  | 7 => ⟨S1760000, .i32⟩
  | 8 => ⟨S1760000x1, .i32⟩
  | 9 => ⟨S1760000x64, .f32⟩
  | 10 => ⟨S1760000x1, .f32⟩
  | 11 => ⟨S1760000x64, .f32⟩
  | 12 => ⟨S1760000x64, .f32⟩
  | 13 => ⟨S_, .f32⟩
  | 14 => ⟨S160000x64, .f32⟩
  | 15 => ⟨S1760000x1, .i32⟩
  | 16 => ⟨S160000x64, .f32⟩
  | 17 => ⟨S160000x64, .f32⟩
  | 18 => ⟨S160000x64, .f32⟩
  | 19 => ⟨S160000x64, .f32⟩
  | 20 => ⟨S160000x128, .f32⟩
  | 21 => ⟨S_, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S160000x128, .f32⟩
  | 35 => ⟨S160000x128, .f32⟩
  | 36 => ⟨S160000x128, .f32⟩
  | 37 => ⟨S_, .f32⟩
  | 38 => ⟨S_, .f32⟩
  | 39 => ⟨S_, .f32⟩
  | 40 => ⟨S_, .f32⟩
  | 41 => ⟨S128, .f32⟩
  | 42 => ⟨S1x128, .f32⟩
  | 43 => ⟨S1x128, .f32⟩
  | 44 => ⟨S1x128, .f32⟩
  | 45 => ⟨S_, .f32⟩
  | 46 => ⟨S_, .i1⟩
  | 47 => ⟨S_, .f32⟩
  | 48 => ⟨S_, .f32⟩
  | 49 => ⟨S1x128, .f32⟩
  | 50 => ⟨S1x128, .f32⟩
  | 51 => ⟨S160000x64, .f32⟩
  | 52 => ⟨S_, .f32⟩
  | 53 => ⟨S64, .f32⟩
  | 54 => ⟨S1x64, .f32⟩
  | 55 => ⟨S_, .f32⟩
  | 56 => ⟨S1x64, .f32⟩
  | 57 => ⟨S1x64, .f32⟩
  | 58 => ⟨S_, .i32⟩
  | 59 => ⟨S_, .f32⟩
  | 60 => ⟨S64, .f32⟩
  | 61 => ⟨S1x64, .f32⟩
  | 62 => ⟨S_, .f32⟩
  | 63 => ⟨S1x64, .f32⟩
  | 64 => ⟨S1x64, .f32⟩
  | 65 => ⟨S160000x64, .f32⟩
  | 66 => ⟨S160000x64, .f32⟩
  | 67 => ⟨S160000x64, .f32⟩
  | 68 => ⟨S_, .f32⟩
  | 69 => ⟨S_, .f32⟩
  | 70 => ⟨S_, .f32⟩
  | 71 => ⟨S_, .f32⟩
  | 72 => ⟨S64, .f32⟩
  | 73 => ⟨S1x64, .f32⟩
  | 74 => ⟨S1x64, .f32⟩
  | 75 => ⟨S1x64, .f32⟩
  | 76 => ⟨S_, .f32⟩
  | 77 => ⟨S_, .i1⟩
  | 78 => ⟨S_, .f32⟩
  | 79 => ⟨S_, .f32⟩
  | 80 => ⟨S1x64, .f32⟩
  | 81 => ⟨S1x64, .f32⟩
  | 82 => ⟨S160000x1, .f32⟩
  | 83 => ⟨S32x5000, .f32⟩
  | _ => ⟨S160000x2, .f32⟩

abbrev hbmTy (i : Nat) : BufTy := match i / 128 with
  | 0 => hbmTy0_0 i
  | 1 => hbmTy0_1 i
  | _ => ⟨S160000x2, .f32⟩

abbrev bufTy : (tb : Table) → Fin (tcTables nBuf tb) → BufTy
  | .hbm, ⟨i, _⟩ => hbmTy i
  | .local _ .vmem, ⟨0, _⟩ => ⟨S5000x2, .f32⟩
  | .local _ .vmem, ⟨1, _⟩ => ⟨S5000x2, .f32⟩
  | .local _ .vmem, ⟨2, _⟩ => ⟨S5000x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S128x64, .f32⟩
  | .local _ .vmem, ⟨8, _⟩ => ⟨S1x64, .f32⟩
  | .local _ .vmem, ⟨9, _⟩ => ⟨S128x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S128x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S128x64, .f32⟩
  | .local _ .vmem, ⟨38, _⟩ => ⟨S1x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S64x128, .f32⟩
  | .local _ .vmem, ⟨44, _⟩ => ⟨S1x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S128x64, .f32⟩
  | .local _ .vmem, ⟨54, _⟩ => ⟨S1x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S1x64, .f32⟩
  | .local _ .vmem, ⟨60, _⟩ => ⟨S1x64, .f32⟩
  | .local _ .vmem, ⟨61, _⟩ => ⟨S1x64, .f32⟩
  | .local _ .vmem, ⟨62, _⟩ => ⟨S1x64, .f32⟩
  | .local _ .vmem, ⟨63, _⟩ => ⟨S64x1, .f32⟩
  | .local _ .vmem, ⟨64, _⟩ => ⟨S1x1, .f32⟩
  | .local _ .vmem, ⟨65, _⟩ => ⟨S5000x1, .f32⟩
  | .local _ .vmem, ⟨66, _⟩ => ⟨S5000x1, .f32⟩
  | _, _ => ⟨S160000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v16 : Ref sig .tc := ⟨.hbm, 48, rfl⟩
abbrev main_c : Ref sig .tc := ⟨.hbm, 49, rfl⟩
abbrev main_v17 : Ref sig .tc := ⟨.hbm, 50, rfl⟩
abbrev main_v18 : Ref sig .tc := ⟨.hbm, 51, rfl⟩
abbrev main_c_4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_c_5 : Ref sig .tc := ⟨.hbm, 58, rfl⟩
abbrev main_v24 : Ref sig .tc := ⟨.hbm, 59, rfl⟩
abbrev main_v25 : Ref sig .tc := ⟨.hbm, 60, rfl⟩
abbrev main_c_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_call1_v0 : Ref sig .tc := ⟨.hbm, 68, rfl⟩
abbrev main_call1_cst : Ref sig .tc := ⟨.hbm, 69, rfl⟩
abbrev main_call1_v1 : Ref sig .tc := ⟨.hbm, 70, rfl⟩
abbrev main_call1_v2 : Ref sig .tc := ⟨.hbm, 71, rfl⟩
abbrev main_v32 : Ref sig .tc := ⟨.hbm, 72, rfl⟩
abbrev main_cst_7 : Ref sig .tc := ⟨.hbm, 73, rfl⟩
abbrev main_v33 : Ref sig .tc := ⟨.hbm, 74, rfl⟩
abbrev main_v34 : Ref sig .tc := ⟨.hbm, 75, rfl⟩
abbrev main_cst_8 : Ref sig .tc := ⟨.hbm, 76, rfl⟩
abbrev main_v35 : Ref sig .tc := ⟨.hbm, 77, rfl⟩
abbrev main_v36 : Ref sig .tc := ⟨.hbm, 78, rfl⟩
abbrev main_cst_9 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61_0 : Ref sig .tc := ⟨.hbm, 104, rfl⟩
abbrev main_v61_1 : Ref sig .tc := ⟨.hbm, 105, rfl⟩
abbrev main_v62 : Ref sig .tc := ⟨.hbm, 106, rfl⟩
abbrev main_v63 : Ref sig .tc := ⟨.hbm, 107, rfl⟩
abbrev main_c_10 : Ref sig .tc := ⟨.hbm, 108, rfl⟩
abbrev main_v64 : Ref sig .tc := ⟨.hbm, 109, rfl⟩
abbrev main_v65 : Ref sig .tc := ⟨.hbm, 110, rfl⟩
abbrev main_c_11 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_12 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_c_13 : Ref sig .tc := ⟨.hbm, 129, rfl⟩
abbrev main_v82 : Ref sig .tc := ⟨.hbm, 130, rfl⟩
abbrev main_v83 : Ref sig .tc := ⟨.hbm, 131, rfl⟩
abbrev main_c_14 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_15 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_16 : Ref sig .tc := ⟨.hbm, 149, rfl⟩
abbrev main_v99 : Ref sig .tc := ⟨.hbm, 150, rfl⟩
abbrev main_v100 : Ref sig .tc := ⟨.hbm, 151, rfl⟩
abbrev main_cst_17 : Ref sig .tc := ⟨.hbm, 152, rfl⟩
abbrev main_v101 : Ref sig .tc := ⟨.hbm, 153, rfl⟩
abbrev main_v102 : Ref sig .tc := ⟨.hbm, 154, rfl⟩
abbrev main_c_18 : Ref sig .tc := ⟨.hbm, 155, rfl⟩
abbrev main_call2_cst : Ref sig .tc := ⟨.hbm, 156, rfl⟩
abbrev main_call2_v0 : Ref sig .tc := ⟨.hbm, 157, rfl⟩
abbrev main_call2_v1 : Ref sig .tc := ⟨.hbm, 158, rfl⟩
abbrev main_call2_cst_0 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_call2_v5 : Ref sig .tc := ⟨.hbm, 163, rfl⟩
abbrev main_call2_v6 : Ref sig .tc := ⟨.hbm, 164, rfl⟩
abbrev main_call2_v7 : Ref sig .tc := ⟨.hbm, 165, rfl⟩
abbrev main_call2_cst_1 : Ref sig .tc := ⟨.hbm, 166, rfl⟩
abbrev main_call2_v8 : Ref sig .tc := ⟨.hbm, 167, rfl⟩
abbrev main_call2_cst_2 : Ref sig .tc := ⟨.hbm, 168, rfl⟩
abbrev main_call2_v9 : Ref sig .tc := ⟨.hbm, 169, rfl⟩
abbrev main_call2_v10 : Ref sig .tc := ⟨.hbm, 170, rfl⟩
abbrev main_call2_v11 : Ref sig .tc := ⟨.hbm, 171, rfl⟩
abbrev main_call2_v12 : Ref sig .tc := ⟨.hbm, 172, rfl⟩
abbrev main_call2_cst_3 : Ref sig .tc := ⟨.hbm, 173, rfl⟩
abbrev main_call2_v13 : Ref sig .tc := ⟨.hbm, 174, rfl⟩
abbrev main_call2_cst_4 : Ref sig .tc := ⟨.hbm, 175, rfl⟩
abbrev main_call2_call0_v0 : Ref sig .tc := ⟨.hbm, 176, rfl⟩
abbrev main_call2_call0_v1 : Ref sig .tc := ⟨.hbm, 177, rfl⟩
abbrev main_v103 : Ref sig .tc := ⟨.hbm, 178, rfl⟩
abbrev main_v104 : Ref sig .tc := ⟨.hbm, 179, rfl⟩
abbrev main_cst_19 : Ref sig .tc := ⟨.hbm, 180, rfl⟩
abbrev main_v105 : Ref sig .tc := ⟨.hbm, 181, rfl⟩
abbrev main_v106 : Ref sig .tc := ⟨.hbm, 182, rfl⟩
abbrev main_cst_20 : Ref sig .tc := ⟨.hbm, 183, rfl⟩
abbrev main_v107 : Ref sig .tc := ⟨.hbm, 184, rfl⟩
abbrev main_v108 : Ref sig .tc := ⟨.hbm, 185, rfl⟩
abbrev main_c_21 : Ref sig .tc := ⟨.hbm, 186, rfl⟩
abbrev main_call3_cst : Ref sig .tc := ⟨.hbm, 187, rfl⟩
abbrev main_call3_v0 : Ref sig .tc := ⟨.hbm, 188, rfl⟩
abbrev main_call3_v1 : Ref sig .tc := ⟨.hbm, 189, rfl⟩
abbrev main_call3_cst_0 : Ref sig .tc := ⟨.hbm, 190, rfl⟩
abbrev main_call3_v2 : Ref sig .tc := ⟨.hbm, 191, rfl⟩
abbrev main_call3_v3 : Ref sig .tc := ⟨.hbm, 192, rfl⟩
abbrev main_call3_v4 : Ref sig .tc := ⟨.hbm, 193, rfl⟩
abbrev main_call3_v5 : Ref sig .tc := ⟨.hbm, 194, rfl⟩
abbrev main_call3_v6 : Ref sig .tc := ⟨.hbm, 195, rfl⟩
abbrev main_call3_v7 : Ref sig .tc := ⟨.hbm, 196, rfl⟩
abbrev main_call3_cst_1 : Ref sig .tc := ⟨.hbm, 197, rfl⟩
abbrev main_call3_v8 : Ref sig .tc := ⟨.hbm, 198, rfl⟩
abbrev main_call3_cst_2 : Ref sig .tc := ⟨.hbm, 199, rfl⟩
abbrev main_call3_v9 : Ref sig .tc := ⟨.hbm, 200, rfl⟩
abbrev main_call3_v10 : Ref sig .tc := ⟨.hbm, 201, rfl⟩
abbrev main_call3_v11 : Ref sig .tc := ⟨.hbm, 202, rfl⟩
abbrev main_call3_v12 : Ref sig .tc := ⟨.hbm, 203, rfl⟩
abbrev main_call3_cst_3 : Ref sig .tc := ⟨.hbm, 204, rfl⟩
abbrev main_call3_v13 : Ref sig .tc := ⟨.hbm, 205, rfl⟩
abbrev main_call3_cst_4 : Ref sig .tc := ⟨.hbm, 206, rfl⟩
abbrev main_call3_call0_v0 : Ref sig .tc := ⟨.hbm, 207, rfl⟩
abbrev main_call3_call0_v1 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg4_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg3_1 : Ref sig .tc := ⟨.vmem, 46, rfl⟩
abbrev cc6_stg0_0 : Ref sig .tc := ⟨.vmem, 47, rfl⟩
abbrev cc6_stg0_1 : Ref sig .tc := ⟨.vmem, 48, rfl⟩
abbrev cc6_stg1_0 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg6_0 : Ref sig .tc := ⟨.vmem, 54, rfl⟩
abbrev cc6_stg7_0 : Ref sig .tc := ⟨.vmem, 55, rfl⟩
abbrev cc6_stg7_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg5_0 : Ref sig .tc := ⟨.vmem, 63, rfl⟩
abbrev cc7_stg6_0 : Ref sig .tc := ⟨.vmem, 64, rfl⟩
abbrev cc7_stg7_0 : Ref sig .tc := ⟨.vmem, 65, rfl⟩
abbrev cc7_stg7_1 : Ref sig .tc := ⟨.vmem, 66, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem4_1 : DmaSem sig := 40
abbrev cc5_sem0_0 : DmaSem sig := 41
abbrev cc5_sem0_1 : DmaSem sig := 42
abbrev cc5_sem1_0 : DmaSem sig := 43
abbrev cc5_sem2_0 : DmaSem sig := 44
abbrev cc5_sem3_0 : DmaSem sig := 45
abbrev cc5_sem3_1 : DmaSem sig := 46
abbrev cc6_sem0_0 : DmaSem sig := 47
abbrev cc6_sem0_1 : DmaSem sig := 48
abbrev cc6_sem1_0 : DmaSem sig := 49
abbrev cc6_sem2_0 : DmaSem sig := 50
abbrev cc6_sem3_0 : DmaSem sig := 51
abbrev cc6_sem4_0 : DmaSem sig := 52
abbrev cc6_sem5_0 : DmaSem sig := 53
abbrev cc6_sem6_0 : DmaSem sig := 54
abbrev cc6_sem7_0 : DmaSem sig := 55
abbrev cc6_sem7_1 : DmaSem sig := 56
abbrev cc7_sem0_0 : DmaSem sig := 57
abbrev cc7_sem0_1 : DmaSem sig := 58
abbrev cc7_sem1_0 : DmaSem sig := 59
abbrev cc7_sem2_0 : DmaSem sig := 60
abbrev cc7_sem3_0 : DmaSem sig := 61
abbrev cc7_sem4_0 : DmaSem sig := 62
abbrev cc7_sem5_0 : DmaSem sig := 63
abbrev cc7_sem6_0 : DmaSem sig := 64
abbrev cc7_sem7_0 : DmaSem sig := 65
abbrev cc7_sem7_1 : DmaSem sig := 66

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S5000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x1 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S160000_S1760000_d0 : Shape.Concatenates [S1600000, S160000] S1760000 0
  slices_S2x1600000_S1x1600000_1_0 : S2x1600000.Slices ![1, 0] S1x1600000
  bcast_S_S1760000 : S_.BroadcastsInDim S1760000 (![] : Fin 0 → Fin S1760000.rank)
  bcast_S_S160000 : S_.BroadcastsInDim S160000 (![] : Fin 0 → Fin S160000.rank)
  bcast_S1760000_S1760000x1_0 : S1760000.BroadcastsInDim S1760000x1 (![0] : Fin 1 → Fin S1760000x1.rank)
  reducesTo_S5000x64_S5000_d1 : S5000x64.ReducesTo [1] S5000
  h_S_ : 0 < S_.numel
  bcast_S5000_S5000x1_0 : S5000.BroadcastsInDim S5000x1 (![0] : Fin 1 → Fin S5000x1.rank)
  bcast_S_S5000x1 : S_.BroadcastsInDim S5000x1 (![] : Fin 0 → Fin S5000x1.rank)
  bcast_S5000x1_S5000x64_0_1 : S5000x1.BroadcastsInDim S5000x64 (![0, 1] : Fin 2 → Fin S5000x64.rank)
  transposes_S64x1_S1x64_1_0 : S64x1.Transposes [1, 0] S1x64
  shapeCasts_S64_S1x64 : S64.ShapeCasts S1x64
  transposes_S64x128_S128x64_1_0 : S64x128.Transposes [1, 0] S128x64
  transposes_S64x64_S64x64_1_0 : S64x64.Transposes [1, 0] S64x64
  transposes_S128x64_S64x128_1_0 : S128x64.Transposes [1, 0] S64x128
  shapeCasts_S128_S1x128 : S128.ShapeCasts S1x128
  transposes_S1x64_S64x1_1_0 : S1x64.Transposes [1, 0] S64x1
  shapeCasts_S1_S1x1 : S1.ShapeCasts S1x1
  inb_S5000x2_S5000x2_0_0 : ∀ a, (![0, 0] : Fin 2 → Nat) a + S5000x2.size a ≤ S5000x2.size a
  h_S5000x2 : 0 < S5000x2.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bitsLt_bf16_f32 : FTy.bits .bf16 < FTy.bits .f32
  slices_S5000x2_o0_1_S5000x1 : S5000x2.Slices ![0, 1] S5000x1
  broadcasts_S5000x1_S5000x64 : S5000x1.Broadcasts S5000x64
  broadcasts_S1x64_S5000x64 : S1x64.Broadcasts S5000x64
  slices_S5000x2_o0_0_S5000x1 : S5000x2.Slices ![0, 0] S5000x1
  concatenates_S5000x64_S5000x64_S5000x128_d1 : Shape.Concatenates [S5000x64, S5000x64] S5000x128 1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1760000x1_S1760000x64_0_1 : S1760000x1.BroadcastsInDim S1760000x64 (![0, 1] : Fin 2 → Fin S1760000x64.rank)
  bcast_S_S160000x64 : S_.BroadcastsInDim S160000x64 (![] : Fin 0 → Fin S160000x64.rank)
  bcast_S1x64_S160000x64_0_1 : S1x64.BroadcastsInDim S160000x64 (![0, 1] : Fin 2 → Fin S160000x64.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reducesTo_S160000x128_S128_d0 : S160000x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S1x128_S160000x128_0_1 : S1x128.BroadcastsInDim S160000x128 (![0, 1] : Fin 2 → Fin S160000x128.rank)
  shapeCasts_S5000x128_S5000x128 : S5000x128.ShapeCasts S5000x128
  reducesTo_S160000x64_S64_d0 : S160000x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S160000x1_S32x5000 : S160000x1.ShapeCasts S32x5000
  scatter_S160000_S1760000x1_S1760000_n_0_0_1_wf : ScatterDims.WF S160000 S1760000x1 S1760000 [] [0] [0] 1
  gather_S160000_S1760000x1_S1760000_n_0_n_n_0_1_1_wf : GatherDims.WF S160000 S1760000x1 S1760000 [] [0] [] [0] [] 1 ![1]
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S160000x64_S1760000x1_S1760000x64_1_0_n_n_0_1_164_wf : GatherDims.WF S160000x64 S1760000x1 S1760000x64 [1] [0] [] [0] [] 1 ![1, 64]
  scatter_S160000x64_S1760000x1_S1760000x64_1_0_0_1_wf : ScatterDims.WF S160000x64 S1760000x1 S1760000x64 [1] [0] [0] 1
  dot_S5000x64_S64x128_S5000x128_1_0_0_1_n_n_wf : DotDims.WF S5000x64 S64x128 S5000x128 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S160000x2.size a
  hwx0_0 : ∀ i : grid0.Coords, EltTy.bits .f32 = 32 ∨ (Rect.block (s := S160000x2) S5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S5000x64.size a
  hwx0_1 : ∀ i : grid0.Coords, EltTy.bits .f32 = 32 ∨ (Rect.block (s := S5000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S160000x64.size a
  hwx0_10 : ∀ i : grid0.Coords, EltTy.bits .f32 = 32 ∨ (Rect.block (s := S160000x64) S5000x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S160000x64.size a
  hwx0_11 : ∀ i : grid0.Coords, EltTy.bits .f32 = 32 ∨ (Rect.block (s := S160000x64) S5000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S160000x64.size a
  hwx1_0 : ∀ i : grid1.Coords, EltTy.bits .f32 = 32 ∨ (Rect.block (s := S160000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S160000x64.size a
  hwx1_2 : ∀ i : grid1.Coords, EltTy.bits .f32 = 32 ∨ (Rect.block (s := S160000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S160000x64.size a
  hwx2_0 : ∀ i : grid2.Coords, EltTy.bits .f32 = 32 ∨ (Rect.block (s := S160000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S160000x64.size a
  hwx2_1 : ∀ i : grid2.Coords, EltTy.bits .f32 = 32 ∨ (Rect.block (s := S160000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S160000x64.size a
  hwx2_4 : ∀ i : grid2.Coords, EltTy.bits .f32 = 32 ∨ (Rect.block (s := S160000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S160000x64.size a
  hwx3_0 : ∀ i : grid3.Coords, EltTy.bits .f32 = 32 ∨ (Rect.block (s := S160000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S160000x64.size a
  hwx3_2 : ∀ i : grid3.Coords, EltTy.bits .f32 = 32 ∨ (Rect.block (s := S160000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S160000x64.size a
  hwx4_0 : ∀ i : grid4.Coords, EltTy.bits .f32 = 32 ∨ (Rect.block (s := S160000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S160000x64.size a
  hwx4_1 : ∀ i : grid4.Coords, EltTy.bits .f32 = 32 ∨ (Rect.block (s := S160000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S160000x64.size a
  hwx4_4 : ∀ i : grid4.Coords, EltTy.bits .f32 = 32 ∨ (Rect.block (s := S160000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S160000x64.size a
  hwx5_0 : ∀ i : grid5.Coords, EltTy.bits .f32 = 32 ∨ (Rect.block (s := S160000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x128.size a ≤ S64x128.size a
  hwx5_1 : ∀ i : grid5.Coords, EltTy.bits .f32 = 32 ∨ (Rect.block (s := S64x128) S64x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S160000x128.size a
  hwx5_3 : ∀ i : grid5.Coords, EltTy.bits .f32 = 32 ∨ (Rect.block (s := S160000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S160000x128.size a
  hwx6_0 : ∀ i : grid6.Coords, EltTy.bits .f32 = 32 ∨ (Rect.block (s := S160000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x64.size a ≤ S128x64.size a
  hwx6_5 : ∀ i : grid6.Coords, EltTy.bits .f32 = 32 ∨ (Rect.block (s := S128x64) S128x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x64.size a ≤ S160000x64.size a
  hwx6_7 : ∀ i : grid6.Coords, EltTy.bits .f32 = 32 ∨ (Rect.block (s := S160000x64) S5000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S160000x64.size a
  hwx7_0 : ∀ i : grid7.Coords, EltTy.bits .f32 = 32 ∨ (Rect.block (s := S160000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x1.size a ≤ S64x1.size a
  hwx7_5 : ∀ i : grid7.Coords, EltTy.bits .f32 = 32 ∨ (Rect.block (s := S64x1) S64x1.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x1.size a ≤ S1x1.size a
  hwx7_6 : ∀ i : grid7.Coords, EltTy.bits .f32 = 32 ∨ (Rect.block (s := S1x1) S1x1.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x1.size a ≤ S160000x1.size a
  hwx7_7 : ∀ i : grid7.Coords, EltTy.bits .f32 = 32 ∨ (Rect.block (s := S160000x1) S5000x1.size (cc7_transform_7 i) (hinb7_7 i)).WholeWords (EltTy.packing .f32)

variable [Facts₀]

def scatter_S160000_S1760000x1_S1760000_n_0_0_1 : ScatterDims S160000 S1760000x1 S1760000 where
  updateWindowDims := []
  insertedWindowDims := [0]
  scatterDimsToOperandDims := [0]
  indexVectorDim := 1
  wf := scatter_S160000_S1760000x1_S1760000_n_0_0_1_wf
def gather_S160000_S1760000x1_S1760000_n_0_n_n_0_1_1 : GatherDims S160000 S1760000x1 S1760000 where
  offsetDims := []
  collapsedSliceDims := [0]
  operandBatchingDims := []
  startIndicesBatchingDims := []
  startIndexMap := [0]
  indexVectorDim := 1
  sliceSizes := ![1]
  wf := gather_S160000_S1760000x1_S1760000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S160000x64_S1760000x1_S1760000x64_1_0_n_n_0_1_164 : GatherDims S160000x64 S1760000x1 S1760000x64 where
  offsetDims := [1]
  collapsedSliceDims := [0]
  operandBatchingDims := []
  startIndicesBatchingDims := []
  startIndexMap := [0]
  indexVectorDim := 1
  sliceSizes := ![1, 64]
  wf := gather_S160000x64_S1760000x1_S1760000x64_1_0_n_n_0_1_164_wf
def scatter_S160000x64_S1760000x1_S1760000x64_1_0_0_1 : ScatterDims S160000x64 S1760000x1 S1760000x64 where
  updateWindowDims := [1]
  insertedWindowDims := [0]
  scatterDimsToOperandDims := [0]
  indexVectorDim := 1
  wf := scatter_S160000x64_S1760000x1_S1760000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S5000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v46) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v47) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v48) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v61_0) S5000x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v61_1) S5000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v61_1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v78) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61_0) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v79) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v96) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61_0) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v47) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v97) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v51) S64x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v52) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v98) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v98) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v102) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v103) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v53) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v54) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v55) S128x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v56) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v104) S5000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v104) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v108) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v109) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v57) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v58) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v59) S64x1.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v60) S1x1.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v110) S5000x1.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S160000x2 : Shape := ⟨2, ![160000, 2]⟩
abbrev S2x1600000 : Shape := ⟨2, ![2, 1600000]⟩
abbrev S64x1 : Shape := ⟨2, ![64, 1]⟩
abbrev S64 : Shape := ⟨1, ![64]⟩
abbrev S5000x64 : Shape := ⟨2, ![5000, 64]⟩
abbrev S64x128 : Shape := ⟨2, ![64, 128]⟩
abbrev S64x64 : Shape := ⟨2, ![64, 64]⟩
abbrev S128x64 : Shape := ⟨2, ![128, 64]⟩
abbrev S128 : Shape := ⟨1, ![128]⟩
abbrev S1x64 : Shape := ⟨2, ![1, 64]⟩
abbrev S1 : Shape := ⟨1, ![1]⟩
abbrev S160000 : Shape := ⟨1, ![160000]⟩
abbrev S1x1600000 : Shape := ⟨2, ![1, 1600000]⟩
abbrev S1600000 : Shape := ⟨1, ![1600000]⟩
abbrev S1760000 : Shape := ⟨1, ![1760000]⟩
abbrev S_ : Shape := ⟨0, ![]⟩
abbrev S1760000x1 : Shape := ⟨2, ![1760000, 1]⟩
abbrev S160000x1 : Shape := ⟨2, ![160000, 1]⟩
abbrev S160000x64 : Shape := ⟨2, ![160000, 64]⟩
abbrev S5000 : Shape := ⟨1, ![5000]⟩
abbrev S5000x1 : Shape := ⟨2, ![5000, 1]⟩
abbrev S1x5000x1x64 : Shape := ⟨4, ![1, 5000, 1, 64]⟩
abbrev S32x5000x1x64 : Shape := ⟨4, ![32, 5000, 1, 64]⟩
abbrev S160000x128 : Shape := ⟨2, ![160000, 128]⟩
abbrev S1760000x64 : Shape := ⟨2, ![1760000, 64]⟩
abbrev S1x128 : Shape := ⟨2, ![1, 128]⟩
abbrev S1x1 : Shape := ⟨2, ![1, 1]⟩
abbrev S32x5000 : Shape := ⟨2, ![32, 5000]⟩

abbrev nBuf : Space → Nat
  | .hbm => 281
  | .vmem => 0
  | .smem => 0
  | _ => 0

abbrev hbmTy0_0 (i : Nat) : BufTy := match i % 128 with
  | 0 => ⟨S160000x2, .f32⟩
  | 1 => ⟨S2x1600000, .i32⟩
  | 2 => ⟨S64x1, .f32⟩
  | 3 => ⟨S64, .f32⟩
  | 4 => ⟨S64x1, .f32⟩
  | 5 => ⟨S64, .f32⟩
  | 6 => ⟨S5000x64, .f32⟩
  | 7 => ⟨S64x128, .f32⟩
  | 8 => ⟨S64, .f32⟩
  | 9 => ⟨S64x128, .f32⟩
  | 10 => ⟨S64, .f32⟩
  | 11 => ⟨S64x64, .f32⟩
  | 12 => ⟨S64, .f32⟩
  | 13 => ⟨S64x64, .f32⟩
  | 14 => ⟨S64, .f32⟩
  | 15 => ⟨S128x64, .f32⟩
  | 16 => ⟨S128, .f32⟩
  | 17 => ⟨S128, .f32⟩
  | 18 => ⟨S128, .f32⟩
  | 19 => ⟨S64x128, .f32⟩
  | 20 => ⟨S64, .f32⟩
  | 21 => ⟨S64, .f32⟩
  | 22 => ⟨S64, .f32⟩
  | 23 => ⟨S1x64, .f32⟩
  | 24 => ⟨S1, .f32⟩
  | 25 => ⟨S160000, .i32⟩
  | 26 => ⟨S1x1600000, .i32⟩
  | 27 => ⟨S1600000, .i32⟩
  | 28 => ⟨S1760000, .i32⟩
  | 29 => ⟨S1x1600000, .i32⟩
  | 30 => ⟨S1600000, .i32⟩
  | 31 => ⟨S1760000, .i32⟩
  | 32 => ⟨S_, .f32⟩
  | 33 => ⟨S1760000, .f32⟩
  | 34 => ⟨S_, .f32⟩
  | 35 => ⟨S160000, .f32⟩
  | 36 => ⟨S1760000x1, .i32⟩
  | 37 => ⟨S160000, .f32⟩
  | 38 => ⟨S_, .f32⟩
  | 39 => ⟨S160000, .f32⟩
  | 40 => ⟨S160000, .i1⟩
  | 41 => ⟨S_, .f32⟩
  | 42 => ⟨S160000, .f32⟩
  | 43 => ⟨S160000, .f32⟩
  | 44 => ⟨S160000, .f32⟩
  | 45 => ⟨S_, .f32⟩
  | 46 => ⟨S_, .f32⟩
  | 47 => ⟨S160000, .f32⟩
  | 48 => ⟨S160000, .f32⟩
  | 49 => ⟨S_, .i32⟩
  | 50 => ⟨S1760000, .i32⟩
  | 51 => ⟨S1760000, .i1⟩
  | 52 => ⟨S_, .i32⟩
  | 53 => ⟨S1760000, .i32⟩
  | 54 => ⟨S1760000, .i32⟩
  | 55 => ⟨S1760000, .i32⟩
  | 56 => ⟨S1760000x1, .i32⟩
  | 57 => ⟨S1760000, .f32⟩
  | 58 => ⟨S_, .i32⟩
  | 59 => ⟨S1760000, .i32⟩
  | 60 => ⟨S1760000, .i1⟩
  | 61 => ⟨S_, .i32⟩
  | 62 => ⟨S1760000, .i32⟩
  | 63 => ⟨S1760000, .i32⟩
  | 64 => ⟨S1760000, .i32⟩
  | 65 => ⟨S1760000x1, .i32⟩
  | 66 => ⟨S1760000, .f32⟩
  | 67 => ⟨S1760000, .f32⟩
  | 68 => ⟨S160000x1, .f32⟩
  | 69 => ⟨S1x64, .f32⟩
  | 70 => ⟨S160000x64, .f32⟩
  | 71 => ⟨S1x64, .f32⟩
  | 72 => ⟨S160000x64, .f32⟩
  | 73 => ⟨S160000x64, .f32⟩
  | 74 => ⟨S160000x1, .f32⟩
  | 75 => ⟨S1x64, .f32⟩
  | 76 => ⟨S160000x64, .f32⟩
  | 77 => ⟨S1x64, .f32⟩
  | 78 => ⟨S160000x64, .f32⟩
  | 79 => ⟨S160000x64, .f32⟩
  | 80 => ⟨S5000x64, .f32⟩
  | 81 => ⟨S_, .f32⟩
  | 82 => ⟨S5000, .f32⟩
  | 83 => ⟨S5000x1, .f32⟩
  | 84 => ⟨S5000x1, .f32⟩
  | 85 => ⟨S_, .f32⟩
  | 86 => ⟨S5000x1, .f32⟩
  | 87 => ⟨S5000x1, .f32⟩
  | 88 => ⟨S_, .f32⟩
  | 89 => ⟨S5000x1, .f32⟩
  | 90 => ⟨S5000x1, .f32⟩
  | 91 => ⟨S_, .f32⟩
  | 92 => ⟨S5000x1, .f32⟩
  | 93 => ⟨S5000x1, .f32⟩
  | 94 => ⟨S5000x64, .f32⟩
  | 95 => ⟨S5000x64, .f32⟩
  | 96 => ⟨S1x5000x1x64, .f32⟩
  | 97 => ⟨S32x5000x1x64, .f32⟩
  | 98 => ⟨S160000x64, .f32⟩
  | 99 => ⟨S160000x128, .f32⟩
  | 100 => ⟨S128x64, .f32⟩
  | 101 => ⟨S160000x64, .f32⟩
  | 102 => ⟨S1x64, .f32⟩
  | 103 => ⟨S160000x64, .f32⟩
  | 104 => ⟨S160000x64, .f32⟩
  | 105 => ⟨S160000x128, .f32⟩
  | 106 => ⟨S128x64, .f32⟩
  | 107 => ⟨S160000x64, .f32⟩
  | 108 => ⟨S1x64, .f32⟩
  | 109 => ⟨S160000x64, .f32⟩
  | 110 => ⟨S160000x64, .f32⟩
  | 111 => ⟨S64x64, .f32⟩
  | 112 => ⟨S160000x64, .f32⟩
  | 113 => ⟨S_, .i32⟩
  | 114 => ⟨S1760000, .i32⟩
  | 115 => ⟨S1760000, .i1⟩
  | 116 => ⟨S_, .i32⟩
  | 117 => ⟨S1760000, .i32⟩
  | 118 => ⟨S1760000, .i32⟩
  | 119 => ⟨S1760000, .i32⟩
  | 120 => ⟨S1760000x1, .i32⟩
  | 121 => ⟨S1760000x64, .f32⟩
  | 122 => ⟨S1760000x1, .f32⟩
  | 123 => ⟨S1760000x64, .f32⟩
  | 124 => ⟨S1760000x64, .f32⟩
  | 125 => ⟨S_, .f32⟩
  | 126 => ⟨S160000x64, .f32⟩
  | 127 => ⟨S1760000x1, .i32⟩
  | _ => ⟨S160000x2, .f32⟩

abbrev hbmTy0_1 (i : Nat) : BufTy := match i % 128 with
  | 0 => ⟨S160000x64, .f32⟩
  | 1 => ⟨S1x64, .f32⟩
  | 2 => ⟨S160000x64, .f32⟩
  | 3 => ⟨S160000x64, .f32⟩
  | 4 => ⟨S_, .f32⟩
  | 5 => ⟨S160000x64, .f32⟩
  | 6 => ⟨S160000x64, .f32⟩
  | 7 => ⟨S160000x128, .f32⟩
  | 8 => ⟨S128x64, .f32⟩
  | 9 => ⟨S160000x64, .f32⟩
  | 10 => ⟨S1x64, .f32⟩
  | 11 => ⟨S160000x64, .f32⟩
  | 12 => ⟨S160000x64, .f32⟩
  | 13 => ⟨S64x64, .f32⟩
  | 14 => ⟨S160000x64, .f32⟩
  | 15 => ⟨S_, .i32⟩
  | 16 => ⟨S1760000, .i32⟩
  | 17 => ⟨S1760000, .i1⟩
  | 18 => ⟨S_, .i32⟩
  | 19 => ⟨S1760000, .i32⟩
  | 20 => ⟨S1760000, .i32⟩
  | 21 => ⟨S1760000, .i32⟩
  | 22 => ⟨S1760000x1, .i32⟩
  | 23 => ⟨S1760000x64, .f32⟩
  | 24 => ⟨S1760000x1, .f32⟩
  | 25 => ⟨S1760000x64, .f32⟩
  | 26 => ⟨S1760000x64, .f32⟩
  | 27 => ⟨S_, .f32⟩
  | 28 => ⟨S160000x64, .f32⟩
  | 29 => ⟨S1760000x1, .i32⟩
  | 30 => ⟨S160000x64, .f32⟩
  | 31 => ⟨S1x64, .f32⟩
  | 32 => ⟨S160000x64, .f32⟩
  | 33 => ⟨S160000x64, .f32⟩
  | 34 => ⟨S_, .f32⟩
  | 35 => ⟨S160000x64, .f32⟩
  | 36 => ⟨S160000x64, .f32⟩
  | 37 => ⟨S160000x128, .f32⟩
  | 38 => ⟨S128x64, .f32⟩
  | 39 => ⟨S160000x64, .f32⟩
  | 40 => ⟨S1x64, .f32⟩
  | 41 => ⟨S160000x64, .f32⟩
  | 42 => ⟨S160000x64, .f32⟩
  | 43 => ⟨S64x128, .f32⟩
  | 44 => ⟨S160000x128, .f32⟩
  | 45 => ⟨S1x128, .f32⟩
  | 46 => ⟨S160000x128, .f32⟩
  | 47 => ⟨S160000x128, .f32⟩
  | 48 => ⟨S_, .f32⟩
  | 49 => ⟨S128, .f32⟩
  | 50 => ⟨S_, .f32⟩
  | 51 => ⟨S128, .f32⟩
  | 52 => ⟨S128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S160000x128, .f32⟩
  | 61 => ⟨S160000x128, .f32⟩
  | 62 => ⟨S160000x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S1x128, .f32⟩
  | 77 => ⟨S160000x128, .f32⟩
  | 78 => ⟨S160000x128, .f32⟩
  | 79 => ⟨S_, .f32⟩
  | 80 => ⟨S128, .f32⟩
  | 81 => ⟨S128, .f32⟩
  | 82 => ⟨S128, .f32⟩
  | 83 => ⟨S1x128, .f32⟩
  | 84 => ⟨S160000x128, .f32⟩
  | 85 => ⟨S160000x128, .f32⟩
  | 86 => ⟨S1x128, .f32⟩
  | 87 => ⟨S160000x128, .f32⟩
  | 88 => ⟨S160000x128, .f32⟩
  | 89 => ⟨S1x128, .f32⟩
  | 90 => ⟨S160000x128, .f32⟩
  | 91 => ⟨S160000x128, .f32⟩
  | 92 => ⟨S_, .f32⟩
  | 93 => ⟨S160000x128, .f32⟩
  | 94 => ⟨S160000x128, .f32⟩
  | 95 => ⟨S128x64, .f32⟩
  | 96 => ⟨S160000x64, .f32⟩
  | 97 => ⟨S1x64, .f32⟩
  | 98 => ⟨S160000x64, .f32⟩
  | 99 => ⟨S160000x64, .f32⟩
  | 100 => ⟨S_, .f32⟩
  | 101 => ⟨S64, .f32⟩
  | 102 => ⟨S_, .f32⟩
  | 103 => ⟨S64, .f32⟩
  | 104 => ⟨S64, .f32⟩
  | 105 => ⟨S_, .i32⟩
  | 106 => ⟨S_, .f32⟩
  | 107 => ⟨S64, .f32⟩
  | 108 => ⟨S1x64, .f32⟩
  | 109 => ⟨S_, .f32⟩
  | 110 => ⟨S1x64, .f32⟩
  | 111 => ⟨S1x64, .f32⟩
  | 112 => ⟨S160000x64, .f32⟩
  | 113 => ⟨S160000x64, .f32⟩
  | 114 => ⟨S160000x64, .f32⟩
  | 115 => ⟨S_, .f32⟩
  | 116 => ⟨S_, .f32⟩
  | 117 => ⟨S_, .f32⟩
  | 118 => ⟨S_, .f32⟩
  | 119 => ⟨S64, .f32⟩
  | 120 => ⟨S64, .f32⟩
  | 121 => ⟨S64, .f32⟩
  | 122 => ⟨S_, .f32⟩
  | 123 => ⟨S_, .i1⟩
  | 124 => ⟨S_, .f32⟩
  | 125 => ⟨S_, .f32⟩
  | 126 => ⟨S64, .f32⟩
  | 127 => ⟨S64, .f32⟩
  | _ => ⟨S160000x2, .f32⟩

abbrev hbmTy0_2 (i : Nat) : BufTy := match i % 128 with
  | 0 => ⟨S1x64, .f32⟩
  | 1 => ⟨S160000x64, .f32⟩
  | 2 => ⟨S160000x64, .f32⟩
  | 3 => ⟨S_, .f32⟩
  | 4 => ⟨S64, .f32⟩
  | 5 => ⟨S64, .f32⟩
  | 6 => ⟨S64, .f32⟩
  | 7 => ⟨S1x64, .f32⟩
  | 8 => ⟨S160000x64, .f32⟩
  | 9 => ⟨S160000x64, .f32⟩
  | 10 => ⟨S1x64, .f32⟩
  | 11 => ⟨S160000x64, .f32⟩
  | 12 => ⟨S160000x64, .f32⟩
  | 13 => ⟨S1x64, .f32⟩
  | 14 => ⟨S160000x64, .f32⟩
  | 15 => ⟨S160000x64, .f32⟩
  | 16 => ⟨S_, .f32⟩
  | 17 => ⟨S160000x64, .f32⟩
  | 18 => ⟨S160000x64, .f32⟩
  | 19 => ⟨S64x1, .f32⟩
  | 20 => ⟨S160000x1, .f32⟩
  | 21 => ⟨S1x1, .f32⟩
  | 22 => ⟨S160000x1, .f32⟩
  | 23 => ⟨S160000x1, .f32⟩
  | 24 => ⟨S32x5000, .f32⟩
  | _ => ⟨S160000x2, .f32⟩

abbrev hbmTy (i : Nat) : BufTy := match i / 128 with
  | 0 => hbmTy0_0 i
  | 1 => hbmTy0_1 i
  | 2 => hbmTy0_2 i
  | _ => ⟨S160000x2, .f32⟩

abbrev bufTy : (tb : Table) → Fin (tcTables nBuf tb) → BufTy
  | .hbm, ⟨i, _⟩ => hbmTy i
  | _, _ => ⟨S160000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_cst_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v16 : Ref sig .tc := ⟨.hbm, 48, rfl⟩
abbrev main_c : Ref sig .tc := ⟨.hbm, 49, rfl⟩
abbrev main_v17 : Ref sig .tc := ⟨.hbm, 50, rfl⟩
abbrev main_v18 : Ref sig .tc := ⟨.hbm, 51, rfl⟩
abbrev main_c_4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_c_5 : Ref sig .tc := ⟨.hbm, 58, rfl⟩
abbrev main_v24 : Ref sig .tc := ⟨.hbm, 59, rfl⟩
abbrev main_v25 : Ref sig .tc := ⟨.hbm, 60, rfl⟩
abbrev main_c_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_call1_v0 : Ref sig .tc := ⟨.hbm, 80, rfl⟩
abbrev main_call1_cst : Ref sig .tc := ⟨.hbm, 81, rfl⟩
abbrev main_call1_v1 : Ref sig .tc := ⟨.hbm, 82, rfl⟩
abbrev main_call1_v2 : Ref sig .tc := ⟨.hbm, 83, rfl⟩
abbrev main_v44 : Ref sig .tc := ⟨.hbm, 84, rfl⟩
abbrev main_cst_7 : Ref sig .tc := ⟨.hbm, 85, rfl⟩
abbrev main_v45 : Ref sig .tc := ⟨.hbm, 86, rfl⟩
abbrev main_v46 : Ref sig .tc := ⟨.hbm, 87, rfl⟩
abbrev main_cst_8 : Ref sig .tc := ⟨.hbm, 88, rfl⟩
abbrev main_v47 : Ref sig .tc := ⟨.hbm, 89, rfl⟩
abbrev main_v48 : Ref sig .tc := ⟨.hbm, 90, rfl⟩
abbrev main_cst_9 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_10 : Ref sig .tc := ⟨.hbm, 113, rfl⟩
abbrev main_v70 : Ref sig .tc := ⟨.hbm, 114, rfl⟩
abbrev main_v71 : Ref sig .tc := ⟨.hbm, 115, rfl⟩
abbrev main_c_11 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_12 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_call2_cst : Ref sig .tc := ⟨.hbm, 132, rfl⟩
abbrev main_call2_v0 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_c_13 : Ref sig .tc := ⟨.hbm, 143, rfl⟩
abbrev main_v95 : Ref sig .tc := ⟨.hbm, 144, rfl⟩
abbrev main_v96 : Ref sig .tc := ⟨.hbm, 145, rfl⟩
abbrev main_c_14 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_15 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_call3_cst : Ref sig .tc := ⟨.hbm, 162, rfl⟩
abbrev main_call3_v0 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_16 : Ref sig .tc := ⟨.hbm, 176, rfl⟩
abbrev main_v123 : Ref sig .tc := ⟨.hbm, 177, rfl⟩
abbrev main_cst_17 : Ref sig .tc := ⟨.hbm, 178, rfl⟩
abbrev main_v124 : Ref sig .tc := ⟨.hbm, 179, rfl⟩
abbrev main_v125 : Ref sig .tc := ⟨.hbm, 180, rfl⟩
abbrev main_c_18 : Ref sig .tc := ⟨.hbm, 181, rfl⟩
abbrev main_call4_cst : Ref sig .tc := ⟨.hbm, 182, rfl⟩
abbrev main_call4_v0 : Ref sig .tc := ⟨.hbm, 183, rfl⟩
abbrev main_call4_v1 : Ref sig .tc := ⟨.hbm, 184, rfl⟩
abbrev main_call4_cst_0 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_call4_v5 : Ref sig .tc := ⟨.hbm, 189, rfl⟩
abbrev main_call4_v6 : Ref sig .tc := ⟨.hbm, 190, rfl⟩
abbrev main_call4_v7 : Ref sig .tc := ⟨.hbm, 191, rfl⟩
abbrev main_call4_cst_1 : Ref sig .tc := ⟨.hbm, 192, rfl⟩
abbrev main_call4_v8 : Ref sig .tc := ⟨.hbm, 193, rfl⟩
abbrev main_call4_cst_2 : Ref sig .tc := ⟨.hbm, 194, rfl⟩
abbrev main_call4_v9 : Ref sig .tc := ⟨.hbm, 195, rfl⟩
abbrev main_call4_v10 : Ref sig .tc := ⟨.hbm, 196, rfl⟩
abbrev main_call4_v11 : Ref sig .tc := ⟨.hbm, 197, rfl⟩
abbrev main_call4_cst_3 : Ref sig .tc := ⟨.hbm, 198, rfl⟩
abbrev main_call4_v12 : Ref sig .tc := ⟨.hbm, 199, rfl⟩
abbrev main_call4_cst_4 : Ref sig .tc := ⟨.hbm, 200, rfl⟩
abbrev main_call4_call0_v0 : Ref sig .tc := ⟨.hbm, 201, rfl⟩
abbrev main_call4_call0_v1 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_cst_19 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_call5_cst : Ref sig .tc := ⟨.hbm, 220, rfl⟩
abbrev main_call5_v0 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_cst_20 : Ref sig .tc := ⟨.hbm, 228, rfl⟩
abbrev main_v148 : Ref sig .tc := ⟨.hbm, 229, rfl⟩
abbrev main_cst_21 : Ref sig .tc := ⟨.hbm, 230, rfl⟩
abbrev main_v149 : Ref sig .tc := ⟨.hbm, 231, rfl⟩
abbrev main_v150 : Ref sig .tc := ⟨.hbm, 232, rfl⟩
abbrev main_c_22 : Ref sig .tc := ⟨.hbm, 233, rfl⟩
abbrev main_call6_cst : Ref sig .tc := ⟨.hbm, 234, rfl⟩
abbrev main_call6_v0 : Ref sig .tc := ⟨.hbm, 235, rfl⟩
abbrev main_call6_v1 : Ref sig .tc := ⟨.hbm, 236, rfl⟩
abbrev main_call6_cst_0 : Ref sig .tc := ⟨.hbm, 237, rfl⟩
abbrev main_call6_v2 : Ref sig .tc := ⟨.hbm, 238, rfl⟩
abbrev main_call6_v3 : Ref sig .tc := ⟨.hbm, 239, rfl⟩
abbrev main_call6_v4 : Ref sig .tc := ⟨.hbm, 240, rfl⟩
abbrev main_call6_v5 : Ref sig .tc := ⟨.hbm, 241, rfl⟩
abbrev main_call6_v6 : Ref sig .tc := ⟨.hbm, 242, rfl⟩
abbrev main_call6_v7 : Ref sig .tc := ⟨.hbm, 243, rfl⟩
abbrev main_call6_cst_1 : Ref sig .tc := ⟨.hbm, 244, rfl⟩
abbrev main_call6_v8 : Ref sig .tc := ⟨.hbm, 245, rfl⟩
abbrev main_call6_cst_2 : Ref sig .tc := ⟨.hbm, 246, rfl⟩
abbrev main_call6_v9 : Ref sig .tc := ⟨.hbm, 247, rfl⟩
abbrev main_call6_v10 : Ref sig .tc := ⟨.hbm, 248, rfl⟩
abbrev main_call6_v11 : Ref sig .tc := ⟨.hbm, 249, rfl⟩
abbrev main_call6_cst_3 : Ref sig .tc := ⟨.hbm, 250, rfl⟩
abbrev main_call6_v12 : Ref sig .tc := ⟨.hbm, 251, rfl⟩
abbrev main_call6_cst_4 : Ref sig .tc := ⟨.hbm, 252, rfl⟩
abbrev main_call6_call0_v0 : Ref sig .tc := ⟨.hbm, 253, rfl⟩
abbrev main_call6_call0_v1 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_cst_23 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_v163 : Ref sig .tc := ⟨.hbm, 268, rfl⟩
abbrev main_v164 : Ref sig .tc := ⟨.hbm, 269, rfl⟩
abbrev main_v165 : Ref sig .tc := ⟨.hbm, 270, rfl⟩
abbrev main_v166 : Ref sig .tc := ⟨.hbm, 271, rfl⟩
abbrev main_call7_cst : Ref sig .tc := ⟨.hbm, 272, rfl⟩
abbrev main_call7_v0 : Ref sig .tc := ⟨.hbm, 273, rfl⟩
abbrev main_v167 : Ref sig .tc := ⟨.hbm, 274, rfl⟩
abbrev main_v168 : Ref sig .tc := ⟨.hbm, 275, rfl⟩
abbrev main_v169 : Ref sig .tc := ⟨.hbm, 276, rfl⟩
abbrev main_v170 : Ref sig .tc := ⟨.hbm, 277, rfl⟩
abbrev main_v171 : Ref sig .tc := ⟨.hbm, 278, rfl⟩
abbrev main_v172 : Ref sig .tc := ⟨.hbm, 279, rfl⟩
abbrev main_v173 : Ref sig .tc := ⟨.hbm, 280, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S160000_S1760000_d0 : Shape.Concatenates [S1600000, S160000] S1760000 0
  slices_S2x1600000_S1x1600000_1_0 : S2x1600000.Slices ![1, 0] S1x1600000
  bcast_S_S1760000 : S_.BroadcastsInDim S1760000 (![] : Fin 0 → Fin S1760000.rank)
  bcast_S_S160000 : S_.BroadcastsInDim S160000 (![] : Fin 0 → Fin S160000.rank)
  bcast_S1760000_S1760000x1_0 : S1760000.BroadcastsInDim S1760000x1 (![0] : Fin 1 → Fin S1760000x1.rank)
  slices_S160000x2_S160000x1_0_1 : S160000x2.Slices ![0, 1] S160000x1
  transposes_S64x1_S1x64_1_0 : S64x1.Transposes [1, 0] S1x64
  bcast_S64_S1x64_1 : S64.BroadcastsInDim S1x64 (![1] : Fin 1 → Fin S1x64.rank)
  bcast_S1x64_S160000x64_0_1 : S1x64.BroadcastsInDim S160000x64 (![0, 1] : Fin 2 → Fin S160000x64.rank)
  slices_S160000x2_S160000x1_0_0 : S160000x2.Slices ![0, 0] S160000x1
  reducesTo_S5000x64_S5000_d1 : S5000x64.ReducesTo [1] S5000
  h_S_ : 0 < S_.numel
  bcast_S5000_S5000x1_0 : S5000.BroadcastsInDim S5000x1 (![0] : Fin 1 → Fin S5000x1.rank)
  bcast_S_S5000x1 : S_.BroadcastsInDim S5000x1 (![] : Fin 0 → Fin S5000x1.rank)
  bcast_S5000x1_S5000x64_0_1 : S5000x1.BroadcastsInDim S5000x64 (![0, 1] : Fin 2 → Fin S5000x64.rank)
  shapeCasts_S5000x64_S1x5000x1x64 : S5000x64.ShapeCasts S1x5000x1x64
  bcast_S1x5000x1x64_S32x5000x1x64_0_1_2_3 : S1x5000x1x64.BroadcastsInDim S32x5000x1x64 (![0, 1, 2, 3] : Fin 4 → Fin S32x5000x1x64.rank)
  shapeCasts_S32x5000x1x64_S160000x64 : S32x5000x1x64.ShapeCasts S160000x64
  concatenates_S160000x64_S160000x64_S160000x128_d1 : Shape.Concatenates [S160000x64, S160000x64] S160000x128 1
  transposes_S64x128_S128x64_1_0 : S64x128.Transposes [1, 0] S128x64
  transposes_S64x64_S64x64_1_0 : S64x64.Transposes [1, 0] S64x64
  bcast_S1760000x1_S1760000x64_0_1 : S1760000x1.BroadcastsInDim S1760000x64 (![0, 1] : Fin 2 → Fin S1760000x64.rank)
  bcast_S_S160000x64 : S_.BroadcastsInDim S160000x64 (![] : Fin 0 → Fin S160000x64.rank)
  transposes_S128x64_S64x128_1_0 : S128x64.Transposes [1, 0] S64x128
  bcast_S128_S1x128_1 : S128.BroadcastsInDim S1x128 (![1] : Fin 1 → Fin S1x128.rank)
  bcast_S1x128_S160000x128_0_1 : S1x128.BroadcastsInDim S160000x128 (![0, 1] : Fin 2 → Fin S160000x128.rank)
  reducesTo_S160000x128_S128_d0 : S160000x128.ReducesTo [0] S128
  bcast_S_S128 : S_.BroadcastsInDim S128 (![] : Fin 0 → Fin S128.rank)
  bcast_S_S1x128 : S_.BroadcastsInDim S1x128 (![] : Fin 0 → Fin S1x128.rank)
  bcast_S_S160000x128 : S_.BroadcastsInDim S160000x128 (![] : Fin 0 → Fin S160000x128.rank)
  reducesTo_S160000x64_S64_d0 : S160000x64.ReducesTo [0] S64
  bcast_S_S64 : S_.BroadcastsInDim S64 (![] : Fin 0 → Fin S64.rank)
  bcast_S_S1x64 : S_.BroadcastsInDim S1x64 (![] : Fin 0 → Fin S1x64.rank)
  transposes_S1x64_S64x1_1_0 : S1x64.Transposes [1, 0] S64x1
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  shapeCasts_S160000x1_S32x5000 : S160000x1.ShapeCasts S32x5000
  scatter_S160000_S1760000x1_S1760000_n_0_0_1_wf : ScatterDims.WF S160000 S1760000x1 S1760000 [] [0] [0] 1
  gather_S160000_S1760000x1_S1760000_n_0_n_n_0_1_1_wf : GatherDims.WF S160000 S1760000x1 S1760000 [] [0] [] [0] [] 1 ![1]
  dot_S160000x1_S1x64_S160000x64_1_0_0_1_n_n_wf : DotDims.WF S160000x1 S1x64 S160000x64 [1] [0] [0] [1] [] []
  dot_S160000x128_S128x64_S160000x64_1_0_0_1_n_n_wf : DotDims.WF S160000x128 S128x64 S160000x64 [1] [0] [0] [1] [] []
  dot_S160000x64_S64x64_S160000x64_1_0_0_1_n_n_wf : DotDims.WF S160000x64 S64x64 S160000x64 [1] [0] [0] [1] [] []
  gather_S160000x64_S1760000x1_S1760000x64_1_0_n_n_0_1_164_wf : GatherDims.WF S160000x64 S1760000x1 S1760000x64 [1] [0] [] [0] [] 1 ![1, 64]
  scatter_S160000x64_S1760000x1_S1760000x64_1_0_0_1_wf : ScatterDims.WF S160000x64 S1760000x1 S1760000x64 [1] [0] [0] 1
  dot_S160000x64_S64x128_S160000x128_1_0_0_1_n_n_wf : DotDims.WF S160000x64 S64x128 S160000x128 [1] [0] [0] [1] [] []
  dot_S160000x64_S64x1_S160000x1_1_0_0_1_n_n_wf : DotDims.WF S160000x64 S64x1 S160000x1 [1] [0] [0] [1] [] []

variable [Facts₀]

def scatter_S160000_S1760000x1_S1760000_n_0_0_1 : ScatterDims S160000 S1760000x1 S1760000 where
  updateWindowDims := []
  insertedWindowDims := [0]
  scatterDimsToOperandDims := [0]
  indexVectorDim := 1
  wf := scatter_S160000_S1760000x1_S1760000_n_0_0_1_wf
def gather_S160000_S1760000x1_S1760000_n_0_n_n_0_1_1 : GatherDims S160000 S1760000x1 S1760000 where
  offsetDims := []
  collapsedSliceDims := [0]
  operandBatchingDims := []
  startIndicesBatchingDims := []
  startIndexMap := [0]
  indexVectorDim := 1
  sliceSizes := ![1]
  wf := gather_S160000_S1760000x1_S1760000_n_0_n_n_0_1_1_wf
def dot_S160000x1_S1x64_S160000x64_1_0_0_1_n_n : DotDims S160000x1 S1x64 S160000x64 where
  lhsContracting := [1]
  rhsContracting := [0]
  lhsNonContracting := [0]
  rhsNonContracting := [1]
  lhsBatch := []
  rhsBatch := []
  wf := dot_S160000x1_S1x64_S160000x64_1_0_0_1_n_n_wf
def dot_S160000x128_S128x64_S160000x64_1_0_0_1_n_n : DotDims S160000x128 S128x64 S160000x64 where
  lhsContracting := [1]
  rhsContracting := [0]
  lhsNonContracting := [0]
  rhsNonContracting := [1]
  lhsBatch := []
  rhsBatch := []
  wf := dot_S160000x128_S128x64_S160000x64_1_0_0_1_n_n_wf
def dot_S160000x64_S64x64_S160000x64_1_0_0_1_n_n : DotDims S160000x64 S64x64 S160000x64 where
  lhsContracting := [1]
  rhsContracting := [0]
  lhsNonContracting := [0]
  rhsNonContracting := [1]
  lhsBatch := []
  rhsBatch := []
  wf := dot_S160000x64_S64x64_S160000x64_1_0_0_1_n_n_wf
def gather_S160000x64_S1760000x1_S1760000x64_1_0_n_n_0_1_164 : GatherDims S160000x64 S1760000x1 S1760000x64 where
  offsetDims := [1]
  collapsedSliceDims := [0]
  operandBatchingDims := []
  startIndicesBatchingDims := []
  startIndexMap := [0]
  indexVectorDim := 1
  sliceSizes := ![1, 64]
  wf := gather_S160000x64_S1760000x1_S1760000x64_1_0_n_n_0_1_164_wf
def scatter_S160000x64_S1760000x1_S1760000x64_1_0_0_1 : ScatterDims S160000x64 S1760000x1 S1760000x64 where
  updateWindowDims := [1]
  insertedWindowDims := [0]
  scatterDimsToOperandDims := [0]
  indexVectorDim := 1
  wf := scatter_S160000x64_S1760000x1_S1760000x64_1_0_0_1_wf
def dot_S160000x64_S64x128_S160000x128_1_0_0_1_n_n : DotDims S160000x64 S64x128 S160000x128 where
  lhsContracting := [1]
  rhsContracting := [0]
  lhsNonContracting := [0]
  rhsNonContracting := [1]
  lhsBatch := []
  rhsBatch := []
  wf := dot_S160000x64_S64x128_S160000x128_1_0_0_1_n_n_wf
def dot_S160000x64_S64x1_S160000x1_1_0_0_1_n_n : DotDims S160000x64 S64x1 S160000x1 where
  lhsContracting := [1]
  rhsContracting := [0]
  lhsNonContracting := [0]
  rhsNonContracting := [1]
  lhsBatch := []
  rhsBatch := []
  wf := dot_S160000x64_S64x1_S160000x1_1_0_0_1_n_n_wf

class Facts : Prop extends Facts₀ where

variable [Facts]
-- ==== Proof.KRun.lean ====
/-
  The idealized kernel's run with every buffer's final contents named.

  @main is twenty segments: twelve stretches of host operations and eight kernel regions. The buffer contents at each
  segment boundary are a fold from the launch memory (a stretch: its operations applied in order; a region: its
  arrays at what the grid's write-backs leave, every other buffer as it was). This module states the run with the
  LAST boundary's contents as its post: every weakly fair execution terminates, nothing faults, and every unscoped
  buffer of every core holds the fold's final value. The result buffer and the argument buffers are instances.
-/
import proofs.«175455_j86191403696584_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in every final state each unscoped buffer
    of each core holds the contents the fold through the twenty segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h => h)

/-- The run read at one unscoped buffer. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W20 m ρ c (Proc.devRef .tc b)) :=
  (θ_run defs _ _).mono (fun r h c => h c _ (mem_uc b hb)) (run_all m ρ)

end Cert.KernelIdeal.RunValue

end
-- ==== Proof.Rows.lean ====
/-
  A row block of a product is the product of the row block.

  Every kernel region of this program walks a grid of 32 points; point t holds rows 5000 t … 5000 t + 4999 of each
  row-blocked array and the whole of each small array. This module says, one operation at a time, that what the
  kernel's vector operation computes from a block of rows is the host operation's result on the whole arrays, read
  at those rows — for the matrix product (a block's product into a zero accumulator against the host's dot_general:
  the same sum over the contracted axis, term by term), the broadcast of a one-row matrix down the rows, the
  concatenation along the lanes and the splat of a scalar. The block's place in the array is carried by a
  hypothesis (RowEmb): an embedding of block indices that adds the block's first row to the row coordinate and
  keeps the column.
-/
import proofs.«175455_j86191403696584_1_alg».proof.KernelIdeal
import proofs.«175455_j86191403696584_1_alg».proof.Proof.Gen.KernelIdeal
import proofs.«175455_j86191403696584_1_alg».proof.Proof.Gen.ReferenceIdeal
import Idealize.ShloMosaic.Lib.ValueIdx
import Idealize.ShloMosaic.Lib.Pipeline.Value
import Idealize.ShloMosaic.PureOps.Ideal.Laws
import Idealize.ShloMosaic.Lib.IdealHost

set_option maxRecDepth 16384

noncomputable section

namespace Cert.Rows

open Idealize.ShloMosaic Idealize.ShloMosaic.ValueIdx

/-- An embedding of the indices of a block of R rows into the indices of an array of N rows, both C columns wide,
    that puts the block's row r at row base + r and keeps the column. -/
structure RowEmb {R N C : Nat} (base : Nat) (e : (⟨2, ![R, C]⟩ : Shape).Idx → (⟨2, ![N, C]⟩ : Shape).Idx) : Prop where
  row : ∀ y, (e y 0).val = base + (y 0).val
  col : ∀ y, (e y 1).val = (y 1).val

/-- An embedding that is the identity on coordinates (a window whose block is its whole array). -/
structure IdEmb {s : Shape} (e : s.Idx → s.Idx) : Prop where
  id : ∀ y a, (e y a).val = (y a).val

/-- The embedding that puts a block of R rows at rows base … base + R − 1. -/
def mkEmb (R N C base : Nat) (h : base + R ≤ N) : (⟨2, ![R, C]⟩ : Shape).Idx → (⟨2, ![N, C]⟩ : Shape).Idx :=
  fun y => ix2 ⟨base + (y 0).val, by have := idx2_lt0 y; omega⟩ ⟨(y 1).val, idx2_lt1 y⟩

theorem mkEmb_rowEmb (R N C base : Nat) (h : base + R ≤ N) : RowEmb base (mkEmb R N C base h) :=
  ⟨fun _ => rfl, fun _ => rfl⟩

theorem IdEmb.eq {s : Shape} {e : s.Idx → s.Idx} (h : IdEmb e) (y : s.Idx) : e y = y :=
  funext fun a => Fin.ext (h.id y a)

/-- Rows of a [160000, 128] × [128, 64] product: the block's product into the zero accumulator, at (r, c), is the sum over
    the 128 contracted positions of block row r times column c — the host product's sum at row base + r. -/
theorem matmul_128_64 {φ₁ φ₂ : FTy} {base : Nat}
    (lhs : FVec Ideal Cert.KernelIdeal.S5000x128 φ₁) (rhs : FVec Ideal Cert.KernelIdeal.S128x64 φ₂)
    (A : FVec Ideal Cert.ReferenceIdeal.S160000x128 .f32) (W : FVec Ideal Cert.ReferenceIdeal.S128x64 .f32)
    (eA : Cert.KernelIdeal.S5000x128.Idx → Cert.ReferenceIdeal.S160000x128.Idx) (eO : Cert.KernelIdeal.S5000x64.Idx → Cert.ReferenceIdeal.S160000x64.Idx)
    (hA : RowEmb base eA) (hO : RowEmb base eO)
    (hl : ∀ z, lhs z = A (eA z)) (hr : ∀ z, rhs z = W z) (y : Cert.KernelIdeal.S5000x64.Idx) :
    matmul (F := Ideal) Cert.KernelIdeal.dot_S5000x128_S128x64_S5000x64_1_0_0_1_n_n none lhs rhs (constant Cert.KernelIdeal.S5000x64 .f32 0x00000000#32) y
      = Host.dotGeneral (F := Ideal) Cert.ReferenceIdeal.dot_S160000x128_S128x64_S160000x64_1_0_0_1_n_n none A W (eO y) := by
  simp only [matmul, Host.dotGeneral]
  rw [Ideal.matmul_constant_zero_apply, Ideal.dotGeneral_apply]
  refine Finset.sum_congr rfl fun k _ => ?_
  have e1 : eA (Cert.KernelIdeal.dot_S5000x128_S128x64_S5000x64_1_0_0_1_n_n.lhsIdx y k) = Cert.ReferenceIdeal.dot_S160000x128_S128x64_S160000x64_1_0_0_1_n_n.lhsIdx (eO y) k := by
    funext a; apply Fin.ext
    match a with
    | ⟨0, _⟩ => exact (hA.row (Cert.KernelIdeal.dot_S5000x128_S128x64_S5000x64_1_0_0_1_n_n.lhsIdx y k)).trans (hO.row y).symm
    | ⟨1, _⟩ => exact hA.col (Cert.KernelIdeal.dot_S5000x128_S128x64_S5000x64_1_0_0_1_n_n.lhsIdx y k)
  have e2 : Cert.KernelIdeal.dot_S5000x128_S128x64_S5000x64_1_0_0_1_n_n.rhsIdx y k = Cert.ReferenceIdeal.dot_S160000x128_S128x64_S160000x64_1_0_0_1_n_n.rhsIdx (eO y) k := by
    funext a; apply Fin.ext
    match a with
    | ⟨0, _⟩ => rfl
    | ⟨1, _⟩ => exact (hO.col y).symm
  rw [hl, hr, e1, e2]

/-- Rows of a [160000, 64] × [64, 64] product: the block's product into the zero accumulator, at (r, c), is the sum over
    the 64 contracted positions of block row r times column c — the host product's sum at row base + r. -/
theorem matmul_64_64 {φ₁ φ₂ : FTy} {base : Nat}
    (lhs : FVec Ideal Cert.KernelIdeal.S5000x64 φ₁) (rhs : FVec Ideal Cert.KernelIdeal.S64x64 φ₂)
    (A : FVec Ideal Cert.ReferenceIdeal.S160000x64 .f32) (W : FVec Ideal Cert.ReferenceIdeal.S64x64 .f32)
    (eA : Cert.KernelIdeal.S5000x64.Idx → Cert.ReferenceIdeal.S160000x64.Idx) (eO : Cert.KernelIdeal.S5000x64.Idx → Cert.ReferenceIdeal.S160000x64.Idx)
    (hA : RowEmb base eA) (hO : RowEmb base eO)
    (hl : ∀ z, lhs z = A (eA z)) (hr : ∀ z, rhs z = W z) (y : Cert.KernelIdeal.S5000x64.Idx) :
    matmul (F := Ideal) Cert.KernelIdeal.dot_S5000x64_S64x64_S5000x64_1_0_0_1_n_n none lhs rhs (constant Cert.KernelIdeal.S5000x64 .f32 0x00000000#32) y
      = Host.dotGeneral (F := Ideal) Cert.ReferenceIdeal.dot_S160000x64_S64x64_S160000x64_1_0_0_1_n_n none A W (eO y) := by
  simp only [matmul, Host.dotGeneral]
  rw [Ideal.matmul_constant_zero_apply, Ideal.dotGeneral_apply]
  refine Finset.sum_congr rfl fun k _ => ?_
  have e1 : eA (Cert.KernelIdeal.dot_S5000x64_S64x64_S5000x64_1_0_0_1_n_n.lhsIdx y k) = Cert.ReferenceIdeal.dot_S160000x64_S64x64_S160000x64_1_0_0_1_n_n.lhsIdx (eO y) k := by
    funext a; apply Fin.ext
    match a with
    | ⟨0, _⟩ => exact (hA.row (Cert.KernelIdeal.dot_S5000x64_S64x64_S5000x64_1_0_0_1_n_n.lhsIdx y k)).trans (hO.row y).symm
    | ⟨1, _⟩ => exact hA.col (Cert.KernelIdeal.dot_S5000x64_S64x64_S5000x64_1_0_0_1_n_n.lhsIdx y k)
  have e2 : Cert.KernelIdeal.dot_S5000x64_S64x64_S5000x64_1_0_0_1_n_n.rhsIdx y k = Cert.ReferenceIdeal.dot_S160000x64_S64x64_S160000x64_1_0_0_1_n_n.rhsIdx (eO y) k := by
    funext a; apply Fin.ext
    match a with
    | ⟨0, _⟩ => rfl
    | ⟨1, _⟩ => exact (hO.col y).symm
  rw [hl, hr, e1, e2]

/-- Rows of a [160000, 64] × [64, 128] product: the block's product into the zero accumulator, at (r, c), is the sum over
    the 64 contracted positions of block row r times column c — the host product's sum at row base + r. -/
theorem matmul_64_128 {φ₁ φ₂ : FTy} {base : Nat}
    (lhs : FVec Ideal Cert.KernelIdeal.S5000x64 φ₁) (rhs : FVec Ideal Cert.KernelIdeal.S64x128 φ₂)
    (A : FVec Ideal Cert.ReferenceIdeal.S160000x64 .f32) (W : FVec Ideal Cert.ReferenceIdeal.S64x128 .f32)
    (eA : Cert.KernelIdeal.S5000x64.Idx → Cert.ReferenceIdeal.S160000x64.Idx) (eO : Cert.KernelIdeal.S5000x128.Idx → Cert.ReferenceIdeal.S160000x128.Idx)
    (hA : RowEmb base eA) (hO : RowEmb base eO)
    (hl : ∀ z, lhs z = A (eA z)) (hr : ∀ z, rhs z = W z) (y : Cert.KernelIdeal.S5000x128.Idx) :
    matmul (F := Ideal) Cert.KernelIdeal.dot_S5000x64_S64x128_S5000x128_1_0_0_1_n_n none lhs rhs (constant Cert.KernelIdeal.S5000x128 .f32 0x00000000#32) y
      = Host.dotGeneral (F := Ideal) Cert.ReferenceIdeal.dot_S160000x64_S64x128_S160000x128_1_0_0_1_n_n none A W (eO y) := by
  simp only [matmul, Host.dotGeneral]
  rw [Ideal.matmul_constant_zero_apply, Ideal.dotGeneral_apply]
  refine Finset.sum_congr rfl fun k _ => ?_
  have e1 : eA (Cert.KernelIdeal.dot_S5000x64_S64x128_S5000x128_1_0_0_1_n_n.lhsIdx y k) = Cert.ReferenceIdeal.dot_S160000x64_S64x128_S160000x128_1_0_0_1_n_n.lhsIdx (eO y) k := by
    funext a; apply Fin.ext
    match a with
    | ⟨0, _⟩ => exact (hA.row (Cert.KernelIdeal.dot_S5000x64_S64x128_S5000x128_1_0_0_1_n_n.lhsIdx y k)).trans (hO.row y).symm
    | ⟨1, _⟩ => exact hA.col (Cert.KernelIdeal.dot_S5000x64_S64x128_S5000x128_1_0_0_1_n_n.lhsIdx y k)
  have e2 : Cert.KernelIdeal.dot_S5000x64_S64x128_S5000x128_1_0_0_1_n_n.rhsIdx y k = Cert.ReferenceIdeal.dot_S160000x64_S64x128_S160000x128_1_0_0_1_n_n.rhsIdx (eO y) k := by
    funext a; apply Fin.ext
    match a with
    | ⟨0, _⟩ => rfl
    | ⟨1, _⟩ => exact (hO.col y).symm
  rw [hl, hr, e1, e2]

/-- Rows of a [160000, 64] × [64, 1] product: the block's product into the zero accumulator, at (r, c), is the sum over
    the 64 contracted positions of block row r times column c — the host product's sum at row base + r. -/
theorem matmul_64_1 {φ₁ φ₂ : FTy} {base : Nat}
    (lhs : FVec Ideal Cert.KernelIdeal.S5000x64 φ₁) (rhs : FVec Ideal Cert.KernelIdeal.S64x1 φ₂)
    (A : FVec Ideal Cert.ReferenceIdeal.S160000x64 .f32) (W : FVec Ideal Cert.ReferenceIdeal.S64x1 .f32)
    (eA : Cert.KernelIdeal.S5000x64.Idx → Cert.ReferenceIdeal.S160000x64.Idx) (eO : Cert.KernelIdeal.S5000x1.Idx → Cert.ReferenceIdeal.S160000x1.Idx)
    (hA : RowEmb base eA) (hO : RowEmb base eO)
    (hl : ∀ z, lhs z = A (eA z)) (hr : ∀ z, rhs z = W z) (y : Cert.KernelIdeal.S5000x1.Idx) :
    matmul (F := Ideal) Cert.KernelIdeal.dot_S5000x64_S64x1_S5000x1_1_0_0_1_n_n none lhs rhs (constant Cert.KernelIdeal.S5000x1 .f32 0x00000000#32) y
      = Host.dotGeneral (F := Ideal) Cert.ReferenceIdeal.dot_S160000x64_S64x1_S160000x1_1_0_0_1_n_n none A W (eO y) := by
  simp only [matmul, Host.dotGeneral]
  rw [Ideal.matmul_constant_zero_apply, Ideal.dotGeneral_apply]
  refine Finset.sum_congr rfl fun k _ => ?_
  have e1 : eA (Cert.KernelIdeal.dot_S5000x64_S64x1_S5000x1_1_0_0_1_n_n.lhsIdx y k) = Cert.ReferenceIdeal.dot_S160000x64_S64x1_S160000x1_1_0_0_1_n_n.lhsIdx (eO y) k := by
    funext a; apply Fin.ext
    match a with
    | ⟨0, _⟩ => exact (hA.row (Cert.KernelIdeal.dot_S5000x64_S64x1_S5000x1_1_0_0_1_n_n.lhsIdx y k)).trans (hO.row y).symm
    | ⟨1, _⟩ => exact hA.col (Cert.KernelIdeal.dot_S5000x64_S64x1_S5000x1_1_0_0_1_n_n.lhsIdx y k)
  have e2 : Cert.KernelIdeal.dot_S5000x64_S64x1_S5000x1_1_0_0_1_n_n.rhsIdx y k = Cert.ReferenceIdeal.dot_S160000x64_S64x1_S160000x1_1_0_0_1_n_n.rhsIdx (eO y) k := by
    funext a; apply Fin.ext
    match a with
    | ⟨0, _⟩ => rfl
    | ⟨1, _⟩ => exact (hO.col y).symm
  rw [hl, hr, e1, e2]

/-- A one-row matrix broadcast down a block's rows is its broadcast down the array's rows, read at the block's rows:
    both are the row's entry in the column. -/
theorem bcastRow_64 {base : Nat} (v : FVec Ideal Cert.KernelIdeal.S1x64 .f32) (b : FVec Ideal Cert.ReferenceIdeal.S1x64 .f32)
    (eO : Cert.KernelIdeal.S5000x64.Idx → Cert.ReferenceIdeal.S160000x64.Idx) (hO : RowEmb base eO) (hv : ∀ z, v z = b z) (y : Cert.KernelIdeal.S5000x64.Idx) :
    broadcastTo Cert.KernelIdeal.S5000x64 v Cert.KernelIdeal.Facts₀.broadcasts_S1x64_S5000x64 y
      = broadcastInDim Cert.ReferenceIdeal.S160000x64 ![0, 1] Cert.ReferenceIdeal.Facts₀.bcast_S1x64_S160000x64_0_1 b (eO y) := by
  rw [broadcastTo_apply v _ y (ix2 0 (y 1)) (fun a => by match a with | ⟨0, _⟩ => rfl | ⟨1, _⟩ => rfl),
    broadcastInDim_apply _ _ b (eO y) (ix2 0 (y 1)) (fun a => by
      match a with
      | ⟨0, _⟩ => rfl
      | ⟨1, _⟩ => exact (hO.col y).symm), hv]

/-- A one-row matrix broadcast down a block's rows is its broadcast down the array's rows, read at the block's rows:
    both are the row's entry in the column. -/
theorem bcastRow_128 {base : Nat} (v : FVec Ideal Cert.KernelIdeal.S1x128 .f32) (b : FVec Ideal Cert.ReferenceIdeal.S1x128 .f32)
    (eO : Cert.KernelIdeal.S5000x128.Idx → Cert.ReferenceIdeal.S160000x128.Idx) (hO : RowEmb base eO) (hv : ∀ z, v z = b z) (y : Cert.KernelIdeal.S5000x128.Idx) :
    broadcastTo Cert.KernelIdeal.S5000x128 v Cert.KernelIdeal.Facts₀.broadcasts_S1x128_S5000x128 y
      = broadcastInDim Cert.ReferenceIdeal.S160000x128 ![0, 1] Cert.ReferenceIdeal.Facts₀.bcast_S1x128_S160000x128_0_1 b (eO y) := by
  rw [broadcastTo_apply v _ y (ix2 0 (y 1)) (fun a => by match a with | ⟨0, _⟩ => rfl | ⟨1, _⟩ => rfl),
    broadcastInDim_apply _ _ b (eO y) (ix2 0 (y 1)) (fun a => by
      match a with
      | ⟨0, _⟩ => rfl
      | ⟨1, _⟩ => exact (hO.col y).symm), hv]

/-- A one-row matrix broadcast down a block's rows is its broadcast down the array's rows, read at the block's rows:
    both are the row's entry in the column. -/
theorem bcastRow_1 {base : Nat} (v : FVec Ideal Cert.KernelIdeal.S1x1 .f32) (b : FVec Ideal Cert.ReferenceIdeal.S1x1 .f32)
    (eO : Cert.KernelIdeal.S5000x1.Idx → Cert.ReferenceIdeal.S160000x1.Idx) (hO : RowEmb base eO) (hv : ∀ z, v z = b z) (y : Cert.KernelIdeal.S5000x1.Idx) :
    broadcastTo Cert.KernelIdeal.S5000x1 v Cert.KernelIdeal.Facts₀.broadcasts_S1x1_S5000x1 y
      = broadcastInDim Cert.ReferenceIdeal.S160000x1 ![0, 1] Cert.ReferenceIdeal.Facts₀.bcast_S1x1_S160000x1_0_1 b (eO y) := by
  rw [broadcastTo_apply v _ y (ix2 0 0) (fun a => by match a with | ⟨0, _⟩ => rfl | ⟨1, _⟩ => rfl),
    broadcastInDim_apply _ _ b (eO y) (ix2 0 0) (fun a => by
      match a with
      | ⟨0, _⟩ => rfl
      | ⟨1, _⟩ => rfl), hv]

/-- A scalar splat over a block is the scalar's broadcast over the array, wherever it is read. -/
theorem splat_64 (w : BitVec 32) (u : Cert.KernelIdeal.S5000x64.Idx) (j : Cert.ReferenceIdeal.S160000x64.Idx) :
    broadcast Cert.KernelIdeal.S5000x64 (Scalar.ofBits (F := Ideal) .f32 w) u
      = broadcastInDim Cert.ReferenceIdeal.S160000x64 ![] Cert.ReferenceIdeal.Facts₀.bcast_S_S160000x64 (constant (F := Ideal) Cert.ReferenceIdeal.S_ .f32 w) j := by
  rw [broadcastInDim_scalar_apply]; rfl

/-- A scalar splat over a block is the scalar's broadcast over the array, wherever it is read. -/
theorem splat_128 (w : BitVec 32) (u : Cert.KernelIdeal.S5000x128.Idx) (j : Cert.ReferenceIdeal.S160000x128.Idx) :
    broadcast Cert.KernelIdeal.S5000x128 (Scalar.ofBits (F := Ideal) .f32 w) u
      = broadcastInDim Cert.ReferenceIdeal.S160000x128 ![] Cert.ReferenceIdeal.Facts₀.bcast_S_S160000x128 (constant (F := Ideal) Cert.ReferenceIdeal.S_ .f32 w) j := by
  rw [broadcastInDim_scalar_apply]; rfl

/-- Two blocks of 64 lanes side by side are the two arrays side by side, read at the block's rows: a lane below 64
    falls in the first piece on both sides, a lane from 64 on in the second, 64 lanes less. -/
theorem concat_64_64 {base : Nat} (x₁ x₂ : FVec Ideal Cert.KernelIdeal.S5000x64 .f32) (X₁ X₂ : FVec Ideal Cert.ReferenceIdeal.S160000x64 .f32)
    (e₁ e₂ : Cert.KernelIdeal.S5000x64.Idx → Cert.ReferenceIdeal.S160000x64.Idx) (eO : Cert.KernelIdeal.S5000x128.Idx → Cert.ReferenceIdeal.S160000x128.Idx)
    (he₁ : RowEmb base e₁) (he₂ : RowEmb base e₂) (hO : RowEmb base eO)
    (h₁ : ∀ u, x₁ u = X₁ (e₁ u)) (h₂ : ∀ u, x₂ u = X₂ (e₂ u)) (z : Cert.KernelIdeal.S5000x128.Idx) :
    concatenate Cert.KernelIdeal.S5000x128 1 [⟨Cert.KernelIdeal.S5000x64, x₁⟩, ⟨Cert.KernelIdeal.S5000x64, x₂⟩] Cert.KernelIdeal.Facts₀.concatenates_S5000x64_S5000x64_S5000x128_d1 z
      = concatenate Cert.ReferenceIdeal.S160000x128 1 [⟨Cert.ReferenceIdeal.S160000x64, X₁⟩, ⟨Cert.ReferenceIdeal.S160000x64, X₂⟩] Cert.ReferenceIdeal.Facts₀.concatenates_S160000x64_S160000x64_S160000x128_d1 (eO z) := by
  have hz0 : (z 0).val < 5000 := (z 0).isLt
  have hz1 : (z 1).val < 128 := (z 1).isLt
  have hr : (eO z 0).val = base + (z 0).val := hO.row z
  have hc : (eO z 1).val = (z 1).val := hO.col z
  by_cases hlt : (z 1).val < 64
  · let u : Cert.KernelIdeal.S5000x64.Idx := ix2 (z 0) ⟨(z 1).val, hlt⟩
    rw [concatenate_pair_apply_left 1 x₁ x₂ _ z rfl u (fun b => by match b with | ⟨0, _⟩ => rfl | ⟨1, _⟩ => rfl),
      concatenate_pair_apply_left 1 X₁ X₂ _ (eO z) rfl (e₁ u) (fun b => by
        match b with
        | ⟨0, _⟩ => exact (he₁.row u).trans hr.symm
        | ⟨1, _⟩ => exact (he₁.col u).trans hc.symm), h₁]
  · let u : Cert.KernelIdeal.S5000x64.Idx := ix2 (z 0) ⟨(z 1).val - 64, by omega⟩
    rw [concatenate_pair_apply_right 1 x₁ x₂ _ z rfl rfl u (fun b hb => by
        match b with
        | ⟨0, _⟩ => rfl
        | ⟨1, _⟩ => exact absurd rfl hb) (by show ((z 1).val - 64) + 64 = (z 1).val; omega),
      concatenate_pair_apply_right 1 X₁ X₂ _ (eO z) rfl rfl (e₂ u) (fun b hb => by
        match b with
        | ⟨0, _⟩ => exact (he₂.row u).trans hr.symm
        | ⟨1, _⟩ => exact absurd rfl hb) (by
          have := he₂.col u
          show (e₂ u 1).val + 64 = (eO z 1).val
          rw [this, hc]; show ((z 1).val - 64) + 64 = (z 1).val; omega), h₂]

/-- Column 0 of a block of the two-column input, broadcast along the lanes and multiplied by a broadcast one-row matrix, is
    the host's product of that column (a [160000, 1] matrix) with the row (a [1, 64] matrix), read at the block's rows: the
    contraction has one position, so the sum is the one product. -/
theorem scaleCol_0 {base : Nat} (xb : FVec Ideal Cert.KernelIdeal.S5000x2 .f32) (w : FVec Ideal Cert.KernelIdeal.S1x64 .f32)
    (X : FVec Ideal Cert.ReferenceIdeal.S160000x2 .f32) (W : FVec Ideal Cert.ReferenceIdeal.S1x64 .f32)
    (e2 : Cert.KernelIdeal.S5000x2.Idx → Cert.ReferenceIdeal.S160000x2.Idx) (eO : Cert.KernelIdeal.S5000x64.Idx → Cert.ReferenceIdeal.S160000x64.Idx)
    (h2 : RowEmb base e2) (hO : RowEmb base eO) (hx : ∀ z, xb z = X (e2 z)) (hw : ∀ z, w z = W z) (y : Cert.KernelIdeal.S5000x64.Idx) :
    mulf (broadcastTo Cert.KernelIdeal.S5000x64 (extractStridedSlice Cert.KernelIdeal.S5000x1 ![0, 0] xb Cert.KernelIdeal.Facts₀.slices_S5000x2_o0_0_S5000x1) Cert.KernelIdeal.Facts₀.broadcasts_S5000x1_S5000x64)
         (broadcastTo Cert.KernelIdeal.S5000x64 w Cert.KernelIdeal.Facts₀.broadcasts_S1x64_S5000x64) y
      = Host.dotGeneral (F := Ideal) Cert.ReferenceIdeal.dot_S160000x1_S1x64_S160000x64_1_0_0_1_n_n none
          (extractStridedSlice Cert.ReferenceIdeal.S160000x1 ![0, 0] X Cert.ReferenceIdeal.Facts₀.slices_S160000x2_S160000x1_0_0) W (eO y) := by
  show _ * _ = _
  rw [broadcastTo_apply _ _ y (ix2 (y 0) (0 : Fin 1) : Cert.KernelIdeal.S5000x1.Idx) (fun a => by match a with | ⟨0, _⟩ => rfl | ⟨1, _⟩ => rfl),
    extractStridedSlice_apply _ xb _ (ix2 (y 0) (0 : Fin 1) : Cert.KernelIdeal.S5000x1.Idx) (ix2 (y 0) (0 : Fin 2) : Cert.KernelIdeal.S5000x2.Idx) (fun a => by
      match a with
      | ⟨0, _⟩ => exact (Nat.zero_add _).symm
      | ⟨1, _⟩ => rfl),
    broadcastTo_apply w _ y (ix2 0 (y 1) : Cert.KernelIdeal.S1x64.Idx) (fun a => by match a with | ⟨0, _⟩ => rfl | ⟨1, _⟩ => rfl), hx, hw]
  simp only [Host.dotGeneral]
  rw [Ideal.dotGeneral_apply, ← Equiv.sum_comp (contrEquiv1 Cert.ReferenceIdeal.dot_S160000x1_S1x64_S160000x64_1_0_0_1_n_n 1 rfl rfl).symm, Fin.sum_univ_one]
  refine congrArg₂ (· * ·) ?_ (congrArg W (funext fun a => Fin.ext ?_))
  · rw [extractStridedSlice_apply _ X _ _ (e2 (ix2 (y 0) (0 : Fin 2) : Cert.KernelIdeal.S5000x2.Idx)) (fun a => by
      match a with
      | ⟨0, _⟩ => exact ((h2.row _).trans (hO.row y).symm).trans (Nat.zero_add _).symm
      | ⟨1, _⟩ => exact (h2.col _))]
  · match a with
    | ⟨0, _⟩ => rfl
    | ⟨1, _⟩ => exact (hO.col y).symm

/-- Column 1 of a block of the two-column input, broadcast along the lanes and multiplied by a broadcast one-row matrix, is
    the host's product of that column (a [160000, 1] matrix) with the row (a [1, 64] matrix), read at the block's rows: the
    contraction has one position, so the sum is the one product. -/
theorem scaleCol_1 {base : Nat} (xb : FVec Ideal Cert.KernelIdeal.S5000x2 .f32) (w : FVec Ideal Cert.KernelIdeal.S1x64 .f32)
    (X : FVec Ideal Cert.ReferenceIdeal.S160000x2 .f32) (W : FVec Ideal Cert.ReferenceIdeal.S1x64 .f32)
    (e2 : Cert.KernelIdeal.S5000x2.Idx → Cert.ReferenceIdeal.S160000x2.Idx) (eO : Cert.KernelIdeal.S5000x64.Idx → Cert.ReferenceIdeal.S160000x64.Idx)
    (h2 : RowEmb base e2) (hO : RowEmb base eO) (hx : ∀ z, xb z = X (e2 z)) (hw : ∀ z, w z = W z) (y : Cert.KernelIdeal.S5000x64.Idx) :
    mulf (broadcastTo Cert.KernelIdeal.S5000x64 (extractStridedSlice Cert.KernelIdeal.S5000x1 ![0, 1] xb Cert.KernelIdeal.Facts₀.slices_S5000x2_o0_1_S5000x1) Cert.KernelIdeal.Facts₀.broadcasts_S5000x1_S5000x64)
         (broadcastTo Cert.KernelIdeal.S5000x64 w Cert.KernelIdeal.Facts₀.broadcasts_S1x64_S5000x64) y
      = Host.dotGeneral (F := Ideal) Cert.ReferenceIdeal.dot_S160000x1_S1x64_S160000x64_1_0_0_1_n_n none
          (extractStridedSlice Cert.ReferenceIdeal.S160000x1 ![0, 1] X Cert.ReferenceIdeal.Facts₀.slices_S160000x2_S160000x1_0_1) W (eO y) := by
  show _ * _ = _
  rw [broadcastTo_apply _ _ y (ix2 (y 0) (0 : Fin 1) : Cert.KernelIdeal.S5000x1.Idx) (fun a => by match a with | ⟨0, _⟩ => rfl | ⟨1, _⟩ => rfl),
    extractStridedSlice_apply _ xb _ (ix2 (y 0) (0 : Fin 1) : Cert.KernelIdeal.S5000x1.Idx) (ix2 (y 0) (1 : Fin 2) : Cert.KernelIdeal.S5000x2.Idx) (fun a => by
      match a with
      | ⟨0, _⟩ => exact (Nat.zero_add _).symm
      | ⟨1, _⟩ => rfl),
    broadcastTo_apply w _ y (ix2 0 (y 1) : Cert.KernelIdeal.S1x64.Idx) (fun a => by match a with | ⟨0, _⟩ => rfl | ⟨1, _⟩ => rfl), hx, hw]
  simp only [Host.dotGeneral]
  rw [Ideal.dotGeneral_apply, ← Equiv.sum_comp (contrEquiv1 Cert.ReferenceIdeal.dot_S160000x1_S1x64_S160000x64_1_0_0_1_n_n 1 rfl rfl).symm, Fin.sum_univ_one]
  refine congrArg₂ (· * ·) ?_ (congrArg W (funext fun a => Fin.ext ?_))
  · rw [extractStridedSlice_apply _ X _ _ (e2 (ix2 (y 0) (1 : Fin 2) : Cert.KernelIdeal.S5000x2.Idx)) (fun a => by
      match a with
      | ⟨0, _⟩ => exact ((h2.row _).trans (hO.row y).symm).trans (Nat.zero_add _).symm
      | ⟨1, _⟩ => exact (h2.col _))]
  · match a with
    | ⟨0, _⟩ => rfl
    | ⟨1, _⟩ => exact (hO.col y).symm

/-- The embedding table laid out once per graph (reshape to [1, 5000, 1, 64], broadcast over 32 graphs, reshape to
    [160000, 64]) holds, at row 5000 t + r, the table's row r: a row-major position (5000 t + r) · 64 + c of the long array
    is position ((t · 5000 + r) · 1 + 0) · 64 + c of the four-axis one. -/
theorem tile_rows (t : Nat) (ht : t < 32) (E : FVec Ideal Cert.ReferenceIdeal.S5000x64 .f32)
    (e : Cert.KernelIdeal.S5000x64.Idx → Cert.ReferenceIdeal.S160000x64.Idx) (he : RowEmb (t * 5000) e) (z : Cert.KernelIdeal.S5000x64.Idx) :
    E z = shapeCast Cert.ReferenceIdeal.S160000x64 (broadcastInDim Cert.ReferenceIdeal.S32x5000x1x64 ![0, 1, 2, 3] Cert.ReferenceIdeal.Facts₀.bcast_S1x5000x1x64_S32x5000x1x64_0_1_2_3
      (shapeCast Cert.ReferenceIdeal.S1x5000x1x64 E Cert.ReferenceIdeal.Facts₀.shapeCasts_S5000x64_S1x5000x1x64)) Cert.ReferenceIdeal.Facts₀.shapeCasts_S32x5000x1x64_S160000x64 (e z) := by
  have hz0 := idx2_lt0 z
  have hz1 := idx2_lt1 z
  have hr := he.row z
  have hc := he.col z
  rw [shapeCast_apply _ _ (e z) (ix4 (⟨t, ht⟩ : Fin 32) (z 0) (0 : Fin 1) (z 1) : Cert.ReferenceIdeal.S32x5000x1x64.Idx) (by
      rw [Shape.rowMajor_val_four, Shape.rowMajor_val_two]
      show ((t * 5000 + (z 0).val) * 1 + 0) * 64 + (z 1).val = (e z 0).val * 64 + (e z 1).val
      rw [hr, hc]; ring),
    broadcastInDim_apply _ _ _ _ (ix4 (0 : Fin 1) (z 0) (0 : Fin 1) (z 1) : Cert.ReferenceIdeal.S1x5000x1x64.Idx) (fun a => by
      match a with
      | ⟨0, _⟩ => rfl
      | ⟨1, _⟩ => rfl
      | ⟨2, _⟩ => rfl
      | ⟨3, _⟩ => rfl),
    shapeCast_apply _ _ _ z (by
      rw [Shape.rowMajor_val_four, Shape.rowMajor_val_two]
      show (z 0).val * 64 + (z 1).val = ((0 * 5000 + (z 0).val) * 1 + 0) * 64 + (z 1).val
      ring)]

end Cert.Rows

end
-- ==== Proof.Reg0.lean ====
/-
  Region 0 (the input projections, the embedding transform and the first fused projection).

  Point t loads rows 5000 t … 5000 t + 4999 of the two-column input, the whole renormalised embedding table (one graph's
  5000 genes) and the small weight and bias arrays. From the input's two columns it forms the perturbation and basal
  projections (a column times a one-row weight plus a one-row bias — the reference's product over a contraction of one
  position); it sets the table beside the basal projection and applies the embedding transform, giving the base
  embedding (written to window 10); it sets the perturbation projection beside the base embedding and applies the fused
  projection, giving the first hidden state (written to window 11). Row 5000 t + r of the reference's tiled table is the
  table's row r, so the block of the table a point reads is the block of the tiled array at its rows.
-/
import proofs.«175455_j86191403696584_1_alg».proof.Proof.Gen.KernelIdeal.Frame
import proofs.«175455_j86191403696584_1_alg».proof.Proof.Gen.ReferenceIdeal
import proofs.«175455_j86191403696584_1_alg».proof.Proof.Rows

set_option maxRecDepth 16384

noncomputable section

namespace Cert.KernelIdeal.Regions

open Cert.KernelIdeal Cert.KernelIdeal.Gen Cert.Rows
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- One input column times a one-row weight plus a one-row bias: the reference's [160000, 1] × [1, 64] product and
    broadcast add, for column j of the input. -/
def colLin0 (x : FVec Ideal Cert.ReferenceIdeal.S160000x2 .f32) (W b : FVec Ideal Cert.ReferenceIdeal.S1x64 .f32) : FVec Ideal Cert.ReferenceIdeal.S160000x64 .f32 :=
  addf (Host.dotGeneral (F := Ideal) Cert.ReferenceIdeal.dot_S160000x1_S1x64_S160000x64_1_0_0_1_n_n none (extractStridedSlice Cert.ReferenceIdeal.S160000x1 ![0, 0] x Cert.ReferenceIdeal.Facts₀.slices_S160000x2_S160000x1_0_0) W) (broadcastInDim Cert.ReferenceIdeal.S160000x64 ![0, 1] Cert.ReferenceIdeal.Facts₀.bcast_S1x64_S160000x64_0_1 b)
@[inherit_doc colLin0]
def colLin1 (x : FVec Ideal Cert.ReferenceIdeal.S160000x2 .f32) (W b : FVec Ideal Cert.ReferenceIdeal.S1x64 .f32) : FVec Ideal Cert.ReferenceIdeal.S160000x64 .f32 :=
  addf (Host.dotGeneral (F := Ideal) Cert.ReferenceIdeal.dot_S160000x1_S1x64_S160000x64_1_0_0_1_n_n none (extractStridedSlice Cert.ReferenceIdeal.S160000x1 ![0, 1] x Cert.ReferenceIdeal.Facts₀.slices_S160000x2_S160000x1_0_1) W) (broadcastInDim Cert.ReferenceIdeal.S160000x64 ![0, 1] Cert.ReferenceIdeal.Facts₀.bcast_S1x64_S160000x64_0_1 b)

/-- The embedding table laid out once per graph. -/
def tileEmb (E : FVec Ideal Cert.ReferenceIdeal.S5000x64 .f32) : FVec Ideal Cert.ReferenceIdeal.S160000x64 .f32 :=
  shapeCast Cert.ReferenceIdeal.S160000x64 (broadcastInDim Cert.ReferenceIdeal.S32x5000x1x64 ![0, 1, 2, 3] Cert.ReferenceIdeal.Facts₀.bcast_S1x5000x1x64_S32x5000x1x64_0_1_2_3
    (shapeCast Cert.ReferenceIdeal.S1x5000x1x64 E Cert.ReferenceIdeal.Facts₀.shapeCasts_S5000x64_S1x5000x1x64)) Cert.ReferenceIdeal.Facts₀.shapeCasts_S32x5000x1x64_S160000x64

/-- The base embedding: the tiled table beside the basal projection, through the embedding transform. -/
def baseEmb (x : FVec Ideal Cert.ReferenceIdeal.S160000x2 .f32) (E : FVec Ideal Cert.ReferenceIdeal.S5000x64 .f32) (bW bb : FVec Ideal Cert.ReferenceIdeal.S1x64 .f32)
    (etWt : FVec Ideal Cert.ReferenceIdeal.S128x64 .f32) (etb : FVec Ideal Cert.ReferenceIdeal.S1x64 .f32) : FVec Ideal Cert.ReferenceIdeal.S160000x64 .f32 :=
  addf (Host.dotGeneral (F := Ideal) Cert.ReferenceIdeal.dot_S160000x128_S128x64_S160000x64_1_0_0_1_n_n none (concatenate Cert.ReferenceIdeal.S160000x128 1 [⟨Cert.ReferenceIdeal.S160000x64, tileEmb E⟩, ⟨Cert.ReferenceIdeal.S160000x64, colLin0 x bW bb⟩] Cert.ReferenceIdeal.Facts₀.concatenates_S160000x64_S160000x64_S160000x128_d1) etWt) (broadcastInDim Cert.ReferenceIdeal.S160000x64 ![0, 1] Cert.ReferenceIdeal.Facts₀.bcast_S1x64_S160000x64_0_1 etb)

/-- The first hidden state: the perturbation projection beside the base embedding, through the fused projection. -/
def hidden0 (x : FVec Ideal Cert.ReferenceIdeal.S160000x2 .f32) (E : FVec Ideal Cert.ReferenceIdeal.S5000x64 .f32) (pW pb bW bb : FVec Ideal Cert.ReferenceIdeal.S1x64 .f32)
    (etWt : FVec Ideal Cert.ReferenceIdeal.S128x64 .f32) (etb : FVec Ideal Cert.ReferenceIdeal.S1x64 .f32) (pbtWt : FVec Ideal Cert.ReferenceIdeal.S128x64 .f32) (pbtb : FVec Ideal Cert.ReferenceIdeal.S1x64 .f32) :
    FVec Ideal Cert.ReferenceIdeal.S160000x64 .f32 :=
  addf (Host.dotGeneral (F := Ideal) Cert.ReferenceIdeal.dot_S160000x128_S128x64_S160000x64_1_0_0_1_n_n none (concatenate Cert.ReferenceIdeal.S160000x128 1 [⟨Cert.ReferenceIdeal.S160000x64, colLin1 x pW pb⟩, ⟨Cert.ReferenceIdeal.S160000x64, baseEmb x E bW bb etWt etb⟩] Cert.ReferenceIdeal.Facts₀.concatenates_S160000x64_S160000x64_S160000x128_d1) pbtWt) (broadcastInDim Cert.ReferenceIdeal.S160000x64 ![0, 1] Cert.ReferenceIdeal.Facts₀.bcast_S1x64_S160000x64_0_1 pbtb)

theorem hz2_0 : (![0, 0] : Fin 2 → Nat) = fun _ => 0 := funext fun a => by fin_cases a <;> rfl

/-- The printed index maps over the grid: a row-blocked window sits at block row t, every other window at the origin. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = t.val
    ∧ win0_10.index t (1 : Fin 2) = 0
    ∧ win0_11.index t (0 : Fin 2) = t.val
    ∧ win0_11.index t (1 : Fin 2) = 0 :=
  (by decide +kernel : ∀ t : Fin grid0.N, _)

theorem lt32_0 (t : Fin cfg0.N) : t.val < 32 := lt_of_lt_of_eq t.isLt N_0

theorem emb0_0 (t : Fin cfg0.N) : RowEmb (R := 5000) (N := 160000) (C := 2) (t.val * 5000) ((cfg0.win 0).blk t).view.emb := by
  obtain ⟨e0, e1, -⟩ := idx0 t
  refine ⟨fun y => ?_, fun y => ?_⟩
  · show win0_0.index t (0 : Fin 2) * 5000 + 1 * (y 0).val = _; omega
  · show win0_0.index t (1 : Fin 2) * 2 + 1 * (y 1).val = _; omega

theorem emb0_1 (t : Fin cfg0.N) : IdEmb (s := S5000x64) ((cfg0.win 1).blk t).view.emb := by
  obtain ⟨-, -, e0, e1, -⟩ := idx0 t
  refine ⟨fun y a => ?_⟩
  match a with
  | ⟨0, _⟩ => show win0_1.index t (0 : Fin 2) * 5000 + 1 * (y 0).val = (y 0).val; omega
  | ⟨1, _⟩ => show win0_1.index t (1 : Fin 2) * 64 + 1 * (y 1).val = (y 1).val; omega

/-- The block of window 1 at any point is its whole array. -/
theorem blk0_1 (c : Dev nD) (t : Fin cfg0.N) : iblk0 V c 1 t = V c main_v40 :=
  funext fun q => by
    show V c main_v40 (((cfg0.win 1).blk t).view.emb q) = _
    rw [(emb0_1 t).eq]

theorem emb0_2 (t : Fin cfg0.N) : IdEmb (s := S1x64) ((cfg0.win 2).blk t).view.emb := by
  obtain ⟨-, -, -, -, e0, e1, -⟩ := idx0 t
  refine ⟨fun y a => ?_⟩
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The block of window 2 at any point is its whole array. -/
theorem blk0_2 (c : Dev nD) (t : Fin cfg0.N) : iblk0 V c 2 t = V c main_v41 :=
  funext fun q => by
    show V c main_v41 (((cfg0.win 2).blk t).view.emb q) = _
    rw [(emb0_2 t).eq]

theorem emb0_3 (t : Fin cfg0.N) : IdEmb (s := S1x64) ((cfg0.win 3).blk t).view.emb := by
  obtain ⟨-, -, -, -, -, -, e0, e1, -⟩ := idx0 t
  refine ⟨fun y a => ?_⟩
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The block of window 3 at any point is its whole array. -/
theorem blk0_3 (c : Dev nD) (t : Fin cfg0.N) : iblk0 V c 3 t = V c main_v42 :=
  funext fun q => by
    show V c main_v42 (((cfg0.win 3).blk t).view.emb q) = _
    rw [(emb0_3 t).eq]

theorem emb0_4 (t : Fin cfg0.N) : IdEmb (s := S1x64) ((cfg0.win 4).blk t).view.emb := by
  obtain ⟨-, -, -, -, -, -, -, -, e0, e1, -⟩ := idx0 t
  refine ⟨fun y a => ?_⟩
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The block of window 4 at any point is its whole array. -/
theorem blk0_4 (c : Dev nD) (t : Fin cfg0.N) : iblk0 V c 4 t = V c main_v43 :=
  funext fun q => by
    show V c main_v43 (((cfg0.win 4).blk t).view.emb q) = _
    rw [(emb0_4 t).eq]

theorem emb0_5 (t : Fin cfg0.N) : IdEmb (s := S1x64) ((cfg0.win 5).blk t).view.emb := by
  obtain ⟨-, -, -, -, -, -, -, -, -, -, e0, e1, -⟩ := idx0 t
  refine ⟨fun y a => ?_⟩
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- The block of window 5 at any point is its whole array. -/
theorem blk0_5 (c : Dev nD) (t : Fin cfg0.N) : iblk0 V c 5 t = V c main_v44 :=
  funext fun q => by
    show V c main_v44 (((cfg0.win 5).blk t).view.emb q) = _
    rw [(emb0_5 t).eq]

theorem emb0_6 (t : Fin cfg0.N) : IdEmb (s := S128x64) ((cfg0.win 6).blk t).view.emb := by
  obtain ⟨-, -, -, -, -, -, -, -, -, -, -, -, e0, e1, -⟩ := idx0 t
  refine ⟨fun y a => ?_⟩
  match a with
  | ⟨0, _⟩ => show win0_6.index t (0 : Fin 2) * 128 + 1 * (y 0).val = (y 0).val; omega
  | ⟨1, _⟩ => show win0_6.index t (1 : Fin 2) * 64 + 1 * (y 1).val = (y 1).val; omega

/-- The block of window 6 at any point is its whole array. -/
theorem blk0_6 (c : Dev nD) (t : Fin cfg0.N) : iblk0 V c 6 t = V c main_v45 :=
  funext fun q => by
    show V c main_v45 (((cfg0.win 6).blk t).view.emb q) = _
    rw [(emb0_6 t).eq]

theorem emb0_7 (t : Fin cfg0.N) : IdEmb (s := S1x64) ((cfg0.win 7).blk t).view.emb := by
  obtain ⟨-, -, -, -, -, -, -, -, -, -, -, -, -, -, e0, e1, -⟩ := idx0 t
  refine ⟨fun y a => ?_⟩
  match a with
  | ⟨0, _⟩ => show win0_7.index t (0 : Fin 2) * 1 + 1 * (y 0).val = (y 0).val; omega
  | ⟨1, _⟩ => show win0_7.index t (1 : Fin 2) * 64 + 1 * (y 1).val = (y 1).val; omega

/-- The block of window 7 at any point is its whole array. -/
theorem blk0_7 (c : Dev nD) (t : Fin cfg0.N) : iblk0 V c 7 t = V c main_v46 :=
  funext fun q => by
    show V c main_v46 (((cfg0.win 7).blk t).view.emb q) = _
    rw [(emb0_7 t).eq]

theorem emb0_8 (t : Fin cfg0.N) : IdEmb (s := S128x64) ((cfg0.win 8).blk t).view.emb := by
  obtain ⟨-, -, -, -, -, -, -, -, -, -, -, -, -, -, -, -, e0, e1, -⟩ := idx0 t
  refine ⟨fun y a => ?_⟩
  match a with
  | ⟨0, _⟩ => show win0_8.index t (0 : Fin 2) * 128 + 1 * (y 0).val = (y 0).val; omega
  | ⟨1, _⟩ => show win0_8.index t (1 : Fin 2) * 64 + 1 * (y 1).val = (y 1).val; omega

/-- The block of window 8 at any point is its whole array. -/
theorem blk0_8 (c : Dev nD) (t : Fin cfg0.N) : iblk0 V c 8 t = V c main_v47 :=
  funext fun q => by
    show V c main_v47 (((cfg0.win 8).blk t).view.emb q) = _
    rw [(emb0_8 t).eq]

theorem emb0_9 (t : Fin cfg0.N) : IdEmb (s := S1x64) ((cfg0.win 9).blk t).view.emb := by
  obtain ⟨-, -, -, -, -, -, -, -, -, -, -, -, -, -, -, -, -, -, e0, e1, -⟩ := idx0 t
  refine ⟨fun y a => ?_⟩
  match a with
  | ⟨0, _⟩ => show win0_9.index t (0 : Fin 2) * 1 + 1 * (y 0).val = (y 0).val; omega
  | ⟨1, _⟩ => show win0_9.index t (1 : Fin 2) * 64 + 1 * (y 1).val = (y 1).val; omega

/-- The block of window 9 at any point is its whole array. -/
theorem blk0_9 (c : Dev nD) (t : Fin cfg0.N) : iblk0 V c 9 t = V c main_v48 :=
  funext fun q => by
    show V c main_v48 (((cfg0.win 9).blk t).view.emb q) = _
    rw [(emb0_9 t).eq]

theorem emb0_10 (t : Fin cfg0.N) : RowEmb (R := 5000) (N := 160000) (C := 64) (t.val * 5000) ((cfg0.win 10).blk t).view.emb := by
  obtain ⟨-, -, -, -, -, -, -, -, -, -, -, -, -, -, -, -, -, -, -, -, e0, e1, -⟩ := idx0 t
  refine ⟨fun y => ?_, fun y => ?_⟩
  · show win0_10.index t (0 : Fin 2) * 5000 + 1 * (y 0).val = _; omega
  · show win0_10.index t (1 : Fin 2) * 64 + 1 * (y 1).val = _; omega

theorem emb0_11 (t : Fin cfg0.N) : RowEmb (R := 5000) (N := 160000) (C := 64) (t.val * 5000) ((cfg0.win 11).blk t).view.emb := by
  obtain ⟨-, -, -, -, -, -, -, -, -, -, -, -, -, -, -, -, -, -, -, -, -, -, e0, e1⟩ := idx0 t
  refine ⟨fun y => ?_, fun y => ?_⟩
  · show win0_11.index t (0 : Fin 2) * 5000 + 1 * (y 0).val = _; omega
  · show win0_11.index t (1 : Fin 2) * 64 + 1 * (y 1).val = _; omega

/-- The base-embedding payload at a row of the block is the reference's base embedding at that row of the array. -/
theorem pay5_at (c : Dev nD) (t : Fin cfg0.N) (e : S5000x64.Idx → Cert.ReferenceIdeal.S160000x64.Idx) (he : RowEmb (t.val * 5000) e) (u : S5000x64.Idx) :
    k0_pay5 (iblk0 V c 0 t) (V c main_v40) (V c main_v43) (V c main_v44) (V c main_v45) (V c main_v46) u = (baseEmb (V c main_arg0) (V c main_v40) (V c main_v43) (V c main_v44) (V c main_v45) (V c main_v46)) (e u) := by
  have ht := lt32_0 t
  unfold k0_pay5 baseEmb
  show (_ : EReal) + _ = _ + _
  refine congrArg₂ (· + ·) ?_ (bcastRow_64 _ _ _ he (fun q => by rw [shapeCast_self]) u)
  refine matmul_128_64 _ _ _ _ (mkEmb 5000 160000 128 (t.val * 5000) (by omega)) _ (mkEmb_rowEmb _ _ _ _ _) he (fun z => ?_) (fun z => by rw [truncf_apply, shapeCast_self]) u
  rw [truncf_apply]
  refine concat_64_64 _ _ _ _ (mkEmb 5000 160000 64 (t.val * 5000) (by omega)) (mkEmb 5000 160000 64 (t.val * 5000) (by omega)) _ (mkEmb_rowEmb _ _ _ _ _) (mkEmb_rowEmb _ _ _ _ _) (mkEmb_rowEmb _ _ _ _ _) (fun u => ?_) (fun u => ?_) z
  · rw [shapeCast_self]
    exact tile_rows t.val ht _ _ (mkEmb_rowEmb _ _ _ _ _) u
  · unfold colLin0
    show _ + _ = _ + _
    refine congrArg₂ (· + ·) (scaleCol_0 _ _ _ _ _ _ (emb0_0 t) (mkEmb_rowEmb _ _ _ _ _) (fun q => rfl) (fun q => by rw [shapeCast_self]) u)
      (bcastRow_64 _ _ _ (mkEmb_rowEmb _ _ _ _ _) (fun q => by rw [shapeCast_self]) u)

theorem onto0_10 : ∀ q : Fin 32, ∃ t : Fin cfg0.N, win0_10.index t = ![q.val, 0] :=
  (by decide +kernel : ∀ q : Fin 32, ∃ t : Fin grid0.N, win0_10.index t = ![q.val, 0])

/-- What point t writes back to window 10 is block t of the whole-array result. -/
theorem flushed0_10 (c : Dev nD) (t : Fin cfg0.N) :
    (dat0 V c).flushed 10 t = ((cfg0.win 10).blk t).view.read (Elt Ideal) (baseEmb (V c main_arg0) (V c main_v40) (V c main_v43) (V c main_v44) (V c main_v45) (V c main_v46)) := by
  show (cfg0.win 10).cut (grid0.coords t) ((dat0 V c).after 10 t) = _
  rw [after0_10]
  unfold out0_10
  rw [View.canon_unit_zero hz2_0]
  simp only [View.ld_unit_zero (S := S5000x2) hz2_0, View.ld_unit_zero (S := S5000x64) hz2_0, View.ld_unit_zero (S := S1x64) hz2_0, View.ld_unit_zero (S := S128x64) hz2_0]
  funext y
  show k0_pay5 (iblk0 V c 0 t) (iblk0 V c 1 t) (iblk0 V c 4 t) (iblk0 V c 5 t) (iblk0 V c 6 t) (iblk0 V c 7 t) y = (baseEmb (V c main_arg0) (V c main_v40) (V c main_v43) (V c main_v44) (V c main_v45) (V c main_v46)) (((cfg0.win 10).blk t).view.emb y)
  rw [blk0_1 V c t, blk0_4 V c t, blk0_5 V c t, blk0_6 V c t, blk0_7 V c t]
  exact pay5_at V c t _ (emb0_10 t) y

theorem mem_blk0_10 (t : Fin cfg0.N) (i : S160000x64.Idx) :
    i ∈ ((cfg0.win 10).blk t).view.set ↔ ∀ a : Fin 2, win0_10.index t a * S5000x64.size a ≤ (i a).val ∧ (i a).val < win0_10.index t a * S5000x64.size a + S5000x64.size a := by
  show i ∈ ((View.whole main_v61_0).slice (win0_10.rect t)).set ↔ _
  rw [View.set_slice_whole, Rect.mem_set_unit]
  exact Iff.rfl

theorem cover0_10 (i : S160000x64.Idx) : ∃ t : Fin cfg0.N, (cfg0.win 10).flush t = true ∧ i ∈ ((cfg0.win 10).blk t).view.set := by
  have hi0 : (i 0).val < 160000 := (i 0).isLt
  have hi1 : (i 1).val < 64 := (i 1).isLt
  obtain ⟨t, ht⟩ := onto0_10 ⟨(i 0).val / 5000, by omega⟩
  have q0 : win0_10.index t (0 : Fin 2) = (i 0).val / 5000 := congrFun ht 0
  have q1 : win0_10.index t (1 : Fin 2) = 0 := congrFun ht 1
  refine ⟨t, flush0_10 t, ?_⟩
  rw [mem_blk0_10]
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 64 ≤ (i 1).val ∧ (i 1).val < win0_10.index t (1 : Fin 2) * 64 + 64; omega

/-- Window 10's array after the region, as one function of the input arrays as the region found them. -/
theorem final0_10 (c : Dev nD) : (dat0 V c).arrAt 10 cfg0.N = baseEmb (V c main_arg0) (V c main_v40) (V c main_v43) (V c main_v44) (V c main_v45) (V c main_v46) :=
  (dat0 V c).arrAt_eq_of_cover 10 _ (fun t _ => flushed0_10 V c t) cover0_10

theorem onto0_11 : ∀ q : Fin 32, ∃ t : Fin cfg0.N, win0_11.index t = ![q.val, 0] :=
  (by decide +kernel : ∀ q : Fin 32, ∃ t : Fin grid0.N, win0_11.index t = ![q.val, 0])

/-- What point t writes back to window 11 is block t of the whole-array result. -/
theorem flushed0_11 (c : Dev nD) (t : Fin cfg0.N) :
    (dat0 V c).flushed 11 t = ((cfg0.win 11).blk t).view.read (Elt Ideal) (hidden0 (V c main_arg0) (V c main_v40) (V c main_v41) (V c main_v42) (V c main_v43) (V c main_v44) (V c main_v45) (V c main_v46) (V c main_v47) (V c main_v48)) := by
  show (cfg0.win 11).cut (grid0.coords t) ((dat0 V c).after 11 t) = _
  rw [after0_11]
  unfold out0_11
  rw [View.canon_unit_zero hz2_0]
  simp only [View.ld_unit_zero (S := S5000x2) hz2_0, View.ld_unit_zero (S := S5000x64) hz2_0, View.ld_unit_zero (S := S1x64) hz2_0, View.ld_unit_zero (S := S128x64) hz2_0]
  have ht := lt32_0 t
  funext y
  show k0_pay1 (k0_pay2 (iblk0 V c 8 t)) (k0_pay3 (iblk0 V c 9 t)) (k0_pay4 (iblk0 V c 0 t) (iblk0 V c 2 t) (iblk0 V c 3 t)) (k0_pay5 (iblk0 V c 0 t) (iblk0 V c 1 t) (iblk0 V c 4 t) (iblk0 V c 5 t) (iblk0 V c 6 t) (iblk0 V c 7 t)) y = (hidden0 (V c main_arg0) (V c main_v40) (V c main_v41) (V c main_v42) (V c main_v43) (V c main_v44) (V c main_v45) (V c main_v46) (V c main_v47) (V c main_v48)) (((cfg0.win 11).blk t).view.emb y)
  rw [blk0_1 V c t, blk0_2 V c t, blk0_3 V c t, blk0_4 V c t, blk0_5 V c t, blk0_6 V c t, blk0_7 V c t, blk0_8 V c t, blk0_9 V c t]
  unfold k0_pay1 hidden0
  show (_ : EReal) + _ = _ + _
  refine congrArg₂ (· + ·) ?_ (bcastRow_64 _ _ _ (emb0_11 t) (fun q => by unfold k0_pay3; rw [shapeCast_self]) y)
  refine matmul_128_64 _ _ _ _ (mkEmb 5000 160000 128 (t.val * 5000) (by omega)) _ (mkEmb_rowEmb _ _ _ _ _) (emb0_11 t) (fun z => ?_) (fun z => by unfold k0_pay2; rw [truncf_apply, shapeCast_self]) y
  rw [truncf_apply]
  refine concat_64_64 _ _ _ _ (mkEmb 5000 160000 64 (t.val * 5000) (by omega)) (mkEmb 5000 160000 64 (t.val * 5000) (by omega)) _ (mkEmb_rowEmb _ _ _ _ _) (mkEmb_rowEmb _ _ _ _ _) (mkEmb_rowEmb _ _ _ _ _) (fun u => ?_) (fun u => ?_) z
  · unfold k0_pay4 colLin1
    show _ + _ = _ + _
    refine congrArg₂ (· + ·) (scaleCol_1 _ _ _ _ _ _ (emb0_0 t) (mkEmb_rowEmb _ _ _ _ _) (fun q => rfl) (fun q => by rw [shapeCast_self]) u)
      (bcastRow_64 _ _ _ (mkEmb_rowEmb _ _ _ _ _) (fun q => by rw [shapeCast_self]) u)
  · exact pay5_at V c t _ (mkEmb_rowEmb _ _ _ _ _) u

theorem mem_blk0_11 (t : Fin cfg0.N) (i : S160000x64.Idx) :
    i ∈ ((cfg0.win 11).blk t).view.set ↔ ∀ a : Fin 2, win0_11.index t a * S5000x64.size a ≤ (i a).val ∧ (i a).val < win0_11.index t a * S5000x64.size a + S5000x64.size a := by
  show i ∈ ((View.whole main_v61_1).slice (win0_11.rect t)).set ↔ _
  rw [View.set_slice_whole, Rect.mem_set_unit]
  exact Iff.rfl

theorem cover0_11 (i : S160000x64.Idx) : ∃ t : Fin cfg0.N, (cfg0.win 11).flush t = true ∧ i ∈ ((cfg0.win 11).blk t).view.set := by
  have hi0 : (i 0).val < 160000 := (i 0).isLt
  have hi1 : (i 1).val < 64 := (i 1).isLt
  obtain ⟨t, ht⟩ := onto0_11 ⟨(i 0).val / 5000, by omega⟩
  have q0 : win0_11.index t (0 : Fin 2) = (i 0).val / 5000 := congrFun ht 0
  have q1 : win0_11.index t (1 : Fin 2) = 0 := congrFun ht 1
  refine ⟨t, flush0_11 t, ?_⟩
  rw [mem_blk0_11]
  intro a
  match a with
  | ⟨0, _⟩ => show win0_11.index t (0 : Fin 2) * 5000 ≤ (i 0).val ∧ (i 0).val < win0_11.index t (0 : Fin 2) * 5000 + 5000; omega
  | ⟨1, _⟩ => show win0_11.index t (1 : Fin 2) * 64 ≤ (i 1).val ∧ (i 1).val < win0_11.index t (1 : Fin 2) * 64 + 64; omega

/-- Window 11's array after the region, as one function of the input arrays as the region found them. -/
theorem final0_11 (c : Dev nD) : (dat0 V c).arrAt 11 cfg0.N = hidden0 (V c main_arg0) (V c main_v40) (V c main_v41) (V c main_v42) (V c main_v43) (V c main_v44) (V c main_v45) (V c main_v46) (V c main_v47) (V c main_v48) :=
  (dat0 V c).arrAt_eq_of_cover 11 _ (fun t _ => flushed0_11 V c t) cover0_11

end Cert.KernelIdeal.Regions

end
-- ==== Proof.Reg1.lean ====
/-
  Region 1 (the first graph-convolution product, m1 = h0 · gcn1_Wᵀ).

  Point t of the grid loads rows 5000 t … 5000 t + 4999 of h0 and the whole 64 × 64 weight matrix, multiplies them on
  the matrix unit into a zero accumulator and writes the product back to the same rows of the output. So the output
  array ends holding the host's dot_general of the two whole arrays: block by block it is that product's rows
  (Rows.matmul_64_64), and the 32 blocks cover all 160000 rows.
-/
import proofs.«175455_j86191403696584_1_alg».proof.Proof.Gen.KernelIdeal.Frame
import proofs.«175455_j86191403696584_1_alg».proof.Proof.Gen.ReferenceIdeal
import proofs.«175455_j86191403696584_1_alg».proof.Proof.Rows

set_option maxRecDepth 16384

noncomputable section

namespace Cert.KernelIdeal.Regions

open Cert.KernelIdeal Cert.KernelIdeal.Gen Cert.Rows
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The product of the whole arrays, as the reference's host operation writes it. -/
def prod64 (A : FVec Ideal Cert.ReferenceIdeal.S160000x64 .f32) (W : FVec Ideal Cert.ReferenceIdeal.S64x64 .f32) : FVec Ideal Cert.ReferenceIdeal.S160000x64 .f32 :=
  Host.dotGeneral (F := Ideal) Cert.ReferenceIdeal.dot_S160000x64_S64x64_S160000x64_1_0_0_1_n_n none A W

/-- The printed index maps over the grid: the row-blocked windows sit at block row t, the weight window at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem onto1 : ∀ q : Fin 32, ∃ t : Fin cfg1.N, win1_2.index t = ![q.val, 0] :=
  (by decide +kernel : ∀ q : Fin 32, ∃ t : Fin grid1.N, win1_2.index t = ![q.val, 0])

theorem emb1_0 (t : Fin cfg1.N) : RowEmb (R := 5000) (N := 160000) (C := 64) (t.val * 5000) ((cfg1.win 0).blk t).view.emb := by
  obtain ⟨e0, e1, -⟩ := idx1 t
  refine ⟨fun y => ?_, fun y => ?_⟩
  · show win1_0.index t (0 : Fin 2) * 5000 + 1 * (y 0).val = _; omega
  · show win1_0.index t (1 : Fin 2) * 64 + 1 * (y 1).val = _; omega

theorem emb1_1 (t : Fin cfg1.N) : IdEmb (s := S64x64) ((cfg1.win 1).blk t).view.emb := by
  obtain ⟨-, -, e2, e3, -⟩ := idx1 t
  refine ⟨fun y a => ?_⟩
  match a with
  | ⟨0, _⟩ => show win1_1.index t (0 : Fin 2) * 64 + 1 * (y 0).val = (y 0).val; omega
  | ⟨1, _⟩ => show win1_1.index t (1 : Fin 2) * 64 + 1 * (y 1).val = (y 1).val; omega

theorem emb1_2 (t : Fin cfg1.N) : RowEmb (R := 5000) (N := 160000) (C := 64) (t.val * 5000) ((cfg1.win 2).blk t).view.emb := by
  obtain ⟨-, -, -, -, e4, e5⟩ := idx1 t
  refine ⟨fun y => ?_, fun y => ?_⟩
  · show win1_2.index t (0 : Fin 2) * 5000 + 1 * (y 0).val = _; omega
  · show win1_2.index t (1 : Fin 2) * 64 + 1 * (y 1).val = _; omega

/-- What point t writes back is block t of the whole product. -/
theorem flushed1 (c : Dev nD) (t : Fin cfg1.N) :
    (dat1 V c).flushed 2 t = ((cfg1.win 2).blk t).view.read (Elt Ideal) (prod64 (V c main_v61_1) (V c main_v49)) := by
  show (cfg1.win 2).cut (grid1.coords t) ((dat1 V c).after 2 t) = _
  rw [after1_2]
  unfold out1_2
  rw [View.canon_unit_zero hz2]
  simp only [View.ld_unit_zero (S := S5000x64) hz2, View.ld_unit_zero (S := S64x64) hz2]
  funext y
  show k1_pay1 (iblk1 V c 0 t) (iblk1 V c 1 t) y = prod64 (V c main_v61_1) (V c main_v49) (((cfg1.win 2).blk t).view.emb y)
  unfold k1_pay1 prod64
  refine matmul_64_64 _ _ _ _ _ _ (emb1_0 t) (emb1_2 t) (fun z => ?_) (fun z => ?_) y
  · rw [truncf_apply, shapeCast_self]; rfl
  · rw [truncf_apply, shapeCast_self]
    show V c main_v49 (((cfg1.win 1).blk t).view.emb z) = _
    rw [(emb1_1 t).eq]

theorem mem_blk1_2 (t : Fin cfg1.N) (i : S160000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v62).slice (win1_2.rect t)).set ↔ _
  rw [View.set_slice_whole, Rect.mem_set_unit]
  exact Iff.rfl

/-- Every row of the output lies in some point's block: row r in block r / 5000. -/
theorem cover1 (i : S160000x64.Idx) : ∃ t : Fin cfg1.N, (cfg1.win 2).flush t = true ∧ i ∈ ((cfg1.win 2).blk t).view.set := by
  have hi0 : (i 0).val < 160000 := (i 0).isLt
  have hi1 : (i 1).val < 64 := (i 1).isLt
  obtain ⟨t, ht⟩ := onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1_2]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array after the region: the product of the two input arrays as the region found them. -/
theorem final1 (c : Dev nD) : (dat1 V c).arrAt 2 cfg1.N = prod64 (V c main_v61_1) (V c main_v49) :=
  (dat1 V c).arrAt_eq_of_cover 2 _ (fun t _ => flushed1 V c t) cover1

end Cert.KernelIdeal.Regions

end
-- ==== Proof.Reg2.lean ====
/-
  Region 2 (h1 = [relu(conv1) | base_emb] · pbt_Wᵀ + pbt_b, the fused projection after the first graph convolution).

  Point t loads rows 5000 t … 5000 t + 4999 of the aggregated messages and of the base embedding, the whole 128 × 64
  weight matrix and the one-row bias; it takes the maximum of the messages with zero, sets the two blocks side by side,
  multiplies by the weights into a zero accumulator and adds the bias row. Each step is the host operation on the
  whole arrays read at the block's rows (Rows: splat, concat, matmul, bcastRow), so the block written back is block t
  of the reference's term, and the 32 blocks cover the output.
-/
import proofs.«175455_j86191403696584_1_alg».proof.Proof.Gen.KernelIdeal.Frame
import proofs.«175455_j86191403696584_1_alg».proof.Proof.Gen.ReferenceIdeal
import proofs.«175455_j86191403696584_1_alg».proof.Proof.Rows

set_option maxRecDepth 16384

noncomputable section

namespace Cert.KernelIdeal.Regions

open Cert.KernelIdeal Cert.KernelIdeal.Gen Cert.Rows
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2_2 : (![0, 0] : Fin 2 → Nat) = fun _ => 0 := funext fun a => by fin_cases a <;> rfl

/-- relu of the aggregated messages beside the base embedding, through the fused projection: the reference's host
    operations on the whole arrays. -/
def fuse1 (conv base : FVec Ideal Cert.ReferenceIdeal.S160000x64 .f32) (Wt : FVec Ideal Cert.ReferenceIdeal.S128x64 .f32) (b : FVec Ideal Cert.ReferenceIdeal.S1x64 .f32) :
    FVec Ideal Cert.ReferenceIdeal.S160000x64 .f32 :=
  addf (Host.dotGeneral (F := Ideal) Cert.ReferenceIdeal.dot_S160000x128_S128x64_S160000x64_1_0_0_1_n_n none
      (concatenate Cert.ReferenceIdeal.S160000x128 1 [⟨Cert.ReferenceIdeal.S160000x64, maximumf conv (broadcastInDim Cert.ReferenceIdeal.S160000x64 ![] Cert.ReferenceIdeal.Facts₀.bcast_S_S160000x64 (constant (F := Ideal) Cert.ReferenceIdeal.S_ .f32 0x00000000#32))⟩, ⟨Cert.ReferenceIdeal.S160000x64, base⟩] Cert.ReferenceIdeal.Facts₀.concatenates_S160000x64_S160000x64_S160000x128_d1) Wt)
    (broadcastInDim Cert.ReferenceIdeal.S160000x64 ![0, 1] Cert.ReferenceIdeal.Facts₀.bcast_S1x64_S160000x64_0_1 b)

/-- The printed index maps over the grid: a row-blocked window sits at block row t, every other window at the origin. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

theorem onto2 : ∀ q : Fin 32, ∃ t : Fin cfg2.N, win2_4.index t = ![q.val, 0] :=
  (by decide +kernel : ∀ q : Fin 32, ∃ t : Fin grid2.N, win2_4.index t = ![q.val, 0])

theorem lt32_2 (t : Fin cfg2.N) : t.val < 32 := lt_of_lt_of_eq t.isLt N_2

theorem emb2_0 (t : Fin cfg2.N) : RowEmb (R := 5000) (N := 160000) (C := 64) (t.val * 5000) ((cfg2.win 0).blk t).view.emb := by
  obtain ⟨e0, e1, -⟩ := idx2 t
  refine ⟨fun y => ?_, fun y => ?_⟩
  · show win2_0.index t (0 : Fin 2) * 5000 + 1 * (y 0).val = _; omega
  · show win2_0.index t (1 : Fin 2) * 64 + 1 * (y 1).val = _; omega

theorem emb2_1 (t : Fin cfg2.N) : RowEmb (R := 5000) (N := 160000) (C := 64) (t.val * 5000) ((cfg2.win 1).blk t).view.emb := by
  obtain ⟨-, -, e0, e1, -⟩ := idx2 t
  refine ⟨fun y => ?_, fun y => ?_⟩
  · show win2_1.index t (0 : Fin 2) * 5000 + 1 * (y 0).val = _; omega
  · show win2_1.index t (1 : Fin 2) * 64 + 1 * (y 1).val = _; omega

theorem emb2_2 (t : Fin cfg2.N) : IdEmb (s := S128x64) ((cfg2.win 2).blk t).view.emb := by
  obtain ⟨-, -, -, -, e0, e1, -⟩ := idx2 t
  refine ⟨fun y a => ?_⟩
  match a with
  | ⟨0, _⟩ => show win2_2.index t (0 : Fin 2) * 128 + 1 * (y 0).val = (y 0).val; omega
  | ⟨1, _⟩ => show win2_2.index t (1 : Fin 2) * 64 + 1 * (y 1).val = (y 1).val; omega

theorem emb2_3 (t : Fin cfg2.N) : IdEmb (s := S1x64) ((cfg2.win 3).blk t).view.emb := by
  obtain ⟨-, -, -, -, -, -, e0, e1, -⟩ := idx2 t
  refine ⟨fun y a => ?_⟩
  match a with
  | ⟨0, _⟩ => show win2_3.index t (0 : Fin 2) * 1 + 1 * (y 0).val = (y 0).val; omega
  | ⟨1, _⟩ => show win2_3.index t (1 : Fin 2) * 64 + 1 * (y 1).val = (y 1).val; omega

theorem emb2_4 (t : Fin cfg2.N) : RowEmb (R := 5000) (N := 160000) (C := 64) (t.val * 5000) ((cfg2.win 4).blk t).view.emb := by
  obtain ⟨-, -, -, -, -, -, -, -, e0, e1⟩ := idx2 t
  refine ⟨fun y => ?_, fun y => ?_⟩
  · show win2_4.index t (0 : Fin 2) * 5000 + 1 * (y 0).val = _; omega
  · show win2_4.index t (1 : Fin 2) * 64 + 1 * (y 1).val = _; omega

/-- What point t writes back is block t of the whole-array result. -/
theorem flushed2 (c : Dev nD) (t : Fin cfg2.N) :
    (dat2 V c).flushed 4 t = ((cfg2.win 4).blk t).view.read (Elt Ideal) (fuse1 (V c main_v78) (V c main_v61_0) (V c main_v47) (V c main_v48)) := by
  show (cfg2.win 4).cut (grid2.coords t) ((dat2 V c).after 4 t) = _
  rw [after2_4]
  unfold out2_4
  rw [View.canon_unit_zero hz2_2]
  simp only [View.ld_unit_zero (S := S5000x64) hz2_2, View.ld_unit_zero (S := S128x64) hz2_2, View.ld_unit_zero (S := S1x64) hz2_2]
  have ht := lt32_2 t
  funext y
  show k2_pay1 (iblk2 V c 0 t) (iblk2 V c 1 t) (iblk2 V c 2 t) (iblk2 V c 3 t) y = (fuse1 (V c main_v78) (V c main_v61_0) (V c main_v47) (V c main_v48)) (((cfg2.win 4).blk t).view.emb y)
  unfold k2_pay1 fuse1
  show (_ : EReal) + _ = _ + _
  refine congrArg₂ (· + ·) ?_ ?_
  · refine matmul_128_64 _ _ _ _ (mkEmb 5000 160000 128 (t.val * 5000) (by omega)) _ (mkEmb_rowEmb _ _ _ _ _) (emb2_4 t) (fun z => ?_) (fun z => ?_) y
    · rw [truncf_apply]
      refine concat_64_64 _ _ _ _ _ _ _ (emb2_0 t) (emb2_1 t) (mkEmb_rowEmb _ _ _ _ _) (fun u => ?_) (fun u => ?_) z
      · show max _ _ = max _ _
        rw [shapeCast_self, splat_64 0x00000000#32 u (((cfg2.win 0).blk t).view.emb u)]; rfl
      · rw [shapeCast_self]; rfl
    · rw [truncf_apply, shapeCast_self]
      show V c main_v47 (((cfg2.win 2).blk t).view.emb z) = _
      rw [(emb2_2 t).eq]
  · refine bcastRow_64 _ _ _ (emb2_4 t) (fun z => ?_) y
    rw [shapeCast_self]
    show V c main_v48 (((cfg2.win 3).blk t).view.emb z) = _
    rw [(emb2_3 t).eq]

theorem mem_blk2 (t : Fin cfg2.N) (i : S160000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v79).slice (win2_4.rect t)).set ↔ _
  rw [View.set_slice_whole, Rect.mem_set_unit]
  exact Iff.rfl

/-- Every row of the output lies in some point's block: row n in block n / 5000. -/
theorem cover2 (i : S160000x64.Idx) : ∃ t : Fin cfg2.N, (cfg2.win 4).flush t = true ∧ i ∈ ((cfg2.win 4).blk t).view.set := by
  have hi0 : (i 0).val < 160000 := (i 0).isLt
  have hi1 : (i 1).val < 64 := (i 1).isLt
  obtain ⟨t, ht⟩ := onto2 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The output array after the region, as one function of the input arrays as the region found them. -/
theorem final2 (c : Dev nD) : (dat2 V c).arrAt 4 cfg2.N = fuse1 (V c main_v78) (V c main_v61_0) (V c main_v47) (V c main_v48) :=
  (dat2 V c).arrAt_eq_of_cover 4 _ (fun t _ => flushed2 V c t) cover2

end Cert.KernelIdeal.Regions

end
-- ==== Proof.Reg3.lean ====
/-
  Region 3 (the second graph-convolution product, m2 = h1 · gcn2_Wᵀ): the same kernel as region 1 on the next layer's
  arrays. Point t multiplies rows 5000 t … 5000 t + 4999 of h1 by the whole 64 × 64 weight matrix into a zero
  accumulator; the 32 blocks cover the output, which ends at the host's dot_general of the whole arrays.
-/
import proofs.«175455_j86191403696584_1_alg».proof.Proof.Gen.KernelIdeal.Frame
import proofs.«175455_j86191403696584_1_alg».proof.Proof.Gen.ReferenceIdeal
import proofs.«175455_j86191403696584_1_alg».proof.Proof.Rows

set_option maxRecDepth 16384

noncomputable section

namespace Cert.KernelIdeal.Regions

open Cert.KernelIdeal Cert.KernelIdeal.Gen Cert.Rows
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2_3 : (![0, 0] : Fin 2 → Nat) = fun _ => 0 := funext fun a => by fin_cases a <;> rfl

/-- The product of the whole arrays, as the reference's host operation writes it. -/
def prod64' (A : FVec Ideal Cert.ReferenceIdeal.S160000x64 .f32) (W : FVec Ideal Cert.ReferenceIdeal.S64x64 .f32) : FVec Ideal Cert.ReferenceIdeal.S160000x64 .f32 :=
  Host.dotGeneral (F := Ideal) Cert.ReferenceIdeal.dot_S160000x64_S64x64_S160000x64_1_0_0_1_n_n none A W

/-- The printed index maps over the grid: a row-blocked window sits at block row t, every other window at the origin. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

theorem onto3 : ∀ q : Fin 32, ∃ t : Fin cfg3.N, win3_2.index t = ![q.val, 0] :=
  (by decide +kernel : ∀ q : Fin 32, ∃ t : Fin grid3.N, win3_2.index t = ![q.val, 0])

theorem lt32_3 (t : Fin cfg3.N) : t.val < 32 := lt_of_lt_of_eq t.isLt N_3

theorem emb3_0 (t : Fin cfg3.N) : RowEmb (R := 5000) (N := 160000) (C := 64) (t.val * 5000) ((cfg3.win 0).blk t).view.emb := by
  obtain ⟨e0, e1, -⟩ := idx3 t
  refine ⟨fun y => ?_, fun y => ?_⟩
  · show win3_0.index t (0 : Fin 2) * 5000 + 1 * (y 0).val = _; omega
  · show win3_0.index t (1 : Fin 2) * 64 + 1 * (y 1).val = _; omega

theorem emb3_1 (t : Fin cfg3.N) : IdEmb (s := S64x64) ((cfg3.win 1).blk t).view.emb := by
  obtain ⟨-, -, e0, e1, -⟩ := idx3 t
  refine ⟨fun y a => ?_⟩
  match a with
  | ⟨0, _⟩ => show win3_1.index t (0 : Fin 2) * 64 + 1 * (y 0).val = (y 0).val; omega
  | ⟨1, _⟩ => show win3_1.index t (1 : Fin 2) * 64 + 1 * (y 1).val = (y 1).val; omega

theorem emb3_2 (t : Fin cfg3.N) : RowEmb (R := 5000) (N := 160000) (C := 64) (t.val * 5000) ((cfg3.win 2).blk t).view.emb := by
  obtain ⟨-, -, -, -, e0, e1⟩ := idx3 t
  refine ⟨fun y => ?_, fun y => ?_⟩
  · show win3_2.index t (0 : Fin 2) * 5000 + 1 * (y 0).val = _; omega
  · show win3_2.index t (1 : Fin 2) * 64 + 1 * (y 1).val = _; omega

/-- What point t writes back is block t of the whole-array result. -/
theorem flushed3 (c : Dev nD) (t : Fin cfg3.N) :
    (dat3 V c).flushed 2 t = ((cfg3.win 2).blk t).view.read (Elt Ideal) (prod64' (V c main_v79) (V c main_v50)) := by
  show (cfg3.win 2).cut (grid3.coords t) ((dat3 V c).after 2 t) = _
  rw [after3_2]
  unfold out3_2
  rw [View.canon_unit_zero hz2_3]
  simp only [View.ld_unit_zero (S := S5000x64) hz2_3, View.ld_unit_zero (S := S64x64) hz2_3]
  have ht := lt32_3 t
  funext y
  show k3_pay1 (iblk3 V c 0 t) (iblk3 V c 1 t) y = (prod64' (V c main_v79) (V c main_v50)) (((cfg3.win 2).blk t).view.emb y)
  unfold k3_pay1 prod64'
  refine matmul_64_64 _ _ _ _ _ _ (emb3_0 t) (emb3_2 t) (fun z => ?_) (fun z => ?_) y
  · rw [truncf_apply, shapeCast_self]; rfl
  · rw [truncf_apply, shapeCast_self]
    show V c main_v50 (((cfg3.win 1).blk t).view.emb z) = _
    rw [(emb3_1 t).eq]

theorem mem_blk3 (t : Fin cfg3.N) (i : S160000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v80).slice (win3_2.rect t)).set ↔ _
  rw [View.set_slice_whole, Rect.mem_set_unit]
  exact Iff.rfl

/-- Every row of the output lies in some point's block: row n in block n / 5000. -/
theorem cover3 (i : S160000x64.Idx) : ∃ t : Fin cfg3.N, (cfg3.win 2).flush t = true ∧ i ∈ ((cfg3.win 2).blk t).view.set := by
  have hi0 : (i 0).val < 160000 := (i 0).isLt
  have hi1 : (i 1).val < 64 := (i 1).isLt
  obtain ⟨t, ht⟩ := onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The output array after the region, as one function of the input arrays as the region found them. -/
theorem final3 (c : Dev nD) : (dat3 V c).arrAt 2 cfg3.N = prod64' (V c main_v79) (V c main_v50) :=
  (dat3 V c).arrAt_eq_of_cover 2 _ (fun t _ => flushed3 V c t) cover3

end Cert.KernelIdeal.Regions

end
-- ==== Proof.Reg4.lean ====
/-
  Region 4 (h2 = [relu(conv2) | base_emb] · pbt_Wᵀ + pbt_b, the fused projection after the second graph convolution).

  Point t loads rows 5000 t … 5000 t + 4999 of the aggregated messages and of the base embedding, the whole 128 × 64
  weight matrix and the one-row bias; it takes the maximum of the messages with zero, sets the two blocks side by side,
  multiplies by the weights into a zero accumulator and adds the bias row. Each step is the host operation on the
  whole arrays read at the block's rows (Rows: splat, concat, matmul, bcastRow), so the block written back is block t
  of the reference's term, and the 32 blocks cover the output.
-/
import proofs.«175455_j86191403696584_1_alg».proof.Proof.Gen.KernelIdeal.Frame
import proofs.«175455_j86191403696584_1_alg».proof.Proof.Gen.ReferenceIdeal
import proofs.«175455_j86191403696584_1_alg».proof.Proof.Rows

set_option maxRecDepth 16384

noncomputable section

namespace Cert.KernelIdeal.Regions

open Cert.KernelIdeal Cert.KernelIdeal.Gen Cert.Rows
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2_4 : (![0, 0] : Fin 2 → Nat) = fun _ => 0 := funext fun a => by fin_cases a <;> rfl

/-- relu of the aggregated messages beside the base embedding, through the fused projection: the reference's host
    operations on the whole arrays. -/
def fuse2 (conv base : FVec Ideal Cert.ReferenceIdeal.S160000x64 .f32) (Wt : FVec Ideal Cert.ReferenceIdeal.S128x64 .f32) (b : FVec Ideal Cert.ReferenceIdeal.S1x64 .f32) :
    FVec Ideal Cert.ReferenceIdeal.S160000x64 .f32 :=
  addf (Host.dotGeneral (F := Ideal) Cert.ReferenceIdeal.dot_S160000x128_S128x64_S160000x64_1_0_0_1_n_n none
      (concatenate Cert.ReferenceIdeal.S160000x128 1 [⟨Cert.ReferenceIdeal.S160000x64, maximumf conv (broadcastInDim Cert.ReferenceIdeal.S160000x64 ![] Cert.ReferenceIdeal.Facts₀.bcast_S_S160000x64 (constant (F := Ideal) Cert.ReferenceIdeal.S_ .f32 0x00000000#32))⟩, ⟨Cert.ReferenceIdeal.S160000x64, base⟩] Cert.ReferenceIdeal.Facts₀.concatenates_S160000x64_S160000x64_S160000x128_d1) Wt)
    (broadcastInDim Cert.ReferenceIdeal.S160000x64 ![0, 1] Cert.ReferenceIdeal.Facts₀.bcast_S1x64_S160000x64_0_1 b)

/-- The printed index maps over the grid: a row-blocked window sits at block row t, every other window at the origin. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0 :=
  (by decide +kernel : ∀ t : Fin grid4.N, _)

theorem onto4 : ∀ q : Fin 32, ∃ t : Fin cfg4.N, win4_4.index t = ![q.val, 0] :=
  (by decide +kernel : ∀ q : Fin 32, ∃ t : Fin grid4.N, win4_4.index t = ![q.val, 0])

theorem lt32_4 (t : Fin cfg4.N) : t.val < 32 := lt_of_lt_of_eq t.isLt N_4

theorem emb4_0 (t : Fin cfg4.N) : RowEmb (R := 5000) (N := 160000) (C := 64) (t.val * 5000) ((cfg4.win 0).blk t).view.emb := by
  obtain ⟨e0, e1, -⟩ := idx4 t
  refine ⟨fun y => ?_, fun y => ?_⟩
  · show win4_0.index t (0 : Fin 2) * 5000 + 1 * (y 0).val = _; omega
  · show win4_0.index t (1 : Fin 2) * 64 + 1 * (y 1).val = _; omega

theorem emb4_1 (t : Fin cfg4.N) : RowEmb (R := 5000) (N := 160000) (C := 64) (t.val * 5000) ((cfg4.win 1).blk t).view.emb := by
  obtain ⟨-, -, e0, e1, -⟩ := idx4 t
  refine ⟨fun y => ?_, fun y => ?_⟩
  · show win4_1.index t (0 : Fin 2) * 5000 + 1 * (y 0).val = _; omega
  · show win4_1.index t (1 : Fin 2) * 64 + 1 * (y 1).val = _; omega

theorem emb4_2 (t : Fin cfg4.N) : IdEmb (s := S128x64) ((cfg4.win 2).blk t).view.emb := by
  obtain ⟨-, -, -, -, e0, e1, -⟩ := idx4 t
  refine ⟨fun y a => ?_⟩
  match a with
  | ⟨0, _⟩ => show win4_2.index t (0 : Fin 2) * 128 + 1 * (y 0).val = (y 0).val; omega
  | ⟨1, _⟩ => show win4_2.index t (1 : Fin 2) * 64 + 1 * (y 1).val = (y 1).val; omega

theorem emb4_3 (t : Fin cfg4.N) : IdEmb (s := S1x64) ((cfg4.win 3).blk t).view.emb := by
  obtain ⟨-, -, -, -, -, -, e0, e1, -⟩ := idx4 t
  refine ⟨fun y a => ?_⟩
  match a with
  | ⟨0, _⟩ => show win4_3.index t (0 : Fin 2) * 1 + 1 * (y 0).val = (y 0).val; omega
  | ⟨1, _⟩ => show win4_3.index t (1 : Fin 2) * 64 + 1 * (y 1).val = (y 1).val; omega

theorem emb4_4 (t : Fin cfg4.N) : RowEmb (R := 5000) (N := 160000) (C := 64) (t.val * 5000) ((cfg4.win 4).blk t).view.emb := by
  obtain ⟨-, -, -, -, -, -, -, -, e0, e1⟩ := idx4 t
  refine ⟨fun y => ?_, fun y => ?_⟩
  · show win4_4.index t (0 : Fin 2) * 5000 + 1 * (y 0).val = _; omega
  · show win4_4.index t (1 : Fin 2) * 64 + 1 * (y 1).val = _; omega

/-- What point t writes back is block t of the whole-array result. -/
theorem flushed4 (c : Dev nD) (t : Fin cfg4.N) :
    (dat4 V c).flushed 4 t = ((cfg4.win 4).blk t).view.read (Elt Ideal) (fuse2 (V c main_v96) (V c main_v61_0) (V c main_v47) (V c main_v48)) := by
  show (cfg4.win 4).cut (grid4.coords t) ((dat4 V c).after 4 t) = _
  rw [after4_4]
  unfold out4_4
  rw [View.canon_unit_zero hz2_4]
  simp only [View.ld_unit_zero (S := S5000x64) hz2_4, View.ld_unit_zero (S := S128x64) hz2_4, View.ld_unit_zero (S := S1x64) hz2_4]
  have ht := lt32_4 t
  funext y
  show k4_pay1 (iblk4 V c 0 t) (iblk4 V c 1 t) (iblk4 V c 2 t) (iblk4 V c 3 t) y = (fuse2 (V c main_v96) (V c main_v61_0) (V c main_v47) (V c main_v48)) (((cfg4.win 4).blk t).view.emb y)
  unfold k4_pay1 fuse2
  show (_ : EReal) + _ = _ + _
  refine congrArg₂ (· + ·) ?_ ?_
  · refine matmul_128_64 _ _ _ _ (mkEmb 5000 160000 128 (t.val * 5000) (by omega)) _ (mkEmb_rowEmb _ _ _ _ _) (emb4_4 t) (fun z => ?_) (fun z => ?_) y
    · rw [truncf_apply]
      refine concat_64_64 _ _ _ _ _ _ _ (emb4_0 t) (emb4_1 t) (mkEmb_rowEmb _ _ _ _ _) (fun u => ?_) (fun u => ?_) z
      · show max _ _ = max _ _
        rw [shapeCast_self, splat_64 0x00000000#32 u (((cfg4.win 0).blk t).view.emb u)]; rfl
      · rw [shapeCast_self]; rfl
    · rw [truncf_apply, shapeCast_self]
      show V c main_v47 (((cfg4.win 2).blk t).view.emb z) = _
      rw [(emb4_2 t).eq]
  · refine bcastRow_64 _ _ _ (emb4_4 t) (fun z => ?_) y
    rw [shapeCast_self]
    show V c main_v48 (((cfg4.win 3).blk t).view.emb z) = _
    rw [(emb4_3 t).eq]

theorem mem_blk4 (t : Fin cfg4.N) (i : S160000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v97).slice (win4_4.rect t)).set ↔ _
  rw [View.set_slice_whole, Rect.mem_set_unit]
  exact Iff.rfl

/-- Every row of the output lies in some point's block: row n in block n / 5000. -/
theorem cover4 (i : S160000x64.Idx) : ∃ t : Fin cfg4.N, (cfg4.win 4).flush t = true ∧ i ∈ ((cfg4.win 4).blk t).view.set := by
  have hi0 : (i 0).val < 160000 := (i 0).isLt
  have hi1 : (i 1).val < 64 := (i 1).isLt
  obtain ⟨t, ht⟩ := onto4 ⟨(i 0).val / 5000, by omega⟩
  have q0 : win4_4.index t (0 : Fin 2) = (i 0).val / 5000 := congrFun ht 0
  have q1 : win4_4.index t (1 : Fin 2) = 0 := congrFun ht 1
  refine ⟨t, flush4_4 t, ?_⟩
  rw [mem_blk4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 64 ≤ (i 1).val ∧ (i 1).val < win4_4.index t (1 : Fin 2) * 64 + 64; omega

/-- The output array after the region, as one function of the input arrays as the region found them. -/
theorem final4 (c : Dev nD) : (dat4 V c).arrAt 4 cfg4.N = fuse2 (V c main_v96) (V c main_v61_0) (V c main_v47) (V c main_v48) :=
  (dat4 V c).arrAt_eq_of_cover 4 _ (fun t _ => flushed4 V c t) cover4

end Cert.KernelIdeal.Regions

end
-- ==== Proof.Reg5.lean ====
/-
  Region 5 (z1 = h2 · rec_W1ᵀ + rec_b1, the first layer of the recovery network).

  Point t multiplies rows 5000 t … 5000 t + 4999 of h2 by the whole 64 × 128 weight matrix into a zero accumulator and
  adds the one-row bias: the host's dot_general and broadcast add on the whole arrays, read at those rows.
-/
import proofs.«175455_j86191403696584_1_alg».proof.Proof.Gen.KernelIdeal.Frame
import proofs.«175455_j86191403696584_1_alg».proof.Proof.Gen.ReferenceIdeal
import proofs.«175455_j86191403696584_1_alg».proof.Proof.Rows

set_option maxRecDepth 16384

noncomputable section

namespace Cert.KernelIdeal.Regions

open Cert.KernelIdeal Cert.KernelIdeal.Gen Cert.Rows
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2_5 : (![0, 0] : Fin 2 → Nat) = fun _ => 0 := funext fun a => by fin_cases a <;> rfl

/-- The affine layer on the whole arrays, as the reference's host operations write it. -/
def lin1 (A : FVec Ideal Cert.ReferenceIdeal.S160000x64 .f32) (Wt : FVec Ideal Cert.ReferenceIdeal.S64x128 .f32) (b : FVec Ideal Cert.ReferenceIdeal.S1x128 .f32) : FVec Ideal Cert.ReferenceIdeal.S160000x128 .f32 :=
  addf (Host.dotGeneral (F := Ideal) Cert.ReferenceIdeal.dot_S160000x64_S64x128_S160000x128_1_0_0_1_n_n none A Wt)
    (broadcastInDim Cert.ReferenceIdeal.S160000x128 ![0, 1] Cert.ReferenceIdeal.Facts₀.bcast_S1x128_S160000x128_0_1 b)

/-- The printed index maps over the grid: a row-blocked window sits at block row t, every other window at the origin. -/
theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

theorem onto5 : ∀ q : Fin 32, ∃ t : Fin cfg5.N, win5_3.index t = ![q.val, 0] :=
  (by decide +kernel : ∀ q : Fin 32, ∃ t : Fin grid5.N, win5_3.index t = ![q.val, 0])

theorem lt32_5 (t : Fin cfg5.N) : t.val < 32 := lt_of_lt_of_eq t.isLt N_5

theorem emb5_0 (t : Fin cfg5.N) : RowEmb (R := 5000) (N := 160000) (C := 64) (t.val * 5000) ((cfg5.win 0).blk t).view.emb := by
  obtain ⟨e0, e1, -⟩ := idx5 t
  refine ⟨fun y => ?_, fun y => ?_⟩
  · show win5_0.index t (0 : Fin 2) * 5000 + 1 * (y 0).val = _; omega
  · show win5_0.index t (1 : Fin 2) * 64 + 1 * (y 1).val = _; omega

theorem emb5_1 (t : Fin cfg5.N) : IdEmb (s := S64x128) ((cfg5.win 1).blk t).view.emb := by
  obtain ⟨-, -, e0, e1, -⟩ := idx5 t
  refine ⟨fun y a => ?_⟩
  match a with
  | ⟨0, _⟩ => show win5_1.index t (0 : Fin 2) * 64 + 1 * (y 0).val = (y 0).val; omega
  | ⟨1, _⟩ => show win5_1.index t (1 : Fin 2) * 128 + 1 * (y 1).val = (y 1).val; omega

theorem emb5_2 (t : Fin cfg5.N) : IdEmb (s := S1x128) ((cfg5.win 2).blk t).view.emb := by
  obtain ⟨-, -, -, -, e0, e1, -⟩ := idx5 t
  refine ⟨fun y a => ?_⟩
  match a with
  | ⟨0, _⟩ => show win5_2.index t (0 : Fin 2) * 1 + 1 * (y 0).val = (y 0).val; omega
  | ⟨1, _⟩ => show win5_2.index t (1 : Fin 2) * 128 + 1 * (y 1).val = (y 1).val; omega

theorem emb5_3 (t : Fin cfg5.N) : RowEmb (R := 5000) (N := 160000) (C := 128) (t.val * 5000) ((cfg5.win 3).blk t).view.emb := by
  obtain ⟨-, -, -, -, -, -, e0, e1⟩ := idx5 t
  refine ⟨fun y => ?_, fun y => ?_⟩
  · show win5_3.index t (0 : Fin 2) * 5000 + 1 * (y 0).val = _; omega
  · show win5_3.index t (1 : Fin 2) * 128 + 1 * (y 1).val = _; omega

/-- What point t writes back is block t of the whole-array result. -/
theorem flushed5 (c : Dev nD) (t : Fin cfg5.N) :
    (dat5 V c).flushed 3 t = ((cfg5.win 3).blk t).view.read (Elt Ideal) (lin1 (V c main_v97) (V c main_v51) (V c main_v52)) := by
  show (cfg5.win 3).cut (grid5.coords t) ((dat5 V c).after 3 t) = _
  rw [after5_3]
  unfold out5_3
  rw [View.canon_unit_zero hz2_5]
  simp only [View.ld_unit_zero (S := S5000x64) hz2_5, View.ld_unit_zero (S := S64x128) hz2_5, View.ld_unit_zero (S := S1x128) hz2_5]
  have ht := lt32_5 t
  funext y
  show k5_pay1 (iblk5 V c 0 t) (iblk5 V c 1 t) (iblk5 V c 2 t) y = (lin1 (V c main_v97) (V c main_v51) (V c main_v52)) (((cfg5.win 3).blk t).view.emb y)
  unfold k5_pay1 lin1
  show (_ : EReal) + _ = _ + _
  refine congrArg₂ (· + ·) ?_ ?_
  · refine matmul_64_128 _ _ _ _ _ _ (emb5_0 t) (emb5_3 t) (fun z => ?_) (fun z => ?_) y
    · rw [truncf_apply, shapeCast_self]; rfl
    · rw [truncf_apply, shapeCast_self]
      show V c main_v51 (((cfg5.win 1).blk t).view.emb z) = _
      rw [(emb5_1 t).eq]
  · refine bcastRow_128 _ _ _ (emb5_3 t) (fun z => ?_) y
    rw [shapeCast_self]
    show V c main_v52 (((cfg5.win 2).blk t).view.emb z) = _
    rw [(emb5_2 t).eq]

theorem mem_blk5 (t : Fin cfg5.N) (i : S160000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v98).slice (win5_3.rect t)).set ↔ _
  rw [View.set_slice_whole, Rect.mem_set_unit]
  exact Iff.rfl

/-- Every row of the output lies in some point's block: row n in block n / 5000. -/
theorem cover5 (i : S160000x128.Idx) : ∃ t : Fin cfg5.N, (cfg5.win 3).flush t = true ∧ i ∈ ((cfg5.win 3).blk t).view.set := by
  have hi0 : (i 0).val < 160000 := (i 0).isLt
  have hi1 : (i 1).val < 128 := (i 1).isLt
  obtain ⟨t, ht⟩ := onto5 ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The output array after the region, as one function of the input arrays as the region found them. -/
theorem final5 (c : Dev nD) : (dat5 V c).arrAt 3 cfg5.N = lin1 (V c main_v97) (V c main_v51) (V c main_v52) :=
  (dat5 V c).arrAt_eq_of_cover 3 _ (fun t _ => flushed5 V c t) cover5

end Cert.KernelIdeal.Regions

end
-- ==== Proof.Reg6.lean ====
/-
  Region 6 (z2 = relu(batchnorm(z1)) · rec_W2ᵀ + rec_b2, the second layer of the recovery network).

  Point t loads rows 5000 t … 5000 t + 4999 of z1, the one-row mean, variance, scale and shift, the whole 128 × 64
  weight matrix and the one-row bias. It subtracts the mean row, multiplies by the reciprocal square root of the
  variance row plus the stabiliser, by the scale row, adds the shift row, takes the maximum with zero, multiplies by
  the weights into a zero accumulator and adds the bias row. Each step is the host operation on the whole arrays read
  at the block's rows; the 32 blocks cover the output.
-/
import proofs.«175455_j86191403696584_1_alg».proof.Proof.Gen.KernelIdeal.Frame
import proofs.«175455_j86191403696584_1_alg».proof.Proof.Gen.ReferenceIdeal
import proofs.«175455_j86191403696584_1_alg».proof.Proof.Rows

set_option maxRecDepth 16384

noncomputable section

namespace Cert.KernelIdeal.Regions

open Cert.KernelIdeal Cert.KernelIdeal.Gen Cert.Rows
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2_6 : (![0, 0] : Fin 2 → Nat) = fun _ => 0 := funext fun a => by fin_cases a <;> rfl

/-- Normalise by the batch statistics, scale and shift, relu, then the affine layer: the reference's host operations
    on the whole arrays, the four one-row statistics and parameters broadcast down the rows. -/
def bnLin2 (z : FVec Ideal Cert.ReferenceIdeal.S160000x128 .f32) (mean var g be : FVec Ideal Cert.ReferenceIdeal.S1x128 .f32) (Wt : FVec Ideal Cert.ReferenceIdeal.S128x64 .f32) (b : FVec Ideal Cert.ReferenceIdeal.S1x64 .f32) :
    FVec Ideal Cert.ReferenceIdeal.S160000x64 .f32 :=
  addf (Host.dotGeneral (F := Ideal) Cert.ReferenceIdeal.dot_S160000x128_S128x64_S160000x64_1_0_0_1_n_n none
      (maximumf (addf (mulf (mulf (subf z (broadcastInDim Cert.ReferenceIdeal.S160000x128 ![0, 1] Cert.ReferenceIdeal.Facts₀.bcast_S1x128_S160000x128_0_1 mean)) (broadcastInDim Cert.ReferenceIdeal.S160000x128 ![0, 1] Cert.ReferenceIdeal.Facts₀.bcast_S1x128_S160000x128_0_1 (rsqrt (addf var (broadcast Cert.ReferenceIdeal.S1x128 (Scalar.ofBits (F := Ideal) .f32 0x3727C5AC#32)))))) (broadcastInDim Cert.ReferenceIdeal.S160000x128 ![0, 1] Cert.ReferenceIdeal.Facts₀.bcast_S1x128_S160000x128_0_1 g)) (broadcastInDim Cert.ReferenceIdeal.S160000x128 ![0, 1] Cert.ReferenceIdeal.Facts₀.bcast_S1x128_S160000x128_0_1 be))
        (broadcastInDim Cert.ReferenceIdeal.S160000x128 ![] Cert.ReferenceIdeal.Facts₀.bcast_S_S160000x128 (constant (F := Ideal) Cert.ReferenceIdeal.S_ .f32 0x00000000#32))) Wt)
    (broadcastInDim Cert.ReferenceIdeal.S160000x64 ![0, 1] Cert.ReferenceIdeal.Facts₀.bcast_S1x64_S160000x64_0_1 b)

/-- The printed index maps over the grid: a row-blocked window sits at block row t, every other window at the origin. -/
theorem idx6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = t.val
    ∧ win6_7.index t (1 : Fin 2) = 0 :=
  (by decide +kernel : ∀ t : Fin grid6.N, _)

theorem onto6 : ∀ q : Fin 32, ∃ t : Fin cfg6.N, win6_7.index t = ![q.val, 0] :=
  (by decide +kernel : ∀ q : Fin 32, ∃ t : Fin grid6.N, win6_7.index t = ![q.val, 0])

theorem lt32_6 (t : Fin cfg6.N) : t.val < 32 := lt_of_lt_of_eq t.isLt N_6

theorem emb6_0 (t : Fin cfg6.N) : RowEmb (R := 5000) (N := 160000) (C := 128) (t.val * 5000) ((cfg6.win 0).blk t).view.emb := by
  obtain ⟨e0, e1, -⟩ := idx6 t
  refine ⟨fun y => ?_, fun y => ?_⟩
  · show win6_0.index t (0 : Fin 2) * 5000 + 1 * (y 0).val = _; omega
  · show win6_0.index t (1 : Fin 2) * 128 + 1 * (y 1).val = _; omega

theorem emb6_1 (t : Fin cfg6.N) : IdEmb (s := S1x128) ((cfg6.win 1).blk t).view.emb := by
  obtain ⟨-, -, e0, e1, -⟩ := idx6 t
  refine ⟨fun y a => ?_⟩
  match a with
  | ⟨0, _⟩ => show win6_1.index t (0 : Fin 2) * 1 + 1 * (y 0).val = (y 0).val; omega
  | ⟨1, _⟩ => show win6_1.index t (1 : Fin 2) * 128 + 1 * (y 1).val = (y 1).val; omega

theorem emb6_2 (t : Fin cfg6.N) : IdEmb (s := S1x128) ((cfg6.win 2).blk t).view.emb := by
  obtain ⟨-, -, -, -, e0, e1, -⟩ := idx6 t
  refine ⟨fun y a => ?_⟩
  match a with
  | ⟨0, _⟩ => show win6_2.index t (0 : Fin 2) * 1 + 1 * (y 0).val = (y 0).val; omega
  | ⟨1, _⟩ => show win6_2.index t (1 : Fin 2) * 128 + 1 * (y 1).val = (y 1).val; omega

theorem emb6_3 (t : Fin cfg6.N) : IdEmb (s := S1x128) ((cfg6.win 3).blk t).view.emb := by
  obtain ⟨-, -, -, -, -, -, e0, e1, -⟩ := idx6 t
  refine ⟨fun y a => ?_⟩
  match a with
  | ⟨0, _⟩ => show win6_3.index t (0 : Fin 2) * 1 + 1 * (y 0).val = (y 0).val; omega
  | ⟨1, _⟩ => show win6_3.index t (1 : Fin 2) * 128 + 1 * (y 1).val = (y 1).val; omega

theorem emb6_4 (t : Fin cfg6.N) : IdEmb (s := S1x128) ((cfg6.win 4).blk t).view.emb := by
  obtain ⟨-, -, -, -, -, -, -, -, e0, e1, -⟩ := idx6 t
  refine ⟨fun y a => ?_⟩
  match a with
  | ⟨0, _⟩ => show win6_4.index t (0 : Fin 2) * 1 + 1 * (y 0).val = (y 0).val; omega
  | ⟨1, _⟩ => show win6_4.index t (1 : Fin 2) * 128 + 1 * (y 1).val = (y 1).val; omega

theorem emb6_5 (t : Fin cfg6.N) : IdEmb (s := S128x64) ((cfg6.win 5).blk t).view.emb := by
  obtain ⟨-, -, -, -, -, -, -, -, -, -, e0, e1, -⟩ := idx6 t
  refine ⟨fun y a => ?_⟩
  match a with
  | ⟨0, _⟩ => show win6_5.index t (0 : Fin 2) * 128 + 1 * (y 0).val = (y 0).val; omega
  | ⟨1, _⟩ => show win6_5.index t (1 : Fin 2) * 64 + 1 * (y 1).val = (y 1).val; omega

theorem emb6_6 (t : Fin cfg6.N) : IdEmb (s := S1x64) ((cfg6.win 6).blk t).view.emb := by
  obtain ⟨-, -, -, -, -, -, -, -, -, -, -, -, e0, e1, -⟩ := idx6 t
  refine ⟨fun y a => ?_⟩
  match a with
  | ⟨0, _⟩ => show win6_6.index t (0 : Fin 2) * 1 + 1 * (y 0).val = (y 0).val; omega
  | ⟨1, _⟩ => show win6_6.index t (1 : Fin 2) * 64 + 1 * (y 1).val = (y 1).val; omega

theorem emb6_7 (t : Fin cfg6.N) : RowEmb (R := 5000) (N := 160000) (C := 64) (t.val * 5000) ((cfg6.win 7).blk t).view.emb := by
  obtain ⟨-, -, -, -, -, -, -, -, -, -, -, -, -, -, e0, e1⟩ := idx6 t
  refine ⟨fun y => ?_, fun y => ?_⟩
  · show win6_7.index t (0 : Fin 2) * 5000 + 1 * (y 0).val = _; omega
  · show win6_7.index t (1 : Fin 2) * 64 + 1 * (y 1).val = _; omega

/-- The block of window 1 at any point is its whole array. -/
theorem blk6_1 (c : Dev nD) (t : Fin cfg6.N) : iblk6 V c 1 t = V c main_v102 :=
  funext fun q => by
    show V c main_v102 (((cfg6.win 1).blk t).view.emb q) = _
    rw [(emb6_1 t).eq]

/-- The block of window 2 at any point is its whole array. -/
theorem blk6_2 (c : Dev nD) (t : Fin cfg6.N) : iblk6 V c 2 t = V c main_v103 :=
  funext fun q => by
    show V c main_v103 (((cfg6.win 2).blk t).view.emb q) = _
    rw [(emb6_2 t).eq]

/-- The block of window 3 at any point is its whole array. -/
theorem blk6_3 (c : Dev nD) (t : Fin cfg6.N) : iblk6 V c 3 t = V c main_v53 :=
  funext fun q => by
    show V c main_v53 (((cfg6.win 3).blk t).view.emb q) = _
    rw [(emb6_3 t).eq]

/-- The block of window 4 at any point is its whole array. -/
theorem blk6_4 (c : Dev nD) (t : Fin cfg6.N) : iblk6 V c 4 t = V c main_v54 :=
  funext fun q => by
    show V c main_v54 (((cfg6.win 4).blk t).view.emb q) = _
    rw [(emb6_4 t).eq]

/-- The block of window 5 at any point is its whole array. -/
theorem blk6_5 (c : Dev nD) (t : Fin cfg6.N) : iblk6 V c 5 t = V c main_v55 :=
  funext fun q => by
    show V c main_v55 (((cfg6.win 5).blk t).view.emb q) = _
    rw [(emb6_5 t).eq]

/-- The block of window 6 at any point is its whole array. -/
theorem blk6_6 (c : Dev nD) (t : Fin cfg6.N) : iblk6 V c 6 t = V c main_v56 :=
  funext fun q => by
    show V c main_v56 (((cfg6.win 6).blk t).view.emb q) = _
    rw [(emb6_6 t).eq]

/-- What point t writes back is block t of the whole-array result. -/
theorem flushed6 (c : Dev nD) (t : Fin cfg6.N) :
    (dat6 V c).flushed 7 t = ((cfg6.win 7).blk t).view.read (Elt Ideal) (bnLin2 (V c main_v98) (V c main_v102) (V c main_v103) (V c main_v53) (V c main_v54) (V c main_v55) (V c main_v56)) := by
  show (cfg6.win 7).cut (grid6.coords t) ((dat6 V c).after 7 t) = _
  rw [after6_7]
  unfold out6_7
  rw [View.canon_unit_zero hz2_6]
  simp only [View.ld_unit_zero (S := S5000x128) hz2_6, View.ld_unit_zero (S := S1x128) hz2_6, View.ld_unit_zero (S := S128x64) hz2_6, View.ld_unit_zero (S := S1x64) hz2_6]
  have ht := lt32_6 t
  funext y
  show k6_pay1 (iblk6 V c 0 t) (iblk6 V c 1 t) (iblk6 V c 2 t) (iblk6 V c 3 t) (iblk6 V c 4 t) (iblk6 V c 5 t) (iblk6 V c 6 t) y = (bnLin2 (V c main_v98) (V c main_v102) (V c main_v103) (V c main_v53) (V c main_v54) (V c main_v55) (V c main_v56)) (((cfg6.win 7).blk t).view.emb y)
  rw [blk6_1 V c t, blk6_2 V c t, blk6_3 V c t, blk6_4 V c t, blk6_5 V c t, blk6_6 V c t]
  unfold k6_pay1 bnLin2
  show (_ : EReal) + _ = _ + _
  refine congrArg₂ (· + ·) ?_ ?_
  · refine matmul_128_64 _ _ _ _ _ _ (emb6_0 t) (emb6_7 t) (fun z => ?_) (fun z => ?_) y
    · rw [truncf_apply]
      show max _ _ = max _ _
      refine congrArg₂ max ?_ (splat_128 _ z _)
      show _ + _ = _ + _
      refine congrArg₂ (· + ·) ?_ (bcastRow_128 _ _ _ (emb6_0 t) (fun q => by rw [shapeCast_self]) z)
      show _ * _ = _ * _
      refine congrArg₂ (· * ·) ?_ (bcastRow_128 _ _ _ (emb6_0 t) (fun q => by rw [shapeCast_self]) z)
      show _ * _ = _ * _
      refine congrArg₂ (· * ·) ?_ (bcastRow_128 _ _ _ (emb6_0 t) (fun q => by rw [shapeCast_self]) z)
      show _ - _ = _ - _
      refine congrArg₂ (· - ·) ?_ (bcastRow_128 _ _ _ (emb6_0 t) (fun q => by rw [shapeCast_self]) z)
      rw [shapeCast_self]; rfl
    · rw [truncf_apply, shapeCast_self]
  · exact bcastRow_64 _ _ _ (emb6_7 t) (fun q => by rw [shapeCast_self]) y

theorem mem_blk6 (t : Fin cfg6.N) (i : S160000x64.Idx) :
    i ∈ ((cfg6.win 7).blk t).view.set ↔ ∀ a : Fin 2, win6_7.index t a * S5000x64.size a ≤ (i a).val ∧ (i a).val < win6_7.index t a * S5000x64.size a + S5000x64.size a := by
  show i ∈ ((View.whole main_v104).slice (win6_7.rect t)).set ↔ _
  rw [View.set_slice_whole, Rect.mem_set_unit]
  exact Iff.rfl

/-- Every row of the output lies in some point's block: row n in block n / 5000. -/
theorem cover6 (i : S160000x64.Idx) : ∃ t : Fin cfg6.N, (cfg6.win 7).flush t = true ∧ i ∈ ((cfg6.win 7).blk t).view.set := by
  have hi0 : (i 0).val < 160000 := (i 0).isLt
  have hi1 : (i 1).val < 64 := (i 1).isLt
  obtain ⟨t, ht⟩ := onto6 ⟨(i 0).val / 5000, by omega⟩
  have q0 : win6_7.index t (0 : Fin 2) = (i 0).val / 5000 := congrFun ht 0
  have q1 : win6_7.index t (1 : Fin 2) = 0 := congrFun ht 1
  refine ⟨t, flush6_7 t, ?_⟩
  rw [mem_blk6]
  intro a
  match a with
  | ⟨0, _⟩ => show win6_7.index t (0 : Fin 2) * 5000 ≤ (i 0).val ∧ (i 0).val < win6_7.index t (0 : Fin 2) * 5000 + 5000; omega
  | ⟨1, _⟩ => show win6_7.index t (1 : Fin 2) * 64 ≤ (i 1).val ∧ (i 1).val < win6_7.index t (1 : Fin 2) * 64 + 64; omega

/-- The output array after the region, as one function of the input arrays as the region found them. -/
theorem final6 (c : Dev nD) : (dat6 V c).arrAt 7 cfg6.N = bnLin2 (V c main_v98) (V c main_v102) (V c main_v103) (V c main_v53) (V c main_v54) (V c main_v55) (V c main_v56) :=
  (dat6 V c).arrAt_eq_of_cover 7 _ (fun t _ => flushed6 V c t) cover6

end Cert.KernelIdeal.Regions

end
-- ==== Proof.Reg7.lean ====
/-
  Region 7 (out = relu(batchnorm(z2)) · rec_W3ᵀ + rec_b3, the last layer of the recovery network).

  The same body as region 6 at width 64, with a 64 × 1 weight matrix and a one-entry bias: normalise rows
  5000 t … 5000 t + 4999 of z2 by the batch statistics, scale, shift, relu, multiply into a zero accumulator, add the
  bias. Block t of the output is block t of the host operations' result on the whole arrays.
-/
import proofs.«175455_j86191403696584_1_alg».proof.Proof.Gen.KernelIdeal.Frame
import proofs.«175455_j86191403696584_1_alg».proof.Proof.Gen.ReferenceIdeal
import proofs.«175455_j86191403696584_1_alg».proof.Proof.Rows

set_option maxRecDepth 16384

noncomputable section

namespace Cert.KernelIdeal.Regions

open Cert.KernelIdeal Cert.KernelIdeal.Gen Cert.Rows
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz2_7 : (![0, 0] : Fin 2 → Nat) = fun _ => 0 := funext fun a => by fin_cases a <;> rfl

/-- Normalise by the batch statistics, scale and shift, relu, then the affine layer: the reference's host operations
    on the whole arrays, the four one-row statistics and parameters broadcast down the rows. -/
def bnLin3 (z : FVec Ideal Cert.ReferenceIdeal.S160000x64 .f32) (mean var g be : FVec Ideal Cert.ReferenceIdeal.S1x64 .f32) (Wt : FVec Ideal Cert.ReferenceIdeal.S64x1 .f32) (b : FVec Ideal Cert.ReferenceIdeal.S1x1 .f32) :
    FVec Ideal Cert.ReferenceIdeal.S160000x1 .f32 :=
  addf (Host.dotGeneral (F := Ideal) Cert.ReferenceIdeal.dot_S160000x64_S64x1_S160000x1_1_0_0_1_n_n none
      (maximumf (addf (mulf (mulf (subf z (broadcastInDim Cert.ReferenceIdeal.S160000x64 ![0, 1] Cert.ReferenceIdeal.Facts₀.bcast_S1x64_S160000x64_0_1 mean)) (broadcastInDim Cert.ReferenceIdeal.S160000x64 ![0, 1] Cert.ReferenceIdeal.Facts₀.bcast_S1x64_S160000x64_0_1 (rsqrt (addf var (broadcast Cert.ReferenceIdeal.S1x64 (Scalar.ofBits (F := Ideal) .f32 0x3727C5AC#32)))))) (broadcastInDim Cert.ReferenceIdeal.S160000x64 ![0, 1] Cert.ReferenceIdeal.Facts₀.bcast_S1x64_S160000x64_0_1 g)) (broadcastInDim Cert.ReferenceIdeal.S160000x64 ![0, 1] Cert.ReferenceIdeal.Facts₀.bcast_S1x64_S160000x64_0_1 be))
        (broadcastInDim Cert.ReferenceIdeal.S160000x64 ![] Cert.ReferenceIdeal.Facts₀.bcast_S_S160000x64 (constant (F := Ideal) Cert.ReferenceIdeal.S_ .f32 0x00000000#32))) Wt)
    (broadcastInDim Cert.ReferenceIdeal.S160000x1 ![0, 1] Cert.ReferenceIdeal.Facts₀.bcast_S1x1_S160000x1_0_1 b)

/-- The printed index maps over the grid: a row-blocked window sits at block row t, every other window at the origin. -/
theorem idx7 : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = 0
    ∧ win7_6.index t (1 : Fin 2) = 0
    ∧ win7_7.index t (0 : Fin 2) = t.val
    ∧ win7_7.index t (1 : Fin 2) = 0 :=
  (by decide +kernel : ∀ t : Fin grid7.N, _)

theorem onto7 : ∀ q : Fin 32, ∃ t : Fin cfg7.N, win7_7.index t = ![q.val, 0] :=
  (by decide +kernel : ∀ q : Fin 32, ∃ t : Fin grid7.N, win7_7.index t = ![q.val, 0])

theorem lt32_7 (t : Fin cfg7.N) : t.val < 32 := lt_of_lt_of_eq t.isLt N_7

theorem emb7_0 (t : Fin cfg7.N) : RowEmb (R := 5000) (N := 160000) (C := 64) (t.val * 5000) ((cfg7.win 0).blk t).view.emb := by
  obtain ⟨e0, e1, -⟩ := idx7 t
  refine ⟨fun y => ?_, fun y => ?_⟩
  · show win7_0.index t (0 : Fin 2) * 5000 + 1 * (y 0).val = _; omega
  · show win7_0.index t (1 : Fin 2) * 64 + 1 * (y 1).val = _; omega

theorem emb7_1 (t : Fin cfg7.N) : IdEmb (s := S1x64) ((cfg7.win 1).blk t).view.emb := by
  obtain ⟨-, -, e0, e1, -⟩ := idx7 t
  refine ⟨fun y a => ?_⟩
  match a with
  | ⟨0, _⟩ => show win7_1.index t (0 : Fin 2) * 1 + 1 * (y 0).val = (y 0).val; omega
  | ⟨1, _⟩ => show win7_1.index t (1 : Fin 2) * 64 + 1 * (y 1).val = (y 1).val; omega

theorem emb7_2 (t : Fin cfg7.N) : IdEmb (s := S1x64) ((cfg7.win 2).blk t).view.emb := by
  obtain ⟨-, -, -, -, e0, e1, -⟩ := idx7 t
  refine ⟨fun y a => ?_⟩
  match a with
  | ⟨0, _⟩ => show win7_2.index t (0 : Fin 2) * 1 + 1 * (y 0).val = (y 0).val; omega
  | ⟨1, _⟩ => show win7_2.index t (1 : Fin 2) * 64 + 1 * (y 1).val = (y 1).val; omega

theorem emb7_3 (t : Fin cfg7.N) : IdEmb (s := S1x64) ((cfg7.win 3).blk t).view.emb := by
  obtain ⟨-, -, -, -, -, -, e0, e1, -⟩ := idx7 t
  refine ⟨fun y a => ?_⟩
  match a with
  | ⟨0, _⟩ => show win7_3.index t (0 : Fin 2) * 1 + 1 * (y 0).val = (y 0).val; omega
  | ⟨1, _⟩ => show win7_3.index t (1 : Fin 2) * 64 + 1 * (y 1).val = (y 1).val; omega

theorem emb7_4 (t : Fin cfg7.N) : IdEmb (s := S1x64) ((cfg7.win 4).blk t).view.emb := by
  obtain ⟨-, -, -, -, -, -, -, -, e0, e1, -⟩ := idx7 t
  refine ⟨fun y a => ?_⟩
  match a with
  | ⟨0, _⟩ => show win7_4.index t (0 : Fin 2) * 1 + 1 * (y 0).val = (y 0).val; omega
  | ⟨1, _⟩ => show win7_4.index t (1 : Fin 2) * 64 + 1 * (y 1).val = (y 1).val; omega

theorem emb7_5 (t : Fin cfg7.N) : IdEmb (s := S64x1) ((cfg7.win 5).blk t).view.emb := by
  obtain ⟨-, -, -, -, -, -, -, -, -, -, e0, e1, -⟩ := idx7 t
  refine ⟨fun y a => ?_⟩
  match a with
  | ⟨0, _⟩ => show win7_5.index t (0 : Fin 2) * 64 + 1 * (y 0).val = (y 0).val; omega
  | ⟨1, _⟩ => show win7_5.index t (1 : Fin 2) * 1 + 1 * (y 1).val = (y 1).val; omega

theorem emb7_6 (t : Fin cfg7.N) : IdEmb (s := S1x1) ((cfg7.win 6).blk t).view.emb := by
  obtain ⟨-, -, -, -, -, -, -, -, -, -, -, -, e0, e1, -⟩ := idx7 t
  refine ⟨fun y a => ?_⟩
  match a with
  | ⟨0, _⟩ => show win7_6.index t (0 : Fin 2) * 1 + 1 * (y 0).val = (y 0).val; omega
  | ⟨1, _⟩ => show win7_6.index t (1 : Fin 2) * 1 + 1 * (y 1).val = (y 1).val; omega

theorem emb7_7 (t : Fin cfg7.N) : RowEmb (R := 5000) (N := 160000) (C := 1) (t.val * 5000) ((cfg7.win 7).blk t).view.emb := by
  obtain ⟨-, -, -, -, -, -, -, -, -, -, -, -, -, -, e0, e1⟩ := idx7 t
  refine ⟨fun y => ?_, fun y => ?_⟩
  · show win7_7.index t (0 : Fin 2) * 5000 + 1 * (y 0).val = _; omega
  · show win7_7.index t (1 : Fin 2) * 1 + 1 * (y 1).val = _; omega

/-- The block of window 1 at any point is its whole array. -/
theorem blk7_1 (c : Dev nD) (t : Fin cfg7.N) : iblk7 V c 1 t = V c main_v108 :=
  funext fun q => by
    show V c main_v108 (((cfg7.win 1).blk t).view.emb q) = _
    rw [(emb7_1 t).eq]

/-- The block of window 2 at any point is its whole array. -/
theorem blk7_2 (c : Dev nD) (t : Fin cfg7.N) : iblk7 V c 2 t = V c main_v109 :=
  funext fun q => by
    show V c main_v109 (((cfg7.win 2).blk t).view.emb q) = _
    rw [(emb7_2 t).eq]

/-- The block of window 3 at any point is its whole array. -/
theorem blk7_3 (c : Dev nD) (t : Fin cfg7.N) : iblk7 V c 3 t = V c main_v57 :=
  funext fun q => by
    show V c main_v57 (((cfg7.win 3).blk t).view.emb q) = _
    rw [(emb7_3 t).eq]

/-- The block of window 4 at any point is its whole array. -/
theorem blk7_4 (c : Dev nD) (t : Fin cfg7.N) : iblk7 V c 4 t = V c main_v58 :=
  funext fun q => by
    show V c main_v58 (((cfg7.win 4).blk t).view.emb q) = _
    rw [(emb7_4 t).eq]

/-- The block of window 5 at any point is its whole array. -/
theorem blk7_5 (c : Dev nD) (t : Fin cfg7.N) : iblk7 V c 5 t = V c main_v59 :=
  funext fun q => by
    show V c main_v59 (((cfg7.win 5).blk t).view.emb q) = _
    rw [(emb7_5 t).eq]

/-- The block of window 6 at any point is its whole array. -/
theorem blk7_6 (c : Dev nD) (t : Fin cfg7.N) : iblk7 V c 6 t = V c main_v60 :=
  funext fun q => by
    show V c main_v60 (((cfg7.win 6).blk t).view.emb q) = _
    rw [(emb7_6 t).eq]

/-- What point t writes back is block t of the whole-array result. -/
theorem flushed7 (c : Dev nD) (t : Fin cfg7.N) :
    (dat7 V c).flushed 7 t = ((cfg7.win 7).blk t).view.read (Elt Ideal) (bnLin3 (V c main_v104) (V c main_v108) (V c main_v109) (V c main_v57) (V c main_v58) (V c main_v59) (V c main_v60)) := by
  show (cfg7.win 7).cut (grid7.coords t) ((dat7 V c).after 7 t) = _
  rw [after7_7]
  unfold out7_7
  rw [View.canon_unit_zero hz2_7]
  simp only [View.ld_unit_zero (S := S5000x64) hz2_7, View.ld_unit_zero (S := S1x64) hz2_7, View.ld_unit_zero (S := S64x1) hz2_7, View.ld_unit_zero (S := S1x1) hz2_7]
  have ht := lt32_7 t
  funext y
  show k7_pay1 (iblk7 V c 0 t) (iblk7 V c 1 t) (iblk7 V c 2 t) (iblk7 V c 3 t) (iblk7 V c 4 t) (iblk7 V c 5 t) (iblk7 V c 6 t) y = (bnLin3 (V c main_v104) (V c main_v108) (V c main_v109) (V c main_v57) (V c main_v58) (V c main_v59) (V c main_v60)) (((cfg7.win 7).blk t).view.emb y)
  rw [blk7_1 V c t, blk7_2 V c t, blk7_3 V c t, blk7_4 V c t, blk7_5 V c t, blk7_6 V c t]
  unfold k7_pay1 bnLin3
  show (_ : EReal) + _ = _ + _
  refine congrArg₂ (· + ·) ?_ ?_
  · refine matmul_64_1 _ _ _ _ _ _ (emb7_0 t) (emb7_7 t) (fun z => ?_) (fun z => ?_) y
    · rw [truncf_apply]
      show max _ _ = max _ _
      refine congrArg₂ max ?_ (splat_64 _ z _)
      show _ + _ = _ + _
      refine congrArg₂ (· + ·) ?_ (bcastRow_64 _ _ _ (emb7_0 t) (fun q => by rw [shapeCast_self]) z)
      show _ * _ = _ * _
      refine congrArg₂ (· * ·) ?_ (bcastRow_64 _ _ _ (emb7_0 t) (fun q => by rw [shapeCast_self]) z)
      show _ * _ = _ * _
      refine congrArg₂ (· * ·) ?_ (bcastRow_64 _ _ _ (emb7_0 t) (fun q => by rw [shapeCast_self]) z)
      show _ - _ = _ - _
      refine congrArg₂ (· - ·) ?_ (bcastRow_64 _ _ _ (emb7_0 t) (fun q => by rw [shapeCast_self]) z)
      rw [shapeCast_self]; rfl
    · rw [truncf_apply, shapeCast_self]
  · exact bcastRow_1 _ _ _ (emb7_7 t) (fun q => by rw [shapeCast_self]) y

theorem mem_blk7 (t : Fin cfg7.N) (i : S160000x1.Idx) :
    i ∈ ((cfg7.win 7).blk t).view.set ↔ ∀ a : Fin 2, win7_7.index t a * S5000x1.size a ≤ (i a).val ∧ (i a).val < win7_7.index t a * S5000x1.size a + S5000x1.size a := by
  show i ∈ ((View.whole main_v110).slice (win7_7.rect t)).set ↔ _
  rw [View.set_slice_whole, Rect.mem_set_unit]
  exact Iff.rfl

/-- Every row of the output lies in some point's block: row n in block n / 5000. -/
theorem cover7 (i : S160000x1.Idx) : ∃ t : Fin cfg7.N, (cfg7.win 7).flush t = true ∧ i ∈ ((cfg7.win 7).blk t).view.set := by
  have hi0 : (i 0).val < 160000 := (i 0).isLt
  have hi1 : (i 1).val < 1 := (i 1).isLt
  obtain ⟨t, ht⟩ := onto7 ⟨(i 0).val / 5000, by omega⟩
  have q0 : win7_7.index t (0 : Fin 2) = (i 0).val / 5000 := congrFun ht 0
  have q1 : win7_7.index t (1 : Fin 2) = 0 := congrFun ht 1
  refine ⟨t, flush7_7 t, ?_⟩
  rw [mem_blk7]
  intro a
  match a with
  | ⟨0, _⟩ => show win7_7.index t (0 : Fin 2) * 5000 ≤ (i 0).val ∧ (i 0).val < win7_7.index t (0 : Fin 2) * 5000 + 5000; omega
  | ⟨1, _⟩ => show win7_7.index t (1 : Fin 2) * 1 ≤ (i 1).val ∧ (i 1).val < win7_7.index t (1 : Fin 2) * 1 + 1; omega

/-- The output array after the region, as one function of the input arrays as the region found them. -/
theorem final7 (c : Dev nD) : (dat7 V c).arrAt 7 cfg7.N = bnLin3 (V c main_v104) (V c main_v108) (V c main_v109) (V c main_v57) (V c main_v58) (V c main_v59) (V c main_v60) :=
  (dat7 V c).arrAt_eq_of_cover 7 _ (fun t _ => flushed7 V c t) cover7

end Cert.KernelIdeal.Regions

end
-- ==== Proof.KStages.lean ====
/-
  The idealized kernel's buffer contents, segment by segment.

  The generated fold W0 … W20 gives every buffer's contents at each of @main's twenty segment boundaries. This module
  adds what the comparison with the reference uses: a buffer a stretch of host operations does not write keeps its
  contents through it; an input array of a region is unchanged by it; and each region's output array, at the region's
  exit, is the region's whole-array function (Reg0 … Reg7) of the contents its input arrays had at its entry.
-/
import proofs.«175455_j86191403696584_1_alg».proof.Proof.Gen.KernelIdeal.Frame
import proofs.«175455_j86191403696584_1_alg».proof.Proof.Reg0
import proofs.«175455_j86191403696584_1_alg».proof.Proof.Reg1
import proofs.«175455_j86191403696584_1_alg».proof.Proof.Reg2
import proofs.«175455_j86191403696584_1_alg».proof.Proof.Reg3
import proofs.«175455_j86191403696584_1_alg».proof.Proof.Reg4
import proofs.«175455_j86191403696584_1_alg».proof.Proof.Reg5
import proofs.«175455_j86191403696584_1_alg».proof.Proof.Reg6
import proofs.«175455_j86191403696584_1_alg».proof.Proof.Reg7

set_option maxRecDepth 16384

noncomputable section

namespace Cert.KernelIdeal.Stages

open Cert.KernelIdeal Cert.KernelIdeal.Gen Cert.KernelIdeal.Regions
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-- The buffers the stretch `hostOps0` writes. -/
abbrev hostOps0_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem hostOps0_writes : (hostOps0 : List (HloOp τ sig (Elt Ideal))).Forall fun op => op.writes ⊆ (hostOps0_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
theorem W1_keep (c : Dev nD) (r : Ref sig .tc) (h : r ∉ hostOps0_W) :
    W1 m ρ c (Proc.devRef .tc r) = W0 m ρ c (Proc.devRef .tc r) :=
  after_of_writes_sub hostOps0 _ hostOps0_writes h

/-- The buffers the stretch `hostOps0_1` writes. -/
abbrev hostOps0_1_W : List (Ref sig .tc) := [main_call0_v0, main_call0_v1, main_v16]
theorem hostOps0_1_writes : (hostOps0_1 : List (HloOp τ sig (Elt Ideal))).Forall fun op => op.writes ⊆ (hostOps0_1_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
theorem W2_keep (c : Dev nD) (r : Ref sig .tc) (h : r ∉ hostOps0_1_W) :
    W2 m ρ c (Proc.devRef .tc r) = W1 m ρ c (Proc.devRef .tc r) :=
  after_of_writes_sub hostOps0_1 _ hostOps0_1_writes h

/-- The buffers the stretch `hostOps0_2` writes. -/
abbrev hostOps0_2_W : List (Ref sig .tc) := [main_c, main_v17, main_v18, main_c_4, main_v19, main_v20, main_v21, main_v22, main_v23, main_c_5, main_v24, main_v25, main_c_6, main_v26, main_v27, main_v28, main_v29, main_v30, main_v31]
theorem hostOps0_2_writes : (hostOps0_2 : List (HloOp τ sig (Elt Ideal))).Forall fun op => op.writes ⊆ (hostOps0_2_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
theorem W3_keep (c : Dev nD) (r : Ref sig .tc) (h : r ∉ hostOps0_2_W) :
    W3 m ρ c (Proc.devRef .tc r) = W2 m ρ c (Proc.devRef .tc r) :=
  after_of_writes_sub hostOps0_2 _ hostOps0_2_writes h

/-- The buffers the stretch `hostOps0_3` writes. -/
abbrev hostOps0_3_W : List (Ref sig .tc) := [main_call1_v0, main_call1_cst, main_call1_v1, main_call1_v2, main_v32]
theorem hostOps0_3_writes : (hostOps0_3 : List (HloOp τ sig (Elt Ideal))).Forall fun op => op.writes ⊆ (hostOps0_3_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
theorem W4_keep (c : Dev nD) (r : Ref sig .tc) (h : r ∉ hostOps0_3_W) :
    W4 m ρ c (Proc.devRef .tc r) = W3 m ρ c (Proc.devRef .tc r) :=
  after_of_writes_sub hostOps0_3 _ hostOps0_3_writes h

/-- The buffers the stretch `hostOps0_4` writes. -/
abbrev hostOps0_4_W : List (Ref sig .tc) := [main_cst_7, main_v33, main_v34, main_cst_8, main_v35, main_v36, main_cst_9, main_v37, main_v38, main_v39, main_v40, main_v41, main_v42, main_v43, main_v44, main_v45, main_v46, main_v47, main_v48, main_v49, main_v50, main_v51, main_v52, main_v53, main_v54, main_v55, main_v56, main_v57, main_v58, main_v59, main_v60]
theorem hostOps0_4_writes : (hostOps0_4 : List (HloOp τ sig (Elt Ideal))).Forall fun op => op.writes ⊆ (hostOps0_4_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
theorem W5_keep (c : Dev nD) (r : Ref sig .tc) (h : r ∉ hostOps0_4_W) :
    W5 m ρ c (Proc.devRef .tc r) = W4 m ρ c (Proc.devRef .tc r) :=
  after_of_writes_sub hostOps0_4 _ hostOps0_4_writes h

/-- The buffers the stretch `hostOps2` writes. -/
abbrev hostOps2_W : List (Ref sig .tc) := [main_v63, main_c_10, main_v64, main_v65, main_c_11, main_v66, main_v67, main_v68, main_v69, main_v70, main_v71, main_v72, main_v73, main_cst_12, main_v74, main_v75, main_v76, main_v77, main_v78]
theorem hostOps2_writes : (hostOps2 : List (HloOp τ sig (Elt Ideal))).Forall fun op => op.writes ⊆ (hostOps2_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
theorem W8_keep (c : Dev nD) (r : Ref sig .tc) (h : r ∉ hostOps2_W) :
    W8 m ρ c (Proc.devRef .tc r) = W7 m ρ c (Proc.devRef .tc r) :=
  after_of_writes_sub hostOps2 _ hostOps2_writes h

/-- The buffers the stretch `hostOps4` writes. -/
abbrev hostOps4_W : List (Ref sig .tc) := [main_v81, main_c_13, main_v82, main_v83, main_c_14, main_v84, main_v85, main_v86, main_v87, main_v88, main_v89, main_v90, main_v91, main_cst_15, main_v92, main_v93, main_v94, main_v95, main_v96]
theorem hostOps4_writes : (hostOps4 : List (HloOp τ sig (Elt Ideal))).Forall fun op => op.writes ⊆ (hostOps4_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
theorem W11_keep (c : Dev nD) (r : Ref sig .tc) (h : r ∉ hostOps4_W) :
    W11 m ρ c (Proc.devRef .tc r) = W10 m ρ c (Proc.devRef .tc r) :=
  after_of_writes_sub hostOps4 _ hostOps4_writes h

/-- The buffers the stretch `hostOps6` writes. -/
abbrev hostOps6_W : List (Ref sig .tc) := [main_cst_16, main_v99, main_v100, main_cst_17, main_v101, main_v102, main_c_18]
theorem hostOps6_writes : (hostOps6 : List (HloOp τ sig (Elt Ideal))).Forall fun op => op.writes ⊆ (hostOps6_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
theorem W14_keep (c : Dev nD) (r : Ref sig .tc) (h : r ∉ hostOps6_W) :
    W14 m ρ c (Proc.devRef .tc r) = W13 m ρ c (Proc.devRef .tc r) :=
  after_of_writes_sub hostOps6 _ hostOps6_writes h

/-- The buffers the stretch `hostOps6_1` writes. -/
abbrev hostOps6_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v103]
theorem hostOps6_1_writes : (hostOps6_1 : List (HloOp τ sig (Elt Ideal))).Forall fun op => op.writes ⊆ (hostOps6_1_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
theorem W15_keep (c : Dev nD) (r : Ref sig .tc) (h : r ∉ hostOps6_1_W) :
    W15 m ρ c (Proc.devRef .tc r) = W14 m ρ c (Proc.devRef .tc r) :=
  after_of_writes_sub hostOps6_1 _ hostOps6_1_writes h

/-- The buffers the stretch `hostOps7` writes. -/
abbrev hostOps7_W : List (Ref sig .tc) := [main_cst_19, main_v105, main_v106, main_cst_20, main_v107, main_v108, main_c_21]
theorem hostOps7_writes : (hostOps7 : List (HloOp τ sig (Elt Ideal))).Forall fun op => op.writes ⊆ (hostOps7_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
theorem W17_keep (c : Dev nD) (r : Ref sig .tc) (h : r ∉ hostOps7_W) :
    W17 m ρ c (Proc.devRef .tc r) = W16 m ρ c (Proc.devRef .tc r) :=
  after_of_writes_sub hostOps7 _ hostOps7_writes h

/-- The buffers the stretch `hostOps7_1` writes. -/
abbrev hostOps7_1_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v109]
theorem hostOps7_1_writes : (hostOps7_1 : List (HloOp τ sig (Elt Ideal))).Forall fun op => op.writes ⊆ (hostOps7_1_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
theorem W18_keep (c : Dev nD) (r : Ref sig .tc) (h : r ∉ hostOps7_1_W) :
    W18 m ρ c (Proc.devRef .tc r) = W17 m ρ c (Proc.devRef .tc r) :=
  after_of_writes_sub hostOps7_1 _ hostOps7_1_writes h

/-- The buffers the stretch `hostOps8` writes. -/
abbrev hostOps8_W : List (Ref sig .tc) := [main_v111]
theorem hostOps8_writes : (hostOps8 : List (HloOp τ sig (Elt Ideal))).Forall fun op => op.writes ⊆ (hostOps8_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
theorem W20_keep (c : Dev nD) (r : Ref sig .tc) (h : r ∉ hostOps8_W) :
    W20 m ρ c (Proc.devRef .tc r) = W19 m ρ c (Proc.devRef .tc r) :=
  after_of_writes_sub hostOps8 _ hostOps8_writes h

/-- Region 0 leaves its input array 0 (`main_arg0`) as it found it. -/
theorem W6_in0 (c : Dev nD) : W6 m ρ c (Proc.devRef .tc main_arg0) = W5 m ρ c (Proc.devRef .tc main_arg0) :=
  (W6_arr m ρ c 0).trans (((dat0 (V5 m ρ) c).arrAt_in 0 rfl _).trans (A_eq0 (V5 m ρ) c 0))
/-- Region 0 leaves its input array 1 (`main_v40`) as it found it. -/
theorem W6_in1 (c : Dev nD) : W6 m ρ c (Proc.devRef .tc main_v40) = W5 m ρ c (Proc.devRef .tc main_v40) :=
  (W6_arr m ρ c 1).trans (((dat0 (V5 m ρ) c).arrAt_in 1 rfl _).trans (A_eq0 (V5 m ρ) c 1))
/-- Region 0 leaves its input array 2 (`main_v41`) as it found it. -/
theorem W6_in2 (c : Dev nD) : W6 m ρ c (Proc.devRef .tc main_v41) = W5 m ρ c (Proc.devRef .tc main_v41) :=
  (W6_arr m ρ c 2).trans (((dat0 (V5 m ρ) c).arrAt_in 2 rfl _).trans (A_eq0 (V5 m ρ) c 2))
/-- Region 0 leaves its input array 3 (`main_v42`) as it found it. -/
theorem W6_in3 (c : Dev nD) : W6 m ρ c (Proc.devRef .tc main_v42) = W5 m ρ c (Proc.devRef .tc main_v42) :=
  (W6_arr m ρ c 3).trans (((dat0 (V5 m ρ) c).arrAt_in 3 rfl _).trans (A_eq0 (V5 m ρ) c 3))
/-- Region 0 leaves its input array 4 (`main_v43`) as it found it. -/
theorem W6_in4 (c : Dev nD) : W6 m ρ c (Proc.devRef .tc main_v43) = W5 m ρ c (Proc.devRef .tc main_v43) :=
  (W6_arr m ρ c 4).trans (((dat0 (V5 m ρ) c).arrAt_in 4 rfl _).trans (A_eq0 (V5 m ρ) c 4))
/-- Region 0 leaves its input array 5 (`main_v44`) as it found it. -/
theorem W6_in5 (c : Dev nD) : W6 m ρ c (Proc.devRef .tc main_v44) = W5 m ρ c (Proc.devRef .tc main_v44) :=
  (W6_arr m ρ c 5).trans (((dat0 (V5 m ρ) c).arrAt_in 5 rfl _).trans (A_eq0 (V5 m ρ) c 5))
/-- Region 0 leaves its input array 6 (`main_v45`) as it found it. -/
theorem W6_in6 (c : Dev nD) : W6 m ρ c (Proc.devRef .tc main_v45) = W5 m ρ c (Proc.devRef .tc main_v45) :=
  (W6_arr m ρ c 6).trans (((dat0 (V5 m ρ) c).arrAt_in 6 rfl _).trans (A_eq0 (V5 m ρ) c 6))
/-- Region 0 leaves its input array 7 (`main_v46`) as it found it. -/
theorem W6_in7 (c : Dev nD) : W6 m ρ c (Proc.devRef .tc main_v46) = W5 m ρ c (Proc.devRef .tc main_v46) :=
  (W6_arr m ρ c 7).trans (((dat0 (V5 m ρ) c).arrAt_in 7 rfl _).trans (A_eq0 (V5 m ρ) c 7))
/-- Region 0 leaves its input array 8 (`main_v47`) as it found it. -/
theorem W6_in8 (c : Dev nD) : W6 m ρ c (Proc.devRef .tc main_v47) = W5 m ρ c (Proc.devRef .tc main_v47) :=
  (W6_arr m ρ c 8).trans (((dat0 (V5 m ρ) c).arrAt_in 8 rfl _).trans (A_eq0 (V5 m ρ) c 8))
/-- Region 0 leaves its input array 9 (`main_v48`) as it found it. -/
theorem W6_in9 (c : Dev nD) : W6 m ρ c (Proc.devRef .tc main_v48) = W5 m ρ c (Proc.devRef .tc main_v48) :=
  (W6_arr m ρ c 9).trans (((dat0 (V5 m ρ) c).arrAt_in 9 rfl _).trans (A_eq0 (V5 m ρ) c 9))
/-- Region 0's output `main_v61_0` at its exit, from the contents of its inputs at its entry. -/
theorem W6_main_v61_0 (c : Dev nD) : W6 m ρ c (Proc.devRef .tc main_v61_0) = baseEmb (V5 m ρ c main_arg0) (V5 m ρ c main_v40) (V5 m ρ c main_v43) (V5 m ρ c main_v44) (V5 m ρ c main_v45) (V5 m ρ c main_v46) :=
  (W6_arr m ρ c 10).trans (final0_10 (V5 m ρ) c)
/-- Region 0's output `main_v61_1` at its exit, from the contents of its inputs at its entry. -/
theorem W6_main_v61_1 (c : Dev nD) : W6 m ρ c (Proc.devRef .tc main_v61_1) = hidden0 (V5 m ρ c main_arg0) (V5 m ρ c main_v40) (V5 m ρ c main_v41) (V5 m ρ c main_v42) (V5 m ρ c main_v43) (V5 m ρ c main_v44) (V5 m ρ c main_v45) (V5 m ρ c main_v46) (V5 m ρ c main_v47) (V5 m ρ c main_v48) :=
  (W6_arr m ρ c 11).trans (final0_11 (V5 m ρ) c)

/-- Region 1 leaves its input array 0 (`main_v61_1`) as it found it. -/
theorem W7_in0 (c : Dev nD) : W7 m ρ c (Proc.devRef .tc main_v61_1) = W6 m ρ c (Proc.devRef .tc main_v61_1) :=
  (W7_arr m ρ c 0).trans (((dat1 (V6 m ρ) c).arrAt_in 0 rfl _).trans (A_eq1 (V6 m ρ) c 0))
/-- Region 1 leaves its input array 1 (`main_v49`) as it found it. -/
theorem W7_in1 (c : Dev nD) : W7 m ρ c (Proc.devRef .tc main_v49) = W6 m ρ c (Proc.devRef .tc main_v49) :=
  (W7_arr m ρ c 1).trans (((dat1 (V6 m ρ) c).arrAt_in 1 rfl _).trans (A_eq1 (V6 m ρ) c 1))
/-- Region 1's output `main_v62` at its exit, from the contents of its inputs at its entry. -/
theorem W7_main_v62 (c : Dev nD) : W7 m ρ c (Proc.devRef .tc main_v62) = prod64 (V6 m ρ c main_v61_1) (V6 m ρ c main_v49) :=
  (W7_arr m ρ c 2).trans (final1 (V6 m ρ) c)

/-- Region 2 leaves its input array 0 (`main_v78`) as it found it. -/
theorem W9_in0 (c : Dev nD) : W9 m ρ c (Proc.devRef .tc main_v78) = W8 m ρ c (Proc.devRef .tc main_v78) :=
  (W9_arr m ρ c 0).trans (((dat2 (V8 m ρ) c).arrAt_in 0 rfl _).trans (A_eq2 (V8 m ρ) c 0))
/-- Region 2 leaves its input array 1 (`main_v61_0`) as it found it. -/
theorem W9_in1 (c : Dev nD) : W9 m ρ c (Proc.devRef .tc main_v61_0) = W8 m ρ c (Proc.devRef .tc main_v61_0) :=
  (W9_arr m ρ c 1).trans (((dat2 (V8 m ρ) c).arrAt_in 1 rfl _).trans (A_eq2 (V8 m ρ) c 1))
/-- Region 2 leaves its input array 2 (`main_v47`) as it found it. -/
theorem W9_in2 (c : Dev nD) : W9 m ρ c (Proc.devRef .tc main_v47) = W8 m ρ c (Proc.devRef .tc main_v47) :=
  (W9_arr m ρ c 2).trans (((dat2 (V8 m ρ) c).arrAt_in 2 rfl _).trans (A_eq2 (V8 m ρ) c 2))
/-- Region 2 leaves its input array 3 (`main_v48`) as it found it. -/
theorem W9_in3 (c : Dev nD) : W9 m ρ c (Proc.devRef .tc main_v48) = W8 m ρ c (Proc.devRef .tc main_v48) :=
  (W9_arr m ρ c 3).trans (((dat2 (V8 m ρ) c).arrAt_in 3 rfl _).trans (A_eq2 (V8 m ρ) c 3))
/-- Region 2's output `main_v79` at its exit, from the contents of its inputs at its entry. -/
theorem W9_main_v79 (c : Dev nD) : W9 m ρ c (Proc.devRef .tc main_v79) = fuse1 (V8 m ρ c main_v78) (V8 m ρ c main_v61_0) (V8 m ρ c main_v47) (V8 m ρ c main_v48) :=
  (W9_arr m ρ c 4).trans (final2 (V8 m ρ) c)

/-- Region 3 leaves its input array 0 (`main_v79`) as it found it. -/
theorem W10_in0 (c : Dev nD) : W10 m ρ c (Proc.devRef .tc main_v79) = W9 m ρ c (Proc.devRef .tc main_v79) :=
  (W10_arr m ρ c 0).trans (((dat3 (V9 m ρ) c).arrAt_in 0 rfl _).trans (A_eq3 (V9 m ρ) c 0))
/-- Region 3 leaves its input array 1 (`main_v50`) as it found it. -/
theorem W10_in1 (c : Dev nD) : W10 m ρ c (Proc.devRef .tc main_v50) = W9 m ρ c (Proc.devRef .tc main_v50) :=
  (W10_arr m ρ c 1).trans (((dat3 (V9 m ρ) c).arrAt_in 1 rfl _).trans (A_eq3 (V9 m ρ) c 1))
/-- Region 3's output `main_v80` at its exit, from the contents of its inputs at its entry. -/
theorem W10_main_v80 (c : Dev nD) : W10 m ρ c (Proc.devRef .tc main_v80) = prod64' (V9 m ρ c main_v79) (V9 m ρ c main_v50) :=
  (W10_arr m ρ c 2).trans (final3 (V9 m ρ) c)

/-- Region 4 leaves its input array 0 (`main_v96`) as it found it. -/
theorem W12_in0 (c : Dev nD) : W12 m ρ c (Proc.devRef .tc main_v96) = W11 m ρ c (Proc.devRef .tc main_v96) :=
  (W12_arr m ρ c 0).trans (((dat4 (V11 m ρ) c).arrAt_in 0 rfl _).trans (A_eq4 (V11 m ρ) c 0))
/-- Region 4 leaves its input array 1 (`main_v61_0`) as it found it. -/
theorem W12_in1 (c : Dev nD) : W12 m ρ c (Proc.devRef .tc main_v61_0) = W11 m ρ c (Proc.devRef .tc main_v61_0) :=
  (W12_arr m ρ c 1).trans (((dat4 (V11 m ρ) c).arrAt_in 1 rfl _).trans (A_eq4 (V11 m ρ) c 1))
/-- Region 4 leaves its input array 2 (`main_v47`) as it found it. -/
theorem W12_in2 (c : Dev nD) : W12 m ρ c (Proc.devRef .tc main_v47) = W11 m ρ c (Proc.devRef .tc main_v47) :=
  (W12_arr m ρ c 2).trans (((dat4 (V11 m ρ) c).arrAt_in 2 rfl _).trans (A_eq4 (V11 m ρ) c 2))
/-- Region 4 leaves its input array 3 (`main_v48`) as it found it. -/
theorem W12_in3 (c : Dev nD) : W12 m ρ c (Proc.devRef .tc main_v48) = W11 m ρ c (Proc.devRef .tc main_v48) :=
  (W12_arr m ρ c 3).trans (((dat4 (V11 m ρ) c).arrAt_in 3 rfl _).trans (A_eq4 (V11 m ρ) c 3))
/-- Region 4's output `main_v97` at its exit, from the contents of its inputs at its entry. -/
theorem W12_main_v97 (c : Dev nD) : W12 m ρ c (Proc.devRef .tc main_v97) = fuse2 (V11 m ρ c main_v96) (V11 m ρ c main_v61_0) (V11 m ρ c main_v47) (V11 m ρ c main_v48) :=
  (W12_arr m ρ c 4).trans (final4 (V11 m ρ) c)

/-- Region 5 leaves its input array 0 (`main_v97`) as it found it. -/
theorem W13_in0 (c : Dev nD) : W13 m ρ c (Proc.devRef .tc main_v97) = W12 m ρ c (Proc.devRef .tc main_v97) :=
  (W13_arr m ρ c 0).trans (((dat5 (V12 m ρ) c).arrAt_in 0 rfl _).trans (A_eq5 (V12 m ρ) c 0))
/-- Region 5 leaves its input array 1 (`main_v51`) as it found it. -/
theorem W13_in1 (c : Dev nD) : W13 m ρ c (Proc.devRef .tc main_v51) = W12 m ρ c (Proc.devRef .tc main_v51) :=
  (W13_arr m ρ c 1).trans (((dat5 (V12 m ρ) c).arrAt_in 1 rfl _).trans (A_eq5 (V12 m ρ) c 1))
/-- Region 5 leaves its input array 2 (`main_v52`) as it found it. -/
theorem W13_in2 (c : Dev nD) : W13 m ρ c (Proc.devRef .tc main_v52) = W12 m ρ c (Proc.devRef .tc main_v52) :=
  (W13_arr m ρ c 2).trans (((dat5 (V12 m ρ) c).arrAt_in 2 rfl _).trans (A_eq5 (V12 m ρ) c 2))
/-- Region 5's output `main_v98` at its exit, from the contents of its inputs at its entry. -/
theorem W13_main_v98 (c : Dev nD) : W13 m ρ c (Proc.devRef .tc main_v98) = lin1 (V12 m ρ c main_v97) (V12 m ρ c main_v51) (V12 m ρ c main_v52) :=
  (W13_arr m ρ c 3).trans (final5 (V12 m ρ) c)

/-- Region 6 leaves its input array 0 (`main_v98`) as it found it. -/
theorem W16_in0 (c : Dev nD) : W16 m ρ c (Proc.devRef .tc main_v98) = W15 m ρ c (Proc.devRef .tc main_v98) :=
  (W16_arr m ρ c 0).trans (((dat6 (V15 m ρ) c).arrAt_in 0 rfl _).trans (A_eq6 (V15 m ρ) c 0))
/-- Region 6 leaves its input array 1 (`main_v102`) as it found it. -/
theorem W16_in1 (c : Dev nD) : W16 m ρ c (Proc.devRef .tc main_v102) = W15 m ρ c (Proc.devRef .tc main_v102) :=
  (W16_arr m ρ c 1).trans (((dat6 (V15 m ρ) c).arrAt_in 1 rfl _).trans (A_eq6 (V15 m ρ) c 1))
/-- Region 6 leaves its input array 2 (`main_v103`) as it found it. -/
theorem W16_in2 (c : Dev nD) : W16 m ρ c (Proc.devRef .tc main_v103) = W15 m ρ c (Proc.devRef .tc main_v103) :=
  (W16_arr m ρ c 2).trans (((dat6 (V15 m ρ) c).arrAt_in 2 rfl _).trans (A_eq6 (V15 m ρ) c 2))
/-- Region 6 leaves its input array 3 (`main_v53`) as it found it. -/
theorem W16_in3 (c : Dev nD) : W16 m ρ c (Proc.devRef .tc main_v53) = W15 m ρ c (Proc.devRef .tc main_v53) :=
  (W16_arr m ρ c 3).trans (((dat6 (V15 m ρ) c).arrAt_in 3 rfl _).trans (A_eq6 (V15 m ρ) c 3))
/-- Region 6 leaves its input array 4 (`main_v54`) as it found it. -/
theorem W16_in4 (c : Dev nD) : W16 m ρ c (Proc.devRef .tc main_v54) = W15 m ρ c (Proc.devRef .tc main_v54) :=
  (W16_arr m ρ c 4).trans (((dat6 (V15 m ρ) c).arrAt_in 4 rfl _).trans (A_eq6 (V15 m ρ) c 4))
/-- Region 6 leaves its input array 5 (`main_v55`) as it found it. -/
theorem W16_in5 (c : Dev nD) : W16 m ρ c (Proc.devRef .tc main_v55) = W15 m ρ c (Proc.devRef .tc main_v55) :=
  (W16_arr m ρ c 5).trans (((dat6 (V15 m ρ) c).arrAt_in 5 rfl _).trans (A_eq6 (V15 m ρ) c 5))
/-- Region 6 leaves its input array 6 (`main_v56`) as it found it. -/
theorem W16_in6 (c : Dev nD) : W16 m ρ c (Proc.devRef .tc main_v56) = W15 m ρ c (Proc.devRef .tc main_v56) :=
  (W16_arr m ρ c 6).trans (((dat6 (V15 m ρ) c).arrAt_in 6 rfl _).trans (A_eq6 (V15 m ρ) c 6))
/-- Region 6's output `main_v104` at its exit, from the contents of its inputs at its entry. -/
theorem W16_main_v104 (c : Dev nD) : W16 m ρ c (Proc.devRef .tc main_v104) = bnLin2 (V15 m ρ c main_v98) (V15 m ρ c main_v102) (V15 m ρ c main_v103) (V15 m ρ c main_v53) (V15 m ρ c main_v54) (V15 m ρ c main_v55) (V15 m ρ c main_v56) :=
  (W16_arr m ρ c 7).trans (final6 (V15 m ρ) c)

/-- Region 7 leaves its input array 0 (`main_v104`) as it found it. -/
theorem W19_in0 (c : Dev nD) : W19 m ρ c (Proc.devRef .tc main_v104) = W18 m ρ c (Proc.devRef .tc main_v104) :=
  (W19_arr m ρ c 0).trans (((dat7 (V18 m ρ) c).arrAt_in 0 rfl _).trans (A_eq7 (V18 m ρ) c 0))
/-- Region 7 leaves its input array 1 (`main_v108`) as it found it. -/
theorem W19_in1 (c : Dev nD) : W19 m ρ c (Proc.devRef .tc main_v108) = W18 m ρ c (Proc.devRef .tc main_v108) :=
  (W19_arr m ρ c 1).trans (((dat7 (V18 m ρ) c).arrAt_in 1 rfl _).trans (A_eq7 (V18 m ρ) c 1))
/-- Region 7 leaves its input array 2 (`main_v109`) as it found it. -/
theorem W19_in2 (c : Dev nD) : W19 m ρ c (Proc.devRef .tc main_v109) = W18 m ρ c (Proc.devRef .tc main_v109) :=
  (W19_arr m ρ c 2).trans (((dat7 (V18 m ρ) c).arrAt_in 2 rfl _).trans (A_eq7 (V18 m ρ) c 2))
/-- Region 7 leaves its input array 3 (`main_v57`) as it found it. -/
theorem W19_in3 (c : Dev nD) : W19 m ρ c (Proc.devRef .tc main_v57) = W18 m ρ c (Proc.devRef .tc main_v57) :=
  (W19_arr m ρ c 3).trans (((dat7 (V18 m ρ) c).arrAt_in 3 rfl _).trans (A_eq7 (V18 m ρ) c 3))
/-- Region 7 leaves its input array 4 (`main_v58`) as it found it. -/
theorem W19_in4 (c : Dev nD) : W19 m ρ c (Proc.devRef .tc main_v58) = W18 m ρ c (Proc.devRef .tc main_v58) :=
  (W19_arr m ρ c 4).trans (((dat7 (V18 m ρ) c).arrAt_in 4 rfl _).trans (A_eq7 (V18 m ρ) c 4))
/-- Region 7 leaves its input array 5 (`main_v59`) as it found it. -/
theorem W19_in5 (c : Dev nD) : W19 m ρ c (Proc.devRef .tc main_v59) = W18 m ρ c (Proc.devRef .tc main_v59) :=
  (W19_arr m ρ c 5).trans (((dat7 (V18 m ρ) c).arrAt_in 5 rfl _).trans (A_eq7 (V18 m ρ) c 5))
/-- Region 7 leaves its input array 6 (`main_v60`) as it found it. -/
theorem W19_in6 (c : Dev nD) : W19 m ρ c (Proc.devRef .tc main_v60) = W18 m ρ c (Proc.devRef .tc main_v60) :=
  (W19_arr m ρ c 6).trans (((dat7 (V18 m ρ) c).arrAt_in 6 rfl _).trans (A_eq7 (V18 m ρ) c 6))
/-- Region 7's output `main_v110` at its exit, from the contents of its inputs at its entry. -/
theorem W19_main_v110 (c : Dev nD) : W19 m ρ c (Proc.devRef .tc main_v110) = bnLin3 (V18 m ρ c main_v104) (V18 m ρ c main_v108) (V18 m ρ c main_v109) (V18 m ρ c main_v57) (V18 m ρ c main_v58) (V18 m ρ c main_v59) (V18 m ρ c main_v60) :=
  (W19_arr m ρ c 7).trans (final7 (V18 m ρ) c)

end Cert.KernelIdeal.Stages

end
-- ==== Proof.RRun.lean ====
/-
  The idealized reference's run, read back.

  @main of the reference is a straight line of 256 host operations once its private functions (where, norm, relu,
  var) are written out at their call sites over each call's own buffers. The line is cut into twenty consecutive
  segments, each ending at a value the comparison with the kernel names: the edge normalisation, the two input
  projections, the renormalised embedding table, the embedding transform, the first fused projection, the two
  graph-convolution products and aggregations with their fused projections, the three layers of the recovery network
  with the batch statistics between them, and the final reshape. Every weakly fair execution terminates with each
  buffer at the fold of the operations over the launch contents.
-/
import proofs.«175455_j86191403696584_1_alg».proof.Proof.Gen.ReferenceIdeal
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- Segment 0: the operations up to and including the one that writes `main_v31`. -/
abbrev seg0 : List (HloOp τ sig (Elt F)) :=
  [ StableHlo.nullary main_v0 (iotaInDim S160000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1760000 0 [⟨S1600000, a⟩, ⟨S160000, b⟩] concatenates_S1600000_S160000_S1760000_d0) : (⟨S1600000, .i32⟩ : BufTy).Contents (Elt F) → (⟨S160000, .i32⟩ : BufTy).Contents (Elt F) → (⟨S1760000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1760000 0 [⟨S1600000, a⟩, ⟨S160000, b⟩] concatenates_S1600000_S160000_S1760000_d0) : (⟨S1600000, .i32⟩ : BufTy).Contents (Elt F) → (⟨S160000, .i32⟩ : BufTy).Contents (Elt F) → (⟨S1760000, .i32⟩ : BufTy).Contents (Elt F)),
    StableHlo.nullary main_cst (constant S_ .f32 0x3F800000#32),
    StableHlo.unary main_cst main_v7 (broadcastInDim S1760000 ![] bcast_S_S1760000 : (⟨S_, .f32⟩ : BufTy).Contents (Elt F) → (⟨S1760000, .f32⟩ : BufTy).Contents (Elt F)),
    StableHlo.nullary main_cst_0 (constant S_ .f32 0x00000000#32),
    StableHlo.unary main_cst_0 main_v8 (broadcastInDim S160000 ![] bcast_S_S160000 : (⟨S_, .f32⟩ : BufTy).Contents (Elt F) → (⟨S160000, .f32⟩ : BufTy).Contents (Elt F)),
    StableHlo.unary main_v6 main_v9 (broadcastInDim S1760000x1 ![0] bcast_S1760000_S1760000x1_0 : (⟨S1760000, .i32⟩ : BufTy).Contents (Elt F) → (⟨S1760000x1, .i32⟩ : BufTy).Contents (Elt F)),
    StableHlo.ternary main_v8 main_v9 main_v7 main_v10 ((fun x i u => Host.scatterAdd scatter_S160000_S1760000x1_S1760000_n_0_0_1 x i u) : (⟨S160000, .f32⟩ : BufTy).Contents (Elt F) → (⟨S1760000x1, .i32⟩ : BufTy).Contents (Elt F) → (⟨S1760000, .f32⟩ : BufTy).Contents (Elt F) → (⟨S160000, .f32⟩ : BufTy).Contents (Elt F)),
    StableHlo.nullary main_cst_1 (constant S_ .f32 0x00000000#32),
    StableHlo.unary main_cst_1 main_v11 (broadcastInDim S160000 ![] bcast_S_S160000 : (⟨S_, .f32⟩ : BufTy).Contents (Elt F) → (⟨S160000, .f32⟩ : BufTy).Contents (Elt F)),
    StableHlo.binary main_v10 main_v11 main_v12 (cmpf .ogt : (⟨S160000, .f32⟩ : BufTy).Contents (Elt F) → (⟨S160000, .f32⟩ : BufTy).Contents (Elt F) → (⟨S160000, .i1⟩ : BufTy).Contents (Elt F)),
    StableHlo.nullary main_cst_2 (constant S_ .f32 0x3F800000#32),
    StableHlo.unary main_cst_2 main_v13 (broadcastInDim S160000 ![] bcast_S_S160000 : (⟨S_, .f32⟩ : BufTy).Contents (Elt F) → (⟨S160000, .f32⟩ : BufTy).Contents (Elt F)),
    StableHlo.binary main_v10 main_v13 main_v14 (maximumf : (⟨S160000, .f32⟩ : BufTy).Contents (Elt F) → (⟨S160000, .f32⟩ : BufTy).Contents (Elt F) → (⟨S160000, .f32⟩ : BufTy).Contents (Elt F)),
    StableHlo.unary main_v14 main_v15 (Host.rsqrt : (⟨S160000, .f32⟩ : BufTy).Contents (Elt F) → (⟨S160000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S160000 ![] bcast_S_S160000),
    StableHlo.TRef.ternary (.of main_v12) (.of main_v15) main_call0.v1 main_call0.v2 select,
    StableHlo.nullary main_c (constantI S_ 32 0#32),
    StableHlo.unary main_c main_v17 (broadcastInDim S1760000 ![] bcast_S_S1760000 : (⟨S_, .i32⟩ : BufTy).Contents (Elt F) → (⟨S1760000, .i32⟩ : BufTy).Contents (Elt F)),
    StableHlo.binary main_v3 main_v17 main_v18 (cmpi .slt : (⟨S1760000, .i32⟩ : BufTy).Contents (Elt F) → (⟨S1760000, .i32⟩ : BufTy).Contents (Elt F) → (⟨S1760000, .i1⟩ : BufTy).Contents (Elt F)),
    StableHlo.nullary main_c_4 (constantI S_ 32 160000#32),
    StableHlo.unary main_c_4 main_v19 (broadcastInDim S1760000 ![] bcast_S_S1760000 : (⟨S_, .i32⟩ : BufTy).Contents (Elt F) → (⟨S1760000, .i32⟩ : BufTy).Contents (Elt F)),
    StableHlo.binary main_v3 main_v19 main_v20 (addi : (⟨S1760000, .i32⟩ : BufTy).Contents (Elt F) → (⟨S1760000, .i32⟩ : BufTy).Contents (Elt F) → (⟨S1760000, .i32⟩ : BufTy).Contents (Elt F)),
    StableHlo.ternary main_v18 main_v20 main_v3 main_v21 (select : (⟨S1760000, .i1⟩ : BufTy).Contents (Elt F) → (⟨S1760000, .i32⟩ : BufTy).Contents (Elt F) → (⟨S1760000, .i32⟩ : BufTy).Contents (Elt F) → (⟨S1760000, .i32⟩ : BufTy).Contents (Elt F)),
    StableHlo.unary main_v21 main_v22 (broadcastInDim S1760000x1 ![0] bcast_S1760000_S1760000x1_0 : (⟨S1760000, .i32⟩ : BufTy).Contents (Elt F) → (⟨S1760000x1, .i32⟩ : BufTy).Contents (Elt F)),
    StableHlo.binary main_v16 main_v22 main_v23 ((fun x i => Host.gather gather_S160000_S1760000x1_S1760000_n_0_n_n_0_1_1 x i) : (⟨S160000, .f32⟩ : BufTy).Contents (Elt F) → (⟨S1760000x1, .i32⟩ : BufTy).Contents (Elt F) → (⟨S1760000, .f32⟩ : BufTy).Contents (Elt F)),
    StableHlo.nullary main_c_5 (constantI S_ 32 0#32),
    StableHlo.unary main_c_5 main_v24 (broadcastInDim S1760000 ![] bcast_S_S1760000 : (⟨S_, .i32⟩ : BufTy).Contents (Elt F) → (⟨S1760000, .i32⟩ : BufTy).Contents (Elt F)),
    StableHlo.binary main_v6 main_v24 main_v25 (cmpi .slt : (⟨S1760000, .i32⟩ : BufTy).Contents (Elt F) → (⟨S1760000, .i32⟩ : BufTy).Contents (Elt F) → (⟨S1760000, .i1⟩ : BufTy).Contents (Elt F)),
    StableHlo.nullary main_c_6 (constantI S_ 32 160000#32),
    StableHlo.unary main_c_6 main_v26 (broadcastInDim S1760000 ![] bcast_S_S1760000 : (⟨S_, .i32⟩ : BufTy).Contents (Elt F) → (⟨S1760000, .i32⟩ : BufTy).Contents (Elt F)),
    StableHlo.binary main_v6 main_v26 main_v27 (addi : (⟨S1760000, .i32⟩ : BufTy).Contents (Elt F) → (⟨S1760000, .i32⟩ : BufTy).Contents (Elt F) → (⟨S1760000, .i32⟩ : BufTy).Contents (Elt F)),
    StableHlo.ternary main_v25 main_v27 main_v6 main_v28 (select : (⟨S1760000, .i1⟩ : BufTy).Contents (Elt F) → (⟨S1760000, .i32⟩ : BufTy).Contents (Elt F) → (⟨S1760000, .i32⟩ : BufTy).Contents (Elt F) → (⟨S1760000, .i32⟩ : BufTy).Contents (Elt F)),
    StableHlo.unary main_v28 main_v29 (broadcastInDim S1760000x1 ![0] bcast_S1760000_S1760000x1_0 : (⟨S1760000, .i32⟩ : BufTy).Contents (Elt F) → (⟨S1760000x1, .i32⟩ : BufTy).Contents (Elt F)),
    StableHlo.binary main_v16 main_v29 main_v30 ((fun x i => Host.gather gather_S160000_S1760000x1_S1760000_n_0_n_n_0_1_1 x i) : (⟨S160000, .f32⟩ : BufTy).Contents (Elt F) → (⟨S1760000x1, .i32⟩ : BufTy).Contents (Elt F) → (⟨S1760000, .f32⟩ : BufTy).Contents (Elt F)),
    StableHlo.binary main_v23 main_v30 main_v31 (mulf : (⟨S1760000, .f32⟩ : BufTy).Contents (Elt F) → (⟨S1760000, .f32⟩ : BufTy).Contents (Elt F) → (⟨S1760000, .f32⟩ : BufTy).Contents (Elt F)) ]

/-- Segment 1: the operations up to and including the one that writes `main_v43`. -/
abbrev seg1 : List (HloOp τ sig (Elt F)) :=
  [ StableHlo.unary main_arg0 main_v32 ((extractStridedSlice S160000x1 ![0, 1] · slices_S160000x2_S160000x1_0_1) : (⟨S160000x2, .f32⟩ : BufTy).Contents (Elt F) → (⟨S160000x1, .f32⟩ : BufTy).Contents (Elt F)),
    StableHlo.unary main_arg2 main_v33 ((transpose S1x64 [1, 0] · transposes_S64x1_S1x64_1_0) : (⟨S64x1, .f32⟩ : BufTy).Contents (Elt F) → (⟨S1x64, .f32⟩ : BufTy).Contents (Elt F)),
    StableHlo.binary main_v32 main_v33 main_v34 ((fun l r => Host.dotGeneral dot_S160000x1_S1x64_S160000x64_1_0_0_1_n_n none l r) : (⟨S160000x1, .f32⟩ : BufTy).Contents (Elt F) → (⟨S1x64, .f32⟩ : BufTy).Contents (Elt F) → (⟨S160000x64, .f32⟩ : BufTy).Contents (Elt F)),
    StableHlo.unary main_arg3 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S160000x64 ![0, 1] bcast_S1x64_S160000x64_0_1 : (⟨S1x64, .f32⟩ : BufTy).Contents (Elt F) → (⟨S160000x64, .f32⟩ : BufTy).Contents (Elt F)),
    StableHlo.binary main_v34 main_v36 main_v37 (addf : (⟨S160000x64, .f32⟩ : BufTy).Contents (Elt F) → (⟨S160000x64, .f32⟩ : BufTy).Contents (Elt F) → (⟨S160000x64, .f32⟩ : BufTy).Contents (Elt F)),
    StableHlo.unary main_arg0 main_v38 ((extractStridedSlice S160000x1 ![0, 0] · slices_S160000x2_S160000x1_0_0) : (⟨S160000x2, .f32⟩ : BufTy).Contents (Elt F) → (⟨S160000x1, .f32⟩ : BufTy).Contents (Elt F)),
    StableHlo.unary main_arg4 main_v39 ((transpose S1x64 [1, 0] · transposes_S64x1_S1x64_1_0) : (⟨S64x1, .f32⟩ : BufTy).Contents (Elt F) → (⟨S1x64, .f32⟩ : BufTy).Contents (Elt F)),
    StableHlo.binary main_v38 main_v39 main_v40 ((fun l r => Host.dotGeneral dot_S160000x1_S1x64_S160000x64_1_0_0_1_n_n none l r) : (⟨S160000x1, .f32⟩ : BufTy).Contents (Elt F) → (⟨S1x64, .f32⟩ : BufTy).Contents (Elt F) → (⟨S160000x64, .f32⟩ : BufTy).Contents (Elt F)),
    StableHlo.unary main_arg5 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S160000x64 ![0, 1] bcast_S1x64_S160000x64_0_1 : (⟨S1x64, .f32⟩ : BufTy).Contents (Elt F) → (⟨S160000x64, .f32⟩ : BufTy).Contents (Elt F)),
    StableHlo.binary main_v40 main_v42 main_v43 (addf : (⟨S160000x64, .f32⟩ : BufTy).Contents (Elt F) → (⟨S160000x64, .f32⟩ : BufTy).Contents (Elt F) → (⟨S160000x64, .f32⟩ : BufTy).Contents (Elt F)) ]

/-- Segment 2: the operations up to and including the one that writes `main_v48`. -/
abbrev seg2 : List (HloOp τ sig (Elt F)) :=
  [ StableHlo.TRef.binary (.of main_arg6) (.of main_arg6) main_call1.v0 mulf,
    StableHlo.TRef.nullary main_call1.cst (constant S_ .f32 0x00000000#32),
    StableHlo.TRef.binary main_call1.v0 main_call1.cst main_call1.v1 (fun x v => Host.reduceAdd x v reducesTo_S5000x64_S5000_d1 h_S_),
    StableHlo.TRef.unary main_call1.v1 main_call1.v2 (broadcastInDim S5000x1 ![0] bcast_S5000_S5000x1_0),
    StableHlo.TRef.unary main_call1.v2 main_call1.v3 Host.sqrt,
    StableHlo.nullary main_cst_7 (constant S_ .f32 0x33D6BF95#32),
    StableHlo.unary main_cst_7 main_v45 (broadcastInDim S5000x1 ![] bcast_S_S5000x1 : (⟨S_, .f32⟩ : BufTy).Contents (Elt F) → (⟨S5000x1, .f32⟩ : BufTy).Contents (Elt F)),
    StableHlo.binary main_v44 main_v45 main_v46 (maximumf : (⟨S5000x1, .f32⟩ : BufTy).Contents (Elt F) → (⟨S5000x1, .f32⟩ : BufTy).Contents (Elt F) → (⟨S5000x1, .f32⟩ : BufTy).Contents (Elt F)),
    StableHlo.nullary main_cst_8 (constant S_ .f32 0x3F800000#32),
    StableHlo.unary main_cst_8 main_v47 (broadcastInDim S5000x1 ![] bcast_S_S5000x1 : (⟨S_, .f32⟩ : BufTy).Contents (Elt F) → (⟨S5000x1, .f32⟩ : BufTy).Contents (Elt F)),
    StableHlo.binary main_v47 main_v46 main_v48 (Host.divf : (⟨S5000x1, .f32⟩ : BufTy).Contents (Elt F) → (⟨S5000x1, .f32⟩ : BufTy).Contents (Elt F) → (⟨S5000x1, .f32⟩ : BufTy).Contents (Elt F)) ]

/-- Segment 3: the operations up to and including the one that writes `main_v52`. -/
abbrev seg3 : List (HloOp τ sig (Elt F)) :=
  [ StableHlo.nullary main_cst_9 (constant S_ .f32 0x3F800000#32),
    StableHlo.unary main_cst_9 main_v49 (broadcastInDim S5000x1 ![] bcast_S_S5000x1 : (⟨S_, .f32⟩ : BufTy).Contents (Elt F) → (⟨S5000x1, .f32⟩ : BufTy).Contents (Elt F)),
    StableHlo.binary main_v49 main_v48 main_v50 (minimumf : (⟨S5000x1, .f32⟩ : BufTy).Contents (Elt F) → (⟨S5000x1, .f32⟩ : BufTy).Contents (Elt F) → (⟨S5000x1, .f32⟩ : BufTy).Contents (Elt F)),
    StableHlo.unary main_v50 main_v51 (broadcastInDim S5000x64 ![0, 1] bcast_S5000x1_S5000x64_0_1 : (⟨S5000x1, .f32⟩ : BufTy).Contents (Elt F) → (⟨S5000x64, .f32⟩ : BufTy).Contents (Elt F)),
    StableHlo.binary main_arg6 main_v51 main_v52 (mulf : (⟨S5000x64, .f32⟩ : BufTy).Contents (Elt F) → (⟨S5000x64, .f32⟩ : BufTy).Contents (Elt F) → (⟨S5000x64, .f32⟩ : BufTy).Contents (Elt F)) ]

/-- Segment 4: the operations up to and including the one that writes `main_v61`. -/
abbrev seg4 : List (HloOp τ sig (Elt F)) :=
  [ StableHlo.reshape main_v52 main_v53 rfl shapeCasts_S5000x64_S1x5000x1x64,
    StableHlo.unary main_v53 main_v54 (broadcastInDim S32x5000x1x64 ![0, 1, 2, 3] bcast_S1x5000x1x64_S32x5000x1x64_0_1_2_3 : (⟨S1x5000x1x64, .f32⟩ : BufTy).Contents (Elt F) → (⟨S32x5000x1x64, .f32⟩ : BufTy).Contents (Elt F)),
    StableHlo.reshape main_v54 main_v55 rfl shapeCasts_S32x5000x1x64_S160000x64,
    StableHlo.binary main_v55 main_v43 main_v56 ((fun a b => concatenate S160000x128 1 [⟨S160000x64, a⟩, ⟨S160000x64, b⟩] concatenates_S160000x64_S160000x64_S160000x128_d1) : (⟨S160000x64, .f32⟩ : BufTy).Contents (Elt F) → (⟨S160000x64, .f32⟩ : BufTy).Contents (Elt F) → (⟨S160000x128, .f32⟩ : BufTy).Contents (Elt F)),
    StableHlo.unary main_arg7 main_v57 ((transpose S128x64 [1, 0] · transposes_S64x128_S128x64_1_0) : (⟨S64x128, .f32⟩ : BufTy).Contents (Elt F) → (⟨S128x64, .f32⟩ : BufTy).Contents (Elt F)),
    StableHlo.binary main_v56 main_v57 main_v58 ((fun l r => Host.dotGeneral dot_S160000x128_S128x64_S160000x64_1_0_0_1_n_n none l r) : (⟨S160000x128, .f32⟩ : BufTy).Contents (Elt F) → (⟨S128x64, .f32⟩ : BufTy).Contents (Elt F) → (⟨S160000x64, .f32⟩ : BufTy).Contents (Elt F)),
    StableHlo.unary main_arg8 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S160000x64 ![0, 1] bcast_S1x64_S160000x64_0_1 : (⟨S1x64, .f32⟩ : BufTy).Contents (Elt F) → (⟨S160000x64, .f32⟩ : BufTy).Contents (Elt F)),
    StableHlo.binary main_v58 main_v60 main_v61 (addf : (⟨S160000x64, .f32⟩ : BufTy).Contents (Elt F) → (⟨S160000x64, .f32⟩ : BufTy).Contents (Elt F) → (⟨S160000x64, .f32⟩ : BufTy).Contents (Elt F)) ]

/-- Segment 5: the operations up to and including the one that writes `main_v67`. -/
abbrev seg5 : List (HloOp τ sig (Elt F)) :=
  [ StableHlo.binary main_v37 main_v61 main_v62 ((fun a b => concatenate S160000x128 1 [⟨S160000x64, a⟩, ⟨S160000x64, b⟩] concatenates_S160000x64_S160000x64_S160000x128_d1) : (⟨S160000x64, .f32⟩ : BufTy).Contents (Elt F) → (⟨S160000x64, .f32⟩ : BufTy).Contents (Elt F) → (⟨S160000x128, .f32⟩ : BufTy).Contents (Elt F)),
    StableHlo.unary main_arg9 main_v63 ((transpose S128x64 [1, 0] · transposes_S64x128_S128x64_1_0) : (⟨S64x128, .f32⟩ : BufTy).Contents (Elt F) → (⟨S128x64, .f32⟩ : BufTy).Contents (Elt F)),
    StableHlo.binary main_v62 main_v63 main_v64 ((fun l r => Host.dotGeneral dot_S160000x128_S128x64_S160000x64_1_0_0_1_n_n none l r) : (⟨S160000x128, .f32⟩ : BufTy).Contents (Elt F) → (⟨S128x64, .f32⟩ : BufTy).Contents (Elt F) → (⟨S160000x64, .f32⟩ : BufTy).Contents (Elt F)),
    StableHlo.unary main_arg10 main_v65 (broadcastInDim S1x64 ![1] bcast_S64_S1x64_1 : (⟨S64, .f32⟩ : BufTy).Contents (Elt F) → (⟨S1x64, .f32⟩ : BufTy).Contents (Elt F)),
    StableHlo.unary main_v65 main_v66 (broadcastInDim S160000x64 ![0, 1] bcast_S1x64_S160000x64_0_1 : (⟨S1x64, .f32⟩ : BufTy).Contents (Elt F) → (⟨S160000x64, .f32⟩ : BufTy).Contents (Elt F)),
    StableHlo.binary main_v64 main_v66 main_v67 (addf : (⟨S160000x64, .f32⟩ : BufTy).Contents (Elt F) → (⟨S160000x64, .f32⟩ : BufTy).Contents (Elt F) → (⟨S160000x64, .f32⟩ : BufTy).Contents (Elt F)) ]

/-- Segment 6: the operations up to and including the one that writes `main_v69`. -/
abbrev seg6 : List (HloOp τ sig (Elt F)) :=
  [ StableHlo.unary main_arg11 main_v68 ((transpose S64x64 [1, 0] · transposes_S64x64_S64x64_1_0) : (⟨S64x64, .f32⟩ : BufTy).Contents (Elt F) → (⟨S64x64, .f32⟩ : BufTy).Contents (Elt F)),
    StableHlo.binary main_v67 main_v68 main_v69 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)) ]

/-- Segment 7: the operations up to and including the one that writes `main_v85`. -/
abbrev seg7 : List (HloOp τ sig (Elt F)) :=
  [ StableHlo.nullary main_c_10 (constantI S_ 32 0#32),
    StableHlo.unary main_c_10 main_v70 (broadcastInDim S1760000 ![] bcast_S_S1760000 : (⟨S_, .i32⟩ : BufTy).Contents (Elt F) → (⟨S1760000, .i32⟩ : BufTy).Contents (Elt F)),
    StableHlo.binary main_v3 main_v70 main_v71 (cmpi .slt : (⟨S1760000, .i32⟩ : BufTy).Contents (Elt F) → (⟨S1760000, .i32⟩ : BufTy).Contents (Elt F) → (⟨S1760000, .i1⟩ : BufTy).Contents (Elt F)),
    StableHlo.nullary main_c_11 (constantI S_ 32 160000#32),
    StableHlo.unary main_c_11 main_v72 (broadcastInDim S1760000 ![] bcast_S_S1760000 : (⟨S_, .i32⟩ : BufTy).Contents (Elt F) → (⟨S1760000, .i32⟩ : BufTy).Contents (Elt F)),
    StableHlo.binary main_v3 main_v72 main_v73 (addi : (⟨S1760000, .i32⟩ : BufTy).Contents (Elt F) → (⟨S1760000, .i32⟩ : BufTy).Contents (Elt F) → (⟨S1760000, .i32⟩ : BufTy).Contents (Elt F)),
    StableHlo.ternary main_v71 main_v73 main_v3 main_v74 (select : (⟨S1760000, .i1⟩ : BufTy).Contents (Elt F) → (⟨S1760000, .i32⟩ : BufTy).Contents (Elt F) → (⟨S1760000, .i32⟩ : BufTy).Contents (Elt F) → (⟨S1760000, .i32⟩ : BufTy).Contents (Elt F)),
    StableHlo.unary main_v74 main_v75 (broadcastInDim S1760000x1 ![0] bcast_S1760000_S1760000x1_0 : (⟨S1760000, .i32⟩ : BufTy).Contents (Elt F) → (⟨S1760000x1, .i32⟩ : BufTy).Contents (Elt F)),
    StableHlo.binary main_v69 main_v75 main_v76 ((fun x i => Host.gather gather_S160000x64_S1760000x1_S1760000x64_1_0_n_n_0_1_164 x i) : (⟨S160000x64, .f32⟩ : BufTy).Contents (Elt F) → (⟨S1760000x1, .i32⟩ : BufTy).Contents (Elt F) → (⟨S1760000x64, .f32⟩ : BufTy).Contents (Elt F)),
    StableHlo.unary main_v31 main_v77 (broadcastInDim S1760000x1 ![0] bcast_S1760000_S1760000x1_0 : (⟨S1760000, .f32⟩ : BufTy).Contents (Elt F) → (⟨S1760000x1, .f32⟩ : BufTy).Contents (Elt F)),
    StableHlo.unary main_v77 main_v78 (broadcastInDim S1760000x64 ![0, 1] bcast_S1760000x1_S1760000x64_0_1 : (⟨S1760000x1, .f32⟩ : BufTy).Contents (Elt F) → (⟨S1760000x64, .f32⟩ : BufTy).Contents (Elt F)),
    StableHlo.binary main_v76 main_v78 main_v79 (mulf : (⟨S1760000x64, .f32⟩ : BufTy).Contents (Elt F) → (⟨S1760000x64, .f32⟩ : BufTy).Contents (Elt F) → (⟨S1760000x64, .f32⟩ : BufTy).Contents (Elt F)),
    StableHlo.nullary main_cst_12 (constant S_ .f32 0x00000000#32),
    StableHlo.unary main_cst_12 main_v80 (broadcastInDim S160000x64 ![] bcast_S_S160000x64 : (⟨S_, .f32⟩ : BufTy).Contents (Elt F) → (⟨S160000x64, .f32⟩ : BufTy).Contents (Elt F)),
    StableHlo.unary main_v6 main_v81 (broadcastInDim S1760000x1 ![0] bcast_S1760000_S1760000x1_0 : (⟨S1760000, .i32⟩ : BufTy).Contents (Elt F) → (⟨S1760000x1, .i32⟩ : BufTy).Contents (Elt F)),
    StableHlo.ternary main_v80 main_v81 main_v79 main_v82 ((fun x i u => Host.scatterAdd scatter_S160000x64_S1760000x1_S1760000x64_1_0_0_1 x i u) : (⟨S160000x64, .f32⟩ : BufTy).Contents (Elt F) → (⟨S1760000x1, .i32⟩ : BufTy).Contents (Elt F) → (⟨S1760000x64, .f32⟩ : BufTy).Contents (Elt F) → (⟨S160000x64, .f32⟩ : BufTy).Contents (Elt F)),
    StableHlo.unary main_arg12 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S160000x64 ![0, 1] bcast_S1x64_S160000x64_0_1 : (⟨S1x64, .f32⟩ : BufTy).Contents (Elt F) → (⟨S160000x64, .f32⟩ : BufTy).Contents (Elt F)),
    StableHlo.binary main_v82 main_v84 main_v85 (addf : (⟨S160000x64, .f32⟩ : BufTy).Contents (Elt F) → (⟨S160000x64, .f32⟩ : BufTy).Contents (Elt F) → (⟨S160000x64, .f32⟩ : BufTy).Contents (Elt F)) ]

/-- Segment 8: the operations up to and including the one that writes `main_v92`. -/
abbrev seg8 : List (HloOp τ sig (Elt F)) :=
  [ StableHlo.TRef.nullary main_call2.cst (constant S_ .f32 0x00000000#32),
    StableHlo.TRef.unary main_call2.cst main_call2.v0 (broadcastInDim S160000x64 ![] bcast_S_S160000x64),
    StableHlo.TRef.binary (.of main_v85) main_call2.v0 main_call2.v1 maximumf,
    StableHlo.binary main_v86 main_v61 main_v87 ((fun a b => concatenate S160000x128 1 [⟨S160000x64, a⟩, ⟨S160000x64, b⟩] concatenates_S160000x64_S160000x64_S160000x128_d1) : (⟨S160000x64, .f32⟩ : BufTy).Contents (Elt F) → (⟨S160000x64, .f32⟩ : BufTy).Contents (Elt F) → (⟨S160000x128, .f32⟩ : BufTy).Contents (Elt F)),
    StableHlo.unary main_arg9 main_v88 ((transpose S128x64 [1, 0] · transposes_S64x128_S128x64_1_0) : (⟨S64x128, .f32⟩ : BufTy).Contents (Elt F) → (⟨S128x64, .f32⟩ : BufTy).Contents (Elt F)),
    StableHlo.binary main_v87 main_v88 main_v89 ((fun l r => Host.dotGeneral dot_S160000x128_S128x64_S160000x64_1_0_0_1_n_n none l r) : (⟨S160000x128, .f32⟩ : BufTy).Contents (Elt F) → (⟨S128x64, .f32⟩ : BufTy).Contents (Elt F) → (⟨S160000x64, .f32⟩ : BufTy).Contents (Elt F)),
    StableHlo.unary main_arg10 main_v90 (broadcastInDim S1x64 ![1] bcast_S64_S1x64_1 : (⟨S64, .f32⟩ : BufTy).Contents (Elt F) → (⟨S1x64, .f32⟩ : BufTy).Contents (Elt F)),
    StableHlo.unary main_v90 main_v91 (broadcastInDim S160000x64 ![0, 1] bcast_S1x64_S160000x64_0_1 : (⟨S1x64, .f32⟩ : BufTy).Contents (Elt F) → (⟨S160000x64, .f32⟩ : BufTy).Contents (Elt F)),
    StableHlo.binary main_v89 main_v91 main_v92 (addf : (⟨S160000x64, .f32⟩ : BufTy).Contents (Elt F) → (⟨S160000x64, .f32⟩ : BufTy).Contents (Elt F) → (⟨S160000x64, .f32⟩ : BufTy).Contents (Elt F)) ]

/-- Segment 9: the operations up to and including the one that writes `main_v94`. -/
abbrev seg9 : List (HloOp τ sig (Elt F)) :=
  [ StableHlo.unary main_arg13 main_v93 ((transpose S64x64 [1, 0] · transposes_S64x64_S64x64_1_0) : (⟨S64x64, .f32⟩ : BufTy).Contents (Elt F) → (⟨S64x64, .f32⟩ : BufTy).Contents (Elt F)),
    StableHlo.binary main_v92 main_v93 main_v94 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)) ]

/-- Segment 10: the operations up to and including the one that writes `main_v102`. -/
abbrev seg10 : List (HloOp τ sig (Elt F)) :=
  [ StableHlo.nullary main_c_13 (constantI S_ 32 0#32),
    StableHlo.unary main_c_13 main_v95 (broadcastInDim S1760000 ![] bcast_S_S1760000 : (⟨S_, .i32⟩ : BufTy).Contents (Elt F) → (⟨S1760000, .i32⟩ : BufTy).Contents (Elt F)),
    StableHlo.binary main_v3 main_v95 main_v96 (cmpi .slt : (⟨S1760000, .i32⟩ : BufTy).Contents (Elt F) → (⟨S1760000, .i32⟩ : BufTy).Contents (Elt F) → (⟨S1760000, .i1⟩ : BufTy).Contents (Elt F)),
    StableHlo.nullary main_c_14 (constantI S_ 32 160000#32),
    StableHlo.unary main_c_14 main_v97 (broadcastInDim S1760000 ![] bcast_S_S1760000 : (⟨S_, .i32⟩ : BufTy).Contents (Elt F) → (⟨S1760000, .i32⟩ : BufTy).Contents (Elt F)),
    StableHlo.binary main_v3 main_v97 main_v98 (addi : (⟨S1760000, .i32⟩ : BufTy).Contents (Elt F) → (⟨S1760000, .i32⟩ : BufTy).Contents (Elt F) → (⟨S1760000, .i32⟩ : BufTy).Contents (Elt F)),
    StableHlo.ternary main_v96 main_v98 main_v3 main_v99 (select : (⟨S1760000, .i1⟩ : BufTy).Contents (Elt F) → (⟨S1760000, .i32⟩ : BufTy).Contents (Elt F) → (⟨S1760000, .i32⟩ : BufTy).Contents (Elt F) → (⟨S1760000, .i32⟩ : BufTy).Contents (Elt F)),
    StableHlo.unary main_v99 main_v100 (broadcastInDim S1760000x1 ![0] bcast_S1760000_S1760000x1_0 : (⟨S1760000, .i32⟩ : BufTy).Contents (Elt F) → (⟨S1760000x1, .i32⟩ : BufTy).Contents (Elt F)),
    StableHlo.binary main_v94 main_v100 main_v101 ((fun x i => Host.gather gather_S160000x64_S1760000x1_S1760000x64_1_0_n_n_0_1_164 x i) : (⟨S160000x64, .f32⟩ : BufTy).Contents (Elt F) → (⟨S1760000x1, .i32⟩ : BufTy).Contents (Elt F) → (⟨S1760000x64, .f32⟩ : BufTy).Contents (Elt F)),
    StableHlo.unary main_v31 main_v102 (broadcastInDim S1760000x1 ![0] bcast_S1760000_S1760000x1_0 : (⟨S1760000, .f32⟩ : BufTy).Contents (Elt F) → (⟨S1760000x1, .f32⟩ : BufTy).Contents (Elt F)) ]

/-- Segment 11: the operations up to and including the one that writes `main_v110`. -/
abbrev seg11 : List (HloOp τ sig (Elt F)) :=
  [ StableHlo.unary main_v102 main_v103 (broadcastInDim S1760000x64 ![0, 1] bcast_S1760000x1_S1760000x64_0_1 : (⟨S1760000x1, .f32⟩ : BufTy).Contents (Elt F) → (⟨S1760000x64, .f32⟩ : BufTy).Contents (Elt F)),
    StableHlo.binary main_v101 main_v103 main_v104 (mulf : (⟨S1760000x64, .f32⟩ : BufTy).Contents (Elt F) → (⟨S1760000x64, .f32⟩ : BufTy).Contents (Elt F) → (⟨S1760000x64, .f32⟩ : BufTy).Contents (Elt F)),
    StableHlo.nullary main_cst_15 (constant S_ .f32 0x00000000#32),
    StableHlo.unary main_cst_15 main_v105 (broadcastInDim S160000x64 ![] bcast_S_S160000x64 : (⟨S_, .f32⟩ : BufTy).Contents (Elt F) → (⟨S160000x64, .f32⟩ : BufTy).Contents (Elt F)),
    StableHlo.unary main_v6 main_v106 (broadcastInDim S1760000x1 ![0] bcast_S1760000_S1760000x1_0 : (⟨S1760000, .i32⟩ : BufTy).Contents (Elt F) → (⟨S1760000x1, .i32⟩ : BufTy).Contents (Elt F)),
    StableHlo.ternary main_v105 main_v106 main_v104 main_v107 ((fun x i u => Host.scatterAdd scatter_S160000x64_S1760000x1_S1760000x64_1_0_0_1 x i u) : (⟨S160000x64, .f32⟩ : BufTy).Contents (Elt F) → (⟨S1760000x1, .i32⟩ : BufTy).Contents (Elt F) → (⟨S1760000x64, .f32⟩ : BufTy).Contents (Elt F) → (⟨S160000x64, .f32⟩ : BufTy).Contents (Elt F)),
    StableHlo.unary main_arg14 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S160000x64 ![0, 1] bcast_S1x64_S160000x64_0_1 : (⟨S1x64, .f32⟩ : BufTy).Contents (Elt F) → (⟨S160000x64, .f32⟩ : BufTy).Contents (Elt F)),
    StableHlo.binary main_v107 main_v109 main_v110 (addf : (⟨S160000x64, .f32⟩ : BufTy).Contents (Elt F) → (⟨S160000x64, .f32⟩ : BufTy).Contents (Elt F) → (⟨S160000x64, .f32⟩ : BufTy).Contents (Elt F)) ]

/-- Segment 12: the operations up to and including the one that writes `main_v117`. -/
abbrev seg12 : List (HloOp τ sig (Elt F)) :=
  [ StableHlo.TRef.nullary main_call3.cst (constant S_ .f32 0x00000000#32),
    StableHlo.TRef.unary main_call3.cst main_call3.v0 (broadcastInDim S160000x64 ![] bcast_S_S160000x64),
    StableHlo.TRef.binary (.of main_v110) main_call3.v0 main_call3.v1 maximumf,
    StableHlo.binary main_v111 main_v61 main_v112 ((fun a b => concatenate S160000x128 1 [⟨S160000x64, a⟩, ⟨S160000x64, b⟩] concatenates_S160000x64_S160000x64_S160000x128_d1) : (⟨S160000x64, .f32⟩ : BufTy).Contents (Elt F) → (⟨S160000x64, .f32⟩ : BufTy).Contents (Elt F) → (⟨S160000x128, .f32⟩ : BufTy).Contents (Elt F)),
    StableHlo.unary main_arg9 main_v113 ((transpose S128x64 [1, 0] · transposes_S64x128_S128x64_1_0) : (⟨S64x128, .f32⟩ : BufTy).Contents (Elt F) → (⟨S128x64, .f32⟩ : BufTy).Contents (Elt F)),
    StableHlo.binary main_v112 main_v113 main_v114 ((fun l r => Host.dotGeneral dot_S160000x128_S128x64_S160000x64_1_0_0_1_n_n none l r) : (⟨S160000x128, .f32⟩ : BufTy).Contents (Elt F) → (⟨S128x64, .f32⟩ : BufTy).Contents (Elt F) → (⟨S160000x64, .f32⟩ : BufTy).Contents (Elt F)),
    StableHlo.unary main_arg10 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S160000x64 ![0, 1] bcast_S1x64_S160000x64_0_1 : (⟨S1x64, .f32⟩ : BufTy).Contents (Elt F) → (⟨S160000x64, .f32⟩ : BufTy).Contents (Elt F)),
    StableHlo.binary main_v114 main_v116 main_v117 (addf : (⟨S160000x64, .f32⟩ : BufTy).Contents (Elt F) → (⟨S160000x64, .f32⟩ : BufTy).Contents (Elt F) → (⟨S160000x64, .f32⟩ : BufTy).Contents (Elt F)) ]

/-- Segment 13: the operations up to and including the one that writes `main_v122`. -/
abbrev seg13 : List (HloOp τ sig (Elt F)) :=
  [ StableHlo.unary main_arg15 main_v118 ((transpose S64x128 [1, 0] · transposes_S128x64_S64x128_1_0) : (⟨S128x64, .f32⟩ : BufTy).Contents (Elt F) → (⟨S64x128, .f32⟩ : BufTy).Contents (Elt F)),
    StableHlo.binary main_v117 main_v118 main_v119 ((fun l r => Host.dotGeneral dot_S160000x64_S64x128_S160000x128_1_0_0_1_n_n none l r) : (⟨S160000x64, .f32⟩ : BufTy).Contents (Elt F) → (⟨S64x128, .f32⟩ : BufTy).Contents (Elt F) → (⟨S160000x128, .f32⟩ : BufTy).Contents (Elt F)),
    StableHlo.unary main_arg16 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S160000x128 ![0, 1] bcast_S1x128_S160000x128_0_1 : (⟨S1x128, .f32⟩ : BufTy).Contents (Elt F) → (⟨S160000x128, .f32⟩ : BufTy).Contents (Elt F)),
    StableHlo.binary main_v119 main_v121 main_v122 (addf : (⟨S160000x128, .f32⟩ : BufTy).Contents (Elt F) → (⟨S160000x128, .f32⟩ : BufTy).Contents (Elt F) → (⟨S160000x128, .f32⟩ : BufTy).Contents (Elt F)) ]

/-- Segment 14: the operations up to and including the one that writes `main_v126`. -/
abbrev seg14 : List (HloOp τ sig (Elt F)) :=
  [ StableHlo.nullary main_cst_16 (constant S_ .f32 0x00000000#32),
    StableHlo.binary main_v122 main_cst_16 main_v123 ((fun x v => Host.reduceAdd x v reducesTo_S160000x128_S128_d0 h_S_) : (⟨S160000x128, .f32⟩ : BufTy).Contents (Elt F) → (⟨S_, .f32⟩ : BufTy).Contents (Elt F) → (⟨S128, .f32⟩ : BufTy).Contents (Elt F)),
    StableHlo.nullary main_cst_17 (constant S_ .f32 0x481C4000#32),
    StableHlo.unary main_cst_17 main_v124 (broadcastInDim S128 ![] bcast_S_S128 : (⟨S_, .f32⟩ : BufTy).Contents (Elt F) → (⟨S128, .f32⟩ : BufTy).Contents (Elt F)),
    StableHlo.binary main_v123 main_v124 main_v125 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call4.cst (constant S_ .f32 0x00000000#32),
    StableHlo.TRef.binary (.of main_v122) main_call4.cst main_call4.v0 (fun x v => Host.reduceAdd x v reducesTo_S160000x128_S128_d0 h_S_),
    StableHlo.TRef.unary main_call4.v0 main_call4.v1 (broadcastInDim S1x128 ![1] bcast_S128_S1x128_1),
    StableHlo.TRef.nullary main_call4.cst_0 (constant S_ .f32 0x481C4000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S160000x128 ![0, 1] bcast_S1x128_S160000x128_0_1),
    StableHlo.TRef.binary (.of main_v122) main_call4.v4 main_call4.v5 subf,
    StableHlo.TRef.binary main_call4.v5 main_call4.v5 main_call4.v6 mulf,
    StableHlo.TRef.unary (.of main_c_18) main_call4.v7 (sitofp .f32),
    StableHlo.TRef.nullary main_call4.cst_1 (constant S_ .f32 0x481C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S160000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- Segment 15: the operations up to and including the one that writes `main_v147`. -/
abbrev seg15 : List (HloOp τ sig (Elt F)) :=
  [ StableHlo.unary main_v125 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S160000x128 ![0, 1] bcast_S1x128_S160000x128_0_1 : (⟨S1x128, .f32⟩ : BufTy).Contents (Elt F) → (⟨S160000x128, .f32⟩ : BufTy).Contents (Elt F)),
    StableHlo.binary main_v122 main_v128 main_v129 (subf : (⟨S160000x128, .f32⟩ : BufTy).Contents (Elt F) → (⟨S160000x128, .f32⟩ : BufTy).Contents (Elt F) → (⟨S160000x128, .f32⟩ : BufTy).Contents (Elt F)),
    StableHlo.nullary main_cst_19 (constant S_ .f32 0x3727C5AC#32),
    StableHlo.unary main_cst_19 main_v130 (broadcastInDim S128 ![] bcast_S_S128 : (⟨S_, .f32⟩ : BufTy).Contents (Elt F) → (⟨S128, .f32⟩ : BufTy).Contents (Elt F)),
    StableHlo.binary main_v126 main_v130 main_v131 (addf : (⟨S128, .f32⟩ : BufTy).Contents (Elt F) → (⟨S128, .f32⟩ : BufTy).Contents (Elt F) → (⟨S128, .f32⟩ : BufTy).Contents (Elt F)),
    StableHlo.unary main_v131 main_v132 (Host.rsqrt : (⟨S128, .f32⟩ : BufTy).Contents (Elt F) → (⟨S128, .f32⟩ : BufTy).Contents (Elt F)),
    StableHlo.unary main_v132 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S160000x128 ![0, 1] bcast_S1x128_S160000x128_0_1 : (⟨S1x128, .f32⟩ : BufTy).Contents (Elt F) → (⟨S160000x128, .f32⟩ : BufTy).Contents (Elt F)),
    StableHlo.binary main_v129 main_v134 main_v135 (mulf : (⟨S160000x128, .f32⟩ : BufTy).Contents (Elt F) → (⟨S160000x128, .f32⟩ : BufTy).Contents (Elt F) → (⟨S160000x128, .f32⟩ : BufTy).Contents (Elt F)),
    StableHlo.unary main_arg17 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S160000x128 ![0, 1] bcast_S1x128_S160000x128_0_1 : (⟨S1x128, .f32⟩ : BufTy).Contents (Elt F) → (⟨S160000x128, .f32⟩ : BufTy).Contents (Elt F)),
    StableHlo.binary main_v135 main_v137 main_v138 (mulf : (⟨S160000x128, .f32⟩ : BufTy).Contents (Elt F) → (⟨S160000x128, .f32⟩ : BufTy).Contents (Elt F) → (⟨S160000x128, .f32⟩ : BufTy).Contents (Elt F)),
    StableHlo.unary main_arg18 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S160000x128 ![0, 1] bcast_S1x128_S160000x128_0_1 : (⟨S1x128, .f32⟩ : BufTy).Contents (Elt F) → (⟨S160000x128, .f32⟩ : BufTy).Contents (Elt F)),
    StableHlo.binary main_v138 main_v140 main_v141 (addf : (⟨S160000x128, .f32⟩ : BufTy).Contents (Elt F) → (⟨S160000x128, .f32⟩ : BufTy).Contents (Elt F) → (⟨S160000x128, .f32⟩ : BufTy).Contents (Elt F)),
    StableHlo.TRef.nullary main_call5.cst (constant S_ .f32 0x00000000#32),
    StableHlo.TRef.unary main_call5.cst main_call5.v0 (broadcastInDim S160000x128 ![] bcast_S_S160000x128),
    StableHlo.TRef.binary (.of main_v141) main_call5.v0 main_call5.v1 maximumf,
    StableHlo.unary main_arg19 main_v143 ((transpose S128x64 [1, 0] · transposes_S64x128_S128x64_1_0) : (⟨S64x128, .f32⟩ : BufTy).Contents (Elt F) → (⟨S128x64, .f32⟩ : BufTy).Contents (Elt F)),
    StableHlo.binary main_v142 main_v143 main_v144 ((fun l r => Host.dotGeneral dot_S160000x128_S128x64_S160000x64_1_0_0_1_n_n none l r) : (⟨S160000x128, .f32⟩ : BufTy).Contents (Elt F) → (⟨S128x64, .f32⟩ : BufTy).Contents (Elt F) → (⟨S160000x64, .f32⟩ : BufTy).Contents (Elt F)),
    StableHlo.unary main_arg20 main_v145 (broadcastInDim S1x64 ![1] bcast_S64_S1x64_1 : (⟨S64, .f32⟩ : BufTy).Contents (Elt F) → (⟨S1x64, .f32⟩ : BufTy).Contents (Elt F)),
    StableHlo.unary main_v145 main_v146 (broadcastInDim S160000x64 ![0, 1] bcast_S1x64_S160000x64_0_1 : (⟨S1x64, .f32⟩ : BufTy).Contents (Elt F) → (⟨S160000x64, .f32⟩ : BufTy).Contents (Elt F)),
    StableHlo.binary main_v144 main_v146 main_v147 (addf : (⟨S160000x64, .f32⟩ : BufTy).Contents (Elt F) → (⟨S160000x64, .f32⟩ : BufTy).Contents (Elt F) → (⟨S160000x64, .f32⟩ : BufTy).Contents (Elt F)) ]

/-- Segment 16: the operations up to and including the one that writes `main_v151`. -/
abbrev seg16 : List (HloOp τ sig (Elt F)) :=
  [ StableHlo.nullary main_cst_20 (constant S_ .f32 0x00000000#32),
    StableHlo.binary main_v147 main_cst_20 main_v148 ((fun x v => Host.reduceAdd x v reducesTo_S160000x64_S64_d0 h_S_) : (⟨S160000x64, .f32⟩ : BufTy).Contents (Elt F) → (⟨S_, .f32⟩ : BufTy).Contents (Elt F) → (⟨S64, .f32⟩ : BufTy).Contents (Elt F)),
    StableHlo.nullary main_cst_21 (constant S_ .f32 0x481C4000#32),
    StableHlo.unary main_cst_21 main_v149 (broadcastInDim S64 ![] bcast_S_S64 : (⟨S_, .f32⟩ : BufTy).Contents (Elt F) → (⟨S64, .f32⟩ : BufTy).Contents (Elt F)),
    StableHlo.binary main_v148 main_v149 main_v150 (Host.divf : (⟨S64, .f32⟩ : BufTy).Contents (Elt F) → (⟨S64, .f32⟩ : BufTy).Contents (Elt F) → (⟨S64, .f32⟩ : BufTy).Contents (Elt F)),
    StableHlo.nullary main_c_22 (constantI S_ 32 0#32),
    StableHlo.TRef.nullary main_call6.cst (constant S_ .f32 0x00000000#32),
    StableHlo.TRef.binary (.of main_v147) main_call6.cst main_call6.v0 (fun x v => Host.reduceAdd x v reducesTo_S160000x64_S64_d0 h_S_),
    StableHlo.TRef.unary main_call6.v0 main_call6.v1 (broadcastInDim S1x64 ![1] bcast_S64_S1x64_1),
    StableHlo.TRef.nullary main_call6.cst_0 (constant S_ .f32 0x481C4000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S160000x64 ![0, 1] bcast_S1x64_S160000x64_0_1),
    StableHlo.TRef.binary (.of main_v147) main_call6.v4 main_call6.v5 subf,
    StableHlo.TRef.binary main_call6.v5 main_call6.v5 main_call6.v6 mulf,
    StableHlo.TRef.unary (.of main_c_22) main_call6.v7 (sitofp .f32),
    StableHlo.TRef.nullary main_call6.cst_1 (constant S_ .f32 0x481C4000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S160000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b) ]

/-- Segment 17: the operations up to and including the one that writes `main_v154`. -/
abbrev seg17 : List (HloOp τ sig (Elt F)) :=
  [ StableHlo.unary main_v150 main_v152 (broadcastInDim S1x64 ![1] bcast_S64_S1x64_1 : (⟨S64, .f32⟩ : BufTy).Contents (Elt F) → (⟨S1x64, .f32⟩ : BufTy).Contents (Elt F)),
    StableHlo.unary main_v152 main_v153 (broadcastInDim S160000x64 ![0, 1] bcast_S1x64_S160000x64_0_1 : (⟨S1x64, .f32⟩ : BufTy).Contents (Elt F) → (⟨S160000x64, .f32⟩ : BufTy).Contents (Elt F)),
    StableHlo.binary main_v147 main_v153 main_v154 (subf : (⟨S160000x64, .f32⟩ : BufTy).Contents (Elt F) → (⟨S160000x64, .f32⟩ : BufTy).Contents (Elt F) → (⟨S160000x64, .f32⟩ : BufTy).Contents (Elt F)) ]

/-- Segment 18: the operations up to and including the one that writes `main_v172`. -/
abbrev seg18 : List (HloOp τ sig (Elt F)) :=
  [ StableHlo.nullary main_cst_23 (constant S_ .f32 0x3727C5AC#32),
    StableHlo.unary main_cst_23 main_v155 (broadcastInDim S64 ![] bcast_S_S64 : (⟨S_, .f32⟩ : BufTy).Contents (Elt F) → (⟨S64, .f32⟩ : BufTy).Contents (Elt F)),
    StableHlo.binary main_v151 main_v155 main_v156 (addf : (⟨S64, .f32⟩ : BufTy).Contents (Elt F) → (⟨S64, .f32⟩ : BufTy).Contents (Elt F) → (⟨S64, .f32⟩ : BufTy).Contents (Elt F)),
    StableHlo.unary main_v156 main_v157 (Host.rsqrt : (⟨S64, .f32⟩ : BufTy).Contents (Elt F) → (⟨S64, .f32⟩ : BufTy).Contents (Elt F)),
    StableHlo.unary main_v157 main_v158 (broadcastInDim S1x64 ![1] bcast_S64_S1x64_1 : (⟨S64, .f32⟩ : BufTy).Contents (Elt F) → (⟨S1x64, .f32⟩ : BufTy).Contents (Elt F)),
    StableHlo.unary main_v158 main_v159 (broadcastInDim S160000x64 ![0, 1] bcast_S1x64_S160000x64_0_1 : (⟨S1x64, .f32⟩ : BufTy).Contents (Elt F) → (⟨S160000x64, .f32⟩ : BufTy).Contents (Elt F)),
    StableHlo.binary main_v154 main_v159 main_v160 (mulf : (⟨S160000x64, .f32⟩ : BufTy).Contents (Elt F) → (⟨S160000x64, .f32⟩ : BufTy).Contents (Elt F) → (⟨S160000x64, .f32⟩ : BufTy).Contents (Elt F)),
    StableHlo.unary main_arg21 main_v161 (broadcastInDim S1x64 ![1] bcast_S64_S1x64_1 : (⟨S64, .f32⟩ : BufTy).Contents (Elt F) → (⟨S1x64, .f32⟩ : BufTy).Contents (Elt F)),
    StableHlo.unary main_v161 main_v162 (broadcastInDim S160000x64 ![0, 1] bcast_S1x64_S160000x64_0_1 : (⟨S1x64, .f32⟩ : BufTy).Contents (Elt F) → (⟨S160000x64, .f32⟩ : BufTy).Contents (Elt F)),
    StableHlo.binary main_v160 main_v162 main_v163 (mulf : (⟨S160000x64, .f32⟩ : BufTy).Contents (Elt F) → (⟨S160000x64, .f32⟩ : BufTy).Contents (Elt F) → (⟨S160000x64, .f32⟩ : BufTy).Contents (Elt F)),
    StableHlo.unary main_arg22 main_v164 (broadcastInDim S1x64 ![1] bcast_S64_S1x64_1 : (⟨S64, .f32⟩ : BufTy).Contents (Elt F) → (⟨S1x64, .f32⟩ : BufTy).Contents (Elt F)),
    StableHlo.unary main_v164 main_v165 (broadcastInDim S160000x64 ![0, 1] bcast_S1x64_S160000x64_0_1 : (⟨S1x64, .f32⟩ : BufTy).Contents (Elt F) → (⟨S160000x64, .f32⟩ : BufTy).Contents (Elt F)),
    StableHlo.binary main_v163 main_v165 main_v166 (addf : (⟨S160000x64, .f32⟩ : BufTy).Contents (Elt F) → (⟨S160000x64, .f32⟩ : BufTy).Contents (Elt F) → (⟨S160000x64, .f32⟩ : BufTy).Contents (Elt F)),
    StableHlo.TRef.nullary main_call7.cst (constant S_ .f32 0x00000000#32),
    StableHlo.TRef.unary main_call7.cst main_call7.v0 (broadcastInDim S160000x64 ![] bcast_S_S160000x64),
    StableHlo.TRef.binary (.of main_v166) main_call7.v0 main_call7.v1 maximumf,
    StableHlo.unary main_arg23 main_v168 ((transpose S64x1 [1, 0] · transposes_S1x64_S64x1_1_0) : (⟨S1x64, .f32⟩ : BufTy).Contents (Elt F) → (⟨S64x1, .f32⟩ : BufTy).Contents (Elt F)),
    StableHlo.binary main_v167 main_v168 main_v169 ((fun l r => Host.dotGeneral dot_S160000x64_S64x1_S160000x1_1_0_0_1_n_n none l r) : (⟨S160000x64, .f32⟩ : BufTy).Contents (Elt F) → (⟨S64x1, .f32⟩ : BufTy).Contents (Elt F) → (⟨S160000x1, .f32⟩ : BufTy).Contents (Elt F)),
    StableHlo.unary main_arg24 main_v170 (broadcastInDim S1x1 ![1] bcast_S1_S1x1_1 : (⟨S1, .f32⟩ : BufTy).Contents (Elt F) → (⟨S1x1, .f32⟩ : BufTy).Contents (Elt F)),
    StableHlo.unary main_v170 main_v171 (broadcastInDim S160000x1 ![0, 1] bcast_S1x1_S160000x1_0_1 : (⟨S1x1, .f32⟩ : BufTy).Contents (Elt F) → (⟨S160000x1, .f32⟩ : BufTy).Contents (Elt F)),
    StableHlo.binary main_v169 main_v171 main_v172 (addf : (⟨S160000x1, .f32⟩ : BufTy).Contents (Elt F) → (⟨S160000x1, .f32⟩ : BufTy).Contents (Elt F) → (⟨S160000x1, .f32⟩ : BufTy).Contents (Elt F)) ]

/-- Segment 19: the operations up to and including the one that writes `main_v173`. -/
abbrev seg19 : List (HloOp τ sig (Elt F)) :=
  [ StableHlo.reshape main_v172 main_v173 rfl shapeCasts_S160000x1_S32x5000 ]

/-- The operations of the printed window `main_part0`: segments 0 to 2. -/
abbrev opsP0 : List (HloOp τ sig (Elt F)) := seg0 ++ seg1 ++ seg2

/-- The operations of the printed window `main_part1`: segments 3 to 10. -/
abbrev opsP1 : List (HloOp τ sig (Elt F)) := seg3 ++ seg4 ++ seg5 ++ seg6 ++ seg7 ++ seg8 ++ seg9 ++ seg10

/-- The operations of the printed window `main_part2`: segments 11 to 17. -/
abbrev opsP2 : List (HloOp τ sig (Elt F)) := seg11 ++ seg12 ++ seg13 ++ seg14 ++ seg15 ++ seg16 ++ seg17

/-- The operations of the printed window `main_part3`: segments 18 to 19. -/
abbrev opsP3 : List (HloOp τ sig (Elt F)) := seg18 ++ seg19

/-- @main's operations, in order. -/
abbrev ops : List (HloOp τ sig (Elt F)) := opsP0 ++ opsP1 ++ opsP2 ++ opsP3

set_option maxRecDepth 16384 in
theorem main_part0_eq (c : Dev nD) : main_part0 (F := F) c = seq opsP0 := by
  simp only [main_part0, fn_where.body, fn_norm.body, fn_relu.body, fn_where_0.body, fn_var.body, fn_relu_1.body, fn_where_3.body, fn_var_2.body, seq, List.cons_append, List.nil_append, bind_assoc, pure_bind] <;> rfl

set_option maxRecDepth 16384 in
theorem main_part1_eq (c : Dev nD) : main_part1 (F := F) c = seq opsP1 := by
  simp only [main_part1, fn_where.body, fn_norm.body, fn_relu.body, fn_where_0.body, fn_var.body, fn_relu_1.body, fn_where_3.body, fn_var_2.body, seq, List.cons_append, List.nil_append, bind_assoc, pure_bind] <;> rfl

set_option maxRecDepth 16384 in
theorem main_part2_eq (c : Dev nD) : main_part2 (F := F) c = seq opsP2 := by
  simp only [main_part2, fn_where.body, fn_norm.body, fn_relu.body, fn_where_0.body, fn_var.body, fn_relu_1.body, fn_where_3.body, fn_var_2.body, seq, List.cons_append, List.nil_append, bind_assoc, pure_bind] <;> rfl

set_option maxRecDepth 16384 in
theorem main_part3_eq (c : Dev nD) : main_part3 (F := F) c = seq opsP3 := by
  simp only [main_part3, fn_where.body, fn_norm.body, fn_relu.body, fn_where_0.body, fn_var.body, fn_relu_1.body, fn_where_3.body, fn_var_2.body, seq, List.cons_append, List.nil_append, bind_assoc, pure_bind] <;> rfl

set_option maxRecDepth 16384 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem seg0_sub : (seg0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 16384 in
theorem seg1_sub : (seg1 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 16384 in
theorem seg2_sub : (seg2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., nullary_bufs_sub .., unary_bufs_sub .., binary_bufs_sub ..⟩

set_option maxRecDepth 16384 in
theorem seg3_sub : (seg3 : List (HloOp τ sig (Elt F))).Forall fun op => op.bufs ⊆ tcRefs τ sig :=
  ⟨nullary_bufs_sub .., unary_bufs_sub .., binary_bufs_sub .., unary_bufs_sub .., binary_bufs_sub ..⟩

set_option maxRecDepth 16384 in
theorem seg4_sub : (seg4 : List (HloOp τ sig (Elt F))).Forall fun op => op.bufs ⊆ tcRefs τ sig :=
  ⟨reshape_bufs_sub .., unary_bufs_sub .., reshape_bufs_sub .., binary_bufs_sub .., unary_bufs_sub .., binary_bufs_sub .., unary_bufs_sub .., unary_bufs_sub .., binary_bufs_sub ..⟩

set_option maxRecDepth 16384 in
theorem seg5_sub : (seg5 : List (HloOp τ sig (Elt F))).Forall fun op => op.bufs ⊆ tcRefs τ sig :=
  ⟨binary_bufs_sub .., unary_bufs_sub .., binary_bufs_sub .., unary_bufs_sub .., unary_bufs_sub .., binary_bufs_sub ..⟩

set_option maxRecDepth 16384 in
theorem seg6_sub : (seg6 : List (HloOp τ sig (Elt F))).Forall fun op => op.bufs ⊆ tcRefs τ sig :=
  ⟨unary_bufs_sub .., binary_bufs_sub ..⟩

set_option maxRecDepth 16384 in
theorem seg7_sub : (seg7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 16384 in
theorem seg8_sub : (seg8 : List (HloOp τ sig (Elt F))).Forall fun op => op.bufs ⊆ tcRefs τ sig :=
  ⟨nullary_bufs_sub .., unary_bufs_sub .., binary_bufs_sub .., binary_bufs_sub .., unary_bufs_sub .., binary_bufs_sub .., unary_bufs_sub .., unary_bufs_sub .., binary_bufs_sub ..⟩

set_option maxRecDepth 16384 in
theorem seg9_sub : (seg9 : List (HloOp τ sig (Elt F))).Forall fun op => op.bufs ⊆ tcRefs τ sig :=
  ⟨unary_bufs_sub .., binary_bufs_sub ..⟩

set_option maxRecDepth 16384 in
theorem seg10_sub : (seg10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub ..⟩

set_option maxRecDepth 16384 in
theorem seg11_sub : (seg11 : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., unary_bufs_sub .., binary_bufs_sub ..⟩

set_option maxRecDepth 16384 in
theorem seg12_sub : (seg12 : List (HloOp τ sig (Elt F))).Forall fun op => op.bufs ⊆ tcRefs τ sig :=
  ⟨nullary_bufs_sub .., unary_bufs_sub .., binary_bufs_sub .., binary_bufs_sub .., unary_bufs_sub .., binary_bufs_sub .., unary_bufs_sub .., unary_bufs_sub .., binary_bufs_sub ..⟩

set_option maxRecDepth 16384 in
theorem seg13_sub : (seg13 : List (HloOp τ sig (Elt F))).Forall fun op => op.bufs ⊆ tcRefs τ sig :=
  ⟨unary_bufs_sub .., binary_bufs_sub .., unary_bufs_sub .., unary_bufs_sub .., binary_bufs_sub ..⟩

set_option maxRecDepth 16384 in
theorem seg14_sub : (seg14 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 16384 in
theorem seg15_sub : (seg15 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

set_option maxRecDepth 16384 in
theorem seg16_sub : (seg16 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 16384 in
theorem seg17_sub : (seg17 : List (HloOp τ sig (Elt F))).Forall fun op => op.bufs ⊆ tcRefs τ sig :=
  ⟨unary_bufs_sub .., unary_bufs_sub .., binary_bufs_sub ..⟩

set_option maxRecDepth 16384 in
theorem seg18_sub : (seg18 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

set_option maxRecDepth 16384 in
theorem seg19_sub : (seg19 : List (HloOp τ sig (Elt F))).Forall fun op => op.bufs ⊆ tcRefs τ sig :=
  reshape_bufs_sub ..

theorem ops_sub : (ops : List (HloOp τ sig (Elt F))).Forall fun op => op.bufs ⊆ tcRefs τ sig :=
  List.forall_iff_forall_mem.mpr fun op h => by
    simp only [ops, opsP0, opsP1, opsP2, opsP3, List.mem_append, or_assoc] at h
    rcases h with h | h | h | h | h | h | h | h | h | h | h | h | h | h | h | h | h | h | h | h
    exacts [List.forall_iff_forall_mem.mp seg0_sub op h, List.forall_iff_forall_mem.mp seg1_sub op h, List.forall_iff_forall_mem.mp seg2_sub op h, List.forall_iff_forall_mem.mp seg3_sub op h, List.forall_iff_forall_mem.mp seg4_sub op h, List.forall_iff_forall_mem.mp seg5_sub op h, List.forall_iff_forall_mem.mp seg6_sub op h, List.forall_iff_forall_mem.mp seg7_sub op h, List.forall_iff_forall_mem.mp seg8_sub op h, List.forall_iff_forall_mem.mp seg9_sub op h, List.forall_iff_forall_mem.mp seg10_sub op h, List.forall_iff_forall_mem.mp seg11_sub op h, List.forall_iff_forall_mem.mp seg12_sub op h, List.forall_iff_forall_mem.mp seg13_sub op h, List.forall_iff_forall_mem.mp seg14_sub op h, List.forall_iff_forall_mem.mp seg15_sub op h, List.forall_iff_forall_mem.mp seg16_sub op h, List.forall_iff_forall_mem.mp seg17_sub op h, List.forall_iff_forall_mem.mp seg18_sub op h, List.forall_iff_forall_mem.mp seg19_sub op h]

/-- Every weakly fair execution of @main terminates, and every final state has each buffer at the fold of the
    operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RunValue

end
-- ==== Proof.RStages.lean ====
/-
  The reference's buffer contents, segment by segment.

  After segment j of the reference's operations every buffer holds `rv (j+1)`: the fold of that segment's operations
  over what the buffers held before it. A buffer a segment does not write keeps its contents through it (rvJ_keep), so a
  value is read where it was produced and carried unchanged to where it is used; the fold over all twenty segments is the
  fold over @main's whole operation list (after_ops).
-/
import proofs.«175455_j86191403696584_1_alg».proof.Proof.RRun
import Idealize.ShloMosaic.Lib.Pipeline.Frame

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- The buffer contents before segment 0: the launch contents. -/
def rv0 (V0 : Valuation τ sig (Elt F)) : Valuation τ sig (Elt F) := V0
/-- The buffer contents after segment 0. -/
def rv1 (V0 : Valuation τ sig (Elt F)) : Valuation τ sig (Elt F) := after seg0 (rv0 V0)
/-- The buffer contents after segment 1. -/
def rv2 (V0 : Valuation τ sig (Elt F)) : Valuation τ sig (Elt F) := after seg1 (rv1 V0)
/-- The buffer contents after segment 2. -/
def rv3 (V0 : Valuation τ sig (Elt F)) : Valuation τ sig (Elt F) := after seg2 (rv2 V0)
/-- The buffer contents after segment 3. -/
def rv4 (V0 : Valuation τ sig (Elt F)) : Valuation τ sig (Elt F) := after seg3 (rv3 V0)
/-- The buffer contents after segment 4. -/
def rv5 (V0 : Valuation τ sig (Elt F)) : Valuation τ sig (Elt F) := after seg4 (rv4 V0)
/-- The buffer contents after segment 5. -/
def rv6 (V0 : Valuation τ sig (Elt F)) : Valuation τ sig (Elt F) := after seg5 (rv5 V0)
/-- The buffer contents after segment 6. -/
def rv7 (V0 : Valuation τ sig (Elt F)) : Valuation τ sig (Elt F) := after seg6 (rv6 V0)
/-- The buffer contents after segment 7. -/
def rv8 (V0 : Valuation τ sig (Elt F)) : Valuation τ sig (Elt F) := after seg7 (rv7 V0)
/-- The buffer contents after segment 8. -/
def rv9 (V0 : Valuation τ sig (Elt F)) : Valuation τ sig (Elt F) := after seg8 (rv8 V0)
/-- The buffer contents after segment 9. -/
def rv10 (V0 : Valuation τ sig (Elt F)) : Valuation τ sig (Elt F) := after seg9 (rv9 V0)
/-- The buffer contents after segment 10. -/
def rv11 (V0 : Valuation τ sig (Elt F)) : Valuation τ sig (Elt F) := after seg10 (rv10 V0)
/-- The buffer contents after segment 11. -/
def rv12 (V0 : Valuation τ sig (Elt F)) : Valuation τ sig (Elt F) := after seg11 (rv11 V0)
/-- The buffer contents after segment 12. -/
def rv13 (V0 : Valuation τ sig (Elt F)) : Valuation τ sig (Elt F) := after seg12 (rv12 V0)
/-- The buffer contents after segment 13. -/
def rv14 (V0 : Valuation τ sig (Elt F)) : Valuation τ sig (Elt F) := after seg13 (rv13 V0)
/-- The buffer contents after segment 14. -/
def rv15 (V0 : Valuation τ sig (Elt F)) : Valuation τ sig (Elt F) := after seg14 (rv14 V0)
/-- The buffer contents after segment 15. -/
def rv16 (V0 : Valuation τ sig (Elt F)) : Valuation τ sig (Elt F) := after seg15 (rv15 V0)
/-- The buffer contents after segment 16. -/
def rv17 (V0 : Valuation τ sig (Elt F)) : Valuation τ sig (Elt F) := after seg16 (rv16 V0)
/-- The buffer contents after segment 17. -/
def rv18 (V0 : Valuation τ sig (Elt F)) : Valuation τ sig (Elt F) := after seg17 (rv17 V0)
/-- The buffer contents after segment 18. -/
def rv19 (V0 : Valuation τ sig (Elt F)) : Valuation τ sig (Elt F) := after seg18 (rv18 V0)
/-- The buffer contents after segment 19. -/
def rv20 (V0 : Valuation τ sig (Elt F)) : Valuation τ sig (Elt F) := after seg19 (rv19 V0)

theorem after_ops (V0 : Valuation τ sig (Elt F)) : after ops V0 = rv20 V0 := by
  simp only [ops, opsP0, opsP1, opsP2, opsP3, after_append]
  rfl

/-- The buffers segment 0 writes. -/
abbrev seg0_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16, main_c, main_v17, main_v18, main_c_4, main_v19, main_v20, main_v21, main_v22, main_v23, main_c_5, main_v24, main_v25, main_c_6, main_v26, main_v27, main_v28, main_v29, main_v30, main_v31]
theorem seg0_writes : (seg0 : List (HloOp τ sig (Elt F))).Forall fun op => op.writes ⊆ (seg0_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 0 does not write keeps its contents through it. -/
theorem rv1_keep (V0 : Valuation τ sig (Elt F)) (r : Ref sig .tc) (h : r ∉ seg0_W) :
    rv1 V0 (Proc.devRef .tc r) = rv0 V0 (Proc.devRef .tc r) :=
  after_of_writes_sub seg0 _ seg0_writes h

/-- The buffers segment 1 writes. -/
abbrev seg1_W : List (Ref sig .tc) := [main_v32, main_v33, main_v34, main_v35, main_v36, main_v37, main_v38, main_v39, main_v40, main_v41, main_v42, main_v43]
theorem seg1_writes : (seg1 : List (HloOp τ sig (Elt F))).Forall fun op => op.writes ⊆ (seg1_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 1 does not write keeps its contents through it. -/
theorem rv2_keep (V0 : Valuation τ sig (Elt F)) (r : Ref sig .tc) (h : r ∉ seg1_W) :
    rv2 V0 (Proc.devRef .tc r) = rv1 V0 (Proc.devRef .tc r) :=
  after_of_writes_sub seg1 _ seg1_writes h

/-- The buffers segment 2 writes. -/
abbrev seg2_W : List (Ref sig .tc) := [main_call1_v0, main_call1_cst, main_call1_v1, main_call1_v2, main_v44, main_cst_7, main_v45, main_v46, main_cst_8, main_v47, main_v48]
theorem seg2_writes : (seg2 : List (HloOp τ sig (Elt F))).Forall fun op => op.writes ⊆ (seg2_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 2 does not write keeps its contents through it. -/
theorem rv3_keep (V0 : Valuation τ sig (Elt F)) (r : Ref sig .tc) (h : r ∉ seg2_W) :
    rv3 V0 (Proc.devRef .tc r) = rv2 V0 (Proc.devRef .tc r) :=
  after_of_writes_sub seg2 _ seg2_writes h

/-- The buffers segment 3 writes. -/
abbrev seg3_W : List (Ref sig .tc) := [main_cst_9, main_v49, main_v50, main_v51, main_v52]
theorem seg3_writes : (seg3 : List (HloOp τ sig (Elt F))).Forall fun op => op.writes ⊆ (seg3_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 3 does not write keeps its contents through it. -/
theorem rv4_keep (V0 : Valuation τ sig (Elt F)) (r : Ref sig .tc) (h : r ∉ seg3_W) :
    rv4 V0 (Proc.devRef .tc r) = rv3 V0 (Proc.devRef .tc r) :=
  after_of_writes_sub seg3 _ seg3_writes h

/-- The buffers segment 4 writes. -/
abbrev seg4_W : List (Ref sig .tc) := [main_v53, main_v54, main_v55, main_v56, main_v57, main_v58, main_v59, main_v60, main_v61]
theorem seg4_writes : (seg4 : List (HloOp τ sig (Elt F))).Forall fun op => op.writes ⊆ (seg4_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 4 does not write keeps its contents through it. -/
theorem rv5_keep (V0 : Valuation τ sig (Elt F)) (r : Ref sig .tc) (h : r ∉ seg4_W) :
    rv5 V0 (Proc.devRef .tc r) = rv4 V0 (Proc.devRef .tc r) :=
  after_of_writes_sub seg4 _ seg4_writes h

/-- The buffers segment 5 writes. -/
abbrev seg5_W : List (Ref sig .tc) := [main_v62, main_v63, main_v64, main_v65, main_v66, main_v67]
theorem seg5_writes : (seg5 : List (HloOp τ sig (Elt F))).Forall fun op => op.writes ⊆ (seg5_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 5 does not write keeps its contents through it. -/
theorem rv6_keep (V0 : Valuation τ sig (Elt F)) (r : Ref sig .tc) (h : r ∉ seg5_W) :
    rv6 V0 (Proc.devRef .tc r) = rv5 V0 (Proc.devRef .tc r) :=
  after_of_writes_sub seg5 _ seg5_writes h

/-- The buffers segment 6 writes. -/
abbrev seg6_W : List (Ref sig .tc) := [main_v68, main_v69]
theorem seg6_writes : (seg6 : List (HloOp τ sig (Elt F))).Forall fun op => op.writes ⊆ (seg6_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 6 does not write keeps its contents through it. -/
theorem rv7_keep (V0 : Valuation τ sig (Elt F)) (r : Ref sig .tc) (h : r ∉ seg6_W) :
    rv7 V0 (Proc.devRef .tc r) = rv6 V0 (Proc.devRef .tc r) :=
  after_of_writes_sub seg6 _ seg6_writes h

/-- The buffers segment 7 writes. -/
abbrev seg7_W : List (Ref sig .tc) := [main_c_10, main_v70, main_v71, main_c_11, main_v72, main_v73, main_v74, main_v75, main_v76, main_v77, main_v78, main_v79, main_cst_12, main_v80, main_v81, main_v82, main_v83, main_v84, main_v85]
theorem seg7_writes : (seg7 : List (HloOp τ sig (Elt F))).Forall fun op => op.writes ⊆ (seg7_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 7 does not write keeps its contents through it. -/
theorem rv8_keep (V0 : Valuation τ sig (Elt F)) (r : Ref sig .tc) (h : r ∉ seg7_W) :
    rv8 V0 (Proc.devRef .tc r) = rv7 V0 (Proc.devRef .tc r) :=
  after_of_writes_sub seg7 _ seg7_writes h

/-- The buffers segment 8 writes. -/
abbrev seg8_W : List (Ref sig .tc) := [main_call2_cst, main_call2_v0, main_v86, main_v87, main_v88, main_v89, main_v90, main_v91, main_v92]
theorem seg8_writes : (seg8 : List (HloOp τ sig (Elt F))).Forall fun op => op.writes ⊆ (seg8_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 8 does not write keeps its contents through it. -/
theorem rv9_keep (V0 : Valuation τ sig (Elt F)) (r : Ref sig .tc) (h : r ∉ seg8_W) :
    rv9 V0 (Proc.devRef .tc r) = rv8 V0 (Proc.devRef .tc r) :=
  after_of_writes_sub seg8 _ seg8_writes h

/-- The buffers segment 9 writes. -/
abbrev seg9_W : List (Ref sig .tc) := [main_v93, main_v94]
theorem seg9_writes : (seg9 : List (HloOp τ sig (Elt F))).Forall fun op => op.writes ⊆ (seg9_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 9 does not write keeps its contents through it. -/
theorem rv10_keep (V0 : Valuation τ sig (Elt F)) (r : Ref sig .tc) (h : r ∉ seg9_W) :
    rv10 V0 (Proc.devRef .tc r) = rv9 V0 (Proc.devRef .tc r) :=
  after_of_writes_sub seg9 _ seg9_writes h

/-- The buffers segment 10 writes. -/
abbrev seg10_W : List (Ref sig .tc) := [main_c_13, main_v95, main_v96, main_c_14, main_v97, main_v98, main_v99, main_v100, main_v101, main_v102]
theorem seg10_writes : (seg10 : List (HloOp τ sig (Elt F))).Forall fun op => op.writes ⊆ (seg10_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 10 does not write keeps its contents through it. -/
theorem rv11_keep (V0 : Valuation τ sig (Elt F)) (r : Ref sig .tc) (h : r ∉ seg10_W) :
    rv11 V0 (Proc.devRef .tc r) = rv10 V0 (Proc.devRef .tc r) :=
  after_of_writes_sub seg10 _ seg10_writes h

/-- The buffers segment 11 writes. -/
abbrev seg11_W : List (Ref sig .tc) := [main_v103, main_v104, main_cst_15, main_v105, main_v106, main_v107, main_v108, main_v109, main_v110]
theorem seg11_writes : (seg11 : List (HloOp τ sig (Elt F))).Forall fun op => op.writes ⊆ (seg11_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 11 does not write keeps its contents through it. -/
theorem rv12_keep (V0 : Valuation τ sig (Elt F)) (r : Ref sig .tc) (h : r ∉ seg11_W) :
    rv12 V0 (Proc.devRef .tc r) = rv11 V0 (Proc.devRef .tc r) :=
  after_of_writes_sub seg11 _ seg11_writes h

/-- The buffers segment 12 writes. -/
abbrev seg12_W : List (Ref sig .tc) := [main_call3_cst, main_call3_v0, main_v111, main_v112, main_v113, main_v114, main_v115, main_v116, main_v117]
theorem seg12_writes : (seg12 : List (HloOp τ sig (Elt F))).Forall fun op => op.writes ⊆ (seg12_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 12 does not write keeps its contents through it. -/
theorem rv13_keep (V0 : Valuation τ sig (Elt F)) (r : Ref sig .tc) (h : r ∉ seg12_W) :
    rv13 V0 (Proc.devRef .tc r) = rv12 V0 (Proc.devRef .tc r) :=
  after_of_writes_sub seg12 _ seg12_writes h

/-- The buffers segment 13 writes. -/
abbrev seg13_W : List (Ref sig .tc) := [main_v118, main_v119, main_v120, main_v121, main_v122]
theorem seg13_writes : (seg13 : List (HloOp τ sig (Elt F))).Forall fun op => op.writes ⊆ (seg13_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 13 does not write keeps its contents through it. -/
theorem rv14_keep (V0 : Valuation τ sig (Elt F)) (r : Ref sig .tc) (h : r ∉ seg13_W) :
    rv14 V0 (Proc.devRef .tc r) = rv13 V0 (Proc.devRef .tc r) :=
  after_of_writes_sub seg13 _ seg13_writes h

/-- The buffers segment 14 writes. -/
abbrev seg14_W : List (Ref sig .tc) := [main_cst_16, main_v123, main_cst_17, main_v124, main_v125, main_c_18, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v126]
theorem seg14_writes : (seg14 : List (HloOp τ sig (Elt F))).Forall fun op => op.writes ⊆ (seg14_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 14 does not write keeps its contents through it. -/
theorem rv15_keep (V0 : Valuation τ sig (Elt F)) (r : Ref sig .tc) (h : r ∉ seg14_W) :
    rv15 V0 (Proc.devRef .tc r) = rv14 V0 (Proc.devRef .tc r) :=
  after_of_writes_sub seg14 _ seg14_writes h

/-- The buffers segment 15 writes. -/
abbrev seg15_W : List (Ref sig .tc) := [main_v127, main_v128, main_v129, main_cst_19, main_v130, main_v131, main_v132, main_v133, main_v134, main_v135, main_v136, main_v137, main_v138, main_v139, main_v140, main_v141, main_call5_cst, main_call5_v0, main_v142, main_v143, main_v144, main_v145, main_v146, main_v147]
theorem seg15_writes : (seg15 : List (HloOp τ sig (Elt F))).Forall fun op => op.writes ⊆ (seg15_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 15 does not write keeps its contents through it. -/
theorem rv16_keep (V0 : Valuation τ sig (Elt F)) (r : Ref sig .tc) (h : r ∉ seg15_W) :
    rv16 V0 (Proc.devRef .tc r) = rv15 V0 (Proc.devRef .tc r) :=
  after_of_writes_sub seg15 _ seg15_writes h

/-- The buffers segment 16 writes. -/
abbrev seg16_W : List (Ref sig .tc) := [main_cst_20, main_v148, main_cst_21, main_v149, main_v150, main_c_22, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v151]
theorem seg16_writes : (seg16 : List (HloOp τ sig (Elt F))).Forall fun op => op.writes ⊆ (seg16_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 16 does not write keeps its contents through it. -/
theorem rv17_keep (V0 : Valuation τ sig (Elt F)) (r : Ref sig .tc) (h : r ∉ seg16_W) :
    rv17 V0 (Proc.devRef .tc r) = rv16 V0 (Proc.devRef .tc r) :=
  after_of_writes_sub seg16 _ seg16_writes h

/-- The buffers segment 17 writes. -/
abbrev seg17_W : List (Ref sig .tc) := [main_v152, main_v153, main_v154]
theorem seg17_writes : (seg17 : List (HloOp τ sig (Elt F))).Forall fun op => op.writes ⊆ (seg17_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 17 does not write keeps its contents through it. -/
theorem rv18_keep (V0 : Valuation τ sig (Elt F)) (r : Ref sig .tc) (h : r ∉ seg17_W) :
    rv18 V0 (Proc.devRef .tc r) = rv17 V0 (Proc.devRef .tc r) :=
  after_of_writes_sub seg17 _ seg17_writes h

/-- The buffers segment 18 writes. -/
abbrev seg18_W : List (Ref sig .tc) := [main_cst_23, main_v155, main_v156, main_v157, main_v158, main_v159, main_v160, main_v161, main_v162, main_v163, main_v164, main_v165, main_v166, main_call7_cst, main_call7_v0, main_v167, main_v168, main_v169, main_v170, main_v171, main_v172]
theorem seg18_writes : (seg18 : List (HloOp τ sig (Elt F))).Forall fun op => op.writes ⊆ (seg18_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 18 does not write keeps its contents through it. -/
theorem rv19_keep (V0 : Valuation τ sig (Elt F)) (r : Ref sig .tc) (h : r ∉ seg18_W) :
    rv19 V0 (Proc.devRef .tc r) = rv18 V0 (Proc.devRef .tc r) :=
  after_of_writes_sub seg18 _ seg18_writes h

/-- The buffers segment 19 writes. -/
abbrev seg19_W : List (Ref sig .tc) := [main_v173]
theorem seg19_writes : (seg19 : List (HloOp τ sig (Elt F))).Forall fun op => op.writes ⊆ (seg19_W.map (Proc.devRef (τ := τ) .tc)).toFinset := by
  simp only [List.Forall]
  and_intros <;>
    (simp only [nullary_writes, unary_writes, binary_writes, ternary_writes, quaternary_writes, reshape_writes, Finset.singleton_subset_iff, List.mem_toFinset]
     exact List.mem_map_of_mem (by decide))
/-- A buffer segment 19 does not write keeps its contents through it. -/
theorem rv20_keep (V0 : Valuation τ sig (Elt F)) (r : Ref sig .tc) (h : r ∉ seg19_W) :
    rv20 V0 (Proc.devRef .tc r) = rv19 V0 (Proc.devRef .tc r) :=
  after_of_writes_sub seg19 _ seg19_writes h

end Cert.ReferenceIdeal.RunValue

end
-- ==== Proof.LibSsaRead.lean ====
/-
  Reading one operation of a straight line of host operations.

  A straight line of StableHLO operations in which every operation writes one buffer of its own (single assignment)
  leaves, in each buffer, the writing operation's function of what the line leaves in that operation's operands:
  the operands were written earlier and nothing later touches them or the result. This file states that once, for
  the fold `StableHlo.after` over a list L of operations beside the list W of the buffers they write, position by
  position: after the whole line, the buffer written at position i holds the operation's function of the final
  contents of its operands (`read_nullary` … `read_reshape`), given only that the result is not written again after
  position i and the operands are not written from position i on — membership facts about W, decided over references.
-/
import Idealize.ShloMosaic.Lib.StableHlo.Run
import Idealize.ShloMosaic.Lib.Pipeline.Frame

noncomputable section

namespace Cert.Lib.Ssa

open Idealize.ShloMosaic Idealize.ShloMosaic.StableHlo Idealize.SL.Sem

variable {τ : Topo} {sig : RefSig} {Val : EltTy → Type}

/-- Operation by operation, the line L writes exactly the buffers W lists. -/
abbrev WritesAt (L : List (HloOp τ sig Val)) (W : List (Ref sig .tc)) : Prop :=
  List.Forall₂ (fun op w => op.writes = {(Proc.devRef .tc w : DevRef τ sig)}) L W

/-- A buffer not listed is written by no operation of the line. -/
theorem not_written {L : List (HloOp τ sig Val)} {W : List (Ref sig .tc)} (h : WritesAt L W) {r : Ref sig .tc} (hr : r ∉ W) :
    ∀ op ∈ L, (Proc.devRef .tc r : DevRef τ sig) ∉ op.writes := by
  induction h with
  | nil => intro op hop; cases hop
  | cons hw _ ih =>
    intro op hop hmem
    rcases List.mem_cons.mp hop with rfl | hop'
    · rw [hw, Finset.mem_singleton] at hmem
      exact hr (List.mem_cons.mpr (Or.inl (Proc.devRef_injective _ hmem)))
    · exact ih (fun hin => hr (List.mem_cons_of_mem _ hin)) op hop' hmem

/-- A buffer not written from position i on holds, after the whole line, what it held after the first i operations. -/
theorem keep_from : ∀ (i : Nat) {L : List (HloOp τ sig Val)} {W : List (Ref sig .tc)} (h : WritesAt L W)
    (V : Valuation τ sig Val) {r : Ref sig .tc} (hr : r ∉ W.drop i),
    after L V (Proc.devRef .tc r) = after (L.take i) V (Proc.devRef .tc r)
  | 0, L, W, h, V, r, hr => by
    rw [List.take_zero, after_nil]
    exact after_of_forall_not_mem L V (not_written h (by simpa using hr))
  | i + 1, [], _, _, V, r, _ => rfl
  | i + 1, op :: L, W, h, V, r, hr => by
    cases h with
    | cons hw hrest =>
      rw [List.take_succ_cons, after_cons, after_cons]
      exact keep_from i hrest (op.result V) (by simpa using hr)

/-- After the whole line, a buffer not written after position i holds what the operation at position i leaves in it,
    applied to the contents after the first i operations. -/
theorem read_at {L : List (HloOp τ sig Val)} {W : List (Ref sig .tc)} (h : WritesAt L W) (i : Nat) (op : HloOp τ sig Val)
    (hi : L[i]? = some op) (V : Valuation τ sig Val) {r : Ref sig .tc} (hr : r ∉ W.drop (i + 1)) :
    after L V (Proc.devRef .tc r) = op.result (after (L.take i) V) (Proc.devRef .tc r) := by
  rw [keep_from (i + 1) h V hr, List.take_succ, hi, Option.toList_some, StableHlo.after_append, after_cons, after_nil]

variable {x a b c y : Ref sig .tc}

theorem read_nullary {L : List (HloOp τ sig Val)} {W : List (Ref sig .tc)} (h : WritesAt L W) (i : Nat)
    {v : y.ty.Contents Val} {hy} (hi : L[i]? = some (nullary (τ := τ) y v hy)) (hy' : y ∉ W.drop (i + 1))
    (V : Valuation τ sig Val) : after L V (Proc.devRef .tc y) = v := by
  rw [read_at h i _ hi V hy', nullary_result]

theorem read_unary {L : List (HloOp τ sig Val)} {W : List (Ref sig .tc)} (h : WritesAt L W) (i : Nat)
    {f : x.ty.Contents Val → y.ty.Contents Val} {hx hy} (hi : L[i]? = some (unary (τ := τ) x y f hx hy))
    (hy' : y ∉ W.drop (i + 1)) (hx' : x ∉ W.drop i) (V : Valuation τ sig Val) :
    after L V (Proc.devRef .tc y) = f (after L V (Proc.devRef .tc x)) := by
  rw [read_at h i _ hi V hy', unary_result, ← keep_from i h V hx']

theorem read_binary {L : List (HloOp τ sig Val)} {W : List (Ref sig .tc)} (h : WritesAt L W) (i : Nat)
    {f : a.ty.Contents Val → b.ty.Contents Val → y.ty.Contents Val} {ha hb hy}
    (hi : L[i]? = some (binary (τ := τ) a b y f ha hb hy))
    (hy' : y ∉ W.drop (i + 1)) (ha' : a ∉ W.drop i) (hb' : b ∉ W.drop i) (V : Valuation τ sig Val) :
    after L V (Proc.devRef .tc y) = f (after L V (Proc.devRef .tc a)) (after L V (Proc.devRef .tc b)) := by
  rw [read_at h i _ hi V hy', binary_result, ← keep_from i h V ha', ← keep_from i h V hb']

theorem read_ternary {L : List (HloOp τ sig Val)} {W : List (Ref sig .tc)} (h : WritesAt L W) (i : Nat)
    {f : c.ty.Contents Val → a.ty.Contents Val → b.ty.Contents Val → y.ty.Contents Val} {hc ha hb hy}
    (hi : L[i]? = some (ternary (τ := τ) c a b y f hc ha hb hy))
    (hy' : y ∉ W.drop (i + 1)) (hc' : c ∉ W.drop i) (ha' : a ∉ W.drop i) (hb' : b ∉ W.drop i) (V : Valuation τ sig Val) :
    after L V (Proc.devRef .tc y)
      = f (after L V (Proc.devRef .tc c)) (after L V (Proc.devRef .tc a)) (after L V (Proc.devRef .tc b)) := by
  rw [read_at h i _ hi V hy', ternary_result, ← keep_from i h V hc', ← keep_from i h V ha', ← keep_from i h V hb']

theorem read_reshape {L : List (HloOp τ sig Val)} {W : List (Ref sig .tc)} (h : WritesAt L W) (i : Nat)
    {he hn hx hy} (hi : L[i]? = some (reshape (τ := τ) (Val := Val) x y he hn hx hy))
    (hy' : y ∉ W.drop (i + 1)) (hx' : x ∉ W.drop i) (V : Valuation τ sig Val) :
    after L V (Proc.devRef .tc y) = fun j => he ▸ shapeCast y.ty.shape (after L V (Proc.devRef .tc x)) hn j := by
  rw [read_at h i _ hi V hy', reshape_result, ← keep_from i h V hx']

/-- A buffer the line does not write keeps its contents. -/
theorem read_keep {L : List (HloOp τ sig Val)} {W : List (Ref sig .tc)} (h : WritesAt L W) {r : Ref sig .tc} (hr : r ∉ W)
    (V : Valuation τ sig Val) : after L V (Proc.devRef .tc r) = V (Proc.devRef .tc r) :=
  after_of_forall_not_mem L V (not_written h hr)

end Cert.Lib.Ssa

end
-- ==== Proof.SsaData.lean ====
/-
  The operation lists beside the buffers they write.

  For the per-operation reads (LibSsaRead) each stretch of host operations is paired with the list of the buffers its
  operations write, position by position. Consecutive stretches of the kernel's @main that one comparison spans (the
  edge normalisation; the embedding renormalisation and the parameter plumbing; each layer's batch statistics) are
  taken together, as are the reference's segments where a printed window boundary cut a chain in two.
-/
import proofs.«175455_j86191403696584_1_alg».proof.Proof.KStages
import proofs.«175455_j86191403696584_1_alg».proof.Proof.RStages
import proofs.«175455_j86191403696584_1_alg».proof.Proof.LibSsaRead

set_option maxRecDepth 16384

noncomputable section

namespace Cert.Bridge

open Idealize.ShloMosaic Idealize.ShloMosaic.TcCoe Idealize.SL.Sem Idealize.ShloMosaic.StableHlo
open Cert.KernelIdeal.Gen Cert.ReferenceIdeal.RunValue Cert.Lib.Ssa

/-- The kernel's host operations of segments 1 … 3, as one list. -/
abbrev kP1 : List (HloOp Cert.KernelIdeal.τ Cert.KernelIdeal.sig (Elt Ideal)) := Cert.KernelIdeal.Gen.hostOps0 ++ Cert.KernelIdeal.Gen.hostOps0_1 ++ Cert.KernelIdeal.Gen.hostOps0_2
abbrev kP1_W : List (Ref Cert.KernelIdeal.sig .tc) := [Cert.KernelIdeal.main_v0, Cert.KernelIdeal.main_v1, Cert.KernelIdeal.main_v2, Cert.KernelIdeal.main_v3, Cert.KernelIdeal.main_v4, Cert.KernelIdeal.main_v5, Cert.KernelIdeal.main_v6, Cert.KernelIdeal.main_cst, Cert.KernelIdeal.main_v7, Cert.KernelIdeal.main_cst_0, Cert.KernelIdeal.main_v8, Cert.KernelIdeal.main_v9, Cert.KernelIdeal.main_v10, Cert.KernelIdeal.main_cst_1, Cert.KernelIdeal.main_v11, Cert.KernelIdeal.main_v12, Cert.KernelIdeal.main_cst_2, Cert.KernelIdeal.main_v13, Cert.KernelIdeal.main_v14, Cert.KernelIdeal.main_v15, Cert.KernelIdeal.main_cst_3, Cert.KernelIdeal.main_call0_v0, Cert.KernelIdeal.main_call0_v1, Cert.KernelIdeal.main_v16, Cert.KernelIdeal.main_c, Cert.KernelIdeal.main_v17, Cert.KernelIdeal.main_v18, Cert.KernelIdeal.main_c_4, Cert.KernelIdeal.main_v19, Cert.KernelIdeal.main_v20, Cert.KernelIdeal.main_v21, Cert.KernelIdeal.main_v22, Cert.KernelIdeal.main_v23, Cert.KernelIdeal.main_c_5, Cert.KernelIdeal.main_v24, Cert.KernelIdeal.main_v25, Cert.KernelIdeal.main_c_6, Cert.KernelIdeal.main_v26, Cert.KernelIdeal.main_v27, Cert.KernelIdeal.main_v28, Cert.KernelIdeal.main_v29, Cert.KernelIdeal.main_v30, Cert.KernelIdeal.main_v31]
theorem kP1_writes : WritesAt kP1 kP1_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil)))))))))))))))))))))))))))))))))))))))))))
theorem W3_eq_kP1 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    W3 m ρ c = after kP1 (W0 m ρ c) := by
  simp only [StableHlo.after_append]

/-- The kernel's host operations of segments 4 … 5, as one list. -/
abbrev kP2 : List (HloOp Cert.KernelIdeal.τ Cert.KernelIdeal.sig (Elt Ideal)) := Cert.KernelIdeal.Gen.hostOps0_3 ++ Cert.KernelIdeal.Gen.hostOps0_4
abbrev kP2_W : List (Ref Cert.KernelIdeal.sig .tc) := [Cert.KernelIdeal.main_call1_v0, Cert.KernelIdeal.main_call1_cst, Cert.KernelIdeal.main_call1_v1, Cert.KernelIdeal.main_call1_v2, Cert.KernelIdeal.main_v32, Cert.KernelIdeal.main_cst_7, Cert.KernelIdeal.main_v33, Cert.KernelIdeal.main_v34, Cert.KernelIdeal.main_cst_8, Cert.KernelIdeal.main_v35, Cert.KernelIdeal.main_v36, Cert.KernelIdeal.main_cst_9, Cert.KernelIdeal.main_v37, Cert.KernelIdeal.main_v38, Cert.KernelIdeal.main_v39, Cert.KernelIdeal.main_v40, Cert.KernelIdeal.main_v41, Cert.KernelIdeal.main_v42, Cert.KernelIdeal.main_v43, Cert.KernelIdeal.main_v44, Cert.KernelIdeal.main_v45, Cert.KernelIdeal.main_v46, Cert.KernelIdeal.main_v47, Cert.KernelIdeal.main_v48, Cert.KernelIdeal.main_v49, Cert.KernelIdeal.main_v50, Cert.KernelIdeal.main_v51, Cert.KernelIdeal.main_v52, Cert.KernelIdeal.main_v53, Cert.KernelIdeal.main_v54, Cert.KernelIdeal.main_v55, Cert.KernelIdeal.main_v56, Cert.KernelIdeal.main_v57, Cert.KernelIdeal.main_v58, Cert.KernelIdeal.main_v59, Cert.KernelIdeal.main_v60]
theorem kP2_writes : WritesAt kP2 kP2_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil))))))))))))))))))))))))))))))))))))
theorem W5_eq_kP2 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    W5 m ρ c = after kP2 (W3 m ρ c) := by
  simp only [StableHlo.after_append]

/-- The kernel's host operations of segments 8 … 8, as one list. -/
abbrev kH2 : List (HloOp Cert.KernelIdeal.τ Cert.KernelIdeal.sig (Elt Ideal)) := Cert.KernelIdeal.Gen.hostOps2
abbrev kH2_W : List (Ref Cert.KernelIdeal.sig .tc) := [Cert.KernelIdeal.main_v63, Cert.KernelIdeal.main_c_10, Cert.KernelIdeal.main_v64, Cert.KernelIdeal.main_v65, Cert.KernelIdeal.main_c_11, Cert.KernelIdeal.main_v66, Cert.KernelIdeal.main_v67, Cert.KernelIdeal.main_v68, Cert.KernelIdeal.main_v69, Cert.KernelIdeal.main_v70, Cert.KernelIdeal.main_v71, Cert.KernelIdeal.main_v72, Cert.KernelIdeal.main_v73, Cert.KernelIdeal.main_cst_12, Cert.KernelIdeal.main_v74, Cert.KernelIdeal.main_v75, Cert.KernelIdeal.main_v76, Cert.KernelIdeal.main_v77, Cert.KernelIdeal.main_v78]
theorem kH2_writes : WritesAt kH2 kH2_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil)))))))))))))))))))
theorem W8_eq_kH2 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    W8 m ρ c = after kH2 (W7 m ρ c) := by
  simp only [StableHlo.after_append]

/-- The kernel's host operations of segments 11 … 11, as one list. -/
abbrev kH4 : List (HloOp Cert.KernelIdeal.τ Cert.KernelIdeal.sig (Elt Ideal)) := Cert.KernelIdeal.Gen.hostOps4
abbrev kH4_W : List (Ref Cert.KernelIdeal.sig .tc) := [Cert.KernelIdeal.main_v81, Cert.KernelIdeal.main_c_13, Cert.KernelIdeal.main_v82, Cert.KernelIdeal.main_v83, Cert.KernelIdeal.main_c_14, Cert.KernelIdeal.main_v84, Cert.KernelIdeal.main_v85, Cert.KernelIdeal.main_v86, Cert.KernelIdeal.main_v87, Cert.KernelIdeal.main_v88, Cert.KernelIdeal.main_v89, Cert.KernelIdeal.main_v90, Cert.KernelIdeal.main_v91, Cert.KernelIdeal.main_cst_15, Cert.KernelIdeal.main_v92, Cert.KernelIdeal.main_v93, Cert.KernelIdeal.main_v94, Cert.KernelIdeal.main_v95, Cert.KernelIdeal.main_v96]
theorem kH4_writes : WritesAt kH4 kH4_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil)))))))))))))))))))
theorem W11_eq_kH4 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    W11 m ρ c = after kH4 (W10 m ρ c) := by
  simp only [StableHlo.after_append]

/-- The kernel's host operations of segments 14 … 15, as one list. -/
abbrev kM1 : List (HloOp Cert.KernelIdeal.τ Cert.KernelIdeal.sig (Elt Ideal)) := Cert.KernelIdeal.Gen.hostOps6 ++ Cert.KernelIdeal.Gen.hostOps6_1
abbrev kM1_W : List (Ref Cert.KernelIdeal.sig .tc) := [Cert.KernelIdeal.main_cst_16, Cert.KernelIdeal.main_v99, Cert.KernelIdeal.main_v100, Cert.KernelIdeal.main_cst_17, Cert.KernelIdeal.main_v101, Cert.KernelIdeal.main_v102, Cert.KernelIdeal.main_c_18, Cert.KernelIdeal.main_call2_cst, Cert.KernelIdeal.main_call2_v0, Cert.KernelIdeal.main_call2_v1, Cert.KernelIdeal.main_call2_cst_0, Cert.KernelIdeal.main_call2_v2, Cert.KernelIdeal.main_call2_v3, Cert.KernelIdeal.main_call2_v4, Cert.KernelIdeal.main_call2_v5, Cert.KernelIdeal.main_call2_v6, Cert.KernelIdeal.main_call2_v7, Cert.KernelIdeal.main_call2_cst_1, Cert.KernelIdeal.main_call2_v8, Cert.KernelIdeal.main_call2_cst_2, Cert.KernelIdeal.main_call2_v9, Cert.KernelIdeal.main_call2_v10, Cert.KernelIdeal.main_call2_v11, Cert.KernelIdeal.main_call2_v12, Cert.KernelIdeal.main_call2_cst_3, Cert.KernelIdeal.main_call2_v13, Cert.KernelIdeal.main_call2_cst_4, Cert.KernelIdeal.main_call2_call0_v0, Cert.KernelIdeal.main_call2_call0_v1, Cert.KernelIdeal.main_v103]
theorem kM1_writes : WritesAt kM1 kM1_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil))))))))))))))))))))))))))))))
theorem W15_eq_kM1 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    W15 m ρ c = after kM1 (W13 m ρ c) := by
  simp only [StableHlo.after_append]

/-- The kernel's host operations of segments 17 … 18, as one list. -/
abbrev kM2 : List (HloOp Cert.KernelIdeal.τ Cert.KernelIdeal.sig (Elt Ideal)) := Cert.KernelIdeal.Gen.hostOps7 ++ Cert.KernelIdeal.Gen.hostOps7_1
abbrev kM2_W : List (Ref Cert.KernelIdeal.sig .tc) := [Cert.KernelIdeal.main_cst_19, Cert.KernelIdeal.main_v105, Cert.KernelIdeal.main_v106, Cert.KernelIdeal.main_cst_20, Cert.KernelIdeal.main_v107, Cert.KernelIdeal.main_v108, Cert.KernelIdeal.main_c_21, Cert.KernelIdeal.main_call3_cst, Cert.KernelIdeal.main_call3_v0, Cert.KernelIdeal.main_call3_v1, Cert.KernelIdeal.main_call3_cst_0, Cert.KernelIdeal.main_call3_v2, Cert.KernelIdeal.main_call3_v3, Cert.KernelIdeal.main_call3_v4, Cert.KernelIdeal.main_call3_v5, Cert.KernelIdeal.main_call3_v6, Cert.KernelIdeal.main_call3_v7, Cert.KernelIdeal.main_call3_cst_1, Cert.KernelIdeal.main_call3_v8, Cert.KernelIdeal.main_call3_cst_2, Cert.KernelIdeal.main_call3_v9, Cert.KernelIdeal.main_call3_v10, Cert.KernelIdeal.main_call3_v11, Cert.KernelIdeal.main_call3_v12, Cert.KernelIdeal.main_call3_cst_3, Cert.KernelIdeal.main_call3_v13, Cert.KernelIdeal.main_call3_cst_4, Cert.KernelIdeal.main_call3_call0_v0, Cert.KernelIdeal.main_call3_call0_v1, Cert.KernelIdeal.main_v109]
theorem kM2_writes : WritesAt kM2 kM2_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil))))))))))))))))))))))))))))))
theorem W18_eq_kM2 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    W18 m ρ c = after kM2 (W16 m ρ c) := by
  simp only [StableHlo.after_append]

/-- The kernel's host operations of segments 20 … 20, as one list. -/
abbrev kH8 : List (HloOp Cert.KernelIdeal.τ Cert.KernelIdeal.sig (Elt Ideal)) := Cert.KernelIdeal.Gen.hostOps8
abbrev kH8_W : List (Ref Cert.KernelIdeal.sig .tc) := [Cert.KernelIdeal.main_v111]
theorem kH8_writes : WritesAt kH8 kH8_W :=
  (List.Forall₂.cons rfl List.Forall₂.nil)
theorem W20_eq_kH8 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    W20 m ρ c = after kH8 (W19 m ρ c) := by
  simp only [StableHlo.after_append]

/-- The reference's segments 0, as one list. -/
abbrev rS0 : List (HloOp Cert.ReferenceIdeal.τ Cert.ReferenceIdeal.sig (Elt Ideal)) := Cert.ReferenceIdeal.RunValue.seg0
abbrev rS0_W : List (Ref Cert.ReferenceIdeal.sig .tc) := [Cert.ReferenceIdeal.main_v0, Cert.ReferenceIdeal.main_v1, Cert.ReferenceIdeal.main_v2, Cert.ReferenceIdeal.main_v3, Cert.ReferenceIdeal.main_v4, Cert.ReferenceIdeal.main_v5, Cert.ReferenceIdeal.main_v6, Cert.ReferenceIdeal.main_cst, Cert.ReferenceIdeal.main_v7, Cert.ReferenceIdeal.main_cst_0, Cert.ReferenceIdeal.main_v8, Cert.ReferenceIdeal.main_v9, Cert.ReferenceIdeal.main_v10, Cert.ReferenceIdeal.main_cst_1, Cert.ReferenceIdeal.main_v11, Cert.ReferenceIdeal.main_v12, Cert.ReferenceIdeal.main_cst_2, Cert.ReferenceIdeal.main_v13, Cert.ReferenceIdeal.main_v14, Cert.ReferenceIdeal.main_v15, Cert.ReferenceIdeal.main_cst_3, Cert.ReferenceIdeal.main_call0_v0, Cert.ReferenceIdeal.main_call0_v1, Cert.ReferenceIdeal.main_v16, Cert.ReferenceIdeal.main_c, Cert.ReferenceIdeal.main_v17, Cert.ReferenceIdeal.main_v18, Cert.ReferenceIdeal.main_c_4, Cert.ReferenceIdeal.main_v19, Cert.ReferenceIdeal.main_v20, Cert.ReferenceIdeal.main_v21, Cert.ReferenceIdeal.main_v22, Cert.ReferenceIdeal.main_v23, Cert.ReferenceIdeal.main_c_5, Cert.ReferenceIdeal.main_v24, Cert.ReferenceIdeal.main_v25, Cert.ReferenceIdeal.main_c_6, Cert.ReferenceIdeal.main_v26, Cert.ReferenceIdeal.main_v27, Cert.ReferenceIdeal.main_v28, Cert.ReferenceIdeal.main_v29, Cert.ReferenceIdeal.main_v30, Cert.ReferenceIdeal.main_v31]
theorem rS0_writes : WritesAt rS0 rS0_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil)))))))))))))))))))))))))))))))))))))))))))
theorem rv1_eq_rS0 (V0 : Valuation Cert.ReferenceIdeal.τ Cert.ReferenceIdeal.sig (Elt Ideal)) : rv1 V0 = after rS0 (rv0 V0) := by
  simp only [rv1, StableHlo.after_append]

/-- The reference's segments 1, as one list. -/
abbrev rS1 : List (HloOp Cert.ReferenceIdeal.τ Cert.ReferenceIdeal.sig (Elt Ideal)) := Cert.ReferenceIdeal.RunValue.seg1
abbrev rS1_W : List (Ref Cert.ReferenceIdeal.sig .tc) := [Cert.ReferenceIdeal.main_v32, Cert.ReferenceIdeal.main_v33, Cert.ReferenceIdeal.main_v34, Cert.ReferenceIdeal.main_v35, Cert.ReferenceIdeal.main_v36, Cert.ReferenceIdeal.main_v37, Cert.ReferenceIdeal.main_v38, Cert.ReferenceIdeal.main_v39, Cert.ReferenceIdeal.main_v40, Cert.ReferenceIdeal.main_v41, Cert.ReferenceIdeal.main_v42, Cert.ReferenceIdeal.main_v43]
theorem rS1_writes : WritesAt rS1 rS1_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil))))))))))))
theorem rv2_eq_rS1 (V0 : Valuation Cert.ReferenceIdeal.τ Cert.ReferenceIdeal.sig (Elt Ideal)) : rv2 V0 = after rS1 (rv1 V0) := by
  simp only [rv2, StableHlo.after_append]

/-- The reference's segments 2, 3, as one list. -/
abbrev rS23 : List (HloOp Cert.ReferenceIdeal.τ Cert.ReferenceIdeal.sig (Elt Ideal)) := Cert.ReferenceIdeal.RunValue.seg2 ++ Cert.ReferenceIdeal.RunValue.seg3
abbrev rS23_W : List (Ref Cert.ReferenceIdeal.sig .tc) := [Cert.ReferenceIdeal.main_call1_v0, Cert.ReferenceIdeal.main_call1_cst, Cert.ReferenceIdeal.main_call1_v1, Cert.ReferenceIdeal.main_call1_v2, Cert.ReferenceIdeal.main_v44, Cert.ReferenceIdeal.main_cst_7, Cert.ReferenceIdeal.main_v45, Cert.ReferenceIdeal.main_v46, Cert.ReferenceIdeal.main_cst_8, Cert.ReferenceIdeal.main_v47, Cert.ReferenceIdeal.main_v48, Cert.ReferenceIdeal.main_cst_9, Cert.ReferenceIdeal.main_v49, Cert.ReferenceIdeal.main_v50, Cert.ReferenceIdeal.main_v51, Cert.ReferenceIdeal.main_v52]
theorem rS23_writes : WritesAt rS23 rS23_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil))))))))))))))))
theorem rv4_eq_rS23 (V0 : Valuation Cert.ReferenceIdeal.τ Cert.ReferenceIdeal.sig (Elt Ideal)) : rv4 V0 = after rS23 (rv2 V0) := by
  simp only [rv3, rv4, StableHlo.after_append]

/-- The reference's segments 4, as one list. -/
abbrev rS4 : List (HloOp Cert.ReferenceIdeal.τ Cert.ReferenceIdeal.sig (Elt Ideal)) := Cert.ReferenceIdeal.RunValue.seg4
abbrev rS4_W : List (Ref Cert.ReferenceIdeal.sig .tc) := [Cert.ReferenceIdeal.main_v53, Cert.ReferenceIdeal.main_v54, Cert.ReferenceIdeal.main_v55, Cert.ReferenceIdeal.main_v56, Cert.ReferenceIdeal.main_v57, Cert.ReferenceIdeal.main_v58, Cert.ReferenceIdeal.main_v59, Cert.ReferenceIdeal.main_v60, Cert.ReferenceIdeal.main_v61]
theorem rS4_writes : WritesAt rS4 rS4_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil)))))))))
theorem rv5_eq_rS4 (V0 : Valuation Cert.ReferenceIdeal.τ Cert.ReferenceIdeal.sig (Elt Ideal)) : rv5 V0 = after rS4 (rv4 V0) := by
  simp only [rv5, StableHlo.after_append]

/-- The reference's segments 5, as one list. -/
abbrev rS5 : List (HloOp Cert.ReferenceIdeal.τ Cert.ReferenceIdeal.sig (Elt Ideal)) := Cert.ReferenceIdeal.RunValue.seg5
abbrev rS5_W : List (Ref Cert.ReferenceIdeal.sig .tc) := [Cert.ReferenceIdeal.main_v62, Cert.ReferenceIdeal.main_v63, Cert.ReferenceIdeal.main_v64, Cert.ReferenceIdeal.main_v65, Cert.ReferenceIdeal.main_v66, Cert.ReferenceIdeal.main_v67]
theorem rS5_writes : WritesAt rS5 rS5_W :=
  (List.Forall₂.cons rfl (List.Forall₂.cons rfl (List.Forall₂.cons rfl (List.Forall₂.cons rfl (List.Forall₂.cons rfl (List.Forall₂.cons rfl List.Forall₂.nil))))))
theorem rv6_eq_rS5 (V0 : Valuation Cert.ReferenceIdeal.τ Cert.ReferenceIdeal.sig (Elt Ideal)) : rv6 V0 = after rS5 (rv5 V0) := by
  simp only [rv6, StableHlo.after_append]

/-- The reference's segments 6, as one list. -/
abbrev rS6 : List (HloOp Cert.ReferenceIdeal.τ Cert.ReferenceIdeal.sig (Elt Ideal)) := Cert.ReferenceIdeal.RunValue.seg6
abbrev rS6_W : List (Ref Cert.ReferenceIdeal.sig .tc) := [Cert.ReferenceIdeal.main_v68, Cert.ReferenceIdeal.main_v69]
theorem rS6_writes : WritesAt rS6 rS6_W :=
  (List.Forall₂.cons rfl (List.Forall₂.cons rfl List.Forall₂.nil))
theorem rv7_eq_rS6 (V0 : Valuation Cert.ReferenceIdeal.τ Cert.ReferenceIdeal.sig (Elt Ideal)) : rv7 V0 = after rS6 (rv6 V0) := by
  simp only [rv7, StableHlo.after_append]

/-- The reference's segments 7, as one list. -/
abbrev rS7 : List (HloOp Cert.ReferenceIdeal.τ Cert.ReferenceIdeal.sig (Elt Ideal)) := Cert.ReferenceIdeal.RunValue.seg7
abbrev rS7_W : List (Ref Cert.ReferenceIdeal.sig .tc) := [Cert.ReferenceIdeal.main_c_10, Cert.ReferenceIdeal.main_v70, Cert.ReferenceIdeal.main_v71, Cert.ReferenceIdeal.main_c_11, Cert.ReferenceIdeal.main_v72, Cert.ReferenceIdeal.main_v73, Cert.ReferenceIdeal.main_v74, Cert.ReferenceIdeal.main_v75, Cert.ReferenceIdeal.main_v76, Cert.ReferenceIdeal.main_v77, Cert.ReferenceIdeal.main_v78, Cert.ReferenceIdeal.main_v79, Cert.ReferenceIdeal.main_cst_12, Cert.ReferenceIdeal.main_v80, Cert.ReferenceIdeal.main_v81, Cert.ReferenceIdeal.main_v82, Cert.ReferenceIdeal.main_v83, Cert.ReferenceIdeal.main_v84, Cert.ReferenceIdeal.main_v85]
theorem rS7_writes : WritesAt rS7 rS7_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil)))))))))))))))))))
theorem rv8_eq_rS7 (V0 : Valuation Cert.ReferenceIdeal.τ Cert.ReferenceIdeal.sig (Elt Ideal)) : rv8 V0 = after rS7 (rv7 V0) := by
  simp only [rv8, StableHlo.after_append]

/-- The reference's segments 8, as one list. -/
abbrev rS8 : List (HloOp Cert.ReferenceIdeal.τ Cert.ReferenceIdeal.sig (Elt Ideal)) := Cert.ReferenceIdeal.RunValue.seg8
abbrev rS8_W : List (Ref Cert.ReferenceIdeal.sig .tc) := [Cert.ReferenceIdeal.main_call2_cst, Cert.ReferenceIdeal.main_call2_v0, Cert.ReferenceIdeal.main_v86, Cert.ReferenceIdeal.main_v87, Cert.ReferenceIdeal.main_v88, Cert.ReferenceIdeal.main_v89, Cert.ReferenceIdeal.main_v90, Cert.ReferenceIdeal.main_v91, Cert.ReferenceIdeal.main_v92]
theorem rS8_writes : WritesAt rS8 rS8_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil)))))))))
theorem rv9_eq_rS8 (V0 : Valuation Cert.ReferenceIdeal.τ Cert.ReferenceIdeal.sig (Elt Ideal)) : rv9 V0 = after rS8 (rv8 V0) := by
  simp only [rv9, StableHlo.after_append]

/-- The reference's segments 9, as one list. -/
abbrev rS9 : List (HloOp Cert.ReferenceIdeal.τ Cert.ReferenceIdeal.sig (Elt Ideal)) := Cert.ReferenceIdeal.RunValue.seg9
abbrev rS9_W : List (Ref Cert.ReferenceIdeal.sig .tc) := [Cert.ReferenceIdeal.main_v93, Cert.ReferenceIdeal.main_v94]
theorem rS9_writes : WritesAt rS9 rS9_W :=
  (List.Forall₂.cons rfl (List.Forall₂.cons rfl List.Forall₂.nil))
theorem rv10_eq_rS9 (V0 : Valuation Cert.ReferenceIdeal.τ Cert.ReferenceIdeal.sig (Elt Ideal)) : rv10 V0 = after rS9 (rv9 V0) := by
  simp only [rv10, StableHlo.after_append]

/-- The reference's segments 10, 11, as one list. -/
abbrev rS1011 : List (HloOp Cert.ReferenceIdeal.τ Cert.ReferenceIdeal.sig (Elt Ideal)) := Cert.ReferenceIdeal.RunValue.seg10 ++ Cert.ReferenceIdeal.RunValue.seg11
abbrev rS1011_W : List (Ref Cert.ReferenceIdeal.sig .tc) := [Cert.ReferenceIdeal.main_c_13, Cert.ReferenceIdeal.main_v95, Cert.ReferenceIdeal.main_v96, Cert.ReferenceIdeal.main_c_14, Cert.ReferenceIdeal.main_v97, Cert.ReferenceIdeal.main_v98, Cert.ReferenceIdeal.main_v99, Cert.ReferenceIdeal.main_v100, Cert.ReferenceIdeal.main_v101, Cert.ReferenceIdeal.main_v102, Cert.ReferenceIdeal.main_v103, Cert.ReferenceIdeal.main_v104, Cert.ReferenceIdeal.main_cst_15, Cert.ReferenceIdeal.main_v105, Cert.ReferenceIdeal.main_v106, Cert.ReferenceIdeal.main_v107, Cert.ReferenceIdeal.main_v108, Cert.ReferenceIdeal.main_v109, Cert.ReferenceIdeal.main_v110]
theorem rS1011_writes : WritesAt rS1011 rS1011_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil)))))))))))))))))))
theorem rv12_eq_rS1011 (V0 : Valuation Cert.ReferenceIdeal.τ Cert.ReferenceIdeal.sig (Elt Ideal)) : rv12 V0 = after rS1011 (rv10 V0) := by
  simp only [rv11, rv12, StableHlo.after_append]

/-- The reference's segments 12, as one list. -/
abbrev rS12 : List (HloOp Cert.ReferenceIdeal.τ Cert.ReferenceIdeal.sig (Elt Ideal)) := Cert.ReferenceIdeal.RunValue.seg12
abbrev rS12_W : List (Ref Cert.ReferenceIdeal.sig .tc) := [Cert.ReferenceIdeal.main_call3_cst, Cert.ReferenceIdeal.main_call3_v0, Cert.ReferenceIdeal.main_v111, Cert.ReferenceIdeal.main_v112, Cert.ReferenceIdeal.main_v113, Cert.ReferenceIdeal.main_v114, Cert.ReferenceIdeal.main_v115, Cert.ReferenceIdeal.main_v116, Cert.ReferenceIdeal.main_v117]
theorem rS12_writes : WritesAt rS12 rS12_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil)))))))))
theorem rv13_eq_rS12 (V0 : Valuation Cert.ReferenceIdeal.τ Cert.ReferenceIdeal.sig (Elt Ideal)) : rv13 V0 = after rS12 (rv12 V0) := by
  simp only [rv13, StableHlo.after_append]

/-- The reference's segments 13, as one list. -/
abbrev rS13 : List (HloOp Cert.ReferenceIdeal.τ Cert.ReferenceIdeal.sig (Elt Ideal)) := Cert.ReferenceIdeal.RunValue.seg13
abbrev rS13_W : List (Ref Cert.ReferenceIdeal.sig .tc) := [Cert.ReferenceIdeal.main_v118, Cert.ReferenceIdeal.main_v119, Cert.ReferenceIdeal.main_v120, Cert.ReferenceIdeal.main_v121, Cert.ReferenceIdeal.main_v122]
theorem rS13_writes : WritesAt rS13 rS13_W :=
  (List.Forall₂.cons rfl (List.Forall₂.cons rfl (List.Forall₂.cons rfl (List.Forall₂.cons rfl (List.Forall₂.cons rfl List.Forall₂.nil)))))
theorem rv14_eq_rS13 (V0 : Valuation Cert.ReferenceIdeal.τ Cert.ReferenceIdeal.sig (Elt Ideal)) : rv14 V0 = after rS13 (rv13 V0) := by
  simp only [rv14, StableHlo.after_append]

/-- The reference's segments 14, as one list. -/
abbrev rS14 : List (HloOp Cert.ReferenceIdeal.τ Cert.ReferenceIdeal.sig (Elt Ideal)) := Cert.ReferenceIdeal.RunValue.seg14
abbrev rS14_W : List (Ref Cert.ReferenceIdeal.sig .tc) := [Cert.ReferenceIdeal.main_cst_16, Cert.ReferenceIdeal.main_v123, Cert.ReferenceIdeal.main_cst_17, Cert.ReferenceIdeal.main_v124, Cert.ReferenceIdeal.main_v125, Cert.ReferenceIdeal.main_c_18, Cert.ReferenceIdeal.main_call4_cst, Cert.ReferenceIdeal.main_call4_v0, Cert.ReferenceIdeal.main_call4_v1, Cert.ReferenceIdeal.main_call4_cst_0, Cert.ReferenceIdeal.main_call4_v2, Cert.ReferenceIdeal.main_call4_v3, Cert.ReferenceIdeal.main_call4_v4, Cert.ReferenceIdeal.main_call4_v5, Cert.ReferenceIdeal.main_call4_v6, Cert.ReferenceIdeal.main_call4_v7, Cert.ReferenceIdeal.main_call4_cst_1, Cert.ReferenceIdeal.main_call4_v8, Cert.ReferenceIdeal.main_call4_cst_2, Cert.ReferenceIdeal.main_call4_v9, Cert.ReferenceIdeal.main_call4_v10, Cert.ReferenceIdeal.main_call4_v11, Cert.ReferenceIdeal.main_call4_cst_3, Cert.ReferenceIdeal.main_call4_v12, Cert.ReferenceIdeal.main_call4_cst_4, Cert.ReferenceIdeal.main_call4_call0_v0, Cert.ReferenceIdeal.main_call4_call0_v1, Cert.ReferenceIdeal.main_v126]
theorem rS14_writes : WritesAt rS14 rS14_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil))))))))))))))))))))))))))))
theorem rv15_eq_rS14 (V0 : Valuation Cert.ReferenceIdeal.τ Cert.ReferenceIdeal.sig (Elt Ideal)) : rv15 V0 = after rS14 (rv14 V0) := by
  simp only [rv15, StableHlo.after_append]

/-- The reference's segments 15, as one list. -/
abbrev rS15 : List (HloOp Cert.ReferenceIdeal.τ Cert.ReferenceIdeal.sig (Elt Ideal)) := Cert.ReferenceIdeal.RunValue.seg15
abbrev rS15_W : List (Ref Cert.ReferenceIdeal.sig .tc) := [Cert.ReferenceIdeal.main_v127, Cert.ReferenceIdeal.main_v128, Cert.ReferenceIdeal.main_v129, Cert.ReferenceIdeal.main_cst_19, Cert.ReferenceIdeal.main_v130, Cert.ReferenceIdeal.main_v131, Cert.ReferenceIdeal.main_v132, Cert.ReferenceIdeal.main_v133, Cert.ReferenceIdeal.main_v134, Cert.ReferenceIdeal.main_v135, Cert.ReferenceIdeal.main_v136, Cert.ReferenceIdeal.main_v137, Cert.ReferenceIdeal.main_v138, Cert.ReferenceIdeal.main_v139, Cert.ReferenceIdeal.main_v140, Cert.ReferenceIdeal.main_v141, Cert.ReferenceIdeal.main_call5_cst, Cert.ReferenceIdeal.main_call5_v0, Cert.ReferenceIdeal.main_v142, Cert.ReferenceIdeal.main_v143, Cert.ReferenceIdeal.main_v144, Cert.ReferenceIdeal.main_v145, Cert.ReferenceIdeal.main_v146, Cert.ReferenceIdeal.main_v147]
theorem rS15_writes : WritesAt rS15 rS15_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil))))))))))))))))))))))))
theorem rv16_eq_rS15 (V0 : Valuation Cert.ReferenceIdeal.τ Cert.ReferenceIdeal.sig (Elt Ideal)) : rv16 V0 = after rS15 (rv15 V0) := by
  simp only [rv16, StableHlo.after_append]

/-- The reference's segments 16, as one list. -/
abbrev rS16 : List (HloOp Cert.ReferenceIdeal.τ Cert.ReferenceIdeal.sig (Elt Ideal)) := Cert.ReferenceIdeal.RunValue.seg16
abbrev rS16_W : List (Ref Cert.ReferenceIdeal.sig .tc) := [Cert.ReferenceIdeal.main_cst_20, Cert.ReferenceIdeal.main_v148, Cert.ReferenceIdeal.main_cst_21, Cert.ReferenceIdeal.main_v149, Cert.ReferenceIdeal.main_v150, Cert.ReferenceIdeal.main_c_22, Cert.ReferenceIdeal.main_call6_cst, Cert.ReferenceIdeal.main_call6_v0, Cert.ReferenceIdeal.main_call6_v1, Cert.ReferenceIdeal.main_call6_cst_0, Cert.ReferenceIdeal.main_call6_v2, Cert.ReferenceIdeal.main_call6_v3, Cert.ReferenceIdeal.main_call6_v4, Cert.ReferenceIdeal.main_call6_v5, Cert.ReferenceIdeal.main_call6_v6, Cert.ReferenceIdeal.main_call6_v7, Cert.ReferenceIdeal.main_call6_cst_1, Cert.ReferenceIdeal.main_call6_v8, Cert.ReferenceIdeal.main_call6_cst_2, Cert.ReferenceIdeal.main_call6_v9, Cert.ReferenceIdeal.main_call6_v10, Cert.ReferenceIdeal.main_call6_v11, Cert.ReferenceIdeal.main_call6_cst_3, Cert.ReferenceIdeal.main_call6_v12, Cert.ReferenceIdeal.main_call6_cst_4, Cert.ReferenceIdeal.main_call6_call0_v0, Cert.ReferenceIdeal.main_call6_call0_v1, Cert.ReferenceIdeal.main_v151]
theorem rS16_writes : WritesAt rS16 rS16_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil))))))))))))))))))))))))))))
theorem rv17_eq_rS16 (V0 : Valuation Cert.ReferenceIdeal.τ Cert.ReferenceIdeal.sig (Elt Ideal)) : rv17 V0 = after rS16 (rv16 V0) := by
  simp only [rv17, StableHlo.after_append]

/-- The reference's segments 17, 18, as one list. -/
abbrev rS1718 : List (HloOp Cert.ReferenceIdeal.τ Cert.ReferenceIdeal.sig (Elt Ideal)) := Cert.ReferenceIdeal.RunValue.seg17 ++ Cert.ReferenceIdeal.RunValue.seg18
abbrev rS1718_W : List (Ref Cert.ReferenceIdeal.sig .tc) := [Cert.ReferenceIdeal.main_v152, Cert.ReferenceIdeal.main_v153, Cert.ReferenceIdeal.main_v154, Cert.ReferenceIdeal.main_cst_23, Cert.ReferenceIdeal.main_v155, Cert.ReferenceIdeal.main_v156, Cert.ReferenceIdeal.main_v157, Cert.ReferenceIdeal.main_v158, Cert.ReferenceIdeal.main_v159, Cert.ReferenceIdeal.main_v160, Cert.ReferenceIdeal.main_v161, Cert.ReferenceIdeal.main_v162, Cert.ReferenceIdeal.main_v163, Cert.ReferenceIdeal.main_v164, Cert.ReferenceIdeal.main_v165, Cert.ReferenceIdeal.main_v166, Cert.ReferenceIdeal.main_call7_cst, Cert.ReferenceIdeal.main_call7_v0, Cert.ReferenceIdeal.main_v167, Cert.ReferenceIdeal.main_v168, Cert.ReferenceIdeal.main_v169, Cert.ReferenceIdeal.main_v170, Cert.ReferenceIdeal.main_v171, Cert.ReferenceIdeal.main_v172]
theorem rS1718_writes : WritesAt rS1718 rS1718_W :=
  (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl List.Forall₂.nil))))))))))))))))))))))))
theorem rv19_eq_rS1718 (V0 : Valuation Cert.ReferenceIdeal.τ Cert.ReferenceIdeal.sig (Elt Ideal)) : rv19 V0 = after rS1718 (rv17 V0) := by
  simp only [rv18, rv19, StableHlo.after_append]

/-- The reference's segments 19, as one list. -/
abbrev rS19 : List (HloOp Cert.ReferenceIdeal.τ Cert.ReferenceIdeal.sig (Elt Ideal)) := Cert.ReferenceIdeal.RunValue.seg19
abbrev rS19_W : List (Ref Cert.ReferenceIdeal.sig .tc) := [Cert.ReferenceIdeal.main_v173]
theorem rS19_writes : WritesAt rS19 rS19_W :=
  (List.Forall₂.cons rfl List.Forall₂.nil)
theorem rv20_eq_rS19 (V0 : Valuation Cert.ReferenceIdeal.τ Cert.ReferenceIdeal.sig (Elt Ideal)) : rv20 V0 = after rS19 (rv19 V0) := by
  simp only [rv20, StableHlo.after_append]

end Cert.Bridge

end
-- ==== Proof.BArgs.lean ====
/-
  The argument arrays, and what it means for the two launch memories to hold them.

  The kernel's program and the reference's name their buffers in two different signatures. Every fact that relates the
  two is stated through the 25 argument arrays at their literal types: the kernel's launch memory holds them (KHolds)
  and the reference's launch contents hold them (RHolds).
-/
import proofs.«175455_j86191403696584_1_alg».proof.Proof.SsaData
import Idealize.ShloMosaic.Lib.IdealHost
import Idealize.ShloMosaic.Lib.ValueLayout

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Stages Cert.ReferenceIdeal.RunValue Cert.KernelIdeal.Regions Cert.Lib.Ssa

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)
variable (V0 : Valuation Cert.ReferenceIdeal.τ Cert.ReferenceIdeal.sig (Elt Ideal))

/-- The 25 argument arrays, at their literal types. -/
structure Args where
  x0 : FVec Ideal Cert.KernelIdeal.S160000x2 .f32
  x1 : IVec Cert.KernelIdeal.S2x1600000 32
  x2 : FVec Ideal Cert.KernelIdeal.S64x1 .f32
  x3 : FVec Ideal Cert.KernelIdeal.S64 .f32
  x4 : FVec Ideal Cert.KernelIdeal.S64x1 .f32
  x5 : FVec Ideal Cert.KernelIdeal.S64 .f32
  x6 : FVec Ideal Cert.KernelIdeal.S5000x64 .f32
  x7 : FVec Ideal Cert.KernelIdeal.S64x128 .f32
  x8 : FVec Ideal Cert.KernelIdeal.S64 .f32
  x9 : FVec Ideal Cert.KernelIdeal.S64x128 .f32
  x10 : FVec Ideal Cert.KernelIdeal.S64 .f32
  x11 : FVec Ideal Cert.KernelIdeal.S64x64 .f32
  x12 : FVec Ideal Cert.KernelIdeal.S64 .f32
  x13 : FVec Ideal Cert.KernelIdeal.S64x64 .f32
  x14 : FVec Ideal Cert.KernelIdeal.S64 .f32
  x15 : FVec Ideal Cert.KernelIdeal.S128x64 .f32
  x16 : FVec Ideal Cert.KernelIdeal.S128 .f32
  x17 : FVec Ideal Cert.KernelIdeal.S128 .f32
  x18 : FVec Ideal Cert.KernelIdeal.S128 .f32
  x19 : FVec Ideal Cert.KernelIdeal.S64x128 .f32
  x20 : FVec Ideal Cert.KernelIdeal.S64 .f32
  x21 : FVec Ideal Cert.KernelIdeal.S64 .f32
  x22 : FVec Ideal Cert.KernelIdeal.S64 .f32
  x23 : FVec Ideal Cert.KernelIdeal.S1x64 .f32
  x24 : FVec Ideal Cert.KernelIdeal.S1 .f32

/-- The kernel's launch memory holds the argument arrays. -/
structure KHolds (A : Args) : Prop where
  k0 : W0 m ρ c (Proc.devRef .tc Cert.KernelIdeal.main_arg0) = A.x0
  k1 : W0 m ρ c (Proc.devRef .tc Cert.KernelIdeal.main_arg1) = A.x1
  k2 : W0 m ρ c (Proc.devRef .tc Cert.KernelIdeal.main_arg2) = A.x2
  k3 : W0 m ρ c (Proc.devRef .tc Cert.KernelIdeal.main_arg3) = A.x3
  k4 : W0 m ρ c (Proc.devRef .tc Cert.KernelIdeal.main_arg4) = A.x4
  k5 : W0 m ρ c (Proc.devRef .tc Cert.KernelIdeal.main_arg5) = A.x5
  k6 : W0 m ρ c (Proc.devRef .tc Cert.KernelIdeal.main_arg6) = A.x6
  k7 : W0 m ρ c (Proc.devRef .tc Cert.KernelIdeal.main_arg7) = A.x7
  k8 : W0 m ρ c (Proc.devRef .tc Cert.KernelIdeal.main_arg8) = A.x8
  k9 : W0 m ρ c (Proc.devRef .tc Cert.KernelIdeal.main_arg9) = A.x9
  k10 : W0 m ρ c (Proc.devRef .tc Cert.KernelIdeal.main_arg10) = A.x10
  k11 : W0 m ρ c (Proc.devRef .tc Cert.KernelIdeal.main_arg11) = A.x11
  k12 : W0 m ρ c (Proc.devRef .tc Cert.KernelIdeal.main_arg12) = A.x12
  k13 : W0 m ρ c (Proc.devRef .tc Cert.KernelIdeal.main_arg13) = A.x13
  k14 : W0 m ρ c (Proc.devRef .tc Cert.KernelIdeal.main_arg14) = A.x14
  k15 : W0 m ρ c (Proc.devRef .tc Cert.KernelIdeal.main_arg15) = A.x15
  k16 : W0 m ρ c (Proc.devRef .tc Cert.KernelIdeal.main_arg16) = A.x16
  k17 : W0 m ρ c (Proc.devRef .tc Cert.KernelIdeal.main_arg17) = A.x17
  k18 : W0 m ρ c (Proc.devRef .tc Cert.KernelIdeal.main_arg18) = A.x18
  k19 : W0 m ρ c (Proc.devRef .tc Cert.KernelIdeal.main_arg19) = A.x19
  k20 : W0 m ρ c (Proc.devRef .tc Cert.KernelIdeal.main_arg20) = A.x20
  k21 : W0 m ρ c (Proc.devRef .tc Cert.KernelIdeal.main_arg21) = A.x21
  k22 : W0 m ρ c (Proc.devRef .tc Cert.KernelIdeal.main_arg22) = A.x22
  k23 : W0 m ρ c (Proc.devRef .tc Cert.KernelIdeal.main_arg23) = A.x23
  k24 : W0 m ρ c (Proc.devRef .tc Cert.KernelIdeal.main_arg24) = A.x24

/-- The reference's launch contents hold the same argument arrays. -/
structure RHolds (A : Args) : Prop where
  r0 : V0 (Proc.devRef .tc Cert.ReferenceIdeal.main_arg0) = A.x0
  r1 : V0 (Proc.devRef .tc Cert.ReferenceIdeal.main_arg1) = A.x1
  r2 : V0 (Proc.devRef .tc Cert.ReferenceIdeal.main_arg2) = A.x2
  r3 : V0 (Proc.devRef .tc Cert.ReferenceIdeal.main_arg3) = A.x3
  r4 : V0 (Proc.devRef .tc Cert.ReferenceIdeal.main_arg4) = A.x4
  r5 : V0 (Proc.devRef .tc Cert.ReferenceIdeal.main_arg5) = A.x5
  r6 : V0 (Proc.devRef .tc Cert.ReferenceIdeal.main_arg6) = A.x6
  r7 : V0 (Proc.devRef .tc Cert.ReferenceIdeal.main_arg7) = A.x7
  r8 : V0 (Proc.devRef .tc Cert.ReferenceIdeal.main_arg8) = A.x8
  r9 : V0 (Proc.devRef .tc Cert.ReferenceIdeal.main_arg9) = A.x9
  r10 : V0 (Proc.devRef .tc Cert.ReferenceIdeal.main_arg10) = A.x10
  r11 : V0 (Proc.devRef .tc Cert.ReferenceIdeal.main_arg11) = A.x11
  r12 : V0 (Proc.devRef .tc Cert.ReferenceIdeal.main_arg12) = A.x12
  r13 : V0 (Proc.devRef .tc Cert.ReferenceIdeal.main_arg13) = A.x13
  r14 : V0 (Proc.devRef .tc Cert.ReferenceIdeal.main_arg14) = A.x14
  r15 : V0 (Proc.devRef .tc Cert.ReferenceIdeal.main_arg15) = A.x15
  r16 : V0 (Proc.devRef .tc Cert.ReferenceIdeal.main_arg16) = A.x16
  r17 : V0 (Proc.devRef .tc Cert.ReferenceIdeal.main_arg17) = A.x17
  r18 : V0 (Proc.devRef .tc Cert.ReferenceIdeal.main_arg18) = A.x18
  r19 : V0 (Proc.devRef .tc Cert.ReferenceIdeal.main_arg19) = A.x19
  r20 : V0 (Proc.devRef .tc Cert.ReferenceIdeal.main_arg20) = A.x20
  r21 : V0 (Proc.devRef .tc Cert.ReferenceIdeal.main_arg21) = A.x21
  r22 : V0 (Proc.devRef .tc Cert.ReferenceIdeal.main_arg22) = A.x22
  r23 : V0 (Proc.devRef .tc Cert.ReferenceIdeal.main_arg23) = A.x23
  r24 : V0 (Proc.devRef .tc Cert.ReferenceIdeal.main_arg24) = A.x24

end Cert.Bridge

end
-- ==== Proof.BEdges.lean ====
/-
  The edge bookkeeping is the same in the two programs.

  Both programs build the source and destination index lists (the given edges followed by one self loop per node), the
  in-degrees by a scatter-add of ones, their reciprocal square roots where positive, and the per-edge normalisation as
  the product of the two gathered factors — by the same 43 host operations in the same order. Operation by operation
  the kernel's buffer and the reference's hold the same value: each is the same function of operands already shown
  equal, starting from the shared edge-index argument.
-/
import proofs.«175455_j86191403696584_1_alg».proof.Proof.BArgs
import Idealize.ShloMosaic.Lib.IdealHost
import Idealize.ShloMosaic.Lib.ValueLayout

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Stages Cert.ReferenceIdeal.RunValue Cert.KernelIdeal.Regions Cert.Lib.Ssa

variable {m : (ℓ : Loc Cert.KernelIdeal.nD Cert.KernelIdeal.τ Cert.KernelIdeal.sig) → Buf (Elt Ideal) ℓ} {ρ : Dev Cert.KernelIdeal.nD → PrngReg} {c : Dev Cert.KernelIdeal.nD}
variable {V0 : Valuation Cert.ReferenceIdeal.τ Cert.ReferenceIdeal.sig (Elt Ideal)} {A : Args}

theorem e_arg1 (hK : KHolds m ρ c A) (hR : RHolds V0 A) :
    (W3 m ρ c (Proc.devRef .tc Cert.KernelIdeal.main_arg1) : IVec Cert.KernelIdeal.S2x1600000 32) = (rv1 V0 (Proc.devRef .tc Cert.ReferenceIdeal.main_arg1) : IVec Cert.ReferenceIdeal.S2x1600000 32) := by
  rw [((W3_keep m ρ c Cert.KernelIdeal.main_arg1 (by decide)).trans ((W2_keep m ρ c Cert.KernelIdeal.main_arg1 (by decide)).trans (W1_keep m ρ c Cert.KernelIdeal.main_arg1 (by decide)))), (rv1_keep V0 Cert.ReferenceIdeal.main_arg1 (by decide)), hK.k1]
  exact hR.r1.symm

theorem e_main_v0 (hK : KHolds m ρ c A) (hR : RHolds V0 A) :
    (W3 m ρ c (Proc.devRef .tc Cert.KernelIdeal.main_v0) : IVec Cert.KernelIdeal.S160000 32) = (rv1 V0 (Proc.devRef .tc Cert.ReferenceIdeal.main_v0) : IVec Cert.ReferenceIdeal.S160000 32) := by
  have e1 := (read_nullary (L := kP1) kP1_writes 0 rfl (by decide) (W0 m ρ c))
  have e2 := (read_nullary (L := rS0) rS0_writes 0 rfl (by decide) (rv0 V0))
  rw [← W3_eq_kP1 m ρ c] at e1
  rw [← rv1_eq_rS0 V0] at e2
  rw [e1, e2]
  all_goals rfl

theorem e_main_v1 (hK : KHolds m ρ c A) (hR : RHolds V0 A) :
    (W3 m ρ c (Proc.devRef .tc Cert.KernelIdeal.main_v1) : IVec Cert.KernelIdeal.S1x1600000 32) = (rv1 V0 (Proc.devRef .tc Cert.ReferenceIdeal.main_v1) : IVec Cert.ReferenceIdeal.S1x1600000 32) := by
  have e1 := (read_unary (L := kP1) kP1_writes 1 rfl (by decide) (by decide) (W0 m ρ c))
  have e2 := (read_unary (L := rS0) rS0_writes 1 rfl (by decide) (by decide) (rv0 V0))
  rw [← W3_eq_kP1 m ρ c] at e1
  rw [← rv1_eq_rS0 V0] at e2
  rw [e1, e2, e_arg1 hK hR]
  all_goals rfl

theorem e_main_v2 (hK : KHolds m ρ c A) (hR : RHolds V0 A) :
    (W3 m ρ c (Proc.devRef .tc Cert.KernelIdeal.main_v2) : IVec Cert.KernelIdeal.S1600000 32) = (rv1 V0 (Proc.devRef .tc Cert.ReferenceIdeal.main_v2) : IVec Cert.ReferenceIdeal.S1600000 32) := by
  have e1 := (read_reshape (L := kP1) kP1_writes 2 rfl (by decide) (by decide) (W0 m ρ c))
  have e2 := (read_reshape (L := rS0) rS0_writes 2 rfl (by decide) (by decide) (rv0 V0))
  rw [← W3_eq_kP1 m ρ c] at e1
  rw [← rv1_eq_rS0 V0] at e2
  rw [e1, e2, e_main_v1 hK hR]
  all_goals rfl

theorem e_main_v3 (hK : KHolds m ρ c A) (hR : RHolds V0 A) :
    (W3 m ρ c (Proc.devRef .tc Cert.KernelIdeal.main_v3) : IVec Cert.KernelIdeal.S1760000 32) = (rv1 V0 (Proc.devRef .tc Cert.ReferenceIdeal.main_v3) : IVec Cert.ReferenceIdeal.S1760000 32) := by
  have e1 := (read_binary (L := kP1) kP1_writes 3 rfl (by decide) (by decide) (by decide) (W0 m ρ c))
  have e2 := (read_binary (L := rS0) rS0_writes 3 rfl (by decide) (by decide) (by decide) (rv0 V0))
  rw [← W3_eq_kP1 m ρ c] at e1
  rw [← rv1_eq_rS0 V0] at e2
  rw [e1, e2, e_main_v2 hK hR, e_main_v0 hK hR]
  all_goals rfl

theorem e_main_v4 (hK : KHolds m ρ c A) (hR : RHolds V0 A) :
    (W3 m ρ c (Proc.devRef .tc Cert.KernelIdeal.main_v4) : IVec Cert.KernelIdeal.S1x1600000 32) = (rv1 V0 (Proc.devRef .tc Cert.ReferenceIdeal.main_v4) : IVec Cert.ReferenceIdeal.S1x1600000 32) := by
  have e1 := (read_unary (L := kP1) kP1_writes 4 rfl (by decide) (by decide) (W0 m ρ c))
  have e2 := (read_unary (L := rS0) rS0_writes 4 rfl (by decide) (by decide) (rv0 V0))
  rw [← W3_eq_kP1 m ρ c] at e1
  rw [← rv1_eq_rS0 V0] at e2
  rw [e1, e2, e_arg1 hK hR]
  all_goals rfl

theorem e_main_v5 (hK : KHolds m ρ c A) (hR : RHolds V0 A) :
    (W3 m ρ c (Proc.devRef .tc Cert.KernelIdeal.main_v5) : IVec Cert.KernelIdeal.S1600000 32) = (rv1 V0 (Proc.devRef .tc Cert.ReferenceIdeal.main_v5) : IVec Cert.ReferenceIdeal.S1600000 32) := by
  have e1 := (read_reshape (L := kP1) kP1_writes 5 rfl (by decide) (by decide) (W0 m ρ c))
  have e2 := (read_reshape (L := rS0) rS0_writes 5 rfl (by decide) (by decide) (rv0 V0))
  rw [← W3_eq_kP1 m ρ c] at e1
  rw [← rv1_eq_rS0 V0] at e2
  rw [e1, e2, e_main_v4 hK hR]
  all_goals rfl

theorem e_main_v6 (hK : KHolds m ρ c A) (hR : RHolds V0 A) :
    (W3 m ρ c (Proc.devRef .tc Cert.KernelIdeal.main_v6) : IVec Cert.KernelIdeal.S1760000 32) = (rv1 V0 (Proc.devRef .tc Cert.ReferenceIdeal.main_v6) : IVec Cert.ReferenceIdeal.S1760000 32) := by
  have e1 := (read_binary (L := kP1) kP1_writes 6 rfl (by decide) (by decide) (by decide) (W0 m ρ c))
  have e2 := (read_binary (L := rS0) rS0_writes 6 rfl (by decide) (by decide) (by decide) (rv0 V0))
  rw [← W3_eq_kP1 m ρ c] at e1
  rw [← rv1_eq_rS0 V0] at e2
  rw [e1, e2, e_main_v5 hK hR, e_main_v0 hK hR]
  all_goals rfl

theorem e_main_cst (hK : KHolds m ρ c A) (hR : RHolds V0 A) :
    (W3 m ρ c (Proc.devRef .tc Cert.KernelIdeal.main_cst) : FVec Ideal Cert.KernelIdeal.S_ .f32) = (rv1 V0 (Proc.devRef .tc Cert.ReferenceIdeal.main_cst) : FVec Ideal Cert.ReferenceIdeal.S_ .f32) := by
  have e1 := (read_nullary (L := kP1) kP1_writes 7 rfl (by decide) (W0 m ρ c))
  have e2 := (read_nullary (L := rS0) rS0_writes 7 rfl (by decide) (rv0 V0))
  rw [← W3_eq_kP1 m ρ c] at e1
  rw [← rv1_eq_rS0 V0] at e2
  rw [e1, e2]
  all_goals rfl

theorem e_main_v7 (hK : KHolds m ρ c A) (hR : RHolds V0 A) :
    (W3 m ρ c (Proc.devRef .tc Cert.KernelIdeal.main_v7) : FVec Ideal Cert.KernelIdeal.S1760000 .f32) = (rv1 V0 (Proc.devRef .tc Cert.ReferenceIdeal.main_v7) : FVec Ideal Cert.ReferenceIdeal.S1760000 .f32) := by
  have e1 := (read_unary (L := kP1) kP1_writes 8 rfl (by decide) (by decide) (W0 m ρ c))
  have e2 := (read_unary (L := rS0) rS0_writes 8 rfl (by decide) (by decide) (rv0 V0))
  rw [← W3_eq_kP1 m ρ c] at e1
  rw [← rv1_eq_rS0 V0] at e2
  rw [e1, e2, e_main_cst hK hR]
  all_goals rfl

theorem e_main_cst_0 (hK : KHolds m ρ c A) (hR : RHolds V0 A) :
    (W3 m ρ c (Proc.devRef .tc Cert.KernelIdeal.main_cst_0) : FVec Ideal Cert.KernelIdeal.S_ .f32) = (rv1 V0 (Proc.devRef .tc Cert.ReferenceIdeal.main_cst_0) : FVec Ideal Cert.ReferenceIdeal.S_ .f32) := by
  have e1 := (read_nullary (L := kP1) kP1_writes 9 rfl (by decide) (W0 m ρ c))
  have e2 := (read_nullary (L := rS0) rS0_writes 9 rfl (by decide) (rv0 V0))
  rw [← W3_eq_kP1 m ρ c] at e1
  rw [← rv1_eq_rS0 V0] at e2
  rw [e1, e2]
  all_goals rfl

theorem e_main_v8 (hK : KHolds m ρ c A) (hR : RHolds V0 A) :
    (W3 m ρ c (Proc.devRef .tc Cert.KernelIdeal.main_v8) : FVec Ideal Cert.KernelIdeal.S160000 .f32) = (rv1 V0 (Proc.devRef .tc Cert.ReferenceIdeal.main_v8) : FVec Ideal Cert.ReferenceIdeal.S160000 .f32) := by
  have e1 := (read_unary (L := kP1) kP1_writes 10 rfl (by decide) (by decide) (W0 m ρ c))
  have e2 := (read_unary (L := rS0) rS0_writes 10 rfl (by decide) (by decide) (rv0 V0))
  rw [← W3_eq_kP1 m ρ c] at e1
  rw [← rv1_eq_rS0 V0] at e2
  rw [e1, e2, e_main_cst_0 hK hR]
  all_goals rfl

theorem e_main_v9 (hK : KHolds m ρ c A) (hR : RHolds V0 A) :
    (W3 m ρ c (Proc.devRef .tc Cert.KernelIdeal.main_v9) : IVec Cert.KernelIdeal.S1760000x1 32) = (rv1 V0 (Proc.devRef .tc Cert.ReferenceIdeal.main_v9) : IVec Cert.ReferenceIdeal.S1760000x1 32) := by
  have e1 := (read_unary (L := kP1) kP1_writes 11 rfl (by decide) (by decide) (W0 m ρ c))
  have e2 := (read_unary (L := rS0) rS0_writes 11 rfl (by decide) (by decide) (rv0 V0))
  rw [← W3_eq_kP1 m ρ c] at e1
  rw [← rv1_eq_rS0 V0] at e2
  rw [e1, e2, e_main_v6 hK hR]
  all_goals rfl

theorem e_main_v10 (hK : KHolds m ρ c A) (hR : RHolds V0 A) :
    (W3 m ρ c (Proc.devRef .tc Cert.KernelIdeal.main_v10) : FVec Ideal Cert.KernelIdeal.S160000 .f32) = (rv1 V0 (Proc.devRef .tc Cert.ReferenceIdeal.main_v10) : FVec Ideal Cert.ReferenceIdeal.S160000 .f32) := by
  have e1 := (read_ternary (L := kP1) kP1_writes 12 rfl (by decide) (by decide) (by decide) (by decide) (W0 m ρ c))
  have e2 := (read_ternary (L := rS0) rS0_writes 12 rfl (by decide) (by decide) (by decide) (by decide) (rv0 V0))
  rw [← W3_eq_kP1 m ρ c] at e1
  rw [← rv1_eq_rS0 V0] at e2
  rw [e1, e2, e_main_v8 hK hR, e_main_v9 hK hR, e_main_v7 hK hR]
  all_goals rfl

theorem e_main_cst_1 (hK : KHolds m ρ c A) (hR : RHolds V0 A) :
    (W3 m ρ c (Proc.devRef .tc Cert.KernelIdeal.main_cst_1) : FVec Ideal Cert.KernelIdeal.S_ .f32) = (rv1 V0 (Proc.devRef .tc Cert.ReferenceIdeal.main_cst_1) : FVec Ideal Cert.ReferenceIdeal.S_ .f32) := by
  have e1 := (read_nullary (L := kP1) kP1_writes 13 rfl (by decide) (W0 m ρ c))
  have e2 := (read_nullary (L := rS0) rS0_writes 13 rfl (by decide) (rv0 V0))
  rw [← W3_eq_kP1 m ρ c] at e1
  rw [← rv1_eq_rS0 V0] at e2
  rw [e1, e2]
  all_goals rfl

theorem e_main_v11 (hK : KHolds m ρ c A) (hR : RHolds V0 A) :
    (W3 m ρ c (Proc.devRef .tc Cert.KernelIdeal.main_v11) : FVec Ideal Cert.KernelIdeal.S160000 .f32) = (rv1 V0 (Proc.devRef .tc Cert.ReferenceIdeal.main_v11) : FVec Ideal Cert.ReferenceIdeal.S160000 .f32) := by
  have e1 := (read_unary (L := kP1) kP1_writes 14 rfl (by decide) (by decide) (W0 m ρ c))
  have e2 := (read_unary (L := rS0) rS0_writes 14 rfl (by decide) (by decide) (rv0 V0))
  rw [← W3_eq_kP1 m ρ c] at e1
  rw [← rv1_eq_rS0 V0] at e2
  rw [e1, e2, e_main_cst_1 hK hR]
  all_goals rfl

theorem e_main_v12 (hK : KHolds m ρ c A) (hR : RHolds V0 A) :
    (W3 m ρ c (Proc.devRef .tc Cert.KernelIdeal.main_v12) : IVec Cert.KernelIdeal.S160000 1) = (rv1 V0 (Proc.devRef .tc Cert.ReferenceIdeal.main_v12) : IVec Cert.ReferenceIdeal.S160000 1) := by
  have e1 := (read_binary (L := kP1) kP1_writes 15 rfl (by decide) (by decide) (by decide) (W0 m ρ c))
  have e2 := (read_binary (L := rS0) rS0_writes 15 rfl (by decide) (by decide) (by decide) (rv0 V0))
  rw [← W3_eq_kP1 m ρ c] at e1
  rw [← rv1_eq_rS0 V0] at e2
  rw [e1, e2, e_main_v10 hK hR, e_main_v11 hK hR]
  all_goals rfl

theorem e_main_cst_2 (hK : KHolds m ρ c A) (hR : RHolds V0 A) :
    (W3 m ρ c (Proc.devRef .tc Cert.KernelIdeal.main_cst_2) : FVec Ideal Cert.KernelIdeal.S_ .f32) = (rv1 V0 (Proc.devRef .tc Cert.ReferenceIdeal.main_cst_2) : FVec Ideal Cert.ReferenceIdeal.S_ .f32) := by
  have e1 := (read_nullary (L := kP1) kP1_writes 16 rfl (by decide) (W0 m ρ c))
  have e2 := (read_nullary (L := rS0) rS0_writes 16 rfl (by decide) (rv0 V0))
  rw [← W3_eq_kP1 m ρ c] at e1
  rw [← rv1_eq_rS0 V0] at e2
  rw [e1, e2]
  all_goals rfl

theorem e_main_v13 (hK : KHolds m ρ c A) (hR : RHolds V0 A) :
    (W3 m ρ c (Proc.devRef .tc Cert.KernelIdeal.main_v13) : FVec Ideal Cert.KernelIdeal.S160000 .f32) = (rv1 V0 (Proc.devRef .tc Cert.ReferenceIdeal.main_v13) : FVec Ideal Cert.ReferenceIdeal.S160000 .f32) := by
  have e1 := (read_unary (L := kP1) kP1_writes 17 rfl (by decide) (by decide) (W0 m ρ c))
  have e2 := (read_unary (L := rS0) rS0_writes 17 rfl (by decide) (by decide) (rv0 V0))
  rw [← W3_eq_kP1 m ρ c] at e1
  rw [← rv1_eq_rS0 V0] at e2
  rw [e1, e2, e_main_cst_2 hK hR]
  all_goals rfl

theorem e_main_v14 (hK : KHolds m ρ c A) (hR : RHolds V0 A) :
    (W3 m ρ c (Proc.devRef .tc Cert.KernelIdeal.main_v14) : FVec Ideal Cert.KernelIdeal.S160000 .f32) = (rv1 V0 (Proc.devRef .tc Cert.ReferenceIdeal.main_v14) : FVec Ideal Cert.ReferenceIdeal.S160000 .f32) := by
  have e1 := (read_binary (L := kP1) kP1_writes 18 rfl (by decide) (by decide) (by decide) (W0 m ρ c))
  have e2 := (read_binary (L := rS0) rS0_writes 18 rfl (by decide) (by decide) (by decide) (rv0 V0))
  rw [← W3_eq_kP1 m ρ c] at e1
  rw [← rv1_eq_rS0 V0] at e2
  rw [e1, e2, e_main_v10 hK hR, e_main_v13 hK hR]
  all_goals rfl

theorem e_main_v15 (hK : KHolds m ρ c A) (hR : RHolds V0 A) :
    (W3 m ρ c (Proc.devRef .tc Cert.KernelIdeal.main_v15) : FVec Ideal Cert.KernelIdeal.S160000 .f32) = (rv1 V0 (Proc.devRef .tc Cert.ReferenceIdeal.main_v15) : FVec Ideal Cert.ReferenceIdeal.S160000 .f32) := by
  have e1 := (read_unary (L := kP1) kP1_writes 19 rfl (by decide) (by decide) (W0 m ρ c))
  have e2 := (read_unary (L := rS0) rS0_writes 19 rfl (by decide) (by decide) (rv0 V0))
  rw [← W3_eq_kP1 m ρ c] at e1
  rw [← rv1_eq_rS0 V0] at e2
  rw [e1, e2, e_main_v14 hK hR]
  all_goals rfl

theorem e_main_cst_3 (hK : KHolds m ρ c A) (hR : RHolds V0 A) :
    (W3 m ρ c (Proc.devRef .tc Cert.KernelIdeal.main_cst_3) : FVec Ideal Cert.KernelIdeal.S_ .f32) = (rv1 V0 (Proc.devRef .tc Cert.ReferenceIdeal.main_cst_3) : FVec Ideal Cert.ReferenceIdeal.S_ .f32) := by
  have e1 := (read_nullary (L := kP1) kP1_writes 20 rfl (by decide) (W0 m ρ c))
  have e2 := (read_nullary (L := rS0) rS0_writes 20 rfl (by decide) (rv0 V0))
  rw [← W3_eq_kP1 m ρ c] at e1
  rw [← rv1_eq_rS0 V0] at e2
  rw [e1, e2]
  all_goals rfl

theorem e_main_call0_v0 (hK : KHolds m ρ c A) (hR : RHolds V0 A) :
    (W3 m ρ c (Proc.devRef .tc Cert.KernelIdeal.main_call0_v0) : FVec Ideal Cert.KernelIdeal.S_ .f32) = (rv1 V0 (Proc.devRef .tc Cert.ReferenceIdeal.main_call0_v0) : FVec Ideal Cert.ReferenceIdeal.S_ .f32) := by
  have e1 := (read_unary (L := kP1) kP1_writes 21 rfl (by decide) (by decide) (W0 m ρ c))
  have e2 := (read_unary (L := rS0) rS0_writes 21 rfl (by decide) (by decide) (rv0 V0))
  rw [← W3_eq_kP1 m ρ c] at e1
  rw [← rv1_eq_rS0 V0] at e2
  rw [e1, e2, e_main_cst_3 hK hR]
  all_goals rfl

theorem e_main_call0_v1 (hK : KHolds m ρ c A) (hR : RHolds V0 A) :
    (W3 m ρ c (Proc.devRef .tc Cert.KernelIdeal.main_call0_v1) : FVec Ideal Cert.KernelIdeal.S160000 .f32) = (rv1 V0 (Proc.devRef .tc Cert.ReferenceIdeal.main_call0_v1) : FVec Ideal Cert.ReferenceIdeal.S160000 .f32) := by
  have e1 := (read_unary (L := kP1) kP1_writes 22 rfl (by decide) (by decide) (W0 m ρ c))
  have e2 := (read_unary (L := rS0) rS0_writes 22 rfl (by decide) (by decide) (rv0 V0))
  rw [← W3_eq_kP1 m ρ c] at e1
  rw [← rv1_eq_rS0 V0] at e2
  rw [e1, e2, e_main_call0_v0 hK hR]
  all_goals rfl

theorem e_main_v16 (hK : KHolds m ρ c A) (hR : RHolds V0 A) :
    (W3 m ρ c (Proc.devRef .tc Cert.KernelIdeal.main_v16) : FVec Ideal Cert.KernelIdeal.S160000 .f32) = (rv1 V0 (Proc.devRef .tc Cert.ReferenceIdeal.main_v16) : FVec Ideal Cert.ReferenceIdeal.S160000 .f32) := by
  have e1 := (read_ternary (L := kP1) kP1_writes 23 rfl (by decide) (by decide) (by decide) (by decide) (W0 m ρ c))
  have e2 := (read_ternary (L := rS0) rS0_writes 23 rfl (by decide) (by decide) (by decide) (by decide) (rv0 V0))
  rw [← W3_eq_kP1 m ρ c] at e1
  rw [← rv1_eq_rS0 V0] at e2
  rw [e1, e2, e_main_v12 hK hR, e_main_v15 hK hR, e_main_call0_v1 hK hR]
  all_goals rfl

theorem e_main_c (hK : KHolds m ρ c A) (hR : RHolds V0 A) :
    (W3 m ρ c (Proc.devRef .tc Cert.KernelIdeal.main_c) : IVec Cert.KernelIdeal.S_ 32) = (rv1 V0 (Proc.devRef .tc Cert.ReferenceIdeal.main_c) : IVec Cert.ReferenceIdeal.S_ 32) := by
  have e1 := (read_nullary (L := kP1) kP1_writes 24 rfl (by decide) (W0 m ρ c))
  have e2 := (read_nullary (L := rS0) rS0_writes 24 rfl (by decide) (rv0 V0))
  rw [← W3_eq_kP1 m ρ c] at e1
  rw [← rv1_eq_rS0 V0] at e2
  rw [e1, e2]
  all_goals rfl

theorem e_main_v17 (hK : KHolds m ρ c A) (hR : RHolds V0 A) :
    (W3 m ρ c (Proc.devRef .tc Cert.KernelIdeal.main_v17) : IVec Cert.KernelIdeal.S1760000 32) = (rv1 V0 (Proc.devRef .tc Cert.ReferenceIdeal.main_v17) : IVec Cert.ReferenceIdeal.S1760000 32) := by
  have e1 := (read_unary (L := kP1) kP1_writes 25 rfl (by decide) (by decide) (W0 m ρ c))
  have e2 := (read_unary (L := rS0) rS0_writes 25 rfl (by decide) (by decide) (rv0 V0))
  rw [← W3_eq_kP1 m ρ c] at e1
  rw [← rv1_eq_rS0 V0] at e2
  rw [e1, e2, e_main_c hK hR]
  all_goals rfl

theorem e_main_v18 (hK : KHolds m ρ c A) (hR : RHolds V0 A) :
    (W3 m ρ c (Proc.devRef .tc Cert.KernelIdeal.main_v18) : IVec Cert.KernelIdeal.S1760000 1) = (rv1 V0 (Proc.devRef .tc Cert.ReferenceIdeal.main_v18) : IVec Cert.ReferenceIdeal.S1760000 1) := by
  have e1 := (read_binary (L := kP1) kP1_writes 26 rfl (by decide) (by decide) (by decide) (W0 m ρ c))
  have e2 := (read_binary (L := rS0) rS0_writes 26 rfl (by decide) (by decide) (by decide) (rv0 V0))
  rw [← W3_eq_kP1 m ρ c] at e1
  rw [← rv1_eq_rS0 V0] at e2
  rw [e1, e2, e_main_v3 hK hR, e_main_v17 hK hR]
  all_goals rfl

theorem e_main_c_4 (hK : KHolds m ρ c A) (hR : RHolds V0 A) :
    (W3 m ρ c (Proc.devRef .tc Cert.KernelIdeal.main_c_4) : IVec Cert.KernelIdeal.S_ 32) = (rv1 V0 (Proc.devRef .tc Cert.ReferenceIdeal.main_c_4) : IVec Cert.ReferenceIdeal.S_ 32) := by
  have e1 := (read_nullary (L := kP1) kP1_writes 27 rfl (by decide) (W0 m ρ c))
  have e2 := (read_nullary (L := rS0) rS0_writes 27 rfl (by decide) (rv0 V0))
  rw [← W3_eq_kP1 m ρ c] at e1
  rw [← rv1_eq_rS0 V0] at e2
  rw [e1, e2]
  all_goals rfl

theorem e_main_v19 (hK : KHolds m ρ c A) (hR : RHolds V0 A) :
    (W3 m ρ c (Proc.devRef .tc Cert.KernelIdeal.main_v19) : IVec Cert.KernelIdeal.S1760000 32) = (rv1 V0 (Proc.devRef .tc Cert.ReferenceIdeal.main_v19) : IVec Cert.ReferenceIdeal.S1760000 32) := by
  have e1 := (read_unary (L := kP1) kP1_writes 28 rfl (by decide) (by decide) (W0 m ρ c))
  have e2 := (read_unary (L := rS0) rS0_writes 28 rfl (by decide) (by decide) (rv0 V0))
  rw [← W3_eq_kP1 m ρ c] at e1
  rw [← rv1_eq_rS0 V0] at e2
  rw [e1, e2, e_main_c_4 hK hR]
  all_goals rfl

theorem e_main_v20 (hK : KHolds m ρ c A) (hR : RHolds V0 A) :
    (W3 m ρ c (Proc.devRef .tc Cert.KernelIdeal.main_v20) : IVec Cert.KernelIdeal.S1760000 32) = (rv1 V0 (Proc.devRef .tc Cert.ReferenceIdeal.main_v20) : IVec Cert.ReferenceIdeal.S1760000 32) := by
  have e1 := (read_binary (L := kP1) kP1_writes 29 rfl (by decide) (by decide) (by decide) (W0 m ρ c))
  have e2 := (read_binary (L := rS0) rS0_writes 29 rfl (by decide) (by decide) (by decide) (rv0 V0))
  rw [← W3_eq_kP1 m ρ c] at e1
  rw [← rv1_eq_rS0 V0] at e2
  rw [e1, e2, e_main_v3 hK hR, e_main_v19 hK hR]
  all_goals rfl

theorem e_main_v21 (hK : KHolds m ρ c A) (hR : RHolds V0 A) :
    (W3 m ρ c (Proc.devRef .tc Cert.KernelIdeal.main_v21) : IVec Cert.KernelIdeal.S1760000 32) = (rv1 V0 (Proc.devRef .tc Cert.ReferenceIdeal.main_v21) : IVec Cert.ReferenceIdeal.S1760000 32) := by
  have e1 := (read_ternary (L := kP1) kP1_writes 30 rfl (by decide) (by decide) (by decide) (by decide) (W0 m ρ c))
  have e2 := (read_ternary (L := rS0) rS0_writes 30 rfl (by decide) (by decide) (by decide) (by decide) (rv0 V0))
  rw [← W3_eq_kP1 m ρ c] at e1
  rw [← rv1_eq_rS0 V0] at e2
  rw [e1, e2, e_main_v18 hK hR, e_main_v20 hK hR, e_main_v3 hK hR]
  all_goals rfl

theorem e_main_v22 (hK : KHolds m ρ c A) (hR : RHolds V0 A) :
    (W3 m ρ c (Proc.devRef .tc Cert.KernelIdeal.main_v22) : IVec Cert.KernelIdeal.S1760000x1 32) = (rv1 V0 (Proc.devRef .tc Cert.ReferenceIdeal.main_v22) : IVec Cert.ReferenceIdeal.S1760000x1 32) := by
  have e1 := (read_unary (L := kP1) kP1_writes 31 rfl (by decide) (by decide) (W0 m ρ c))
  have e2 := (read_unary (L := rS0) rS0_writes 31 rfl (by decide) (by decide) (rv0 V0))
  rw [← W3_eq_kP1 m ρ c] at e1
  rw [← rv1_eq_rS0 V0] at e2
  rw [e1, e2, e_main_v21 hK hR]
  all_goals rfl

theorem e_main_v23 (hK : KHolds m ρ c A) (hR : RHolds V0 A) :
    (W3 m ρ c (Proc.devRef .tc Cert.KernelIdeal.main_v23) : FVec Ideal Cert.KernelIdeal.S1760000 .f32) = (rv1 V0 (Proc.devRef .tc Cert.ReferenceIdeal.main_v23) : FVec Ideal Cert.ReferenceIdeal.S1760000 .f32) := by
  have e1 := (read_binary (L := kP1) kP1_writes 32 rfl (by decide) (by decide) (by decide) (W0 m ρ c))
  have e2 := (read_binary (L := rS0) rS0_writes 32 rfl (by decide) (by decide) (by decide) (rv0 V0))
  rw [← W3_eq_kP1 m ρ c] at e1
  rw [← rv1_eq_rS0 V0] at e2
  rw [e1, e2, e_main_v16 hK hR, e_main_v22 hK hR]
  all_goals rfl

theorem e_main_c_5 (hK : KHolds m ρ c A) (hR : RHolds V0 A) :
    (W3 m ρ c (Proc.devRef .tc Cert.KernelIdeal.main_c_5) : IVec Cert.KernelIdeal.S_ 32) = (rv1 V0 (Proc.devRef .tc Cert.ReferenceIdeal.main_c_5) : IVec Cert.ReferenceIdeal.S_ 32) := by
  have e1 := (read_nullary (L := kP1) kP1_writes 33 rfl (by decide) (W0 m ρ c))
  have e2 := (read_nullary (L := rS0) rS0_writes 33 rfl (by decide) (rv0 V0))
  rw [← W3_eq_kP1 m ρ c] at e1
  rw [← rv1_eq_rS0 V0] at e2
  rw [e1, e2]
  all_goals rfl

theorem e_main_v24 (hK : KHolds m ρ c A) (hR : RHolds V0 A) :
    (W3 m ρ c (Proc.devRef .tc Cert.KernelIdeal.main_v24) : IVec Cert.KernelIdeal.S1760000 32) = (rv1 V0 (Proc.devRef .tc Cert.ReferenceIdeal.main_v24) : IVec Cert.ReferenceIdeal.S1760000 32) := by
  have e1 := (read_unary (L := kP1) kP1_writes 34 rfl (by decide) (by decide) (W0 m ρ c))
  have e2 := (read_unary (L := rS0) rS0_writes 34 rfl (by decide) (by decide) (rv0 V0))
  rw [← W3_eq_kP1 m ρ c] at e1
  rw [← rv1_eq_rS0 V0] at e2
  rw [e1, e2, e_main_c_5 hK hR]
  all_goals rfl

theorem e_main_v25 (hK : KHolds m ρ c A) (hR : RHolds V0 A) :
    (W3 m ρ c (Proc.devRef .tc Cert.KernelIdeal.main_v25) : IVec Cert.KernelIdeal.S1760000 1) = (rv1 V0 (Proc.devRef .tc Cert.ReferenceIdeal.main_v25) : IVec Cert.ReferenceIdeal.S1760000 1) := by
  have e1 := (read_binary (L := kP1) kP1_writes 35 rfl (by decide) (by decide) (by decide) (W0 m ρ c))
  have e2 := (read_binary (L := rS0) rS0_writes 35 rfl (by decide) (by decide) (by decide) (rv0 V0))
  rw [← W3_eq_kP1 m ρ c] at e1
  rw [← rv1_eq_rS0 V0] at e2
  rw [e1, e2, e_main_v6 hK hR, e_main_v24 hK hR]
  all_goals rfl

theorem e_main_c_6 (hK : KHolds m ρ c A) (hR : RHolds V0 A) :
    (W3 m ρ c (Proc.devRef .tc Cert.KernelIdeal.main_c_6) : IVec Cert.KernelIdeal.S_ 32) = (rv1 V0 (Proc.devRef .tc Cert.ReferenceIdeal.main_c_6) : IVec Cert.ReferenceIdeal.S_ 32) := by
  have e1 := (read_nullary (L := kP1) kP1_writes 36 rfl (by decide) (W0 m ρ c))
  have e2 := (read_nullary (L := rS0) rS0_writes 36 rfl (by decide) (rv0 V0))
  rw [← W3_eq_kP1 m ρ c] at e1
  rw [← rv1_eq_rS0 V0] at e2
  rw [e1, e2]
  all_goals rfl

theorem e_main_v26 (hK : KHolds m ρ c A) (hR : RHolds V0 A) :
    (W3 m ρ c (Proc.devRef .tc Cert.KernelIdeal.main_v26) : IVec Cert.KernelIdeal.S1760000 32) = (rv1 V0 (Proc.devRef .tc Cert.ReferenceIdeal.main_v26) : IVec Cert.ReferenceIdeal.S1760000 32) := by
  have e1 := (read_unary (L := kP1) kP1_writes 37 rfl (by decide) (by decide) (W0 m ρ c))
  have e2 := (read_unary (L := rS0) rS0_writes 37 rfl (by decide) (by decide) (rv0 V0))
  rw [← W3_eq_kP1 m ρ c] at e1
  rw [← rv1_eq_rS0 V0] at e2
  rw [e1, e2, e_main_c_6 hK hR]
  all_goals rfl

theorem e_main_v27 (hK : KHolds m ρ c A) (hR : RHolds V0 A) :
    (W3 m ρ c (Proc.devRef .tc Cert.KernelIdeal.main_v27) : IVec Cert.KernelIdeal.S1760000 32) = (rv1 V0 (Proc.devRef .tc Cert.ReferenceIdeal.main_v27) : IVec Cert.ReferenceIdeal.S1760000 32) := by
  have e1 := (read_binary (L := kP1) kP1_writes 38 rfl (by decide) (by decide) (by decide) (W0 m ρ c))
  have e2 := (read_binary (L := rS0) rS0_writes 38 rfl (by decide) (by decide) (by decide) (rv0 V0))
  rw [← W3_eq_kP1 m ρ c] at e1
  rw [← rv1_eq_rS0 V0] at e2
  rw [e1, e2, e_main_v6 hK hR, e_main_v26 hK hR]
  all_goals rfl

theorem e_main_v28 (hK : KHolds m ρ c A) (hR : RHolds V0 A) :
    (W3 m ρ c (Proc.devRef .tc Cert.KernelIdeal.main_v28) : IVec Cert.KernelIdeal.S1760000 32) = (rv1 V0 (Proc.devRef .tc Cert.ReferenceIdeal.main_v28) : IVec Cert.ReferenceIdeal.S1760000 32) := by
  have e1 := (read_ternary (L := kP1) kP1_writes 39 rfl (by decide) (by decide) (by decide) (by decide) (W0 m ρ c))
  have e2 := (read_ternary (L := rS0) rS0_writes 39 rfl (by decide) (by decide) (by decide) (by decide) (rv0 V0))
  rw [← W3_eq_kP1 m ρ c] at e1
  rw [← rv1_eq_rS0 V0] at e2
  rw [e1, e2, e_main_v25 hK hR, e_main_v27 hK hR, e_main_v6 hK hR]
  all_goals rfl

theorem e_main_v29 (hK : KHolds m ρ c A) (hR : RHolds V0 A) :
    (W3 m ρ c (Proc.devRef .tc Cert.KernelIdeal.main_v29) : IVec Cert.KernelIdeal.S1760000x1 32) = (rv1 V0 (Proc.devRef .tc Cert.ReferenceIdeal.main_v29) : IVec Cert.ReferenceIdeal.S1760000x1 32) := by
  have e1 := (read_unary (L := kP1) kP1_writes 40 rfl (by decide) (by decide) (W0 m ρ c))
  have e2 := (read_unary (L := rS0) rS0_writes 40 rfl (by decide) (by decide) (rv0 V0))
  rw [← W3_eq_kP1 m ρ c] at e1
  rw [← rv1_eq_rS0 V0] at e2
  rw [e1, e2, e_main_v28 hK hR]
  all_goals rfl

theorem e_main_v30 (hK : KHolds m ρ c A) (hR : RHolds V0 A) :
    (W3 m ρ c (Proc.devRef .tc Cert.KernelIdeal.main_v30) : FVec Ideal Cert.KernelIdeal.S1760000 .f32) = (rv1 V0 (Proc.devRef .tc Cert.ReferenceIdeal.main_v30) : FVec Ideal Cert.ReferenceIdeal.S1760000 .f32) := by
  have e1 := (read_binary (L := kP1) kP1_writes 41 rfl (by decide) (by decide) (by decide) (W0 m ρ c))
  have e2 := (read_binary (L := rS0) rS0_writes 41 rfl (by decide) (by decide) (by decide) (rv0 V0))
  rw [← W3_eq_kP1 m ρ c] at e1
  rw [← rv1_eq_rS0 V0] at e2
  rw [e1, e2, e_main_v16 hK hR, e_main_v29 hK hR]
  all_goals rfl

theorem e_main_v31 (hK : KHolds m ρ c A) (hR : RHolds V0 A) :
    (W3 m ρ c (Proc.devRef .tc Cert.KernelIdeal.main_v31) : FVec Ideal Cert.KernelIdeal.S1760000 .f32) = (rv1 V0 (Proc.devRef .tc Cert.ReferenceIdeal.main_v31) : FVec Ideal Cert.ReferenceIdeal.S1760000 .f32) := by
  have e1 := (read_binary (L := kP1) kP1_writes 42 rfl (by decide) (by decide) (by decide) (W0 m ρ c))
  have e2 := (read_binary (L := rS0) rS0_writes 42 rfl (by decide) (by decide) (by decide) (rv0 V0))
  rw [← W3_eq_kP1 m ρ c] at e1
  rw [← rv1_eq_rS0 V0] at e2
  rw [e1, e2, e_main_v23 hK hR, e_main_v30 hK hR]
  all_goals rfl

end Cert.Bridge

end
-- ==== Proof.Seams.lean ====
/-
  One-row matrices and vectors.

  The kernel's host side keeps the batch statistics and the layer parameters as [1, C] matrices (jnp's keepdims, and
  reshape of a parameter vector); the reference keeps them as vectors of length C and broadcasts them to [1, C] when it
  needs a row. Entry (0, q) of the one is entry q of the other: a reshape of a vector to a one-row matrix is its
  broadcast along a new leading axis, and dividing, selecting or taking the reciprocal square root entry by entry
  commutes with that broadcast, a scalar broadcast to [1, C] being the scalar broadcast to [C] made a row.
-/
import proofs.«175455_j86191403696584_1_alg».proof.Proof.Gen.KernelIdeal
import proofs.«175455_j86191403696584_1_alg».proof.Proof.Gen.ReferenceIdeal
import Idealize.ShloMosaic.Lib.ValueIdx
import Idealize.ShloMosaic.Lib.Pipeline.Value
import Idealize.ShloMosaic.Lib.IdealHost
import Idealize.ShloMosaic.Lib.ValueLayout
import Idealize.ShloMosaic.PureOps.Ideal.Laws

set_option maxRecDepth 16384

noncomputable section

namespace Cert.Seams

open Idealize.ShloMosaic Idealize.ShloMosaic.ValueIdx

/-- A vector of length 64 reshaped to a one-row matrix is the vector broadcast along a new leading axis. -/
theorem row_of_vec_64 (b : FVec Ideal Cert.ReferenceIdeal.S64 .f32) :
    shapeCast Cert.KernelIdeal.S1x64 b Cert.KernelIdeal.Facts₀.shapeCasts_S64_S1x64 = broadcastInDim Cert.ReferenceIdeal.S1x64 ![1] Cert.ReferenceIdeal.Facts₀.bcast_S64_S1x64_1 b := by
  funext j
  obtain ⟨u, i, rfl⟩ : ∃ (u : Fin 1) (i : Fin 64), j = ix2 u i := ⟨j 0, j 1, eq_ix2 j⟩
  rw [shapeCast_a_1a_apply, broadcastInDim_apply _ _ b _ (ix1 i) (fun a => by
    match a with
    | ⟨0, _⟩ => rfl)]

/-- A vector of length 128 reshaped to a one-row matrix is the vector broadcast along a new leading axis. -/
theorem row_of_vec_128 (b : FVec Ideal Cert.ReferenceIdeal.S128 .f32) :
    shapeCast Cert.KernelIdeal.S1x128 b Cert.KernelIdeal.Facts₀.shapeCasts_S128_S1x128 = broadcastInDim Cert.ReferenceIdeal.S1x128 ![1] Cert.ReferenceIdeal.Facts₀.bcast_S128_S1x128_1 b := by
  funext j
  obtain ⟨u, i, rfl⟩ : ∃ (u : Fin 1) (i : Fin 128), j = ix2 u i := ⟨j 0, j 1, eq_ix2 j⟩
  rw [shapeCast_a_1a_apply, broadcastInDim_apply _ _ b _ (ix1 i) (fun a => by
    match a with
    | ⟨0, _⟩ => rfl)]

/-- A vector of length 1 reshaped to a one-row matrix is the vector broadcast along a new leading axis. -/
theorem row_of_vec_1 (b : FVec Ideal Cert.ReferenceIdeal.S1 .f32) :
    shapeCast Cert.KernelIdeal.S1x1 b Cert.KernelIdeal.Facts₀.shapeCasts_S1_S1x1 = broadcastInDim Cert.ReferenceIdeal.S1x1 ![1] Cert.ReferenceIdeal.Facts₀.bcast_S1_S1x1_1 b := by
  funext j
  obtain ⟨u, i, rfl⟩ : ∃ (u : Fin 1) (i : Fin 1), j = ix2 u i := ⟨j 0, j 1, eq_ix2 j⟩
  rw [shapeCast_a_1a_apply, broadcastInDim_apply _ _ b _ (ix1 i) (fun a => by
    match a with
    | ⟨0, _⟩ => show i.val = 0; omega)]

/-- The mean over the batch, kept as a row: the row of column sums divided by the count is the vector of column sums
    divided by the count, made a row. -/
theorem mean_row_128 (S : FVec Ideal Cert.ReferenceIdeal.S128 .f32) (w : FVec Ideal Cert.ReferenceIdeal.S_ .f32) :
    Host.divf (broadcastInDim Cert.ReferenceIdeal.S1x128 ![1] Cert.ReferenceIdeal.Facts₀.bcast_S128_S1x128_1 S) (broadcastInDim Cert.ReferenceIdeal.S1x128 ![] Cert.ReferenceIdeal.Facts₀.bcast_S_S1x128 w) = (broadcastInDim Cert.ReferenceIdeal.S1x128 ![1] Cert.ReferenceIdeal.Facts₀.bcast_S128_S1x128_1 (Host.divf S (broadcastInDim Cert.ReferenceIdeal.S128 ![] Cert.ReferenceIdeal.Facts₀.bcast_S_S128 w))) := by
  funext j
  obtain ⟨u, i, rfl⟩ : ∃ (u : Fin 1) (i : Fin 128), j = ix2 u i := ⟨j 0, j 1, eq_ix2 j⟩
  have hb : ∀ (x : FVec Ideal Cert.ReferenceIdeal.S128 .f32), (broadcastInDim Cert.ReferenceIdeal.S1x128 ![1] Cert.ReferenceIdeal.Facts₀.bcast_S128_S1x128_1 x) (ix2 u i) = x (ix1 i) := fun x =>
    broadcastInDim_apply _ _ x _ (ix1 i) (fun a => by match a with | ⟨0, _⟩ => rfl)
  rw [hb, hostDivf_apply, hostDivf_apply, hb, broadcastInDim_scalar_apply, broadcastInDim_scalar_apply]

/-- The variance over the batch, kept as a row: the guarded quotient (the sums of squared deviations over the count less
    the correction, where that is positive) entry by entry. -/
theorem var_row_128 (p : IVec Cert.ReferenceIdeal.S_ 1) (S : FVec Ideal Cert.ReferenceIdeal.S128 .f32) (d n : FVec Ideal Cert.ReferenceIdeal.S_ .f32) :
    select (broadcastInDim Cert.ReferenceIdeal.S1x128 ![] Cert.ReferenceIdeal.Facts₀.bcast_S_S1x128 p) (Host.divf (broadcastInDim Cert.ReferenceIdeal.S1x128 ![1] Cert.ReferenceIdeal.Facts₀.bcast_S128_S1x128_1 S) (broadcastInDim Cert.ReferenceIdeal.S1x128 ![] Cert.ReferenceIdeal.Facts₀.bcast_S_S1x128 d)) (broadcastInDim Cert.ReferenceIdeal.S1x128 ![] Cert.ReferenceIdeal.Facts₀.bcast_S_S1x128 n)
      = (broadcastInDim Cert.ReferenceIdeal.S1x128 ![1] Cert.ReferenceIdeal.Facts₀.bcast_S128_S1x128_1 (select (broadcastInDim Cert.ReferenceIdeal.S128 ![] Cert.ReferenceIdeal.Facts₀.bcast_S_S128 p) (Host.divf S (broadcastInDim Cert.ReferenceIdeal.S128 ![] Cert.ReferenceIdeal.Facts₀.bcast_S_S128 d)) (broadcastInDim Cert.ReferenceIdeal.S128 ![] Cert.ReferenceIdeal.Facts₀.bcast_S_S128 n))) := by
  funext j
  obtain ⟨u, i, rfl⟩ : ∃ (u : Fin 1) (i : Fin 128), j = ix2 u i := ⟨j 0, j 1, eq_ix2 j⟩
  have hb : ∀ (x : FVec Ideal Cert.ReferenceIdeal.S128 .f32), (broadcastInDim Cert.ReferenceIdeal.S1x128 ![1] Cert.ReferenceIdeal.Facts₀.bcast_S128_S1x128_1 x) (ix2 u i) = x (ix1 i) := fun x =>
    broadcastInDim_apply _ _ x _ (ix1 i) (fun a => by match a with | ⟨0, _⟩ => rfl)
  rw [hb, select_apply, select_apply, hostDivf_apply, hostDivf_apply, hb]
  rw [broadcastInDim_scalar_apply, broadcastInDim_scalar_apply, broadcastInDim_scalar_apply, broadcastInDim_scalar_apply,
    broadcastInDim_scalar_apply, broadcastInDim_scalar_apply]

/-- The reciprocal square root of the variance row plus the stabiliser, the kernel's way (on the row) and the reference's
    (on the vector, then made a row). -/
theorem rsqrt_row_128 (v : FVec Ideal Cert.ReferenceIdeal.S128 .f32) (w : BitVec 32) :
    rsqrt (addf (broadcastInDim Cert.ReferenceIdeal.S1x128 ![1] Cert.ReferenceIdeal.Facts₀.bcast_S128_S1x128_1 v) (broadcast Cert.ReferenceIdeal.S1x128 (Scalar.ofBits (F := Ideal) .f32 w)))
      = (broadcastInDim Cert.ReferenceIdeal.S1x128 ![1] Cert.ReferenceIdeal.Facts₀.bcast_S128_S1x128_1 (Host.rsqrt (addf v (broadcastInDim Cert.ReferenceIdeal.S128 ![] Cert.ReferenceIdeal.Facts₀.bcast_S_S128 (constant (F := Ideal) Cert.ReferenceIdeal.S_ .f32 w))))) := by
  funext j
  obtain ⟨u, i, rfl⟩ : ∃ (u : Fin 1) (i : Fin 128), j = ix2 u i := ⟨j 0, j 1, eq_ix2 j⟩
  have hb : ∀ (x : FVec Ideal Cert.ReferenceIdeal.S128 .f32), (broadcastInDim Cert.ReferenceIdeal.S1x128 ![1] Cert.ReferenceIdeal.Facts₀.bcast_S128_S1x128_1 x) (ix2 u i) = x (ix1 i) := fun x =>
    broadcastInDim_apply _ _ x _ (ix1 i) (fun a => by match a with | ⟨0, _⟩ => rfl)
  rw [hb]
  show FloatOps.rsqrt (_ + _) = FloatOps.hostUnary .rsqrt (_ + _)
  rw [hb, broadcastInDim_scalar_apply, Ideal.rsqrt_def, Ideal.hostUnary_rsqrt_def]
  rfl

/-- The mean over the batch, kept as a row: the row of column sums divided by the count is the vector of column sums
    divided by the count, made a row. -/
theorem mean_row_64 (S : FVec Ideal Cert.ReferenceIdeal.S64 .f32) (w : FVec Ideal Cert.ReferenceIdeal.S_ .f32) :
    Host.divf (broadcastInDim Cert.ReferenceIdeal.S1x64 ![1] Cert.ReferenceIdeal.Facts₀.bcast_S64_S1x64_1 S) (broadcastInDim Cert.ReferenceIdeal.S1x64 ![] Cert.ReferenceIdeal.Facts₀.bcast_S_S1x64 w) = (broadcastInDim Cert.ReferenceIdeal.S1x64 ![1] Cert.ReferenceIdeal.Facts₀.bcast_S64_S1x64_1 (Host.divf S (broadcastInDim Cert.ReferenceIdeal.S64 ![] Cert.ReferenceIdeal.Facts₀.bcast_S_S64 w))) := by
  funext j
  obtain ⟨u, i, rfl⟩ : ∃ (u : Fin 1) (i : Fin 64), j = ix2 u i := ⟨j 0, j 1, eq_ix2 j⟩
  have hb : ∀ (x : FVec Ideal Cert.ReferenceIdeal.S64 .f32), (broadcastInDim Cert.ReferenceIdeal.S1x64 ![1] Cert.ReferenceIdeal.Facts₀.bcast_S64_S1x64_1 x) (ix2 u i) = x (ix1 i) := fun x =>
    broadcastInDim_apply _ _ x _ (ix1 i) (fun a => by match a with | ⟨0, _⟩ => rfl)
  rw [hb, hostDivf_apply, hostDivf_apply, hb, broadcastInDim_scalar_apply, broadcastInDim_scalar_apply]

/-- The variance over the batch, kept as a row: the guarded quotient (the sums of squared deviations over the count less
    the correction, where that is positive) entry by entry. -/
theorem var_row_64 (p : IVec Cert.ReferenceIdeal.S_ 1) (S : FVec Ideal Cert.ReferenceIdeal.S64 .f32) (d n : FVec Ideal Cert.ReferenceIdeal.S_ .f32) :
    select (broadcastInDim Cert.ReferenceIdeal.S1x64 ![] Cert.ReferenceIdeal.Facts₀.bcast_S_S1x64 p) (Host.divf (broadcastInDim Cert.ReferenceIdeal.S1x64 ![1] Cert.ReferenceIdeal.Facts₀.bcast_S64_S1x64_1 S) (broadcastInDim Cert.ReferenceIdeal.S1x64 ![] Cert.ReferenceIdeal.Facts₀.bcast_S_S1x64 d)) (broadcastInDim Cert.ReferenceIdeal.S1x64 ![] Cert.ReferenceIdeal.Facts₀.bcast_S_S1x64 n)
      = (broadcastInDim Cert.ReferenceIdeal.S1x64 ![1] Cert.ReferenceIdeal.Facts₀.bcast_S64_S1x64_1 (select (broadcastInDim Cert.ReferenceIdeal.S64 ![] Cert.ReferenceIdeal.Facts₀.bcast_S_S64 p) (Host.divf S (broadcastInDim Cert.ReferenceIdeal.S64 ![] Cert.ReferenceIdeal.Facts₀.bcast_S_S64 d)) (broadcastInDim Cert.ReferenceIdeal.S64 ![] Cert.ReferenceIdeal.Facts₀.bcast_S_S64 n))) := by
  funext j
  obtain ⟨u, i, rfl⟩ : ∃ (u : Fin 1) (i : Fin 64), j = ix2 u i := ⟨j 0, j 1, eq_ix2 j⟩
  have hb : ∀ (x : FVec Ideal Cert.ReferenceIdeal.S64 .f32), (broadcastInDim Cert.ReferenceIdeal.S1x64 ![1] Cert.ReferenceIdeal.Facts₀.bcast_S64_S1x64_1 x) (ix2 u i) = x (ix1 i) := fun x =>
    broadcastInDim_apply _ _ x _ (ix1 i) (fun a => by match a with | ⟨0, _⟩ => rfl)
  rw [hb, select_apply, select_apply, hostDivf_apply, hostDivf_apply, hb]
  rw [broadcastInDim_scalar_apply, broadcastInDim_scalar_apply, broadcastInDim_scalar_apply, broadcastInDim_scalar_apply,
    broadcastInDim_scalar_apply, broadcastInDim_scalar_apply]

/-- The reciprocal square root of the variance row plus the stabiliser, the kernel's way (on the row) and the reference's
    (on the vector, then made a row). -/
theorem rsqrt_row_64 (v : FVec Ideal Cert.ReferenceIdeal.S64 .f32) (w : BitVec 32) :
    rsqrt (addf (broadcastInDim Cert.ReferenceIdeal.S1x64 ![1] Cert.ReferenceIdeal.Facts₀.bcast_S64_S1x64_1 v) (broadcast Cert.ReferenceIdeal.S1x64 (Scalar.ofBits (F := Ideal) .f32 w)))
      = (broadcastInDim Cert.ReferenceIdeal.S1x64 ![1] Cert.ReferenceIdeal.Facts₀.bcast_S64_S1x64_1 (Host.rsqrt (addf v (broadcastInDim Cert.ReferenceIdeal.S64 ![] Cert.ReferenceIdeal.Facts₀.bcast_S_S64 (constant (F := Ideal) Cert.ReferenceIdeal.S_ .f32 w))))) := by
  funext j
  obtain ⟨u, i, rfl⟩ : ∃ (u : Fin 1) (i : Fin 64), j = ix2 u i := ⟨j 0, j 1, eq_ix2 j⟩
  have hb : ∀ (x : FVec Ideal Cert.ReferenceIdeal.S64 .f32), (broadcastInDim Cert.ReferenceIdeal.S1x64 ![1] Cert.ReferenceIdeal.Facts₀.bcast_S64_S1x64_1 x) (ix2 u i) = x (ix1 i) := fun x =>
    broadcastInDim_apply _ _ x _ (ix1 i) (fun a => by match a with | ⟨0, _⟩ => rfl)
  rw [hb]
  show FloatOps.rsqrt (_ + _) = FloatOps.hostUnary .rsqrt (_ + _)
  rw [hb, broadcastInDim_scalar_apply, Ideal.rsqrt_def, Ideal.hostUnary_rsqrt_def]
  rfl

end Cert.Seams

end
-- ==== Proof.BEmb.lean ====
/-
  The renormalised embedding table and the parameter plumbing.

  Both programs rescale each row of the embedding table to norm at most one by the same sixteen host operations; the
  kernel's buffer and the reference's agree operation by operation. The kernel's host side also transposes each weight
  matrix and reshapes each bias or scale vector to a one-row matrix before the first region: each of those buffers is
  one operation of an argument, stated here in the reference's spelling (the same transpose; the vector broadcast along a
  new leading axis, which is its reshape to a row).
-/
import proofs.«175455_j86191403696584_1_alg».proof.Proof.BEdges
import proofs.«175455_j86191403696584_1_alg».proof.Proof.Seams
import Idealize.ShloMosaic.Lib.IdealHost
import Idealize.ShloMosaic.Lib.ValueLayout

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Stages Cert.ReferenceIdeal.RunValue Cert.KernelIdeal.Regions Cert.Lib.Ssa

variable {m : (ℓ : Loc Cert.KernelIdeal.nD Cert.KernelIdeal.τ Cert.KernelIdeal.sig) → Buf (Elt Ideal) ℓ} {ρ : Dev Cert.KernelIdeal.nD → PrngReg} {c : Dev Cert.KernelIdeal.nD}
variable {V0 : Valuation Cert.ReferenceIdeal.τ Cert.ReferenceIdeal.sig (Elt Ideal)} {A : Args}

theorem q_arg6 (hK : KHolds m ρ c A) (hR : RHolds V0 A) :
    (W5 m ρ c (Proc.devRef .tc Cert.KernelIdeal.main_arg6) : FVec Ideal Cert.KernelIdeal.S5000x64 .f32) = (rv4 V0 (Proc.devRef .tc Cert.ReferenceIdeal.main_arg6) : FVec Ideal Cert.ReferenceIdeal.S5000x64 .f32) := by
  rw [((W5_keep m ρ c Cert.KernelIdeal.main_arg6 (by decide)).trans ((W4_keep m ρ c Cert.KernelIdeal.main_arg6 (by decide)).trans ((W3_keep m ρ c Cert.KernelIdeal.main_arg6 (by decide)).trans ((W2_keep m ρ c Cert.KernelIdeal.main_arg6 (by decide)).trans (W1_keep m ρ c Cert.KernelIdeal.main_arg6 (by decide)))))), ((rv4_keep V0 Cert.ReferenceIdeal.main_arg6 (by decide)).trans ((rv3_keep V0 Cert.ReferenceIdeal.main_arg6 (by decide)).trans ((rv2_keep V0 Cert.ReferenceIdeal.main_arg6 (by decide)).trans (rv1_keep V0 Cert.ReferenceIdeal.main_arg6 (by decide))))), hK.k6]
  exact hR.r6.symm

theorem q_main_call1_v0 (hK : KHolds m ρ c A) (hR : RHolds V0 A) :
    (W5 m ρ c (Proc.devRef .tc Cert.KernelIdeal.main_call1_v0) : FVec Ideal Cert.KernelIdeal.S5000x64 .f32) = (rv4 V0 (Proc.devRef .tc Cert.ReferenceIdeal.main_call1_v0) : FVec Ideal Cert.ReferenceIdeal.S5000x64 .f32) := by
  have e1 := (read_binary (L := kP2) kP2_writes 0 rfl (by decide) (by decide) (by decide) (W3 m ρ c))
  have e2 := (read_binary (L := rS23) rS23_writes 0 rfl (by decide) (by decide) (by decide) (rv2 V0))
  rw [← W5_eq_kP2 m ρ c] at e1
  rw [← rv4_eq_rS23 V0] at e2
  rw [e1, e2, q_arg6 hK hR]
  all_goals rfl

theorem q_main_call1_cst (hK : KHolds m ρ c A) (hR : RHolds V0 A) :
    (W5 m ρ c (Proc.devRef .tc Cert.KernelIdeal.main_call1_cst) : FVec Ideal Cert.KernelIdeal.S_ .f32) = (rv4 V0 (Proc.devRef .tc Cert.ReferenceIdeal.main_call1_cst) : FVec Ideal Cert.ReferenceIdeal.S_ .f32) := by
  have e1 := (read_nullary (L := kP2) kP2_writes 1 rfl (by decide) (W3 m ρ c))
  have e2 := (read_nullary (L := rS23) rS23_writes 1 rfl (by decide) (rv2 V0))
  rw [← W5_eq_kP2 m ρ c] at e1
  rw [← rv4_eq_rS23 V0] at e2
  rw [e1, e2]
  all_goals rfl

theorem q_main_call1_v1 (hK : KHolds m ρ c A) (hR : RHolds V0 A) :
    (W5 m ρ c (Proc.devRef .tc Cert.KernelIdeal.main_call1_v1) : FVec Ideal Cert.KernelIdeal.S5000 .f32) = (rv4 V0 (Proc.devRef .tc Cert.ReferenceIdeal.main_call1_v1) : FVec Ideal Cert.ReferenceIdeal.S5000 .f32) := by
  have e1 := (read_binary (L := kP2) kP2_writes 2 rfl (by decide) (by decide) (by decide) (W3 m ρ c))
  have e2 := (read_binary (L := rS23) rS23_writes 2 rfl (by decide) (by decide) (by decide) (rv2 V0))
  rw [← W5_eq_kP2 m ρ c] at e1
  rw [← rv4_eq_rS23 V0] at e2
  rw [e1, e2, q_main_call1_v0 hK hR, q_main_call1_cst hK hR]
  all_goals rfl

theorem q_main_call1_v2 (hK : KHolds m ρ c A) (hR : RHolds V0 A) :
    (W5 m ρ c (Proc.devRef .tc Cert.KernelIdeal.main_call1_v2) : FVec Ideal Cert.KernelIdeal.S5000x1 .f32) = (rv4 V0 (Proc.devRef .tc Cert.ReferenceIdeal.main_call1_v2) : FVec Ideal Cert.ReferenceIdeal.S5000x1 .f32) := by
  have e1 := (read_unary (L := kP2) kP2_writes 3 rfl (by decide) (by decide) (W3 m ρ c))
  have e2 := (read_unary (L := rS23) rS23_writes 3 rfl (by decide) (by decide) (rv2 V0))
  rw [← W5_eq_kP2 m ρ c] at e1
  rw [← rv4_eq_rS23 V0] at e2
  rw [e1, e2, q_main_call1_v1 hK hR]
  all_goals rfl

theorem q_main_v32 (hK : KHolds m ρ c A) (hR : RHolds V0 A) :
    (W5 m ρ c (Proc.devRef .tc Cert.KernelIdeal.main_v32) : FVec Ideal Cert.KernelIdeal.S5000x1 .f32) = (rv4 V0 (Proc.devRef .tc Cert.ReferenceIdeal.main_v44) : FVec Ideal Cert.ReferenceIdeal.S5000x1 .f32) := by
  have e1 := (read_unary (L := kP2) kP2_writes 4 rfl (by decide) (by decide) (W3 m ρ c))
  have e2 := (read_unary (L := rS23) rS23_writes 4 rfl (by decide) (by decide) (rv2 V0))
  rw [← W5_eq_kP2 m ρ c] at e1
  rw [← rv4_eq_rS23 V0] at e2
  rw [e1, e2, q_main_call1_v2 hK hR]
  all_goals rfl

theorem q_main_cst_7 (hK : KHolds m ρ c A) (hR : RHolds V0 A) :
    (W5 m ρ c (Proc.devRef .tc Cert.KernelIdeal.main_cst_7) : FVec Ideal Cert.KernelIdeal.S_ .f32) = (rv4 V0 (Proc.devRef .tc Cert.ReferenceIdeal.main_cst_7) : FVec Ideal Cert.ReferenceIdeal.S_ .f32) := by
  have e1 := (read_nullary (L := kP2) kP2_writes 5 rfl (by decide) (W3 m ρ c))
  have e2 := (read_nullary (L := rS23) rS23_writes 5 rfl (by decide) (rv2 V0))
  rw [← W5_eq_kP2 m ρ c] at e1
  rw [← rv4_eq_rS23 V0] at e2
  rw [e1, e2]
  all_goals rfl

theorem q_main_v33 (hK : KHolds m ρ c A) (hR : RHolds V0 A) :
    (W5 m ρ c (Proc.devRef .tc Cert.KernelIdeal.main_v33) : FVec Ideal Cert.KernelIdeal.S5000x1 .f32) = (rv4 V0 (Proc.devRef .tc Cert.ReferenceIdeal.main_v45) : FVec Ideal Cert.ReferenceIdeal.S5000x1 .f32) := by
  have e1 := (read_unary (L := kP2) kP2_writes 6 rfl (by decide) (by decide) (W3 m ρ c))
  have e2 := (read_unary (L := rS23) rS23_writes 6 rfl (by decide) (by decide) (rv2 V0))
  rw [← W5_eq_kP2 m ρ c] at e1
  rw [← rv4_eq_rS23 V0] at e2
  rw [e1, e2, q_main_cst_7 hK hR]
  all_goals rfl

theorem q_main_v34 (hK : KHolds m ρ c A) (hR : RHolds V0 A) :
    (W5 m ρ c (Proc.devRef .tc Cert.KernelIdeal.main_v34) : FVec Ideal Cert.KernelIdeal.S5000x1 .f32) = (rv4 V0 (Proc.devRef .tc Cert.ReferenceIdeal.main_v46) : FVec Ideal Cert.ReferenceIdeal.S5000x1 .f32) := by
  have e1 := (read_binary (L := kP2) kP2_writes 7 rfl (by decide) (by decide) (by decide) (W3 m ρ c))
  have e2 := (read_binary (L := rS23) rS23_writes 7 rfl (by decide) (by decide) (by decide) (rv2 V0))
  rw [← W5_eq_kP2 m ρ c] at e1
  rw [← rv4_eq_rS23 V0] at e2
  rw [e1, e2, q_main_v32 hK hR, q_main_v33 hK hR]
  all_goals rfl

theorem q_main_cst_8 (hK : KHolds m ρ c A) (hR : RHolds V0 A) :
    (W5 m ρ c (Proc.devRef .tc Cert.KernelIdeal.main_cst_8) : FVec Ideal Cert.KernelIdeal.S_ .f32) = (rv4 V0 (Proc.devRef .tc Cert.ReferenceIdeal.main_cst_8) : FVec Ideal Cert.ReferenceIdeal.S_ .f32) := by
  have e1 := (read_nullary (L := kP2) kP2_writes 8 rfl (by decide) (W3 m ρ c))
  have e2 := (read_nullary (L := rS23) rS23_writes 8 rfl (by decide) (rv2 V0))
  rw [← W5_eq_kP2 m ρ c] at e1
  rw [← rv4_eq_rS23 V0] at e2
  rw [e1, e2]
  all_goals rfl

theorem q_main_v35 (hK : KHolds m ρ c A) (hR : RHolds V0 A) :
    (W5 m ρ c (Proc.devRef .tc Cert.KernelIdeal.main_v35) : FVec Ideal Cert.KernelIdeal.S5000x1 .f32) = (rv4 V0 (Proc.devRef .tc Cert.ReferenceIdeal.main_v47) : FVec Ideal Cert.ReferenceIdeal.S5000x1 .f32) := by
  have e1 := (read_unary (L := kP2) kP2_writes 9 rfl (by decide) (by decide) (W3 m ρ c))
  have e2 := (read_unary (L := rS23) rS23_writes 9 rfl (by decide) (by decide) (rv2 V0))
  rw [← W5_eq_kP2 m ρ c] at e1
  rw [← rv4_eq_rS23 V0] at e2
  rw [e1, e2, q_main_cst_8 hK hR]
  all_goals rfl

theorem q_main_v36 (hK : KHolds m ρ c A) (hR : RHolds V0 A) :
    (W5 m ρ c (Proc.devRef .tc Cert.KernelIdeal.main_v36) : FVec Ideal Cert.KernelIdeal.S5000x1 .f32) = (rv4 V0 (Proc.devRef .tc Cert.ReferenceIdeal.main_v48) : FVec Ideal Cert.ReferenceIdeal.S5000x1 .f32) := by
  have e1 := (read_binary (L := kP2) kP2_writes 10 rfl (by decide) (by decide) (by decide) (W3 m ρ c))
  have e2 := (read_binary (L := rS23) rS23_writes 10 rfl (by decide) (by decide) (by decide) (rv2 V0))
  rw [← W5_eq_kP2 m ρ c] at e1
  rw [← rv4_eq_rS23 V0] at e2
  rw [e1, e2, q_main_v35 hK hR, q_main_v34 hK hR]
  all_goals rfl

theorem q_main_cst_9 (hK : KHolds m ρ c A) (hR : RHolds V0 A) :
    (W5 m ρ c (Proc.devRef .tc Cert.KernelIdeal.main_cst_9) : FVec Ideal Cert.KernelIdeal.S_ .f32) = (rv4 V0 (Proc.devRef .tc Cert.ReferenceIdeal.main_cst_9) : FVec Ideal Cert.ReferenceIdeal.S_ .f32) := by
  have e1 := (read_nullary (L := kP2) kP2_writes 11 rfl (by decide) (W3 m ρ c))
  have e2 := (read_nullary (L := rS23) rS23_writes 11 rfl (by decide) (rv2 V0))
  rw [← W5_eq_kP2 m ρ c] at e1
  rw [← rv4_eq_rS23 V0] at e2
  rw [e1, e2]
  all_goals rfl

theorem q_main_v37 (hK : KHolds m ρ c A) (hR : RHolds V0 A) :
    (W5 m ρ c (Proc.devRef .tc Cert.KernelIdeal.main_v37) : FVec Ideal Cert.KernelIdeal.S5000x1 .f32) = (rv4 V0 (Proc.devRef .tc Cert.ReferenceIdeal.main_v49) : FVec Ideal Cert.ReferenceIdeal.S5000x1 .f32) := by
  have e1 := (read_unary (L := kP2) kP2_writes 12 rfl (by decide) (by decide) (W3 m ρ c))
  have e2 := (read_unary (L := rS23) rS23_writes 12 rfl (by decide) (by decide) (rv2 V0))
  rw [← W5_eq_kP2 m ρ c] at e1
  rw [← rv4_eq_rS23 V0] at e2
  rw [e1, e2, q_main_cst_9 hK hR]
  all_goals rfl

theorem q_main_v38 (hK : KHolds m ρ c A) (hR : RHolds V0 A) :
    (W5 m ρ c (Proc.devRef .tc Cert.KernelIdeal.main_v38) : FVec Ideal Cert.KernelIdeal.S5000x1 .f32) = (rv4 V0 (Proc.devRef .tc Cert.ReferenceIdeal.main_v50) : FVec Ideal Cert.ReferenceIdeal.S5000x1 .f32) := by
  have e1 := (read_binary (L := kP2) kP2_writes 13 rfl (by decide) (by decide) (by decide) (W3 m ρ c))
  have e2 := (read_binary (L := rS23) rS23_writes 13 rfl (by decide) (by decide) (by decide) (rv2 V0))
  rw [← W5_eq_kP2 m ρ c] at e1
  rw [← rv4_eq_rS23 V0] at e2
  rw [e1, e2, q_main_v37 hK hR, q_main_v36 hK hR]
  all_goals rfl

theorem q_main_v39 (hK : KHolds m ρ c A) (hR : RHolds V0 A) :
    (W5 m ρ c (Proc.devRef .tc Cert.KernelIdeal.main_v39) : FVec Ideal Cert.KernelIdeal.S5000x64 .f32) = (rv4 V0 (Proc.devRef .tc Cert.ReferenceIdeal.main_v51) : FVec Ideal Cert.ReferenceIdeal.S5000x64 .f32) := by
  have e1 := (read_unary (L := kP2) kP2_writes 14 rfl (by decide) (by decide) (W3 m ρ c))
  have e2 := (read_unary (L := rS23) rS23_writes 14 rfl (by decide) (by decide) (rv2 V0))
  rw [← W5_eq_kP2 m ρ c] at e1
  rw [← rv4_eq_rS23 V0] at e2
  rw [e1, e2, q_main_v38 hK hR]
  all_goals rfl

theorem q_main_v40 (hK : KHolds m ρ c A) (hR : RHolds V0 A) :
    (W5 m ρ c (Proc.devRef .tc Cert.KernelIdeal.main_v40) : FVec Ideal Cert.KernelIdeal.S5000x64 .f32) = (rv4 V0 (Proc.devRef .tc Cert.ReferenceIdeal.main_v52) : FVec Ideal Cert.ReferenceIdeal.S5000x64 .f32) := by
  have e1 := (read_binary (L := kP2) kP2_writes 15 rfl (by decide) (by decide) (by decide) (W3 m ρ c))
  have e2 := (read_binary (L := rS23) rS23_writes 15 rfl (by decide) (by decide) (by decide) (rv2 V0))
  rw [← W5_eq_kP2 m ρ c] at e1
  rw [← rv4_eq_rS23 V0] at e2
  rw [e1, e2, q_arg6 hK hR, q_main_v39 hK hR]
  all_goals rfl

theorem kp_main_v41 (hK : KHolds m ρ c A) :
    (W5 m ρ c (Proc.devRef .tc Cert.KernelIdeal.main_v41) : FVec Ideal Cert.KernelIdeal.S1x64 .f32) = (transpose Cert.ReferenceIdeal.S1x64 [1, 0] A.x2 Cert.ReferenceIdeal.Facts₀.transposes_S64x1_S1x64_1_0) := by
  have e1 := (read_unary (L := kP2) kP2_writes 16 rfl (by decide) (by decide) (W3 m ρ c))
  rw [← W5_eq_kP2 m ρ c] at e1
  rw [e1, ((W5_keep m ρ c Cert.KernelIdeal.main_arg2 (by decide)).trans ((W4_keep m ρ c Cert.KernelIdeal.main_arg2 (by decide)).trans ((W3_keep m ρ c Cert.KernelIdeal.main_arg2 (by decide)).trans ((W2_keep m ρ c Cert.KernelIdeal.main_arg2 (by decide)).trans (W1_keep m ρ c Cert.KernelIdeal.main_arg2 (by decide)))))), hK.k2]
  all_goals rfl

theorem kp_main_v42 (hK : KHolds m ρ c A) :
    (W5 m ρ c (Proc.devRef .tc Cert.KernelIdeal.main_v42) : FVec Ideal Cert.KernelIdeal.S1x64 .f32) = (broadcastInDim Cert.ReferenceIdeal.S1x64 ![1] Cert.ReferenceIdeal.Facts₀.bcast_S64_S1x64_1 A.x3) := by
  have e1 := (read_reshape (L := kP2) kP2_writes 17 rfl (by decide) (by decide) (W3 m ρ c))
  rw [← W5_eq_kP2 m ρ c] at e1
  rw [e1, ((W5_keep m ρ c Cert.KernelIdeal.main_arg3 (by decide)).trans ((W4_keep m ρ c Cert.KernelIdeal.main_arg3 (by decide)).trans ((W3_keep m ρ c Cert.KernelIdeal.main_arg3 (by decide)).trans ((W2_keep m ρ c Cert.KernelIdeal.main_arg3 (by decide)).trans (W1_keep m ρ c Cert.KernelIdeal.main_arg3 (by decide)))))), hK.k3]
  exact Cert.Seams.row_of_vec_64 A.x3

theorem kp_main_v43 (hK : KHolds m ρ c A) :
    (W5 m ρ c (Proc.devRef .tc Cert.KernelIdeal.main_v43) : FVec Ideal Cert.KernelIdeal.S1x64 .f32) = (transpose Cert.ReferenceIdeal.S1x64 [1, 0] A.x4 Cert.ReferenceIdeal.Facts₀.transposes_S64x1_S1x64_1_0) := by
  have e1 := (read_unary (L := kP2) kP2_writes 18 rfl (by decide) (by decide) (W3 m ρ c))
  rw [← W5_eq_kP2 m ρ c] at e1
  rw [e1, ((W5_keep m ρ c Cert.KernelIdeal.main_arg4 (by decide)).trans ((W4_keep m ρ c Cert.KernelIdeal.main_arg4 (by decide)).trans ((W3_keep m ρ c Cert.KernelIdeal.main_arg4 (by decide)).trans ((W2_keep m ρ c Cert.KernelIdeal.main_arg4 (by decide)).trans (W1_keep m ρ c Cert.KernelIdeal.main_arg4 (by decide)))))), hK.k4]
  all_goals rfl

theorem kp_main_v44 (hK : KHolds m ρ c A) :
    (W5 m ρ c (Proc.devRef .tc Cert.KernelIdeal.main_v44) : FVec Ideal Cert.KernelIdeal.S1x64 .f32) = (broadcastInDim Cert.ReferenceIdeal.S1x64 ![1] Cert.ReferenceIdeal.Facts₀.bcast_S64_S1x64_1 A.x5) := by
  have e1 := (read_reshape (L := kP2) kP2_writes 19 rfl (by decide) (by decide) (W3 m ρ c))
  rw [← W5_eq_kP2 m ρ c] at e1
  rw [e1, ((W5_keep m ρ c Cert.KernelIdeal.main_arg5 (by decide)).trans ((W4_keep m ρ c Cert.KernelIdeal.main_arg5 (by decide)).trans ((W3_keep m ρ c Cert.KernelIdeal.main_arg5 (by decide)).trans ((W2_keep m ρ c Cert.KernelIdeal.main_arg5 (by decide)).trans (W1_keep m ρ c Cert.KernelIdeal.main_arg5 (by decide)))))), hK.k5]
  exact Cert.Seams.row_of_vec_64 A.x5

theorem kp_main_v45 (hK : KHolds m ρ c A) :
    (W5 m ρ c (Proc.devRef .tc Cert.KernelIdeal.main_v45) : FVec Ideal Cert.KernelIdeal.S128x64 .f32) = (transpose Cert.ReferenceIdeal.S128x64 [1, 0] A.x7 Cert.ReferenceIdeal.Facts₀.transposes_S64x128_S128x64_1_0) := by
  have e1 := (read_unary (L := kP2) kP2_writes 20 rfl (by decide) (by decide) (W3 m ρ c))
  rw [← W5_eq_kP2 m ρ c] at e1
  rw [e1, ((W5_keep m ρ c Cert.KernelIdeal.main_arg7 (by decide)).trans ((W4_keep m ρ c Cert.KernelIdeal.main_arg7 (by decide)).trans ((W3_keep m ρ c Cert.KernelIdeal.main_arg7 (by decide)).trans ((W2_keep m ρ c Cert.KernelIdeal.main_arg7 (by decide)).trans (W1_keep m ρ c Cert.KernelIdeal.main_arg7 (by decide)))))), hK.k7]
  all_goals rfl

theorem kp_main_v46 (hK : KHolds m ρ c A) :
    (W5 m ρ c (Proc.devRef .tc Cert.KernelIdeal.main_v46) : FVec Ideal Cert.KernelIdeal.S1x64 .f32) = (broadcastInDim Cert.ReferenceIdeal.S1x64 ![1] Cert.ReferenceIdeal.Facts₀.bcast_S64_S1x64_1 A.x8) := by
  have e1 := (read_reshape (L := kP2) kP2_writes 21 rfl (by decide) (by decide) (W3 m ρ c))
  rw [← W5_eq_kP2 m ρ c] at e1
  rw [e1, ((W5_keep m ρ c Cert.KernelIdeal.main_arg8 (by decide)).trans ((W4_keep m ρ c Cert.KernelIdeal.main_arg8 (by decide)).trans ((W3_keep m ρ c Cert.KernelIdeal.main_arg8 (by decide)).trans ((W2_keep m ρ c Cert.KernelIdeal.main_arg8 (by decide)).trans (W1_keep m ρ c Cert.KernelIdeal.main_arg8 (by decide)))))), hK.k8]
  exact Cert.Seams.row_of_vec_64 A.x8

theorem kp_main_v47 (hK : KHolds m ρ c A) :
    (W5 m ρ c (Proc.devRef .tc Cert.KernelIdeal.main_v47) : FVec Ideal Cert.KernelIdeal.S128x64 .f32) = (transpose Cert.ReferenceIdeal.S128x64 [1, 0] A.x9 Cert.ReferenceIdeal.Facts₀.transposes_S64x128_S128x64_1_0) := by
  have e1 := (read_unary (L := kP2) kP2_writes 22 rfl (by decide) (by decide) (W3 m ρ c))
  rw [← W5_eq_kP2 m ρ c] at e1
  rw [e1, ((W5_keep m ρ c Cert.KernelIdeal.main_arg9 (by decide)).trans ((W4_keep m ρ c Cert.KernelIdeal.main_arg9 (by decide)).trans ((W3_keep m ρ c Cert.KernelIdeal.main_arg9 (by decide)).trans ((W2_keep m ρ c Cert.KernelIdeal.main_arg9 (by decide)).trans (W1_keep m ρ c Cert.KernelIdeal.main_arg9 (by decide)))))), hK.k9]
  all_goals rfl

theorem kp_main_v48 (hK : KHolds m ρ c A) :
    (W5 m ρ c (Proc.devRef .tc Cert.KernelIdeal.main_v48) : FVec Ideal Cert.KernelIdeal.S1x64 .f32) = (broadcastInDim Cert.ReferenceIdeal.S1x64 ![1] Cert.ReferenceIdeal.Facts₀.bcast_S64_S1x64_1 A.x10) := by
  have e1 := (read_reshape (L := kP2) kP2_writes 23 rfl (by decide) (by decide) (W3 m ρ c))
  rw [← W5_eq_kP2 m ρ c] at e1
  rw [e1, ((W5_keep m ρ c Cert.KernelIdeal.main_arg10 (by decide)).trans ((W4_keep m ρ c Cert.KernelIdeal.main_arg10 (by decide)).trans ((W3_keep m ρ c Cert.KernelIdeal.main_arg10 (by decide)).trans ((W2_keep m ρ c Cert.KernelIdeal.main_arg10 (by decide)).trans (W1_keep m ρ c Cert.KernelIdeal.main_arg10 (by decide)))))), hK.k10]
  exact Cert.Seams.row_of_vec_64 A.x10

theorem kp_main_v49 (hK : KHolds m ρ c A) :
    (W5 m ρ c (Proc.devRef .tc Cert.KernelIdeal.main_v49) : FVec Ideal Cert.KernelIdeal.S64x64 .f32) = (transpose Cert.ReferenceIdeal.S64x64 [1, 0] A.x11 Cert.ReferenceIdeal.Facts₀.transposes_S64x64_S64x64_1_0) := by
  have e1 := (read_unary (L := kP2) kP2_writes 24 rfl (by decide) (by decide) (W3 m ρ c))
  rw [← W5_eq_kP2 m ρ c] at e1
  rw [e1, ((W5_keep m ρ c Cert.KernelIdeal.main_arg11 (by decide)).trans ((W4_keep m ρ c Cert.KernelIdeal.main_arg11 (by decide)).trans ((W3_keep m ρ c Cert.KernelIdeal.main_arg11 (by decide)).trans ((W2_keep m ρ c Cert.KernelIdeal.main_arg11 (by decide)).trans (W1_keep m ρ c Cert.KernelIdeal.main_arg11 (by decide)))))), hK.k11]
  all_goals rfl

theorem kp_main_v50 (hK : KHolds m ρ c A) :
    (W5 m ρ c (Proc.devRef .tc Cert.KernelIdeal.main_v50) : FVec Ideal Cert.KernelIdeal.S64x64 .f32) = (transpose Cert.ReferenceIdeal.S64x64 [1, 0] A.x13 Cert.ReferenceIdeal.Facts₀.transposes_S64x64_S64x64_1_0) := by
  have e1 := (read_unary (L := kP2) kP2_writes 25 rfl (by decide) (by decide) (W3 m ρ c))
  rw [← W5_eq_kP2 m ρ c] at e1
  rw [e1, ((W5_keep m ρ c Cert.KernelIdeal.main_arg13 (by decide)).trans ((W4_keep m ρ c Cert.KernelIdeal.main_arg13 (by decide)).trans ((W3_keep m ρ c Cert.KernelIdeal.main_arg13 (by decide)).trans ((W2_keep m ρ c Cert.KernelIdeal.main_arg13 (by decide)).trans (W1_keep m ρ c Cert.KernelIdeal.main_arg13 (by decide)))))), hK.k13]
  all_goals rfl

theorem kp_main_v51 (hK : KHolds m ρ c A) :
    (W5 m ρ c (Proc.devRef .tc Cert.KernelIdeal.main_v51) : FVec Ideal Cert.KernelIdeal.S64x128 .f32) = (transpose Cert.ReferenceIdeal.S64x128 [1, 0] A.x15 Cert.ReferenceIdeal.Facts₀.transposes_S128x64_S64x128_1_0) := by
  have e1 := (read_unary (L := kP2) kP2_writes 26 rfl (by decide) (by decide) (W3 m ρ c))
  rw [← W5_eq_kP2 m ρ c] at e1
  rw [e1, ((W5_keep m ρ c Cert.KernelIdeal.main_arg15 (by decide)).trans ((W4_keep m ρ c Cert.KernelIdeal.main_arg15 (by decide)).trans ((W3_keep m ρ c Cert.KernelIdeal.main_arg15 (by decide)).trans ((W2_keep m ρ c Cert.KernelIdeal.main_arg15 (by decide)).trans (W1_keep m ρ c Cert.KernelIdeal.main_arg15 (by decide)))))), hK.k15]
  all_goals rfl

theorem kp_main_v52 (hK : KHolds m ρ c A) :
    (W5 m ρ c (Proc.devRef .tc Cert.KernelIdeal.main_v52) : FVec Ideal Cert.KernelIdeal.S1x128 .f32) = (broadcastInDim Cert.ReferenceIdeal.S1x128 ![1] Cert.ReferenceIdeal.Facts₀.bcast_S128_S1x128_1 A.x16) := by
  have e1 := (read_reshape (L := kP2) kP2_writes 27 rfl (by decide) (by decide) (W3 m ρ c))
  rw [← W5_eq_kP2 m ρ c] at e1
  rw [e1, ((W5_keep m ρ c Cert.KernelIdeal.main_arg16 (by decide)).trans ((W4_keep m ρ c Cert.KernelIdeal.main_arg16 (by decide)).trans ((W3_keep m ρ c Cert.KernelIdeal.main_arg16 (by decide)).trans ((W2_keep m ρ c Cert.KernelIdeal.main_arg16 (by decide)).trans (W1_keep m ρ c Cert.KernelIdeal.main_arg16 (by decide)))))), hK.k16]
  exact Cert.Seams.row_of_vec_128 A.x16

theorem kp_main_v53 (hK : KHolds m ρ c A) :
    (W5 m ρ c (Proc.devRef .tc Cert.KernelIdeal.main_v53) : FVec Ideal Cert.KernelIdeal.S1x128 .f32) = (broadcastInDim Cert.ReferenceIdeal.S1x128 ![1] Cert.ReferenceIdeal.Facts₀.bcast_S128_S1x128_1 A.x17) := by
  have e1 := (read_reshape (L := kP2) kP2_writes 28 rfl (by decide) (by decide) (W3 m ρ c))
  rw [← W5_eq_kP2 m ρ c] at e1
  rw [e1, ((W5_keep m ρ c Cert.KernelIdeal.main_arg17 (by decide)).trans ((W4_keep m ρ c Cert.KernelIdeal.main_arg17 (by decide)).trans ((W3_keep m ρ c Cert.KernelIdeal.main_arg17 (by decide)).trans ((W2_keep m ρ c Cert.KernelIdeal.main_arg17 (by decide)).trans (W1_keep m ρ c Cert.KernelIdeal.main_arg17 (by decide)))))), hK.k17]
  exact Cert.Seams.row_of_vec_128 A.x17

theorem kp_main_v54 (hK : KHolds m ρ c A) :
    (W5 m ρ c (Proc.devRef .tc Cert.KernelIdeal.main_v54) : FVec Ideal Cert.KernelIdeal.S1x128 .f32) = (broadcastInDim Cert.ReferenceIdeal.S1x128 ![1] Cert.ReferenceIdeal.Facts₀.bcast_S128_S1x128_1 A.x18) := by
  have e1 := (read_reshape (L := kP2) kP2_writes 29 rfl (by decide) (by decide) (W3 m ρ c))
  rw [← W5_eq_kP2 m ρ c] at e1
  rw [e1, ((W5_keep m ρ c Cert.KernelIdeal.main_arg18 (by decide)).trans ((W4_keep m ρ c Cert.KernelIdeal.main_arg18 (by decide)).trans ((W3_keep m ρ c Cert.KernelIdeal.main_arg18 (by decide)).trans ((W2_keep m ρ c Cert.KernelIdeal.main_arg18 (by decide)).trans (W1_keep m ρ c Cert.KernelIdeal.main_arg18 (by decide)))))), hK.k18]
  exact Cert.Seams.row_of_vec_128 A.x18

theorem kp_main_v55 (hK : KHolds m ρ c A) :
    (W5 m ρ c (Proc.devRef .tc Cert.KernelIdeal.main_v55) : FVec Ideal Cert.KernelIdeal.S128x64 .f32) = (transpose Cert.ReferenceIdeal.S128x64 [1, 0] A.x19 Cert.ReferenceIdeal.Facts₀.transposes_S64x128_S128x64_1_0) := by
  have e1 := (read_unary (L := kP2) kP2_writes 30 rfl (by decide) (by decide) (W3 m ρ c))
  rw [← W5_eq_kP2 m ρ c] at e1
  rw [e1, ((W5_keep m ρ c Cert.KernelIdeal.main_arg19 (by decide)).trans ((W4_keep m ρ c Cert.KernelIdeal.main_arg19 (by decide)).trans ((W3_keep m ρ c Cert.KernelIdeal.main_arg19 (by decide)).trans ((W2_keep m ρ c Cert.KernelIdeal.main_arg19 (by decide)).trans (W1_keep m ρ c Cert.KernelIdeal.main_arg19 (by decide)))))), hK.k19]
  all_goals rfl

theorem kp_main_v56 (hK : KHolds m ρ c A) :
    (W5 m ρ c (Proc.devRef .tc Cert.KernelIdeal.main_v56) : FVec Ideal Cert.KernelIdeal.S1x64 .f32) = (broadcastInDim Cert.ReferenceIdeal.S1x64 ![1] Cert.ReferenceIdeal.Facts₀.bcast_S64_S1x64_1 A.x20) := by
  have e1 := (read_reshape (L := kP2) kP2_writes 31 rfl (by decide) (by decide) (W3 m ρ c))
  rw [← W5_eq_kP2 m ρ c] at e1
  rw [e1, ((W5_keep m ρ c Cert.KernelIdeal.main_arg20 (by decide)).trans ((W4_keep m ρ c Cert.KernelIdeal.main_arg20 (by decide)).trans ((W3_keep m ρ c Cert.KernelIdeal.main_arg20 (by decide)).trans ((W2_keep m ρ c Cert.KernelIdeal.main_arg20 (by decide)).trans (W1_keep m ρ c Cert.KernelIdeal.main_arg20 (by decide)))))), hK.k20]
  exact Cert.Seams.row_of_vec_64 A.x20

theorem kp_main_v57 (hK : KHolds m ρ c A) :
    (W5 m ρ c (Proc.devRef .tc Cert.KernelIdeal.main_v57) : FVec Ideal Cert.KernelIdeal.S1x64 .f32) = (broadcastInDim Cert.ReferenceIdeal.S1x64 ![1] Cert.ReferenceIdeal.Facts₀.bcast_S64_S1x64_1 A.x21) := by
  have e1 := (read_reshape (L := kP2) kP2_writes 32 rfl (by decide) (by decide) (W3 m ρ c))
  rw [← W5_eq_kP2 m ρ c] at e1
  rw [e1, ((W5_keep m ρ c Cert.KernelIdeal.main_arg21 (by decide)).trans ((W4_keep m ρ c Cert.KernelIdeal.main_arg21 (by decide)).trans ((W3_keep m ρ c Cert.KernelIdeal.main_arg21 (by decide)).trans ((W2_keep m ρ c Cert.KernelIdeal.main_arg21 (by decide)).trans (W1_keep m ρ c Cert.KernelIdeal.main_arg21 (by decide)))))), hK.k21]
  exact Cert.Seams.row_of_vec_64 A.x21

theorem kp_main_v58 (hK : KHolds m ρ c A) :
    (W5 m ρ c (Proc.devRef .tc Cert.KernelIdeal.main_v58) : FVec Ideal Cert.KernelIdeal.S1x64 .f32) = (broadcastInDim Cert.ReferenceIdeal.S1x64 ![1] Cert.ReferenceIdeal.Facts₀.bcast_S64_S1x64_1 A.x22) := by
  have e1 := (read_reshape (L := kP2) kP2_writes 33 rfl (by decide) (by decide) (W3 m ρ c))
  rw [← W5_eq_kP2 m ρ c] at e1
  rw [e1, ((W5_keep m ρ c Cert.KernelIdeal.main_arg22 (by decide)).trans ((W4_keep m ρ c Cert.KernelIdeal.main_arg22 (by decide)).trans ((W3_keep m ρ c Cert.KernelIdeal.main_arg22 (by decide)).trans ((W2_keep m ρ c Cert.KernelIdeal.main_arg22 (by decide)).trans (W1_keep m ρ c Cert.KernelIdeal.main_arg22 (by decide)))))), hK.k22]
  exact Cert.Seams.row_of_vec_64 A.x22

theorem kp_main_v59 (hK : KHolds m ρ c A) :
    (W5 m ρ c (Proc.devRef .tc Cert.KernelIdeal.main_v59) : FVec Ideal Cert.KernelIdeal.S64x1 .f32) = (transpose Cert.ReferenceIdeal.S64x1 [1, 0] A.x23 Cert.ReferenceIdeal.Facts₀.transposes_S1x64_S64x1_1_0) := by
  have e1 := (read_unary (L := kP2) kP2_writes 34 rfl (by decide) (by decide) (W3 m ρ c))
  rw [← W5_eq_kP2 m ρ c] at e1
  rw [e1, ((W5_keep m ρ c Cert.KernelIdeal.main_arg23 (by decide)).trans ((W4_keep m ρ c Cert.KernelIdeal.main_arg23 (by decide)).trans ((W3_keep m ρ c Cert.KernelIdeal.main_arg23 (by decide)).trans ((W2_keep m ρ c Cert.KernelIdeal.main_arg23 (by decide)).trans (W1_keep m ρ c Cert.KernelIdeal.main_arg23 (by decide)))))), hK.k23]
  all_goals rfl

theorem kp_main_v60 (hK : KHolds m ρ c A) :
    (W5 m ρ c (Proc.devRef .tc Cert.KernelIdeal.main_v60) : FVec Ideal Cert.KernelIdeal.S1x1 .f32) = (broadcastInDim Cert.ReferenceIdeal.S1x1 ![1] Cert.ReferenceIdeal.Facts₀.bcast_S1_S1x1_1 A.x24) := by
  have e1 := (read_reshape (L := kP2) kP2_writes 35 rfl (by decide) (by decide) (W3 m ρ c))
  rw [← W5_eq_kP2 m ρ c] at e1
  rw [e1, ((W5_keep m ρ c Cert.KernelIdeal.main_arg24 (by decide)).trans ((W4_keep m ρ c Cert.KernelIdeal.main_arg24 (by decide)).trans ((W3_keep m ρ c Cert.KernelIdeal.main_arg24 (by decide)).trans ((W2_keep m ρ c Cert.KernelIdeal.main_arg24 (by decide)).trans (W1_keep m ρ c Cert.KernelIdeal.main_arg24 (by decide)))))), hK.k24]
  exact Cert.Seams.row_of_vec_1 A.x24

end Cert.Bridge

end
-- ==== Proof.BSt0.lean ====
/-
  The first two regions against the reference.

  The reference computes the two input projections, the tiled embedding table, the embedding transform and the first
  fused projection by host operations on the whole arrays; read operation by operation those are the functions colLin,
  tileEmb, baseEmb and hidden0 of the argument arrays and the renormalised table. Region 0's two outputs are the same
  functions of the kernel's buffers, which hold the same arrays; region 1's output is the product of the first hidden
  state with the first graph-convolution weight on both sides.
-/
import proofs.«175455_j86191403696584_1_alg».proof.Proof.BEmb
import Idealize.ShloMosaic.Lib.IdealHost
import Idealize.ShloMosaic.Lib.ValueLayout

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Stages Cert.ReferenceIdeal.RunValue Cert.KernelIdeal.Regions Cert.Lib.Ssa

variable {m : (ℓ : Loc Cert.KernelIdeal.nD Cert.KernelIdeal.τ Cert.KernelIdeal.sig) → Buf (Elt Ideal) ℓ} {ρ : Dev Cert.KernelIdeal.nD → PrngReg} {c : Dev Cert.KernelIdeal.nD}
variable {V0 : Valuation Cert.ReferenceIdeal.τ Cert.ReferenceIdeal.sig (Elt Ideal)} {A : Args}

theorem R_v43 (hR : RHolds V0 A) :
    (rv2 V0 (Proc.devRef .tc Cert.ReferenceIdeal.main_v43) : FVec Ideal Cert.ReferenceIdeal.S160000x64 .f32) = colLin0 A.x0 (transpose Cert.ReferenceIdeal.S1x64 [1, 0] A.x4 Cert.ReferenceIdeal.Facts₀.transposes_S64x1_S1x64_1_0) (broadcastInDim Cert.ReferenceIdeal.S1x64 ![1] Cert.ReferenceIdeal.Facts₀.bcast_S64_S1x64_1 A.x5) := by
  have e11 := (read_binary (L := rS1) rS1_writes 11 rfl (by decide) (by decide) (by decide) (rv1 V0))
  have e10 := (read_unary (L := rS1) rS1_writes 10 rfl (by decide) (by decide) (rv1 V0))
  have e9 := (read_unary (L := rS1) rS1_writes 9 rfl (by decide) (by decide) (rv1 V0))
  have e8 := (read_binary (L := rS1) rS1_writes 8 rfl (by decide) (by decide) (by decide) (rv1 V0))
  have e7 := (read_unary (L := rS1) rS1_writes 7 rfl (by decide) (by decide) (rv1 V0))
  have e6 := (read_unary (L := rS1) rS1_writes 6 rfl (by decide) (by decide) (rv1 V0))
  rw [rv2_eq_rS1 V0]
  rw [e11, e10, e9, e8, e7, e6]
  rw [read_keep (L := rS1) rS1_writes (r := Cert.ReferenceIdeal.main_arg0) (by decide) (rv1 V0),
    read_keep (L := rS1) rS1_writes (r := Cert.ReferenceIdeal.main_arg4) (by decide) (rv1 V0),
    read_keep (L := rS1) rS1_writes (r := Cert.ReferenceIdeal.main_arg5) (by decide) (rv1 V0)]
  rw [(rv1_keep V0 Cert.ReferenceIdeal.main_arg0 (by decide)), rv0, hR.r0]
  rw [(rv1_keep V0 Cert.ReferenceIdeal.main_arg4 (by decide)), rv0, hR.r4]
  rw [(rv1_keep V0 Cert.ReferenceIdeal.main_arg5 (by decide)), rv0, hR.r5]
  all_goals rfl

theorem R_v37 (hR : RHolds V0 A) :
    (rv2 V0 (Proc.devRef .tc Cert.ReferenceIdeal.main_v37) : FVec Ideal Cert.ReferenceIdeal.S160000x64 .f32) = colLin1 A.x0 (transpose Cert.ReferenceIdeal.S1x64 [1, 0] A.x2 Cert.ReferenceIdeal.Facts₀.transposes_S64x1_S1x64_1_0) (broadcastInDim Cert.ReferenceIdeal.S1x64 ![1] Cert.ReferenceIdeal.Facts₀.bcast_S64_S1x64_1 A.x3) := by
  have e5 := (read_binary (L := rS1) rS1_writes 5 rfl (by decide) (by decide) (by decide) (rv1 V0))
  have e4 := (read_unary (L := rS1) rS1_writes 4 rfl (by decide) (by decide) (rv1 V0))
  have e3 := (read_unary (L := rS1) rS1_writes 3 rfl (by decide) (by decide) (rv1 V0))
  have e2 := (read_binary (L := rS1) rS1_writes 2 rfl (by decide) (by decide) (by decide) (rv1 V0))
  have e1 := (read_unary (L := rS1) rS1_writes 1 rfl (by decide) (by decide) (rv1 V0))
  have e0 := (read_unary (L := rS1) rS1_writes 0 rfl (by decide) (by decide) (rv1 V0))
  rw [rv2_eq_rS1 V0]
  rw [e5, e4, e3, e2, e1, e0]
  rw [read_keep (L := rS1) rS1_writes (r := Cert.ReferenceIdeal.main_arg0) (by decide) (rv1 V0),
    read_keep (L := rS1) rS1_writes (r := Cert.ReferenceIdeal.main_arg2) (by decide) (rv1 V0),
    read_keep (L := rS1) rS1_writes (r := Cert.ReferenceIdeal.main_arg3) (by decide) (rv1 V0)]
  rw [(rv1_keep V0 Cert.ReferenceIdeal.main_arg0 (by decide)), rv0, hR.r0]
  rw [(rv1_keep V0 Cert.ReferenceIdeal.main_arg2 (by decide)), rv0, hR.r2]
  rw [(rv1_keep V0 Cert.ReferenceIdeal.main_arg3 (by decide)), rv0, hR.r3]
  all_goals rfl

theorem R_v61 (hR : RHolds V0 A) :
    (rv5 V0 (Proc.devRef .tc Cert.ReferenceIdeal.main_v61) : FVec Ideal Cert.ReferenceIdeal.S160000x64 .f32) = baseEmb A.x0 (rv4 V0 (Proc.devRef .tc Cert.ReferenceIdeal.main_v52)) (transpose Cert.ReferenceIdeal.S1x64 [1, 0] A.x4 Cert.ReferenceIdeal.Facts₀.transposes_S64x1_S1x64_1_0) (broadcastInDim Cert.ReferenceIdeal.S1x64 ![1] Cert.ReferenceIdeal.Facts₀.bcast_S64_S1x64_1 A.x5) (transpose Cert.ReferenceIdeal.S128x64 [1, 0] A.x7 Cert.ReferenceIdeal.Facts₀.transposes_S64x128_S128x64_1_0) (broadcastInDim Cert.ReferenceIdeal.S1x64 ![1] Cert.ReferenceIdeal.Facts₀.bcast_S64_S1x64_1 A.x8) := by
  have e8 := (read_binary (L := rS4) rS4_writes 8 rfl (by decide) (by decide) (by decide) (rv4 V0))
  have e7 := (read_unary (L := rS4) rS4_writes 7 rfl (by decide) (by decide) (rv4 V0))
  have e6 := (read_unary (L := rS4) rS4_writes 6 rfl (by decide) (by decide) (rv4 V0))
  have e5 := (read_binary (L := rS4) rS4_writes 5 rfl (by decide) (by decide) (by decide) (rv4 V0))
  have e4 := (read_unary (L := rS4) rS4_writes 4 rfl (by decide) (by decide) (rv4 V0))
  have e3 := (read_binary (L := rS4) rS4_writes 3 rfl (by decide) (by decide) (by decide) (rv4 V0))
  have e2 := (read_reshape (L := rS4) rS4_writes 2 rfl (by decide) (by decide) (rv4 V0))
  have e1 := (read_unary (L := rS4) rS4_writes 1 rfl (by decide) (by decide) (rv4 V0))
  have e0 := (read_reshape (L := rS4) rS4_writes 0 rfl (by decide) (by decide) (rv4 V0))
  rw [rv5_eq_rS4 V0]
  rw [e8, e7, e6, e5, e4, e3, e2, e1, e0]
  rw [read_keep (L := rS4) rS4_writes (r := Cert.ReferenceIdeal.main_v52) (by decide) (rv4 V0),
    read_keep (L := rS4) rS4_writes (r := Cert.ReferenceIdeal.main_v43) (by decide) (rv4 V0),
    read_keep (L := rS4) rS4_writes (r := Cert.ReferenceIdeal.main_arg7) (by decide) (rv4 V0),
    read_keep (L := rS4) rS4_writes (r := Cert.ReferenceIdeal.main_arg8) (by decide) (rv4 V0)]
  rw [((rv4_keep V0 Cert.ReferenceIdeal.main_v43 (by decide)).trans (rv3_keep V0 Cert.ReferenceIdeal.main_v43 (by decide))), R_v43 hR]
  rw [((rv4_keep V0 Cert.ReferenceIdeal.main_arg7 (by decide)).trans ((rv3_keep V0 Cert.ReferenceIdeal.main_arg7 (by decide)).trans ((rv2_keep V0 Cert.ReferenceIdeal.main_arg7 (by decide)).trans (rv1_keep V0 Cert.ReferenceIdeal.main_arg7 (by decide))))), rv0, hR.r7]
  rw [((rv4_keep V0 Cert.ReferenceIdeal.main_arg8 (by decide)).trans ((rv3_keep V0 Cert.ReferenceIdeal.main_arg8 (by decide)).trans ((rv2_keep V0 Cert.ReferenceIdeal.main_arg8 (by decide)).trans (rv1_keep V0 Cert.ReferenceIdeal.main_arg8 (by decide))))), rv0, hR.r8]
  all_goals rfl

theorem R_v67 (hR : RHolds V0 A) :
    (rv6 V0 (Proc.devRef .tc Cert.ReferenceIdeal.main_v67) : FVec Ideal Cert.ReferenceIdeal.S160000x64 .f32) = hidden0 A.x0 (rv4 V0 (Proc.devRef .tc Cert.ReferenceIdeal.main_v52)) (transpose Cert.ReferenceIdeal.S1x64 [1, 0] A.x2 Cert.ReferenceIdeal.Facts₀.transposes_S64x1_S1x64_1_0) (broadcastInDim Cert.ReferenceIdeal.S1x64 ![1] Cert.ReferenceIdeal.Facts₀.bcast_S64_S1x64_1 A.x3) (transpose Cert.ReferenceIdeal.S1x64 [1, 0] A.x4 Cert.ReferenceIdeal.Facts₀.transposes_S64x1_S1x64_1_0) (broadcastInDim Cert.ReferenceIdeal.S1x64 ![1] Cert.ReferenceIdeal.Facts₀.bcast_S64_S1x64_1 A.x5) (transpose Cert.ReferenceIdeal.S128x64 [1, 0] A.x7 Cert.ReferenceIdeal.Facts₀.transposes_S64x128_S128x64_1_0) (broadcastInDim Cert.ReferenceIdeal.S1x64 ![1] Cert.ReferenceIdeal.Facts₀.bcast_S64_S1x64_1 A.x8) (transpose Cert.ReferenceIdeal.S128x64 [1, 0] A.x9 Cert.ReferenceIdeal.Facts₀.transposes_S64x128_S128x64_1_0) (broadcastInDim Cert.ReferenceIdeal.S1x64 ![1] Cert.ReferenceIdeal.Facts₀.bcast_S64_S1x64_1 A.x10) := by
  have e5 := (read_binary (L := rS5) rS5_writes 5 rfl (by decide) (by decide) (by decide) (rv5 V0))
  have e4 := (read_unary (L := rS5) rS5_writes 4 rfl (by decide) (by decide) (rv5 V0))
  have e3 := (read_unary (L := rS5) rS5_writes 3 rfl (by decide) (by decide) (rv5 V0))
  have e2 := (read_binary (L := rS5) rS5_writes 2 rfl (by decide) (by decide) (by decide) (rv5 V0))
  have e1 := (read_unary (L := rS5) rS5_writes 1 rfl (by decide) (by decide) (rv5 V0))
  have e0 := (read_binary (L := rS5) rS5_writes 0 rfl (by decide) (by decide) (by decide) (rv5 V0))
  rw [rv6_eq_rS5 V0]
  rw [e5, e4, e3, e2, e1, e0]
  rw [read_keep (L := rS5) rS5_writes (r := Cert.ReferenceIdeal.main_v37) (by decide) (rv5 V0),
    read_keep (L := rS5) rS5_writes (r := Cert.ReferenceIdeal.main_v61) (by decide) (rv5 V0),
    read_keep (L := rS5) rS5_writes (r := Cert.ReferenceIdeal.main_arg9) (by decide) (rv5 V0),
    read_keep (L := rS5) rS5_writes (r := Cert.ReferenceIdeal.main_arg10) (by decide) (rv5 V0)]
  rw [((rv5_keep V0 Cert.ReferenceIdeal.main_v37 (by decide)).trans ((rv4_keep V0 Cert.ReferenceIdeal.main_v37 (by decide)).trans (rv3_keep V0 Cert.ReferenceIdeal.main_v37 (by decide)))), R_v37 hR]
  rw [R_v61 hR]
  rw [((rv5_keep V0 Cert.ReferenceIdeal.main_arg9 (by decide)).trans ((rv4_keep V0 Cert.ReferenceIdeal.main_arg9 (by decide)).trans ((rv3_keep V0 Cert.ReferenceIdeal.main_arg9 (by decide)).trans ((rv2_keep V0 Cert.ReferenceIdeal.main_arg9 (by decide)).trans (rv1_keep V0 Cert.ReferenceIdeal.main_arg9 (by decide)))))), rv0, hR.r9]
  rw [((rv5_keep V0 Cert.ReferenceIdeal.main_arg10 (by decide)).trans ((rv4_keep V0 Cert.ReferenceIdeal.main_arg10 (by decide)).trans ((rv3_keep V0 Cert.ReferenceIdeal.main_arg10 (by decide)).trans ((rv2_keep V0 Cert.ReferenceIdeal.main_arg10 (by decide)).trans (rv1_keep V0 Cert.ReferenceIdeal.main_arg10 (by decide)))))), rv0, hR.r10]
  all_goals rfl

/-- The base embedding: region 0's first output is the reference's. -/
theorem st_v61_0 (hK : KHolds m ρ c A) (hR : RHolds V0 A) :
    (W6 m ρ c (Proc.devRef .tc Cert.KernelIdeal.main_v61_0) : FVec Ideal Cert.KernelIdeal.S160000x64 .f32) = (rv5 V0 (Proc.devRef .tc Cert.ReferenceIdeal.main_v61) : FVec Ideal Cert.ReferenceIdeal.S160000x64 .f32) := by
  rw [Cert.KernelIdeal.Stages.W6_main_v61_0 m ρ c, R_v61 hR]
  show baseEmb (W5 m ρ c (Proc.devRef .tc Cert.KernelIdeal.main_arg0)) (W5 m ρ c (Proc.devRef .tc Cert.KernelIdeal.main_v40)) (W5 m ρ c (Proc.devRef .tc Cert.KernelIdeal.main_v43)) (W5 m ρ c (Proc.devRef .tc Cert.KernelIdeal.main_v44)) (W5 m ρ c (Proc.devRef .tc Cert.KernelIdeal.main_v45)) (W5 m ρ c (Proc.devRef .tc Cert.KernelIdeal.main_v46)) = _
  rw [((W5_keep m ρ c Cert.KernelIdeal.main_arg0 (by decide)).trans ((W4_keep m ρ c Cert.KernelIdeal.main_arg0 (by decide)).trans ((W3_keep m ρ c Cert.KernelIdeal.main_arg0 (by decide)).trans ((W2_keep m ρ c Cert.KernelIdeal.main_arg0 (by decide)).trans (W1_keep m ρ c Cert.KernelIdeal.main_arg0 (by decide)))))), hK.k0,
    q_main_v40 hK hR,
    kp_main_v43 hK,
    kp_main_v44 hK,
    kp_main_v45 hK,
    kp_main_v46 hK]
  all_goals rfl

/-- The first hidden state: region 0's second output is the reference's. -/
theorem st_v61_1 (hK : KHolds m ρ c A) (hR : RHolds V0 A) :
    (W6 m ρ c (Proc.devRef .tc Cert.KernelIdeal.main_v61_1) : FVec Ideal Cert.KernelIdeal.S160000x64 .f32) = (rv6 V0 (Proc.devRef .tc Cert.ReferenceIdeal.main_v67) : FVec Ideal Cert.ReferenceIdeal.S160000x64 .f32) := by
  rw [Cert.KernelIdeal.Stages.W6_main_v61_1 m ρ c, R_v67 hR]
  show hidden0 (W5 m ρ c (Proc.devRef .tc Cert.KernelIdeal.main_arg0)) (W5 m ρ c (Proc.devRef .tc Cert.KernelIdeal.main_v40)) (W5 m ρ c (Proc.devRef .tc Cert.KernelIdeal.main_v41)) (W5 m ρ c (Proc.devRef .tc Cert.KernelIdeal.main_v42)) (W5 m ρ c (Proc.devRef .tc Cert.KernelIdeal.main_v43)) (W5 m ρ c (Proc.devRef .tc Cert.KernelIdeal.main_v44)) (W5 m ρ c (Proc.devRef .tc Cert.KernelIdeal.main_v45)) (W5 m ρ c (Proc.devRef .tc Cert.KernelIdeal.main_v46)) (W5 m ρ c (Proc.devRef .tc Cert.KernelIdeal.main_v47)) (W5 m ρ c (Proc.devRef .tc Cert.KernelIdeal.main_v48)) = _
  rw [((W5_keep m ρ c Cert.KernelIdeal.main_arg0 (by decide)).trans ((W4_keep m ρ c Cert.KernelIdeal.main_arg0 (by decide)).trans ((W3_keep m ρ c Cert.KernelIdeal.main_arg0 (by decide)).trans ((W2_keep m ρ c Cert.KernelIdeal.main_arg0 (by decide)).trans (W1_keep m ρ c Cert.KernelIdeal.main_arg0 (by decide)))))), hK.k0,
    q_main_v40 hK hR,
    kp_main_v41 hK,
    kp_main_v42 hK,
    kp_main_v43 hK,
    kp_main_v44 hK,
    kp_main_v45 hK,
    kp_main_v46 hK,
    kp_main_v47 hK,
    kp_main_v48 hK]
  all_goals rfl

theorem R_v69 (hR : RHolds V0 A) :
    (rv7 V0 (Proc.devRef .tc Cert.ReferenceIdeal.main_v69) : FVec Ideal Cert.ReferenceIdeal.S160000x64 .f32) = prod64 (rv6 V0 (Proc.devRef .tc Cert.ReferenceIdeal.main_v67)) (transpose Cert.ReferenceIdeal.S64x64 [1, 0] A.x11 Cert.ReferenceIdeal.Facts₀.transposes_S64x64_S64x64_1_0) := by
  have e1 := (read_binary (L := rS6) rS6_writes 1 rfl (by decide) (by decide) (by decide) (rv6 V0))
  have e0 := (read_unary (L := rS6) rS6_writes 0 rfl (by decide) (by decide) (rv6 V0))
  rw [rv7_eq_rS6 V0]
  rw [e1, e0]
  rw [read_keep (L := rS6) rS6_writes (r := Cert.ReferenceIdeal.main_v67) (by decide) (rv6 V0),
    read_keep (L := rS6) rS6_writes (r := Cert.ReferenceIdeal.main_arg11) (by decide) (rv6 V0)]
  rw [((rv6_keep V0 Cert.ReferenceIdeal.main_arg11 (by decide)).trans ((rv5_keep V0 Cert.ReferenceIdeal.main_arg11 (by decide)).trans ((rv4_keep V0 Cert.ReferenceIdeal.main_arg11 (by decide)).trans ((rv3_keep V0 Cert.ReferenceIdeal.main_arg11 (by decide)).trans ((rv2_keep V0 Cert.ReferenceIdeal.main_arg11 (by decide)).trans (rv1_keep V0 Cert.ReferenceIdeal.main_arg11 (by decide))))))), rv0, hR.r11]
  all_goals rfl

/-- The first graph-convolution product. -/
theorem st_v62 (hK : KHolds m ρ c A) (hR : RHolds V0 A) :
    (W7 m ρ c (Proc.devRef .tc Cert.KernelIdeal.main_v62) : FVec Ideal Cert.KernelIdeal.S160000x64 .f32) = (rv7 V0 (Proc.devRef .tc Cert.ReferenceIdeal.main_v69) : FVec Ideal Cert.ReferenceIdeal.S160000x64 .f32) := by
  rw [Cert.KernelIdeal.Stages.W7_main_v62 m ρ c, R_v69 hR]
  show prod64 (W6 m ρ c (Proc.devRef .tc Cert.KernelIdeal.main_v61_1)) (W6 m ρ c (Proc.devRef .tc Cert.KernelIdeal.main_v49)) = _
  rw [st_v61_1 hK hR,
    (W6_of_ne m ρ c Cert.KernelIdeal.main_v49 (by decide)), kp_main_v49 hK]
  all_goals rfl

end Cert.Bridge

end
-- ==== Proof.BConv1.lean ====
/-
  The first graph-convolution aggregation.

  Both programs gather the rows of the product m1 at the source indices, scale each by the edge's normalisation,
  scatter-add them at the destination indices into zeros and add the bias row — the same host operations, on operands
  already shown equal (the product, the index lists, the normalisation), the bias reaching the row form by a reshape in
  one program and a broadcast in the other.
-/
import proofs.«175455_j86191403696584_1_alg».proof.Proof.BSt0
import Idealize.ShloMosaic.Lib.IdealHost
import Idealize.ShloMosaic.Lib.ValueLayout

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Stages Cert.ReferenceIdeal.RunValue Cert.KernelIdeal.Regions Cert.Lib.Ssa

variable {m : (ℓ : Loc Cert.KernelIdeal.nD Cert.KernelIdeal.τ Cert.KernelIdeal.sig) → Buf (Elt Ideal) ℓ} {ρ : Dev Cert.KernelIdeal.nD → PrngReg} {c : Dev Cert.KernelIdeal.nD}
variable {V0 : Valuation Cert.ReferenceIdeal.τ Cert.ReferenceIdeal.sig (Elt Ideal)} {A : Args}

theorem c1_in_m (hK : KHolds m ρ c A) (hR : RHolds V0 A) :
    (W8 m ρ c (Proc.devRef .tc Cert.KernelIdeal.main_v62) : FVec Ideal Cert.KernelIdeal.S160000x64 .f32) = (rv8 V0 (Proc.devRef .tc Cert.ReferenceIdeal.main_v69) : FVec Ideal Cert.ReferenceIdeal.S160000x64 .f32) := by
  rw [(W8_keep m ρ c Cert.KernelIdeal.main_v62 (by decide)), (rv8_keep V0 Cert.ReferenceIdeal.main_v69 (by decide))]
  exact st_v62 hK hR

theorem c1_in_v3 (hK : KHolds m ρ c A) (hR : RHolds V0 A) :
    (W8 m ρ c (Proc.devRef .tc Cert.KernelIdeal.main_v3) : IVec Cert.KernelIdeal.S1760000 32) = (rv8 V0 (Proc.devRef .tc Cert.ReferenceIdeal.main_v3) : IVec Cert.ReferenceIdeal.S1760000 32) := by
  rw [((W8_keep m ρ c Cert.KernelIdeal.main_v3 (by decide)).trans ((W7_of_ne m ρ c Cert.KernelIdeal.main_v3 (by decide)).trans ((W6_of_ne m ρ c Cert.KernelIdeal.main_v3 (by decide)).trans ((W5_keep m ρ c Cert.KernelIdeal.main_v3 (by decide)).trans (W4_keep m ρ c Cert.KernelIdeal.main_v3 (by decide)))))), ((rv8_keep V0 Cert.ReferenceIdeal.main_v3 (by decide)).trans ((rv7_keep V0 Cert.ReferenceIdeal.main_v3 (by decide)).trans ((rv6_keep V0 Cert.ReferenceIdeal.main_v3 (by decide)).trans ((rv5_keep V0 Cert.ReferenceIdeal.main_v3 (by decide)).trans ((rv4_keep V0 Cert.ReferenceIdeal.main_v3 (by decide)).trans ((rv3_keep V0 Cert.ReferenceIdeal.main_v3 (by decide)).trans (rv2_keep V0 Cert.ReferenceIdeal.main_v3 (by decide))))))))]
  exact e_main_v3 hK hR

theorem c1_in_v6 (hK : KHolds m ρ c A) (hR : RHolds V0 A) :
    (W8 m ρ c (Proc.devRef .tc Cert.KernelIdeal.main_v6) : IVec Cert.KernelIdeal.S1760000 32) = (rv8 V0 (Proc.devRef .tc Cert.ReferenceIdeal.main_v6) : IVec Cert.ReferenceIdeal.S1760000 32) := by
  rw [((W8_keep m ρ c Cert.KernelIdeal.main_v6 (by decide)).trans ((W7_of_ne m ρ c Cert.KernelIdeal.main_v6 (by decide)).trans ((W6_of_ne m ρ c Cert.KernelIdeal.main_v6 (by decide)).trans ((W5_keep m ρ c Cert.KernelIdeal.main_v6 (by decide)).trans (W4_keep m ρ c Cert.KernelIdeal.main_v6 (by decide)))))), ((rv8_keep V0 Cert.ReferenceIdeal.main_v6 (by decide)).trans ((rv7_keep V0 Cert.ReferenceIdeal.main_v6 (by decide)).trans ((rv6_keep V0 Cert.ReferenceIdeal.main_v6 (by decide)).trans ((rv5_keep V0 Cert.ReferenceIdeal.main_v6 (by decide)).trans ((rv4_keep V0 Cert.ReferenceIdeal.main_v6 (by decide)).trans ((rv3_keep V0 Cert.ReferenceIdeal.main_v6 (by decide)).trans (rv2_keep V0 Cert.ReferenceIdeal.main_v6 (by decide))))))))]
  exact e_main_v6 hK hR

theorem c1_in_v31 (hK : KHolds m ρ c A) (hR : RHolds V0 A) :
    (W8 m ρ c (Proc.devRef .tc Cert.KernelIdeal.main_v31) : FVec Ideal Cert.KernelIdeal.S1760000 .f32) = (rv8 V0 (Proc.devRef .tc Cert.ReferenceIdeal.main_v31) : FVec Ideal Cert.ReferenceIdeal.S1760000 .f32) := by
  rw [((W8_keep m ρ c Cert.KernelIdeal.main_v31 (by decide)).trans ((W7_of_ne m ρ c Cert.KernelIdeal.main_v31 (by decide)).trans ((W6_of_ne m ρ c Cert.KernelIdeal.main_v31 (by decide)).trans ((W5_keep m ρ c Cert.KernelIdeal.main_v31 (by decide)).trans (W4_keep m ρ c Cert.KernelIdeal.main_v31 (by decide)))))), ((rv8_keep V0 Cert.ReferenceIdeal.main_v31 (by decide)).trans ((rv7_keep V0 Cert.ReferenceIdeal.main_v31 (by decide)).trans ((rv6_keep V0 Cert.ReferenceIdeal.main_v31 (by decide)).trans ((rv5_keep V0 Cert.ReferenceIdeal.main_v31 (by decide)).trans ((rv4_keep V0 Cert.ReferenceIdeal.main_v31 (by decide)).trans ((rv3_keep V0 Cert.ReferenceIdeal.main_v31 (by decide)).trans (rv2_keep V0 Cert.ReferenceIdeal.main_v31 (by decide))))))))]
  exact e_main_v31 hK hR

/-- The bias as a one-row matrix: the kernel's reshape and the reference's broadcast of the same vector. -/
theorem c1_bias (hK : KHolds m ρ c A) (hR : RHolds V0 A) :
    (W8 m ρ c (Proc.devRef .tc Cert.KernelIdeal.main_v63) : FVec Ideal Cert.KernelIdeal.S1x64 .f32) = (rv8 V0 (Proc.devRef .tc Cert.ReferenceIdeal.main_v83) : FVec Ideal Cert.ReferenceIdeal.S1x64 .f32) := by
  have e1 := (read_reshape (L := kH2) kH2_writes 0 rfl (by decide) (by decide) (W7 m ρ c))
  have e2 := (read_unary (L := rS7) rS7_writes 16 rfl (by decide) (by decide) (rv7 V0))
  rw [← W8_eq_kH2 m ρ c] at e1
  rw [← rv8_eq_rS7 V0] at e2
  rw [e1, e2, ((W8_keep m ρ c Cert.KernelIdeal.main_arg12 (by decide)).trans ((W7_of_ne m ρ c Cert.KernelIdeal.main_arg12 (by decide)).trans ((W6_of_ne m ρ c Cert.KernelIdeal.main_arg12 (by decide)).trans ((W5_keep m ρ c Cert.KernelIdeal.main_arg12 (by decide)).trans ((W4_keep m ρ c Cert.KernelIdeal.main_arg12 (by decide)).trans ((W3_keep m ρ c Cert.KernelIdeal.main_arg12 (by decide)).trans ((W2_keep m ρ c Cert.KernelIdeal.main_arg12 (by decide)).trans (W1_keep m ρ c Cert.KernelIdeal.main_arg12 (by decide))))))))), hK.k12, ((rv8_keep V0 Cert.ReferenceIdeal.main_arg12 (by decide)).trans ((rv7_keep V0 Cert.ReferenceIdeal.main_arg12 (by decide)).trans ((rv6_keep V0 Cert.ReferenceIdeal.main_arg12 (by decide)).trans ((rv5_keep V0 Cert.ReferenceIdeal.main_arg12 (by decide)).trans ((rv4_keep V0 Cert.ReferenceIdeal.main_arg12 (by decide)).trans ((rv3_keep V0 Cert.ReferenceIdeal.main_arg12 (by decide)).trans ((rv2_keep V0 Cert.ReferenceIdeal.main_arg12 (by decide)).trans (rv1_keep V0 Cert.ReferenceIdeal.main_arg12 (by decide))))))))), rv0, hR.r12]
  exact Cert.Seams.row_of_vec_64 A.x12

theorem c1_main_c_10 (hK : KHolds m ρ c A) (hR : RHolds V0 A) :
    (W8 m ρ c (Proc.devRef .tc Cert.KernelIdeal.main_c_10) : IVec Cert.KernelIdeal.S_ 32) = (rv8 V0 (Proc.devRef .tc Cert.ReferenceIdeal.main_c_10) : IVec Cert.ReferenceIdeal.S_ 32) := by
  have e1 := (read_nullary (L := kH2) kH2_writes 1 rfl (by decide) (W7 m ρ c))
  have e2 := (read_nullary (L := rS7) rS7_writes 0 rfl (by decide) (rv7 V0))
  rw [← W8_eq_kH2 m ρ c] at e1
  rw [← rv8_eq_rS7 V0] at e2
  rw [e1, e2]
  all_goals rfl

theorem c1_main_v64 (hK : KHolds m ρ c A) (hR : RHolds V0 A) :
    (W8 m ρ c (Proc.devRef .tc Cert.KernelIdeal.main_v64) : IVec Cert.KernelIdeal.S1760000 32) = (rv8 V0 (Proc.devRef .tc Cert.ReferenceIdeal.main_v70) : IVec Cert.ReferenceIdeal.S1760000 32) := by
  have e1 := (read_unary (L := kH2) kH2_writes 2 rfl (by decide) (by decide) (W7 m ρ c))
  have e2 := (read_unary (L := rS7) rS7_writes 1 rfl (by decide) (by decide) (rv7 V0))
  rw [← W8_eq_kH2 m ρ c] at e1
  rw [← rv8_eq_rS7 V0] at e2
  rw [e1, e2, c1_main_c_10 hK hR]
  all_goals rfl

theorem c1_main_v65 (hK : KHolds m ρ c A) (hR : RHolds V0 A) :
    (W8 m ρ c (Proc.devRef .tc Cert.KernelIdeal.main_v65) : IVec Cert.KernelIdeal.S1760000 1) = (rv8 V0 (Proc.devRef .tc Cert.ReferenceIdeal.main_v71) : IVec Cert.ReferenceIdeal.S1760000 1) := by
  have e1 := (read_binary (L := kH2) kH2_writes 3 rfl (by decide) (by decide) (by decide) (W7 m ρ c))
  have e2 := (read_binary (L := rS7) rS7_writes 2 rfl (by decide) (by decide) (by decide) (rv7 V0))
  rw [← W8_eq_kH2 m ρ c] at e1
  rw [← rv8_eq_rS7 V0] at e2
  rw [e1, e2, c1_in_v3 hK hR, c1_main_v64 hK hR]
  all_goals rfl

theorem c1_main_c_11 (hK : KHolds m ρ c A) (hR : RHolds V0 A) :
    (W8 m ρ c (Proc.devRef .tc Cert.KernelIdeal.main_c_11) : IVec Cert.KernelIdeal.S_ 32) = (rv8 V0 (Proc.devRef .tc Cert.ReferenceIdeal.main_c_11) : IVec Cert.ReferenceIdeal.S_ 32) := by
  have e1 := (read_nullary (L := kH2) kH2_writes 4 rfl (by decide) (W7 m ρ c))
  have e2 := (read_nullary (L := rS7) rS7_writes 3 rfl (by decide) (rv7 V0))
  rw [← W8_eq_kH2 m ρ c] at e1
  rw [← rv8_eq_rS7 V0] at e2
  rw [e1, e2]
  all_goals rfl

theorem c1_main_v66 (hK : KHolds m ρ c A) (hR : RHolds V0 A) :
    (W8 m ρ c (Proc.devRef .tc Cert.KernelIdeal.main_v66) : IVec Cert.KernelIdeal.S1760000 32) = (rv8 V0 (Proc.devRef .tc Cert.ReferenceIdeal.main_v72) : IVec Cert.ReferenceIdeal.S1760000 32) := by
  have e1 := (read_unary (L := kH2) kH2_writes 5 rfl (by decide) (by decide) (W7 m ρ c))
  have e2 := (read_unary (L := rS7) rS7_writes 4 rfl (by decide) (by decide) (rv7 V0))
  rw [← W8_eq_kH2 m ρ c] at e1
  rw [← rv8_eq_rS7 V0] at e2
  rw [e1, e2, c1_main_c_11 hK hR]
  all_goals rfl

theorem c1_main_v67 (hK : KHolds m ρ c A) (hR : RHolds V0 A) :
    (W8 m ρ c (Proc.devRef .tc Cert.KernelIdeal.main_v67) : IVec Cert.KernelIdeal.S1760000 32) = (rv8 V0 (Proc.devRef .tc Cert.ReferenceIdeal.main_v73) : IVec Cert.ReferenceIdeal.S1760000 32) := by
  have e1 := (read_binary (L := kH2) kH2_writes 6 rfl (by decide) (by decide) (by decide) (W7 m ρ c))
  have e2 := (read_binary (L := rS7) rS7_writes 5 rfl (by decide) (by decide) (by decide) (rv7 V0))
  rw [← W8_eq_kH2 m ρ c] at e1
  rw [← rv8_eq_rS7 V0] at e2
  rw [e1, e2, c1_in_v3 hK hR, c1_main_v66 hK hR]
  all_goals rfl

theorem c1_main_v68 (hK : KHolds m ρ c A) (hR : RHolds V0 A) :
    (W8 m ρ c (Proc.devRef .tc Cert.KernelIdeal.main_v68) : IVec Cert.KernelIdeal.S1760000 32) = (rv8 V0 (Proc.devRef .tc Cert.ReferenceIdeal.main_v74) : IVec Cert.ReferenceIdeal.S1760000 32) := by
  have e1 := (read_ternary (L := kH2) kH2_writes 7 rfl (by decide) (by decide) (by decide) (by decide) (W7 m ρ c))
  have e2 := (read_ternary (L := rS7) rS7_writes 6 rfl (by decide) (by decide) (by decide) (by decide) (rv7 V0))
  rw [← W8_eq_kH2 m ρ c] at e1
  rw [← rv8_eq_rS7 V0] at e2
  rw [e1, e2, c1_main_v65 hK hR, c1_main_v67 hK hR, c1_in_v3 hK hR]
  all_goals rfl

theorem c1_main_v69 (hK : KHolds m ρ c A) (hR : RHolds V0 A) :
    (W8 m ρ c (Proc.devRef .tc Cert.KernelIdeal.main_v69) : IVec Cert.KernelIdeal.S1760000x1 32) = (rv8 V0 (Proc.devRef .tc Cert.ReferenceIdeal.main_v75) : IVec Cert.ReferenceIdeal.S1760000x1 32) := by
  have e1 := (read_unary (L := kH2) kH2_writes 8 rfl (by decide) (by decide) (W7 m ρ c))
  have e2 := (read_unary (L := rS7) rS7_writes 7 rfl (by decide) (by decide) (rv7 V0))
  rw [← W8_eq_kH2 m ρ c] at e1
  rw [← rv8_eq_rS7 V0] at e2
  rw [e1, e2, c1_main_v68 hK hR]
  all_goals rfl

theorem c1_main_v70 (hK : KHolds m ρ c A) (hR : RHolds V0 A) :
    (W8 m ρ c (Proc.devRef .tc Cert.KernelIdeal.main_v70) : FVec Ideal Cert.KernelIdeal.S1760000x64 .f32) = (rv8 V0 (Proc.devRef .tc Cert.ReferenceIdeal.main_v76) : FVec Ideal Cert.ReferenceIdeal.S1760000x64 .f32) := by
  have e1 := (read_binary (L := kH2) kH2_writes 9 rfl (by decide) (by decide) (by decide) (W7 m ρ c))
  have e2 := (read_binary (L := rS7) rS7_writes 8 rfl (by decide) (by decide) (by decide) (rv7 V0))
  rw [← W8_eq_kH2 m ρ c] at e1
  rw [← rv8_eq_rS7 V0] at e2
  rw [e1, e2, c1_in_m hK hR, c1_main_v69 hK hR]
  all_goals rfl

theorem c1_main_v71 (hK : KHolds m ρ c A) (hR : RHolds V0 A) :
    (W8 m ρ c (Proc.devRef .tc Cert.KernelIdeal.main_v71) : FVec Ideal Cert.KernelIdeal.S1760000x1 .f32) = (rv8 V0 (Proc.devRef .tc Cert.ReferenceIdeal.main_v77) : FVec Ideal Cert.ReferenceIdeal.S1760000x1 .f32) := by
  have e1 := (read_unary (L := kH2) kH2_writes 10 rfl (by decide) (by decide) (W7 m ρ c))
  have e2 := (read_unary (L := rS7) rS7_writes 9 rfl (by decide) (by decide) (rv7 V0))
  rw [← W8_eq_kH2 m ρ c] at e1
  rw [← rv8_eq_rS7 V0] at e2
  rw [e1, e2, c1_in_v31 hK hR]
  all_goals rfl

theorem c1_main_v72 (hK : KHolds m ρ c A) (hR : RHolds V0 A) :
    (W8 m ρ c (Proc.devRef .tc Cert.KernelIdeal.main_v72) : FVec Ideal Cert.KernelIdeal.S1760000x64 .f32) = (rv8 V0 (Proc.devRef .tc Cert.ReferenceIdeal.main_v78) : FVec Ideal Cert.ReferenceIdeal.S1760000x64 .f32) := by
  have e1 := (read_unary (L := kH2) kH2_writes 11 rfl (by decide) (by decide) (W7 m ρ c))
  have e2 := (read_unary (L := rS7) rS7_writes 10 rfl (by decide) (by decide) (rv7 V0))
  rw [← W8_eq_kH2 m ρ c] at e1
  rw [← rv8_eq_rS7 V0] at e2
  rw [e1, e2, c1_main_v71 hK hR]
  all_goals rfl

theorem c1_main_v73 (hK : KHolds m ρ c A) (hR : RHolds V0 A) :
    (W8 m ρ c (Proc.devRef .tc Cert.KernelIdeal.main_v73) : FVec Ideal Cert.KernelIdeal.S1760000x64 .f32) = (rv8 V0 (Proc.devRef .tc Cert.ReferenceIdeal.main_v79) : FVec Ideal Cert.ReferenceIdeal.S1760000x64 .f32) := by
  have e1 := (read_binary (L := kH2) kH2_writes 12 rfl (by decide) (by decide) (by decide) (W7 m ρ c))
  have e2 := (read_binary (L := rS7) rS7_writes 11 rfl (by decide) (by decide) (by decide) (rv7 V0))
  rw [← W8_eq_kH2 m ρ c] at e1
  rw [← rv8_eq_rS7 V0] at e2
  rw [e1, e2, c1_main_v70 hK hR, c1_main_v72 hK hR]
  all_goals rfl

theorem c1_main_cst_12 (hK : KHolds m ρ c A) (hR : RHolds V0 A) :
    (W8 m ρ c (Proc.devRef .tc Cert.KernelIdeal.main_cst_12) : FVec Ideal Cert.KernelIdeal.S_ .f32) = (rv8 V0 (Proc.devRef .tc Cert.ReferenceIdeal.main_cst_12) : FVec Ideal Cert.ReferenceIdeal.S_ .f32) := by
  have e1 := (read_nullary (L := kH2) kH2_writes 13 rfl (by decide) (W7 m ρ c))
  have e2 := (read_nullary (L := rS7) rS7_writes 12 rfl (by decide) (rv7 V0))
  rw [← W8_eq_kH2 m ρ c] at e1
  rw [← rv8_eq_rS7 V0] at e2
  rw [e1, e2]
  all_goals rfl

theorem c1_main_v74 (hK : KHolds m ρ c A) (hR : RHolds V0 A) :
    (W8 m ρ c (Proc.devRef .tc Cert.KernelIdeal.main_v74) : FVec Ideal Cert.KernelIdeal.S160000x64 .f32) = (rv8 V0 (Proc.devRef .tc Cert.ReferenceIdeal.main_v80) : FVec Ideal Cert.ReferenceIdeal.S160000x64 .f32) := by
  have e1 := (read_unary (L := kH2) kH2_writes 14 rfl (by decide) (by decide) (W7 m ρ c))
  have e2 := (read_unary (L := rS7) rS7_writes 13 rfl (by decide) (by decide) (rv7 V0))
  rw [← W8_eq_kH2 m ρ c] at e1
  rw [← rv8_eq_rS7 V0] at e2
  rw [e1, e2, c1_main_cst_12 hK hR]
  all_goals rfl

theorem c1_main_v75 (hK : KHolds m ρ c A) (hR : RHolds V0 A) :
    (W8 m ρ c (Proc.devRef .tc Cert.KernelIdeal.main_v75) : IVec Cert.KernelIdeal.S1760000x1 32) = (rv8 V0 (Proc.devRef .tc Cert.ReferenceIdeal.main_v81) : IVec Cert.ReferenceIdeal.S1760000x1 32) := by
  have e1 := (read_unary (L := kH2) kH2_writes 15 rfl (by decide) (by decide) (W7 m ρ c))
  have e2 := (read_unary (L := rS7) rS7_writes 14 rfl (by decide) (by decide) (rv7 V0))
  rw [← W8_eq_kH2 m ρ c] at e1
  rw [← rv8_eq_rS7 V0] at e2
  rw [e1, e2, c1_in_v6 hK hR]
  all_goals rfl

theorem c1_main_v76 (hK : KHolds m ρ c A) (hR : RHolds V0 A) :
    (W8 m ρ c (Proc.devRef .tc Cert.KernelIdeal.main_v76) : FVec Ideal Cert.KernelIdeal.S160000x64 .f32) = (rv8 V0 (Proc.devRef .tc Cert.ReferenceIdeal.main_v82) : FVec Ideal Cert.ReferenceIdeal.S160000x64 .f32) := by
  have e1 := (read_ternary (L := kH2) kH2_writes 16 rfl (by decide) (by decide) (by decide) (by decide) (W7 m ρ c))
  have e2 := (read_ternary (L := rS7) rS7_writes 15 rfl (by decide) (by decide) (by decide) (by decide) (rv7 V0))
  rw [← W8_eq_kH2 m ρ c] at e1
  rw [← rv8_eq_rS7 V0] at e2
  rw [e1, e2, c1_main_v74 hK hR, c1_main_v75 hK hR, c1_main_v73 hK hR]
  all_goals rfl

theorem c1_main_v77 (hK : KHolds m ρ c A) (hR : RHolds V0 A) :
    (W8 m ρ c (Proc.devRef .tc Cert.KernelIdeal.main_v77) : FVec Ideal Cert.KernelIdeal.S160000x64 .f32) = (rv8 V0 (Proc.devRef .tc Cert.ReferenceIdeal.main_v84) : FVec Ideal Cert.ReferenceIdeal.S160000x64 .f32) := by
  have e1 := (read_unary (L := kH2) kH2_writes 17 rfl (by decide) (by decide) (W7 m ρ c))
  have e2 := (read_unary (L := rS7) rS7_writes 17 rfl (by decide) (by decide) (rv7 V0))
  rw [← W8_eq_kH2 m ρ c] at e1
  rw [← rv8_eq_rS7 V0] at e2
  rw [e1, e2, c1_bias hK hR]
  all_goals rfl

theorem c1_main_v78 (hK : KHolds m ρ c A) (hR : RHolds V0 A) :
    (W8 m ρ c (Proc.devRef .tc Cert.KernelIdeal.main_v78) : FVec Ideal Cert.KernelIdeal.S160000x64 .f32) = (rv8 V0 (Proc.devRef .tc Cert.ReferenceIdeal.main_v85) : FVec Ideal Cert.ReferenceIdeal.S160000x64 .f32) := by
  have e1 := (read_binary (L := kH2) kH2_writes 18 rfl (by decide) (by decide) (by decide) (W7 m ρ c))
  have e2 := (read_binary (L := rS7) rS7_writes 18 rfl (by decide) (by decide) (by decide) (rv7 V0))
  rw [← W8_eq_kH2 m ρ c] at e1
  rw [← rv8_eq_rS7 V0] at e2
  rw [e1, e2, c1_main_v76 hK hR, c1_main_v77 hK hR]
  all_goals rfl

end Cert.Bridge

end
-- ==== Proof.BSt2.lean ====
/-
  The second and third regions against the reference: the fused projection after the first graph convolution, and the
  second graph-convolution product. Each is the same whole-array function on both sides, of operands already shown equal.
-/
import proofs.«175455_j86191403696584_1_alg».proof.Proof.BConv1
import Idealize.ShloMosaic.Lib.IdealHost
import Idealize.ShloMosaic.Lib.ValueLayout

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Stages Cert.ReferenceIdeal.RunValue Cert.KernelIdeal.Regions Cert.Lib.Ssa

variable {m : (ℓ : Loc Cert.KernelIdeal.nD Cert.KernelIdeal.τ Cert.KernelIdeal.sig) → Buf (Elt Ideal) ℓ} {ρ : Dev Cert.KernelIdeal.nD → PrngReg} {c : Dev Cert.KernelIdeal.nD}
variable {V0 : Valuation Cert.ReferenceIdeal.τ Cert.ReferenceIdeal.sig (Elt Ideal)} {A : Args}

theorem R_v92 (hR : RHolds V0 A) :
    (rv9 V0 (Proc.devRef .tc Cert.ReferenceIdeal.main_v92) : FVec Ideal Cert.ReferenceIdeal.S160000x64 .f32) = fuse1 (rv8 V0 (Proc.devRef .tc Cert.ReferenceIdeal.main_v85)) (rv8 V0 (Proc.devRef .tc Cert.ReferenceIdeal.main_v61)) (transpose Cert.ReferenceIdeal.S128x64 [1, 0] A.x9 Cert.ReferenceIdeal.Facts₀.transposes_S64x128_S128x64_1_0) (broadcastInDim Cert.ReferenceIdeal.S1x64 ![1] Cert.ReferenceIdeal.Facts₀.bcast_S64_S1x64_1 A.x10) := by
  have e8 := (read_binary (L := rS8) rS8_writes 8 rfl (by decide) (by decide) (by decide) (rv8 V0))
  have e7 := (read_unary (L := rS8) rS8_writes 7 rfl (by decide) (by decide) (rv8 V0))
  have e6 := (read_unary (L := rS8) rS8_writes 6 rfl (by decide) (by decide) (rv8 V0))
  have e5 := (read_binary (L := rS8) rS8_writes 5 rfl (by decide) (by decide) (by decide) (rv8 V0))
  have e4 := (read_unary (L := rS8) rS8_writes 4 rfl (by decide) (by decide) (rv8 V0))
  have e3 := (read_binary (L := rS8) rS8_writes 3 rfl (by decide) (by decide) (by decide) (rv8 V0))
  have e2 := (read_binary (L := rS8) rS8_writes 2 rfl (by decide) (by decide) (by decide) (rv8 V0))
  have e1 := (read_unary (L := rS8) rS8_writes 1 rfl (by decide) (by decide) (rv8 V0))
  have e0 := (read_nullary (L := rS8) rS8_writes 0 rfl (by decide) (rv8 V0))
  rw [rv9_eq_rS8 V0]
  rw [e8, e7, e6, e5, e4, e3, e2, e1, e0]
  rw [read_keep (L := rS8) rS8_writes (r := Cert.ReferenceIdeal.main_v85) (by decide) (rv8 V0),
    read_keep (L := rS8) rS8_writes (r := Cert.ReferenceIdeal.main_v61) (by decide) (rv8 V0),
    read_keep (L := rS8) rS8_writes (r := Cert.ReferenceIdeal.main_arg9) (by decide) (rv8 V0),
    read_keep (L := rS8) rS8_writes (r := Cert.ReferenceIdeal.main_arg10) (by decide) (rv8 V0)]
  rw [((rv8_keep V0 Cert.ReferenceIdeal.main_arg9 (by decide)).trans ((rv7_keep V0 Cert.ReferenceIdeal.main_arg9 (by decide)).trans ((rv6_keep V0 Cert.ReferenceIdeal.main_arg9 (by decide)).trans ((rv5_keep V0 Cert.ReferenceIdeal.main_arg9 (by decide)).trans ((rv4_keep V0 Cert.ReferenceIdeal.main_arg9 (by decide)).trans ((rv3_keep V0 Cert.ReferenceIdeal.main_arg9 (by decide)).trans ((rv2_keep V0 Cert.ReferenceIdeal.main_arg9 (by decide)).trans (rv1_keep V0 Cert.ReferenceIdeal.main_arg9 (by decide))))))))), rv0, hR.r9]
  rw [((rv8_keep V0 Cert.ReferenceIdeal.main_arg10 (by decide)).trans ((rv7_keep V0 Cert.ReferenceIdeal.main_arg10 (by decide)).trans ((rv6_keep V0 Cert.ReferenceIdeal.main_arg10 (by decide)).trans ((rv5_keep V0 Cert.ReferenceIdeal.main_arg10 (by decide)).trans ((rv4_keep V0 Cert.ReferenceIdeal.main_arg10 (by decide)).trans ((rv3_keep V0 Cert.ReferenceIdeal.main_arg10 (by decide)).trans ((rv2_keep V0 Cert.ReferenceIdeal.main_arg10 (by decide)).trans (rv1_keep V0 Cert.ReferenceIdeal.main_arg10 (by decide))))))))), rv0, hR.r10]
  all_goals rfl

theorem l8_v61_0 (hK : KHolds m ρ c A) (hR : RHolds V0 A) :
    (W8 m ρ c (Proc.devRef .tc Cert.KernelIdeal.main_v61_0) : FVec Ideal Cert.KernelIdeal.S160000x64 .f32) = (rv8 V0 (Proc.devRef .tc Cert.ReferenceIdeal.main_v61) : FVec Ideal Cert.ReferenceIdeal.S160000x64 .f32) := by
  rw [((W8_keep m ρ c Cert.KernelIdeal.main_v61_0 (by decide)).trans (W7_of_ne m ρ c Cert.KernelIdeal.main_v61_0 (by decide))), ((rv8_keep V0 Cert.ReferenceIdeal.main_v61 (by decide)).trans ((rv7_keep V0 Cert.ReferenceIdeal.main_v61 (by decide)).trans (rv6_keep V0 Cert.ReferenceIdeal.main_v61 (by decide))))]
  exact st_v61_0 hK hR

/-- The second hidden state. -/
theorem st_v79 (hK : KHolds m ρ c A) (hR : RHolds V0 A) :
    (W9 m ρ c (Proc.devRef .tc Cert.KernelIdeal.main_v79) : FVec Ideal Cert.KernelIdeal.S160000x64 .f32) = (rv9 V0 (Proc.devRef .tc Cert.ReferenceIdeal.main_v92) : FVec Ideal Cert.ReferenceIdeal.S160000x64 .f32) := by
  rw [Cert.KernelIdeal.Stages.W9_main_v79 m ρ c, R_v92 hR]
  show fuse1 (W8 m ρ c (Proc.devRef .tc Cert.KernelIdeal.main_v78)) (W8 m ρ c (Proc.devRef .tc Cert.KernelIdeal.main_v61_0)) (W8 m ρ c (Proc.devRef .tc Cert.KernelIdeal.main_v47)) (W8 m ρ c (Proc.devRef .tc Cert.KernelIdeal.main_v48)) = _
  rw [c1_main_v78 hK hR,
    l8_v61_0 hK hR,
    ((W8_keep m ρ c Cert.KernelIdeal.main_v47 (by decide)).trans ((W7_of_ne m ρ c Cert.KernelIdeal.main_v47 (by decide)).trans (W6_in8 m ρ c))), kp_main_v47 hK,
    ((W8_keep m ρ c Cert.KernelIdeal.main_v48 (by decide)).trans ((W7_of_ne m ρ c Cert.KernelIdeal.main_v48 (by decide)).trans (W6_in9 m ρ c))), kp_main_v48 hK]
  all_goals rfl

theorem R_v94 (hR : RHolds V0 A) :
    (rv10 V0 (Proc.devRef .tc Cert.ReferenceIdeal.main_v94) : FVec Ideal Cert.ReferenceIdeal.S160000x64 .f32) = prod64' (rv9 V0 (Proc.devRef .tc Cert.ReferenceIdeal.main_v92)) (transpose Cert.ReferenceIdeal.S64x64 [1, 0] A.x13 Cert.ReferenceIdeal.Facts₀.transposes_S64x64_S64x64_1_0) := by
  have e1 := (read_binary (L := rS9) rS9_writes 1 rfl (by decide) (by decide) (by decide) (rv9 V0))
  have e0 := (read_unary (L := rS9) rS9_writes 0 rfl (by decide) (by decide) (rv9 V0))
  rw [rv10_eq_rS9 V0]
  rw [e1, e0]
  rw [read_keep (L := rS9) rS9_writes (r := Cert.ReferenceIdeal.main_v92) (by decide) (rv9 V0),
    read_keep (L := rS9) rS9_writes (r := Cert.ReferenceIdeal.main_arg13) (by decide) (rv9 V0)]
  rw [((rv9_keep V0 Cert.ReferenceIdeal.main_arg13 (by decide)).trans ((rv8_keep V0 Cert.ReferenceIdeal.main_arg13 (by decide)).trans ((rv7_keep V0 Cert.ReferenceIdeal.main_arg13 (by decide)).trans ((rv6_keep V0 Cert.ReferenceIdeal.main_arg13 (by decide)).trans ((rv5_keep V0 Cert.ReferenceIdeal.main_arg13 (by decide)).trans ((rv4_keep V0 Cert.ReferenceIdeal.main_arg13 (by decide)).trans ((rv3_keep V0 Cert.ReferenceIdeal.main_arg13 (by decide)).trans ((rv2_keep V0 Cert.ReferenceIdeal.main_arg13 (by decide)).trans (rv1_keep V0 Cert.ReferenceIdeal.main_arg13 (by decide)))))))))), rv0, hR.r13]
  all_goals rfl

/-- The second graph-convolution product. -/
theorem st_v80 (hK : KHolds m ρ c A) (hR : RHolds V0 A) :
    (W10 m ρ c (Proc.devRef .tc Cert.KernelIdeal.main_v80) : FVec Ideal Cert.KernelIdeal.S160000x64 .f32) = (rv10 V0 (Proc.devRef .tc Cert.ReferenceIdeal.main_v94) : FVec Ideal Cert.ReferenceIdeal.S160000x64 .f32) := by
  rw [Cert.KernelIdeal.Stages.W10_main_v80 m ρ c, R_v94 hR]
  show prod64' (W9 m ρ c (Proc.devRef .tc Cert.KernelIdeal.main_v79)) (W9 m ρ c (Proc.devRef .tc Cert.KernelIdeal.main_v50)) = _
  rw [st_v79 hK hR,
    ((W9_of_ne m ρ c Cert.KernelIdeal.main_v50 (by decide)).trans ((W8_keep m ρ c Cert.KernelIdeal.main_v50 (by decide)).trans ((W7_of_ne m ρ c Cert.KernelIdeal.main_v50 (by decide)).trans (W6_of_ne m ρ c Cert.KernelIdeal.main_v50 (by decide))))), kp_main_v50 hK]
  all_goals rfl

end Cert.Bridge

end
-- ==== Proof.BConv2.lean ====
/-
  The second graph-convolution aggregation: the same gather, scale, scatter-add and bias as the first, on the second
  product.
-/
import proofs.«175455_j86191403696584_1_alg».proof.Proof.BSt2
import Idealize.ShloMosaic.Lib.IdealHost
import Idealize.ShloMosaic.Lib.ValueLayout

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Stages Cert.ReferenceIdeal.RunValue Cert.KernelIdeal.Regions Cert.Lib.Ssa

variable {m : (ℓ : Loc Cert.KernelIdeal.nD Cert.KernelIdeal.τ Cert.KernelIdeal.sig) → Buf (Elt Ideal) ℓ} {ρ : Dev Cert.KernelIdeal.nD → PrngReg} {c : Dev Cert.KernelIdeal.nD}
variable {V0 : Valuation Cert.ReferenceIdeal.τ Cert.ReferenceIdeal.sig (Elt Ideal)} {A : Args}

theorem c2_in_m (hK : KHolds m ρ c A) (hR : RHolds V0 A) :
    (W11 m ρ c (Proc.devRef .tc Cert.KernelIdeal.main_v80) : FVec Ideal Cert.KernelIdeal.S160000x64 .f32) = (rv12 V0 (Proc.devRef .tc Cert.ReferenceIdeal.main_v94) : FVec Ideal Cert.ReferenceIdeal.S160000x64 .f32) := by
  rw [(W11_keep m ρ c Cert.KernelIdeal.main_v80 (by decide)), ((rv12_keep V0 Cert.ReferenceIdeal.main_v94 (by decide)).trans (rv11_keep V0 Cert.ReferenceIdeal.main_v94 (by decide)))]
  exact st_v80 hK hR

theorem c2_in_v3 (hK : KHolds m ρ c A) (hR : RHolds V0 A) :
    (W11 m ρ c (Proc.devRef .tc Cert.KernelIdeal.main_v3) : IVec Cert.KernelIdeal.S1760000 32) = (rv12 V0 (Proc.devRef .tc Cert.ReferenceIdeal.main_v3) : IVec Cert.ReferenceIdeal.S1760000 32) := by
  rw [((W11_keep m ρ c Cert.KernelIdeal.main_v3 (by decide)).trans ((W10_of_ne m ρ c Cert.KernelIdeal.main_v3 (by decide)).trans ((W9_of_ne m ρ c Cert.KernelIdeal.main_v3 (by decide)).trans ((W8_keep m ρ c Cert.KernelIdeal.main_v3 (by decide)).trans ((W7_of_ne m ρ c Cert.KernelIdeal.main_v3 (by decide)).trans ((W6_of_ne m ρ c Cert.KernelIdeal.main_v3 (by decide)).trans ((W5_keep m ρ c Cert.KernelIdeal.main_v3 (by decide)).trans (W4_keep m ρ c Cert.KernelIdeal.main_v3 (by decide))))))))), ((rv12_keep V0 Cert.ReferenceIdeal.main_v3 (by decide)).trans ((rv11_keep V0 Cert.ReferenceIdeal.main_v3 (by decide)).trans ((rv10_keep V0 Cert.ReferenceIdeal.main_v3 (by decide)).trans ((rv9_keep V0 Cert.ReferenceIdeal.main_v3 (by decide)).trans ((rv8_keep V0 Cert.ReferenceIdeal.main_v3 (by decide)).trans ((rv7_keep V0 Cert.ReferenceIdeal.main_v3 (by decide)).trans ((rv6_keep V0 Cert.ReferenceIdeal.main_v3 (by decide)).trans ((rv5_keep V0 Cert.ReferenceIdeal.main_v3 (by decide)).trans ((rv4_keep V0 Cert.ReferenceIdeal.main_v3 (by decide)).trans ((rv3_keep V0 Cert.ReferenceIdeal.main_v3 (by decide)).trans (rv2_keep V0 Cert.ReferenceIdeal.main_v3 (by decide))))))))))))]
  exact e_main_v3 hK hR

theorem c2_in_v6 (hK : KHolds m ρ c A) (hR : RHolds V0 A) :
    (W11 m ρ c (Proc.devRef .tc Cert.KernelIdeal.main_v6) : IVec Cert.KernelIdeal.S1760000 32) = (rv12 V0 (Proc.devRef .tc Cert.ReferenceIdeal.main_v6) : IVec Cert.ReferenceIdeal.S1760000 32) := by
  rw [((W11_keep m ρ c Cert.KernelIdeal.main_v6 (by decide)).trans ((W10_of_ne m ρ c Cert.KernelIdeal.main_v6 (by decide)).trans ((W9_of_ne m ρ c Cert.KernelIdeal.main_v6 (by decide)).trans ((W8_keep m ρ c Cert.KernelIdeal.main_v6 (by decide)).trans ((W7_of_ne m ρ c Cert.KernelIdeal.main_v6 (by decide)).trans ((W6_of_ne m ρ c Cert.KernelIdeal.main_v6 (by decide)).trans ((W5_keep m ρ c Cert.KernelIdeal.main_v6 (by decide)).trans (W4_keep m ρ c Cert.KernelIdeal.main_v6 (by decide))))))))), ((rv12_keep V0 Cert.ReferenceIdeal.main_v6 (by decide)).trans ((rv11_keep V0 Cert.ReferenceIdeal.main_v6 (by decide)).trans ((rv10_keep V0 Cert.ReferenceIdeal.main_v6 (by decide)).trans ((rv9_keep V0 Cert.ReferenceIdeal.main_v6 (by decide)).trans ((rv8_keep V0 Cert.ReferenceIdeal.main_v6 (by decide)).trans ((rv7_keep V0 Cert.ReferenceIdeal.main_v6 (by decide)).trans ((rv6_keep V0 Cert.ReferenceIdeal.main_v6 (by decide)).trans ((rv5_keep V0 Cert.ReferenceIdeal.main_v6 (by decide)).trans ((rv4_keep V0 Cert.ReferenceIdeal.main_v6 (by decide)).trans ((rv3_keep V0 Cert.ReferenceIdeal.main_v6 (by decide)).trans (rv2_keep V0 Cert.ReferenceIdeal.main_v6 (by decide))))))))))))]
  exact e_main_v6 hK hR

theorem c2_in_v31 (hK : KHolds m ρ c A) (hR : RHolds V0 A) :
    (W11 m ρ c (Proc.devRef .tc Cert.KernelIdeal.main_v31) : FVec Ideal Cert.KernelIdeal.S1760000 .f32) = (rv12 V0 (Proc.devRef .tc Cert.ReferenceIdeal.main_v31) : FVec Ideal Cert.ReferenceIdeal.S1760000 .f32) := by
  rw [((W11_keep m ρ c Cert.KernelIdeal.main_v31 (by decide)).trans ((W10_of_ne m ρ c Cert.KernelIdeal.main_v31 (by decide)).trans ((W9_of_ne m ρ c Cert.KernelIdeal.main_v31 (by decide)).trans ((W8_keep m ρ c Cert.KernelIdeal.main_v31 (by decide)).trans ((W7_of_ne m ρ c Cert.KernelIdeal.main_v31 (by decide)).trans ((W6_of_ne m ρ c Cert.KernelIdeal.main_v31 (by decide)).trans ((W5_keep m ρ c Cert.KernelIdeal.main_v31 (by decide)).trans (W4_keep m ρ c Cert.KernelIdeal.main_v31 (by decide))))))))), ((rv12_keep V0 Cert.ReferenceIdeal.main_v31 (by decide)).trans ((rv11_keep V0 Cert.ReferenceIdeal.main_v31 (by decide)).trans ((rv10_keep V0 Cert.ReferenceIdeal.main_v31 (by decide)).trans ((rv9_keep V0 Cert.ReferenceIdeal.main_v31 (by decide)).trans ((rv8_keep V0 Cert.ReferenceIdeal.main_v31 (by decide)).trans ((rv7_keep V0 Cert.ReferenceIdeal.main_v31 (by decide)).trans ((rv6_keep V0 Cert.ReferenceIdeal.main_v31 (by decide)).trans ((rv5_keep V0 Cert.ReferenceIdeal.main_v31 (by decide)).trans ((rv4_keep V0 Cert.ReferenceIdeal.main_v31 (by decide)).trans ((rv3_keep V0 Cert.ReferenceIdeal.main_v31 (by decide)).trans (rv2_keep V0 Cert.ReferenceIdeal.main_v31 (by decide))))))))))))]
  exact e_main_v31 hK hR

/-- The bias as a one-row matrix: the kernel's reshape and the reference's broadcast of the same vector. -/
theorem c2_bias (hK : KHolds m ρ c A) (hR : RHolds V0 A) :
    (W11 m ρ c (Proc.devRef .tc Cert.KernelIdeal.main_v81) : FVec Ideal Cert.KernelIdeal.S1x64 .f32) = (rv12 V0 (Proc.devRef .tc Cert.ReferenceIdeal.main_v108) : FVec Ideal Cert.ReferenceIdeal.S1x64 .f32) := by
  have e1 := (read_reshape (L := kH4) kH4_writes 0 rfl (by decide) (by decide) (W10 m ρ c))
  have e2 := (read_unary (L := rS1011) rS1011_writes 16 rfl (by decide) (by decide) (rv10 V0))
  rw [← W11_eq_kH4 m ρ c] at e1
  rw [← rv12_eq_rS1011 V0] at e2
  rw [e1, e2, ((W11_keep m ρ c Cert.KernelIdeal.main_arg14 (by decide)).trans ((W10_of_ne m ρ c Cert.KernelIdeal.main_arg14 (by decide)).trans ((W9_of_ne m ρ c Cert.KernelIdeal.main_arg14 (by decide)).trans ((W8_keep m ρ c Cert.KernelIdeal.main_arg14 (by decide)).trans ((W7_of_ne m ρ c Cert.KernelIdeal.main_arg14 (by decide)).trans ((W6_of_ne m ρ c Cert.KernelIdeal.main_arg14 (by decide)).trans ((W5_keep m ρ c Cert.KernelIdeal.main_arg14 (by decide)).trans ((W4_keep m ρ c Cert.KernelIdeal.main_arg14 (by decide)).trans ((W3_keep m ρ c Cert.KernelIdeal.main_arg14 (by decide)).trans ((W2_keep m ρ c Cert.KernelIdeal.main_arg14 (by decide)).trans (W1_keep m ρ c Cert.KernelIdeal.main_arg14 (by decide)))))))))))), hK.k14, ((rv12_keep V0 Cert.ReferenceIdeal.main_arg14 (by decide)).trans ((rv11_keep V0 Cert.ReferenceIdeal.main_arg14 (by decide)).trans ((rv10_keep V0 Cert.ReferenceIdeal.main_arg14 (by decide)).trans ((rv9_keep V0 Cert.ReferenceIdeal.main_arg14 (by decide)).trans ((rv8_keep V0 Cert.ReferenceIdeal.main_arg14 (by decide)).trans ((rv7_keep V0 Cert.ReferenceIdeal.main_arg14 (by decide)).trans ((rv6_keep V0 Cert.ReferenceIdeal.main_arg14 (by decide)).trans ((rv5_keep V0 Cert.ReferenceIdeal.main_arg14 (by decide)).trans ((rv4_keep V0 Cert.ReferenceIdeal.main_arg14 (by decide)).trans ((rv3_keep V0 Cert.ReferenceIdeal.main_arg14 (by decide)).trans ((rv2_keep V0 Cert.ReferenceIdeal.main_arg14 (by decide)).trans (rv1_keep V0 Cert.ReferenceIdeal.main_arg14 (by decide))))))))))))), rv0, hR.r14]
  exact Cert.Seams.row_of_vec_64 A.x14

theorem c2_main_c_13 (hK : KHolds m ρ c A) (hR : RHolds V0 A) :
    (W11 m ρ c (Proc.devRef .tc Cert.KernelIdeal.main_c_13) : IVec Cert.KernelIdeal.S_ 32) = (rv12 V0 (Proc.devRef .tc Cert.ReferenceIdeal.main_c_13) : IVec Cert.ReferenceIdeal.S_ 32) := by
  have e1 := (read_nullary (L := kH4) kH4_writes 1 rfl (by decide) (W10 m ρ c))
  have e2 := (read_nullary (L := rS1011) rS1011_writes 0 rfl (by decide) (rv10 V0))
  rw [← W11_eq_kH4 m ρ c] at e1
  rw [← rv12_eq_rS1011 V0] at e2
  rw [e1, e2]
  all_goals rfl

theorem c2_main_v82 (hK : KHolds m ρ c A) (hR : RHolds V0 A) :
    (W11 m ρ c (Proc.devRef .tc Cert.KernelIdeal.main_v82) : IVec Cert.KernelIdeal.S1760000 32) = (rv12 V0 (Proc.devRef .tc Cert.ReferenceIdeal.main_v95) : IVec Cert.ReferenceIdeal.S1760000 32) := by
  have e1 := (read_unary (L := kH4) kH4_writes 2 rfl (by decide) (by decide) (W10 m ρ c))
  have e2 := (read_unary (L := rS1011) rS1011_writes 1 rfl (by decide) (by decide) (rv10 V0))
  rw [← W11_eq_kH4 m ρ c] at e1
  rw [← rv12_eq_rS1011 V0] at e2
  rw [e1, e2, c2_main_c_13 hK hR]
  all_goals rfl

theorem c2_main_v83 (hK : KHolds m ρ c A) (hR : RHolds V0 A) :
    (W11 m ρ c (Proc.devRef .tc Cert.KernelIdeal.main_v83) : IVec Cert.KernelIdeal.S1760000 1) = (rv12 V0 (Proc.devRef .tc Cert.ReferenceIdeal.main_v96) : IVec Cert.ReferenceIdeal.S1760000 1) := by
  have e1 := (read_binary (L := kH4) kH4_writes 3 rfl (by decide) (by decide) (by decide) (W10 m ρ c))
  have e2 := (read_binary (L := rS1011) rS1011_writes 2 rfl (by decide) (by decide) (by decide) (rv10 V0))
  rw [← W11_eq_kH4 m ρ c] at e1
  rw [← rv12_eq_rS1011 V0] at e2
  rw [e1, e2, c2_in_v3 hK hR, c2_main_v82 hK hR]
  all_goals rfl

theorem c2_main_c_14 (hK : KHolds m ρ c A) (hR : RHolds V0 A) :
    (W11 m ρ c (Proc.devRef .tc Cert.KernelIdeal.main_c_14) : IVec Cert.KernelIdeal.S_ 32) = (rv12 V0 (Proc.devRef .tc Cert.ReferenceIdeal.main_c_14) : IVec Cert.ReferenceIdeal.S_ 32) := by
  have e1 := (read_nullary (L := kH4) kH4_writes 4 rfl (by decide) (W10 m ρ c))
  have e2 := (read_nullary (L := rS1011) rS1011_writes 3 rfl (by decide) (rv10 V0))
  rw [← W11_eq_kH4 m ρ c] at e1
  rw [← rv12_eq_rS1011 V0] at e2
  rw [e1, e2]
  all_goals rfl

theorem c2_main_v84 (hK : KHolds m ρ c A) (hR : RHolds V0 A) :
    (W11 m ρ c (Proc.devRef .tc Cert.KernelIdeal.main_v84) : IVec Cert.KernelIdeal.S1760000 32) = (rv12 V0 (Proc.devRef .tc Cert.ReferenceIdeal.main_v97) : IVec Cert.ReferenceIdeal.S1760000 32) := by
  have e1 := (read_unary (L := kH4) kH4_writes 5 rfl (by decide) (by decide) (W10 m ρ c))
  have e2 := (read_unary (L := rS1011) rS1011_writes 4 rfl (by decide) (by decide) (rv10 V0))
  rw [← W11_eq_kH4 m ρ c] at e1
  rw [← rv12_eq_rS1011 V0] at e2
  rw [e1, e2, c2_main_c_14 hK hR]
  all_goals rfl

theorem c2_main_v85 (hK : KHolds m ρ c A) (hR : RHolds V0 A) :
    (W11 m ρ c (Proc.devRef .tc Cert.KernelIdeal.main_v85) : IVec Cert.KernelIdeal.S1760000 32) = (rv12 V0 (Proc.devRef .tc Cert.ReferenceIdeal.main_v98) : IVec Cert.ReferenceIdeal.S1760000 32) := by
  have e1 := (read_binary (L := kH4) kH4_writes 6 rfl (by decide) (by decide) (by decide) (W10 m ρ c))
  have e2 := (read_binary (L := rS1011) rS1011_writes 5 rfl (by decide) (by decide) (by decide) (rv10 V0))
  rw [← W11_eq_kH4 m ρ c] at e1
  rw [← rv12_eq_rS1011 V0] at e2
  rw [e1, e2, c2_in_v3 hK hR, c2_main_v84 hK hR]
  all_goals rfl

theorem c2_main_v86 (hK : KHolds m ρ c A) (hR : RHolds V0 A) :
    (W11 m ρ c (Proc.devRef .tc Cert.KernelIdeal.main_v86) : IVec Cert.KernelIdeal.S1760000 32) = (rv12 V0 (Proc.devRef .tc Cert.ReferenceIdeal.main_v99) : IVec Cert.ReferenceIdeal.S1760000 32) := by
  have e1 := (read_ternary (L := kH4) kH4_writes 7 rfl (by decide) (by decide) (by decide) (by decide) (W10 m ρ c))
  have e2 := (read_ternary (L := rS1011) rS1011_writes 6 rfl (by decide) (by decide) (by decide) (by decide) (rv10 V0))
  rw [← W11_eq_kH4 m ρ c] at e1
  rw [← rv12_eq_rS1011 V0] at e2
  rw [e1, e2, c2_main_v83 hK hR, c2_main_v85 hK hR, c2_in_v3 hK hR]
  all_goals rfl

theorem c2_main_v87 (hK : KHolds m ρ c A) (hR : RHolds V0 A) :
    (W11 m ρ c (Proc.devRef .tc Cert.KernelIdeal.main_v87) : IVec Cert.KernelIdeal.S1760000x1 32) = (rv12 V0 (Proc.devRef .tc Cert.ReferenceIdeal.main_v100) : IVec Cert.ReferenceIdeal.S1760000x1 32) := by
  have e1 := (read_unary (L := kH4) kH4_writes 8 rfl (by decide) (by decide) (W10 m ρ c))
  have e2 := (read_unary (L := rS1011) rS1011_writes 7 rfl (by decide) (by decide) (rv10 V0))
  rw [← W11_eq_kH4 m ρ c] at e1
  rw [← rv12_eq_rS1011 V0] at e2
  rw [e1, e2, c2_main_v86 hK hR]
  all_goals rfl

theorem c2_main_v88 (hK : KHolds m ρ c A) (hR : RHolds V0 A) :
    (W11 m ρ c (Proc.devRef .tc Cert.KernelIdeal.main_v88) : FVec Ideal Cert.KernelIdeal.S1760000x64 .f32) = (rv12 V0 (Proc.devRef .tc Cert.ReferenceIdeal.main_v101) : FVec Ideal Cert.ReferenceIdeal.S1760000x64 .f32) := by
  have e1 := (read_binary (L := kH4) kH4_writes 9 rfl (by decide) (by decide) (by decide) (W10 m ρ c))
  have e2 := (read_binary (L := rS1011) rS1011_writes 8 rfl (by decide) (by decide) (by decide) (rv10 V0))
  rw [← W11_eq_kH4 m ρ c] at e1
  rw [← rv12_eq_rS1011 V0] at e2
  rw [e1, e2, c2_in_m hK hR, c2_main_v87 hK hR]
  all_goals rfl

theorem c2_main_v89 (hK : KHolds m ρ c A) (hR : RHolds V0 A) :
    (W11 m ρ c (Proc.devRef .tc Cert.KernelIdeal.main_v89) : FVec Ideal Cert.KernelIdeal.S1760000x1 .f32) = (rv12 V0 (Proc.devRef .tc Cert.ReferenceIdeal.main_v102) : FVec Ideal Cert.ReferenceIdeal.S1760000x1 .f32) := by
  have e1 := (read_unary (L := kH4) kH4_writes 10 rfl (by decide) (by decide) (W10 m ρ c))
  have e2 := (read_unary (L := rS1011) rS1011_writes 9 rfl (by decide) (by decide) (rv10 V0))
  rw [← W11_eq_kH4 m ρ c] at e1
  rw [← rv12_eq_rS1011 V0] at e2
  rw [e1, e2, c2_in_v31 hK hR]
  all_goals rfl

theorem c2_main_v90 (hK : KHolds m ρ c A) (hR : RHolds V0 A) :
    (W11 m ρ c (Proc.devRef .tc Cert.KernelIdeal.main_v90) : FVec Ideal Cert.KernelIdeal.S1760000x64 .f32) = (rv12 V0 (Proc.devRef .tc Cert.ReferenceIdeal.main_v103) : FVec Ideal Cert.ReferenceIdeal.S1760000x64 .f32) := by
  have e1 := (read_unary (L := kH4) kH4_writes 11 rfl (by decide) (by decide) (W10 m ρ c))
  have e2 := (read_unary (L := rS1011) rS1011_writes 10 rfl (by decide) (by decide) (rv10 V0))
  rw [← W11_eq_kH4 m ρ c] at e1
  rw [← rv12_eq_rS1011 V0] at e2
  rw [e1, e2, c2_main_v89 hK hR]
  all_goals rfl

theorem c2_main_v91 (hK : KHolds m ρ c A) (hR : RHolds V0 A) :
    (W11 m ρ c (Proc.devRef .tc Cert.KernelIdeal.main_v91) : FVec Ideal Cert.KernelIdeal.S1760000x64 .f32) = (rv12 V0 (Proc.devRef .tc Cert.ReferenceIdeal.main_v104) : FVec Ideal Cert.ReferenceIdeal.S1760000x64 .f32) := by
  have e1 := (read_binary (L := kH4) kH4_writes 12 rfl (by decide) (by decide) (by decide) (W10 m ρ c))
  have e2 := (read_binary (L := rS1011) rS1011_writes 11 rfl (by decide) (by decide) (by decide) (rv10 V0))
  rw [← W11_eq_kH4 m ρ c] at e1
  rw [← rv12_eq_rS1011 V0] at e2
  rw [e1, e2, c2_main_v88 hK hR, c2_main_v90 hK hR]
  all_goals rfl

theorem c2_main_cst_15 (hK : KHolds m ρ c A) (hR : RHolds V0 A) :
    (W11 m ρ c (Proc.devRef .tc Cert.KernelIdeal.main_cst_15) : FVec Ideal Cert.KernelIdeal.S_ .f32) = (rv12 V0 (Proc.devRef .tc Cert.ReferenceIdeal.main_cst_15) : FVec Ideal Cert.ReferenceIdeal.S_ .f32) := by
  have e1 := (read_nullary (L := kH4) kH4_writes 13 rfl (by decide) (W10 m ρ c))
  have e2 := (read_nullary (L := rS1011) rS1011_writes 12 rfl (by decide) (rv10 V0))
  rw [← W11_eq_kH4 m ρ c] at e1
  rw [← rv12_eq_rS1011 V0] at e2
  rw [e1, e2]
  all_goals rfl

theorem c2_main_v92 (hK : KHolds m ρ c A) (hR : RHolds V0 A) :
    (W11 m ρ c (Proc.devRef .tc Cert.KernelIdeal.main_v92) : FVec Ideal Cert.KernelIdeal.S160000x64 .f32) = (rv12 V0 (Proc.devRef .tc Cert.ReferenceIdeal.main_v105) : FVec Ideal Cert.ReferenceIdeal.S160000x64 .f32) := by
  have e1 := (read_unary (L := kH4) kH4_writes 14 rfl (by decide) (by decide) (W10 m ρ c))
  have e2 := (read_unary (L := rS1011) rS1011_writes 13 rfl (by decide) (by decide) (rv10 V0))
  rw [← W11_eq_kH4 m ρ c] at e1
  rw [← rv12_eq_rS1011 V0] at e2
  rw [e1, e2, c2_main_cst_15 hK hR]
  all_goals rfl

theorem c2_main_v93 (hK : KHolds m ρ c A) (hR : RHolds V0 A) :
    (W11 m ρ c (Proc.devRef .tc Cert.KernelIdeal.main_v93) : IVec Cert.KernelIdeal.S1760000x1 32) = (rv12 V0 (Proc.devRef .tc Cert.ReferenceIdeal.main_v106) : IVec Cert.ReferenceIdeal.S1760000x1 32) := by
  have e1 := (read_unary (L := kH4) kH4_writes 15 rfl (by decide) (by decide) (W10 m ρ c))
  have e2 := (read_unary (L := rS1011) rS1011_writes 14 rfl (by decide) (by decide) (rv10 V0))
  rw [← W11_eq_kH4 m ρ c] at e1
  rw [← rv12_eq_rS1011 V0] at e2
  rw [e1, e2, c2_in_v6 hK hR]
  all_goals rfl

theorem c2_main_v94 (hK : KHolds m ρ c A) (hR : RHolds V0 A) :
    (W11 m ρ c (Proc.devRef .tc Cert.KernelIdeal.main_v94) : FVec Ideal Cert.KernelIdeal.S160000x64 .f32) = (rv12 V0 (Proc.devRef .tc Cert.ReferenceIdeal.main_v107) : FVec Ideal Cert.ReferenceIdeal.S160000x64 .f32) := by
  have e1 := (read_ternary (L := kH4) kH4_writes 16 rfl (by decide) (by decide) (by decide) (by decide) (W10 m ρ c))
  have e2 := (read_ternary (L := rS1011) rS1011_writes 15 rfl (by decide) (by decide) (by decide) (by decide) (rv10 V0))
  rw [← W11_eq_kH4 m ρ c] at e1
  rw [← rv12_eq_rS1011 V0] at e2
  rw [e1, e2, c2_main_v92 hK hR, c2_main_v93 hK hR, c2_main_v91 hK hR]
  all_goals rfl

theorem c2_main_v95 (hK : KHolds m ρ c A) (hR : RHolds V0 A) :
    (W11 m ρ c (Proc.devRef .tc Cert.KernelIdeal.main_v95) : FVec Ideal Cert.KernelIdeal.S160000x64 .f32) = (rv12 V0 (Proc.devRef .tc Cert.ReferenceIdeal.main_v109) : FVec Ideal Cert.ReferenceIdeal.S160000x64 .f32) := by
  have e1 := (read_unary (L := kH4) kH4_writes 17 rfl (by decide) (by decide) (W10 m ρ c))
  have e2 := (read_unary (L := rS1011) rS1011_writes 17 rfl (by decide) (by decide) (rv10 V0))
  rw [← W11_eq_kH4 m ρ c] at e1
  rw [← rv12_eq_rS1011 V0] at e2
  rw [e1, e2, c2_bias hK hR]
  all_goals rfl

theorem c2_main_v96 (hK : KHolds m ρ c A) (hR : RHolds V0 A) :
    (W11 m ρ c (Proc.devRef .tc Cert.KernelIdeal.main_v96) : FVec Ideal Cert.KernelIdeal.S160000x64 .f32) = (rv12 V0 (Proc.devRef .tc Cert.ReferenceIdeal.main_v110) : FVec Ideal Cert.ReferenceIdeal.S160000x64 .f32) := by
  have e1 := (read_binary (L := kH4) kH4_writes 18 rfl (by decide) (by decide) (by decide) (W10 m ρ c))
  have e2 := (read_binary (L := rS1011) rS1011_writes 18 rfl (by decide) (by decide) (by decide) (rv10 V0))
  rw [← W11_eq_kH4 m ρ c] at e1
  rw [← rv12_eq_rS1011 V0] at e2
  rw [e1, e2, c2_main_v94 hK hR, c2_main_v95 hK hR]
  all_goals rfl

end Cert.Bridge

end
-- ==== Proof.BSt4.lean ====
/-
  The fourth and fifth regions against the reference: the fused projection after the second graph convolution, and the
  first layer of the recovery network.
-/
import proofs.«175455_j86191403696584_1_alg».proof.Proof.BConv2
import Idealize.ShloMosaic.Lib.IdealHost
import Idealize.ShloMosaic.Lib.ValueLayout

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Stages Cert.ReferenceIdeal.RunValue Cert.KernelIdeal.Regions Cert.Lib.Ssa

variable {m : (ℓ : Loc Cert.KernelIdeal.nD Cert.KernelIdeal.τ Cert.KernelIdeal.sig) → Buf (Elt Ideal) ℓ} {ρ : Dev Cert.KernelIdeal.nD → PrngReg} {c : Dev Cert.KernelIdeal.nD}
variable {V0 : Valuation Cert.ReferenceIdeal.τ Cert.ReferenceIdeal.sig (Elt Ideal)} {A : Args}

theorem l11_v61_0 (hK : KHolds m ρ c A) (hR : RHolds V0 A) :
    (W11 m ρ c (Proc.devRef .tc Cert.KernelIdeal.main_v61_0) : FVec Ideal Cert.KernelIdeal.S160000x64 .f32) = (rv12 V0 (Proc.devRef .tc Cert.ReferenceIdeal.main_v61) : FVec Ideal Cert.ReferenceIdeal.S160000x64 .f32) := by
  rw [((W11_keep m ρ c Cert.KernelIdeal.main_v61_0 (by decide)).trans ((W10_of_ne m ρ c Cert.KernelIdeal.main_v61_0 (by decide)).trans ((W9_in1 m ρ c).trans ((W8_keep m ρ c Cert.KernelIdeal.main_v61_0 (by decide)).trans (W7_of_ne m ρ c Cert.KernelIdeal.main_v61_0 (by decide)))))), ((rv12_keep V0 Cert.ReferenceIdeal.main_v61 (by decide)).trans ((rv11_keep V0 Cert.ReferenceIdeal.main_v61 (by decide)).trans ((rv10_keep V0 Cert.ReferenceIdeal.main_v61 (by decide)).trans ((rv9_keep V0 Cert.ReferenceIdeal.main_v61 (by decide)).trans ((rv8_keep V0 Cert.ReferenceIdeal.main_v61 (by decide)).trans ((rv7_keep V0 Cert.ReferenceIdeal.main_v61 (by decide)).trans (rv6_keep V0 Cert.ReferenceIdeal.main_v61 (by decide))))))))]
  exact st_v61_0 hK hR

theorem R_v117 (hR : RHolds V0 A) :
    (rv13 V0 (Proc.devRef .tc Cert.ReferenceIdeal.main_v117) : FVec Ideal Cert.ReferenceIdeal.S160000x64 .f32) = fuse2 (rv12 V0 (Proc.devRef .tc Cert.ReferenceIdeal.main_v110)) (rv12 V0 (Proc.devRef .tc Cert.ReferenceIdeal.main_v61)) (transpose Cert.ReferenceIdeal.S128x64 [1, 0] A.x9 Cert.ReferenceIdeal.Facts₀.transposes_S64x128_S128x64_1_0) (broadcastInDim Cert.ReferenceIdeal.S1x64 ![1] Cert.ReferenceIdeal.Facts₀.bcast_S64_S1x64_1 A.x10) := by
  have e8 := (read_binary (L := rS12) rS12_writes 8 rfl (by decide) (by decide) (by decide) (rv12 V0))
  have e7 := (read_unary (L := rS12) rS12_writes 7 rfl (by decide) (by decide) (rv12 V0))
  have e6 := (read_unary (L := rS12) rS12_writes 6 rfl (by decide) (by decide) (rv12 V0))
  have e5 := (read_binary (L := rS12) rS12_writes 5 rfl (by decide) (by decide) (by decide) (rv12 V0))
  have e4 := (read_unary (L := rS12) rS12_writes 4 rfl (by decide) (by decide) (rv12 V0))
  have e3 := (read_binary (L := rS12) rS12_writes 3 rfl (by decide) (by decide) (by decide) (rv12 V0))
  have e2 := (read_binary (L := rS12) rS12_writes 2 rfl (by decide) (by decide) (by decide) (rv12 V0))
  have e1 := (read_unary (L := rS12) rS12_writes 1 rfl (by decide) (by decide) (rv12 V0))
  have e0 := (read_nullary (L := rS12) rS12_writes 0 rfl (by decide) (rv12 V0))
  rw [rv13_eq_rS12 V0]
  rw [e8, e7, e6, e5, e4, e3, e2, e1, e0]
  rw [read_keep (L := rS12) rS12_writes (r := Cert.ReferenceIdeal.main_v110) (by decide) (rv12 V0),
    read_keep (L := rS12) rS12_writes (r := Cert.ReferenceIdeal.main_v61) (by decide) (rv12 V0),
    read_keep (L := rS12) rS12_writes (r := Cert.ReferenceIdeal.main_arg9) (by decide) (rv12 V0),
    read_keep (L := rS12) rS12_writes (r := Cert.ReferenceIdeal.main_arg10) (by decide) (rv12 V0)]
  rw [((rv12_keep V0 Cert.ReferenceIdeal.main_arg9 (by decide)).trans ((rv11_keep V0 Cert.ReferenceIdeal.main_arg9 (by decide)).trans ((rv10_keep V0 Cert.ReferenceIdeal.main_arg9 (by decide)).trans ((rv9_keep V0 Cert.ReferenceIdeal.main_arg9 (by decide)).trans ((rv8_keep V0 Cert.ReferenceIdeal.main_arg9 (by decide)).trans ((rv7_keep V0 Cert.ReferenceIdeal.main_arg9 (by decide)).trans ((rv6_keep V0 Cert.ReferenceIdeal.main_arg9 (by decide)).trans ((rv5_keep V0 Cert.ReferenceIdeal.main_arg9 (by decide)).trans ((rv4_keep V0 Cert.ReferenceIdeal.main_arg9 (by decide)).trans ((rv3_keep V0 Cert.ReferenceIdeal.main_arg9 (by decide)).trans ((rv2_keep V0 Cert.ReferenceIdeal.main_arg9 (by decide)).trans (rv1_keep V0 Cert.ReferenceIdeal.main_arg9 (by decide))))))))))))), rv0, hR.r9]
  rw [((rv12_keep V0 Cert.ReferenceIdeal.main_arg10 (by decide)).trans ((rv11_keep V0 Cert.ReferenceIdeal.main_arg10 (by decide)).trans ((rv10_keep V0 Cert.ReferenceIdeal.main_arg10 (by decide)).trans ((rv9_keep V0 Cert.ReferenceIdeal.main_arg10 (by decide)).trans ((rv8_keep V0 Cert.ReferenceIdeal.main_arg10 (by decide)).trans ((rv7_keep V0 Cert.ReferenceIdeal.main_arg10 (by decide)).trans ((rv6_keep V0 Cert.ReferenceIdeal.main_arg10 (by decide)).trans ((rv5_keep V0 Cert.ReferenceIdeal.main_arg10 (by decide)).trans ((rv4_keep V0 Cert.ReferenceIdeal.main_arg10 (by decide)).trans ((rv3_keep V0 Cert.ReferenceIdeal.main_arg10 (by decide)).trans ((rv2_keep V0 Cert.ReferenceIdeal.main_arg10 (by decide)).trans (rv1_keep V0 Cert.ReferenceIdeal.main_arg10 (by decide))))))))))))), rv0, hR.r10]
  all_goals rfl

/-- The third hidden state. -/
theorem st_v97 (hK : KHolds m ρ c A) (hR : RHolds V0 A) :
    (W12 m ρ c (Proc.devRef .tc Cert.KernelIdeal.main_v97) : FVec Ideal Cert.KernelIdeal.S160000x64 .f32) = (rv13 V0 (Proc.devRef .tc Cert.ReferenceIdeal.main_v117) : FVec Ideal Cert.ReferenceIdeal.S160000x64 .f32) := by
  rw [Cert.KernelIdeal.Stages.W12_main_v97 m ρ c, R_v117 hR]
  show fuse2 (W11 m ρ c (Proc.devRef .tc Cert.KernelIdeal.main_v96)) (W11 m ρ c (Proc.devRef .tc Cert.KernelIdeal.main_v61_0)) (W11 m ρ c (Proc.devRef .tc Cert.KernelIdeal.main_v47)) (W11 m ρ c (Proc.devRef .tc Cert.KernelIdeal.main_v48)) = _
  rw [c2_main_v96 hK hR,
    l11_v61_0 hK hR,
    ((W11_keep m ρ c Cert.KernelIdeal.main_v47 (by decide)).trans ((W10_of_ne m ρ c Cert.KernelIdeal.main_v47 (by decide)).trans ((W9_in2 m ρ c).trans ((W8_keep m ρ c Cert.KernelIdeal.main_v47 (by decide)).trans ((W7_of_ne m ρ c Cert.KernelIdeal.main_v47 (by decide)).trans (W6_in8 m ρ c)))))), kp_main_v47 hK,
    ((W11_keep m ρ c Cert.KernelIdeal.main_v48 (by decide)).trans ((W10_of_ne m ρ c Cert.KernelIdeal.main_v48 (by decide)).trans ((W9_in3 m ρ c).trans ((W8_keep m ρ c Cert.KernelIdeal.main_v48 (by decide)).trans ((W7_of_ne m ρ c Cert.KernelIdeal.main_v48 (by decide)).trans (W6_in9 m ρ c)))))), kp_main_v48 hK]
  all_goals rfl

theorem R_v122 (hR : RHolds V0 A) :
    (rv14 V0 (Proc.devRef .tc Cert.ReferenceIdeal.main_v122) : FVec Ideal Cert.ReferenceIdeal.S160000x128 .f32) = lin1 (rv13 V0 (Proc.devRef .tc Cert.ReferenceIdeal.main_v117)) (transpose Cert.ReferenceIdeal.S64x128 [1, 0] A.x15 Cert.ReferenceIdeal.Facts₀.transposes_S128x64_S64x128_1_0) (broadcastInDim Cert.ReferenceIdeal.S1x128 ![1] Cert.ReferenceIdeal.Facts₀.bcast_S128_S1x128_1 A.x16) := by
  have e4 := (read_binary (L := rS13) rS13_writes 4 rfl (by decide) (by decide) (by decide) (rv13 V0))
  have e3 := (read_unary (L := rS13) rS13_writes 3 rfl (by decide) (by decide) (rv13 V0))
  have e2 := (read_unary (L := rS13) rS13_writes 2 rfl (by decide) (by decide) (rv13 V0))
  have e1 := (read_binary (L := rS13) rS13_writes 1 rfl (by decide) (by decide) (by decide) (rv13 V0))
  have e0 := (read_unary (L := rS13) rS13_writes 0 rfl (by decide) (by decide) (rv13 V0))
  rw [rv14_eq_rS13 V0]
  rw [e4, e3, e2, e1, e0]
  rw [read_keep (L := rS13) rS13_writes (r := Cert.ReferenceIdeal.main_v117) (by decide) (rv13 V0),
    read_keep (L := rS13) rS13_writes (r := Cert.ReferenceIdeal.main_arg15) (by decide) (rv13 V0),
    read_keep (L := rS13) rS13_writes (r := Cert.ReferenceIdeal.main_arg16) (by decide) (rv13 V0)]
  rw [((rv13_keep V0 Cert.ReferenceIdeal.main_arg15 (by decide)).trans ((rv12_keep V0 Cert.ReferenceIdeal.main_arg15 (by decide)).trans ((rv11_keep V0 Cert.ReferenceIdeal.main_arg15 (by decide)).trans ((rv10_keep V0 Cert.ReferenceIdeal.main_arg15 (by decide)).trans ((rv9_keep V0 Cert.ReferenceIdeal.main_arg15 (by decide)).trans ((rv8_keep V0 Cert.ReferenceIdeal.main_arg15 (by decide)).trans ((rv7_keep V0 Cert.ReferenceIdeal.main_arg15 (by decide)).trans ((rv6_keep V0 Cert.ReferenceIdeal.main_arg15 (by decide)).trans ((rv5_keep V0 Cert.ReferenceIdeal.main_arg15 (by decide)).trans ((rv4_keep V0 Cert.ReferenceIdeal.main_arg15 (by decide)).trans ((rv3_keep V0 Cert.ReferenceIdeal.main_arg15 (by decide)).trans ((rv2_keep V0 Cert.ReferenceIdeal.main_arg15 (by decide)).trans (rv1_keep V0 Cert.ReferenceIdeal.main_arg15 (by decide)))))))))))))), rv0, hR.r15]
  rw [((rv13_keep V0 Cert.ReferenceIdeal.main_arg16 (by decide)).trans ((rv12_keep V0 Cert.ReferenceIdeal.main_arg16 (by decide)).trans ((rv11_keep V0 Cert.ReferenceIdeal.main_arg16 (by decide)).trans ((rv10_keep V0 Cert.ReferenceIdeal.main_arg16 (by decide)).trans ((rv9_keep V0 Cert.ReferenceIdeal.main_arg16 (by decide)).trans ((rv8_keep V0 Cert.ReferenceIdeal.main_arg16 (by decide)).trans ((rv7_keep V0 Cert.ReferenceIdeal.main_arg16 (by decide)).trans ((rv6_keep V0 Cert.ReferenceIdeal.main_arg16 (by decide)).trans ((rv5_keep V0 Cert.ReferenceIdeal.main_arg16 (by decide)).trans ((rv4_keep V0 Cert.ReferenceIdeal.main_arg16 (by decide)).trans ((rv3_keep V0 Cert.ReferenceIdeal.main_arg16 (by decide)).trans ((rv2_keep V0 Cert.ReferenceIdeal.main_arg16 (by decide)).trans (rv1_keep V0 Cert.ReferenceIdeal.main_arg16 (by decide)))))))))))))), rv0, hR.r16]
  all_goals rfl

/-- The first recovery layer, before normalisation. -/
theorem st_v98 (hK : KHolds m ρ c A) (hR : RHolds V0 A) :
    (W13 m ρ c (Proc.devRef .tc Cert.KernelIdeal.main_v98) : FVec Ideal Cert.KernelIdeal.S160000x128 .f32) = (rv14 V0 (Proc.devRef .tc Cert.ReferenceIdeal.main_v122) : FVec Ideal Cert.ReferenceIdeal.S160000x128 .f32) := by
  rw [Cert.KernelIdeal.Stages.W13_main_v98 m ρ c, R_v122 hR]
  show lin1 (W12 m ρ c (Proc.devRef .tc Cert.KernelIdeal.main_v97)) (W12 m ρ c (Proc.devRef .tc Cert.KernelIdeal.main_v51)) (W12 m ρ c (Proc.devRef .tc Cert.KernelIdeal.main_v52)) = _
  rw [st_v97 hK hR,
    ((W12_of_ne m ρ c Cert.KernelIdeal.main_v51 (by decide)).trans ((W11_keep m ρ c Cert.KernelIdeal.main_v51 (by decide)).trans ((W10_of_ne m ρ c Cert.KernelIdeal.main_v51 (by decide)).trans ((W9_of_ne m ρ c Cert.KernelIdeal.main_v51 (by decide)).trans ((W8_keep m ρ c Cert.KernelIdeal.main_v51 (by decide)).trans ((W7_of_ne m ρ c Cert.KernelIdeal.main_v51 (by decide)).trans (W6_of_ne m ρ c Cert.KernelIdeal.main_v51 (by decide)))))))), kp_main_v51 hK,
    ((W12_of_ne m ρ c Cert.KernelIdeal.main_v52 (by decide)).trans ((W11_keep m ρ c Cert.KernelIdeal.main_v52 (by decide)).trans ((W10_of_ne m ρ c Cert.KernelIdeal.main_v52 (by decide)).trans ((W9_of_ne m ρ c Cert.KernelIdeal.main_v52 (by decide)).trans ((W8_keep m ρ c Cert.KernelIdeal.main_v52 (by decide)).trans ((W7_of_ne m ρ c Cert.KernelIdeal.main_v52 (by decide)).trans (W6_of_ne m ρ c Cert.KernelIdeal.main_v52 (by decide)))))))), kp_main_v52 hK]
  all_goals rfl

end Cert.Bridge

end
-- ==== Proof.BStats1.lean ====
/-
  The batch statistics of the first recovery layer.

  Both programs sum the layer's output over the 160000 rows, divide by the count for the mean, subtract the broadcast
  mean, square, sum again and divide by the count less the correction (guarded where that is not positive) for the
  variance. The reductions and the pointwise steps are the same operations on equal operands; the kernel's program keeps
  the two results as one-row matrices where the reference keeps vectors, and entry (0, q) of the one is entry q of the
  other.
-/
import proofs.«175455_j86191403696584_1_alg».proof.Proof.BSt4
import Idealize.ShloMosaic.Lib.IdealHost
import Idealize.ShloMosaic.Lib.ValueLayout

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Stages Cert.ReferenceIdeal.RunValue Cert.KernelIdeal.Regions Cert.Lib.Ssa

variable {m : (ℓ : Loc Cert.KernelIdeal.nD Cert.KernelIdeal.τ Cert.KernelIdeal.sig) → Buf (Elt Ideal) ℓ} {ρ : Dev Cert.KernelIdeal.nD → PrngReg} {c : Dev Cert.KernelIdeal.nD}
variable {V0 : Valuation Cert.ReferenceIdeal.τ Cert.ReferenceIdeal.sig (Elt Ideal)} {A : Args}

theorem s1_in_z (hK : KHolds m ρ c A) (hR : RHolds V0 A) :
    (W15 m ρ c (Proc.devRef .tc Cert.KernelIdeal.main_v98) : FVec Ideal Cert.KernelIdeal.S160000x128 .f32) = (rv15 V0 (Proc.devRef .tc Cert.ReferenceIdeal.main_v122) : FVec Ideal Cert.ReferenceIdeal.S160000x128 .f32) := by
  rw [((W15_keep m ρ c Cert.KernelIdeal.main_v98 (by decide)).trans (W14_keep m ρ c Cert.KernelIdeal.main_v98 (by decide))), (rv15_keep V0 Cert.ReferenceIdeal.main_v122 (by decide))]
  exact st_v98 hK hR

theorem s1_main_cst_16 (hK : KHolds m ρ c A) (hR : RHolds V0 A) :
    (W15 m ρ c (Proc.devRef .tc Cert.KernelIdeal.main_cst_16) : FVec Ideal Cert.KernelIdeal.S_ .f32) = (rv15 V0 (Proc.devRef .tc Cert.ReferenceIdeal.main_cst_16) : FVec Ideal Cert.ReferenceIdeal.S_ .f32) := by
  have e1 := (read_nullary (L := kM1) kM1_writes 0 rfl (by decide) (W13 m ρ c))
  have e2 := (read_nullary (L := rS14) rS14_writes 0 rfl (by decide) (rv14 V0))
  rw [← W15_eq_kM1 m ρ c] at e1
  rw [← rv15_eq_rS14 V0] at e2
  rw [e1, e2]
  all_goals rfl

theorem s1_main_v99 (hK : KHolds m ρ c A) (hR : RHolds V0 A) :
    (W15 m ρ c (Proc.devRef .tc Cert.KernelIdeal.main_v99) : FVec Ideal Cert.KernelIdeal.S128 .f32) = (rv15 V0 (Proc.devRef .tc Cert.ReferenceIdeal.main_v123) : FVec Ideal Cert.ReferenceIdeal.S128 .f32) := by
  have e1 := (read_binary (L := kM1) kM1_writes 1 rfl (by decide) (by decide) (by decide) (W13 m ρ c))
  have e2 := (read_binary (L := rS14) rS14_writes 1 rfl (by decide) (by decide) (by decide) (rv14 V0))
  rw [← W15_eq_kM1 m ρ c] at e1
  rw [← rv15_eq_rS14 V0] at e2
  rw [e1, e2, s1_in_z hK hR, s1_main_cst_16 hK hR]
  all_goals rfl

theorem s1_main_cst_17 (hK : KHolds m ρ c A) (hR : RHolds V0 A) :
    (W15 m ρ c (Proc.devRef .tc Cert.KernelIdeal.main_cst_17) : FVec Ideal Cert.KernelIdeal.S_ .f32) = (rv15 V0 (Proc.devRef .tc Cert.ReferenceIdeal.main_cst_17) : FVec Ideal Cert.ReferenceIdeal.S_ .f32) := by
  have e1 := (read_nullary (L := kM1) kM1_writes 3 rfl (by decide) (W13 m ρ c))
  have e2 := (read_nullary (L := rS14) rS14_writes 2 rfl (by decide) (rv14 V0))
  rw [← W15_eq_kM1 m ρ c] at e1
  rw [← rv15_eq_rS14 V0] at e2
  rw [e1, e2]
  all_goals rfl

theorem s1_main_c_18 (hK : KHolds m ρ c A) (hR : RHolds V0 A) :
    (W15 m ρ c (Proc.devRef .tc Cert.KernelIdeal.main_c_18) : IVec Cert.KernelIdeal.S_ 32) = (rv15 V0 (Proc.devRef .tc Cert.ReferenceIdeal.main_c_18) : IVec Cert.ReferenceIdeal.S_ 32) := by
  have e1 := (read_nullary (L := kM1) kM1_writes 6 rfl (by decide) (W13 m ρ c))
  have e2 := (read_nullary (L := rS14) rS14_writes 5 rfl (by decide) (rv14 V0))
  rw [← W15_eq_kM1 m ρ c] at e1
  rw [← rv15_eq_rS14 V0] at e2
  rw [e1, e2]
  all_goals rfl

theorem s1_main_call2_cst (hK : KHolds m ρ c A) (hR : RHolds V0 A) :
    (W15 m ρ c (Proc.devRef .tc Cert.KernelIdeal.main_call2_cst) : FVec Ideal Cert.KernelIdeal.S_ .f32) = (rv15 V0 (Proc.devRef .tc Cert.ReferenceIdeal.main_call4_cst) : FVec Ideal Cert.ReferenceIdeal.S_ .f32) := by
  have e1 := (read_nullary (L := kM1) kM1_writes 7 rfl (by decide) (W13 m ρ c))
  have e2 := (read_nullary (L := rS14) rS14_writes 6 rfl (by decide) (rv14 V0))
  rw [← W15_eq_kM1 m ρ c] at e1
  rw [← rv15_eq_rS14 V0] at e2
  rw [e1, e2]
  all_goals rfl

theorem s1_main_call2_v0 (hK : KHolds m ρ c A) (hR : RHolds V0 A) :
    (W15 m ρ c (Proc.devRef .tc Cert.KernelIdeal.main_call2_v0) : FVec Ideal Cert.KernelIdeal.S128 .f32) = (rv15 V0 (Proc.devRef .tc Cert.ReferenceIdeal.main_call4_v0) : FVec Ideal Cert.ReferenceIdeal.S128 .f32) := by
  have e1 := (read_binary (L := kM1) kM1_writes 8 rfl (by decide) (by decide) (by decide) (W13 m ρ c))
  have e2 := (read_binary (L := rS14) rS14_writes 7 rfl (by decide) (by decide) (by decide) (rv14 V0))
  rw [← W15_eq_kM1 m ρ c] at e1
  rw [← rv15_eq_rS14 V0] at e2
  rw [e1, e2, s1_in_z hK hR, s1_main_call2_cst hK hR]
  all_goals rfl

theorem s1_main_call2_v1 (hK : KHolds m ρ c A) (hR : RHolds V0 A) :
    (W15 m ρ c (Proc.devRef .tc Cert.KernelIdeal.main_call2_v1) : FVec Ideal Cert.KernelIdeal.S1x128 .f32) = (rv15 V0 (Proc.devRef .tc Cert.ReferenceIdeal.main_call4_v1) : FVec Ideal Cert.ReferenceIdeal.S1x128 .f32) := by
  have e1 := (read_unary (L := kM1) kM1_writes 9 rfl (by decide) (by decide) (W13 m ρ c))
  have e2 := (read_unary (L := rS14) rS14_writes 8 rfl (by decide) (by decide) (rv14 V0))
  rw [← W15_eq_kM1 m ρ c] at e1
  rw [← rv15_eq_rS14 V0] at e2
  rw [e1, e2, s1_main_call2_v0 hK hR]
  all_goals rfl

theorem s1_main_call2_cst_0 (hK : KHolds m ρ c A) (hR : RHolds V0 A) :
    (W15 m ρ c (Proc.devRef .tc Cert.KernelIdeal.main_call2_cst_0) : FVec Ideal Cert.KernelIdeal.S_ .f32) = (rv15 V0 (Proc.devRef .tc Cert.ReferenceIdeal.main_call4_cst_0) : FVec Ideal Cert.ReferenceIdeal.S_ .f32) := by
  have e1 := (read_nullary (L := kM1) kM1_writes 10 rfl (by decide) (W13 m ρ c))
  have e2 := (read_nullary (L := rS14) rS14_writes 9 rfl (by decide) (rv14 V0))
  rw [← W15_eq_kM1 m ρ c] at e1
  rw [← rv15_eq_rS14 V0] at e2
  rw [e1, e2]
  all_goals rfl

theorem s1_main_call2_v2 (hK : KHolds m ρ c A) (hR : RHolds V0 A) :
    (W15 m ρ c (Proc.devRef .tc Cert.KernelIdeal.main_call2_v2) : FVec Ideal Cert.KernelIdeal.S1x128 .f32) = (rv15 V0 (Proc.devRef .tc Cert.ReferenceIdeal.main_call4_v2) : FVec Ideal Cert.ReferenceIdeal.S1x128 .f32) := by
  have e1 := (read_unary (L := kM1) kM1_writes 11 rfl (by decide) (by decide) (W13 m ρ c))
  have e2 := (read_unary (L := rS14) rS14_writes 10 rfl (by decide) (by decide) (rv14 V0))
  rw [← W15_eq_kM1 m ρ c] at e1
  rw [← rv15_eq_rS14 V0] at e2
  rw [e1, e2, s1_main_call2_cst_0 hK hR]
  all_goals rfl

theorem s1_main_call2_v3 (hK : KHolds m ρ c A) (hR : RHolds V0 A) :
    (W15 m ρ c (Proc.devRef .tc Cert.KernelIdeal.main_call2_v3) : FVec Ideal Cert.KernelIdeal.S1x128 .f32) = (rv15 V0 (Proc.devRef .tc Cert.ReferenceIdeal.main_call4_v3) : FVec Ideal Cert.ReferenceIdeal.S1x128 .f32) := by
  have e1 := (read_binary (L := kM1) kM1_writes 12 rfl (by decide) (by decide) (by decide) (W13 m ρ c))
  have e2 := (read_binary (L := rS14) rS14_writes 11 rfl (by decide) (by decide) (by decide) (rv14 V0))
  rw [← W15_eq_kM1 m ρ c] at e1
  rw [← rv15_eq_rS14 V0] at e2
  rw [e1, e2, s1_main_call2_v1 hK hR, s1_main_call2_v2 hK hR]
  all_goals rfl

theorem s1_main_call2_v4 (hK : KHolds m ρ c A) (hR : RHolds V0 A) :
    (W15 m ρ c (Proc.devRef .tc Cert.KernelIdeal.main_call2_v4) : FVec Ideal Cert.KernelIdeal.S160000x128 .f32) = (rv15 V0 (Proc.devRef .tc Cert.ReferenceIdeal.main_call4_v4) : FVec Ideal Cert.ReferenceIdeal.S160000x128 .f32) := by
  have e1 := (read_unary (L := kM1) kM1_writes 13 rfl (by decide) (by decide) (W13 m ρ c))
  have e2 := (read_unary (L := rS14) rS14_writes 12 rfl (by decide) (by decide) (rv14 V0))
  rw [← W15_eq_kM1 m ρ c] at e1
  rw [← rv15_eq_rS14 V0] at e2
  rw [e1, e2, s1_main_call2_v3 hK hR]
  all_goals rfl

theorem s1_main_call2_v5 (hK : KHolds m ρ c A) (hR : RHolds V0 A) :
    (W15 m ρ c (Proc.devRef .tc Cert.KernelIdeal.main_call2_v5) : FVec Ideal Cert.KernelIdeal.S160000x128 .f32) = (rv15 V0 (Proc.devRef .tc Cert.ReferenceIdeal.main_call4_v5) : FVec Ideal Cert.ReferenceIdeal.S160000x128 .f32) := by
  have e1 := (read_binary (L := kM1) kM1_writes 14 rfl (by decide) (by decide) (by decide) (W13 m ρ c))
  have e2 := (read_binary (L := rS14) rS14_writes 13 rfl (by decide) (by decide) (by decide) (rv14 V0))
  rw [← W15_eq_kM1 m ρ c] at e1
  rw [← rv15_eq_rS14 V0] at e2
  rw [e1, e2, s1_in_z hK hR, s1_main_call2_v4 hK hR]
  all_goals rfl

theorem s1_main_call2_v6 (hK : KHolds m ρ c A) (hR : RHolds V0 A) :
    (W15 m ρ c (Proc.devRef .tc Cert.KernelIdeal.main_call2_v6) : FVec Ideal Cert.KernelIdeal.S160000x128 .f32) = (rv15 V0 (Proc.devRef .tc Cert.ReferenceIdeal.main_call4_v6) : FVec Ideal Cert.ReferenceIdeal.S160000x128 .f32) := by
  have e1 := (read_binary (L := kM1) kM1_writes 15 rfl (by decide) (by decide) (by decide) (W13 m ρ c))
  have e2 := (read_binary (L := rS14) rS14_writes 14 rfl (by decide) (by decide) (by decide) (rv14 V0))
  rw [← W15_eq_kM1 m ρ c] at e1
  rw [← rv15_eq_rS14 V0] at e2
  rw [e1, e2, s1_main_call2_v5 hK hR]
  all_goals rfl

theorem s1_main_call2_v7 (hK : KHolds m ρ c A) (hR : RHolds V0 A) :
    (W15 m ρ c (Proc.devRef .tc Cert.KernelIdeal.main_call2_v7) : FVec Ideal Cert.KernelIdeal.S_ .f32) = (rv15 V0 (Proc.devRef .tc Cert.ReferenceIdeal.main_call4_v7) : FVec Ideal Cert.ReferenceIdeal.S_ .f32) := by
  have e1 := (read_unary (L := kM1) kM1_writes 16 rfl (by decide) (by decide) (W13 m ρ c))
  have e2 := (read_unary (L := rS14) rS14_writes 15 rfl (by decide) (by decide) (rv14 V0))
  rw [← W15_eq_kM1 m ρ c] at e1
  rw [← rv15_eq_rS14 V0] at e2
  rw [e1, e2, s1_main_c_18 hK hR]
  all_goals rfl

theorem s1_main_call2_cst_1 (hK : KHolds m ρ c A) (hR : RHolds V0 A) :
    (W15 m ρ c (Proc.devRef .tc Cert.KernelIdeal.main_call2_cst_1) : FVec Ideal Cert.KernelIdeal.S_ .f32) = (rv15 V0 (Proc.devRef .tc Cert.ReferenceIdeal.main_call4_cst_1) : FVec Ideal Cert.ReferenceIdeal.S_ .f32) := by
  have e1 := (read_nullary (L := kM1) kM1_writes 17 rfl (by decide) (W13 m ρ c))
  have e2 := (read_nullary (L := rS14) rS14_writes 16 rfl (by decide) (rv14 V0))
  rw [← W15_eq_kM1 m ρ c] at e1
  rw [← rv15_eq_rS14 V0] at e2
  rw [e1, e2]
  all_goals rfl

theorem s1_main_call2_v8 (hK : KHolds m ρ c A) (hR : RHolds V0 A) :
    (W15 m ρ c (Proc.devRef .tc Cert.KernelIdeal.main_call2_v8) : FVec Ideal Cert.KernelIdeal.S_ .f32) = (rv15 V0 (Proc.devRef .tc Cert.ReferenceIdeal.main_call4_v8) : FVec Ideal Cert.ReferenceIdeal.S_ .f32) := by
  have e1 := (read_binary (L := kM1) kM1_writes 18 rfl (by decide) (by decide) (by decide) (W13 m ρ c))
  have e2 := (read_binary (L := rS14) rS14_writes 17 rfl (by decide) (by decide) (by decide) (rv14 V0))
  rw [← W15_eq_kM1 m ρ c] at e1
  rw [← rv15_eq_rS14 V0] at e2
  rw [e1, e2, s1_main_call2_cst_1 hK hR, s1_main_call2_v7 hK hR]
  all_goals rfl

theorem s1_main_call2_cst_2 (hK : KHolds m ρ c A) (hR : RHolds V0 A) :
    (W15 m ρ c (Proc.devRef .tc Cert.KernelIdeal.main_call2_cst_2) : FVec Ideal Cert.KernelIdeal.S_ .f32) = (rv15 V0 (Proc.devRef .tc Cert.ReferenceIdeal.main_call4_cst_2) : FVec Ideal Cert.ReferenceIdeal.S_ .f32) := by
  have e1 := (read_nullary (L := kM1) kM1_writes 19 rfl (by decide) (W13 m ρ c))
  have e2 := (read_nullary (L := rS14) rS14_writes 18 rfl (by decide) (rv14 V0))
  rw [← W15_eq_kM1 m ρ c] at e1
  rw [← rv15_eq_rS14 V0] at e2
  rw [e1, e2]
  all_goals rfl

theorem s1_main_call2_v9 (hK : KHolds m ρ c A) (hR : RHolds V0 A) :
    (W15 m ρ c (Proc.devRef .tc Cert.KernelIdeal.main_call2_v9) : FVec Ideal Cert.KernelIdeal.S128 .f32) = (rv15 V0 (Proc.devRef .tc Cert.ReferenceIdeal.main_call4_v9) : FVec Ideal Cert.ReferenceIdeal.S128 .f32) := by
  have e1 := (read_binary (L := kM1) kM1_writes 20 rfl (by decide) (by decide) (by decide) (W13 m ρ c))
  have e2 := (read_binary (L := rS14) rS14_writes 19 rfl (by decide) (by decide) (by decide) (rv14 V0))
  rw [← W15_eq_kM1 m ρ c] at e1
  rw [← rv15_eq_rS14 V0] at e2
  rw [e1, e2, s1_main_call2_v6 hK hR, s1_main_call2_cst_2 hK hR]
  all_goals rfl

theorem s1_main_call2_cst_3 (hK : KHolds m ρ c A) (hR : RHolds V0 A) :
    (W15 m ρ c (Proc.devRef .tc Cert.KernelIdeal.main_call2_cst_3) : FVec Ideal Cert.KernelIdeal.S_ .f32) = (rv15 V0 (Proc.devRef .tc Cert.ReferenceIdeal.main_call4_cst_3) : FVec Ideal Cert.ReferenceIdeal.S_ .f32) := by
  have e1 := (read_nullary (L := kM1) kM1_writes 24 rfl (by decide) (W13 m ρ c))
  have e2 := (read_nullary (L := rS14) rS14_writes 22 rfl (by decide) (rv14 V0))
  rw [← W15_eq_kM1 m ρ c] at e1
  rw [← rv15_eq_rS14 V0] at e2
  rw [e1, e2]
  all_goals rfl

theorem s1_main_call2_v13 (hK : KHolds m ρ c A) (hR : RHolds V0 A) :
    (W15 m ρ c (Proc.devRef .tc Cert.KernelIdeal.main_call2_v13) : IVec Cert.KernelIdeal.S_ 1) = (rv15 V0 (Proc.devRef .tc Cert.ReferenceIdeal.main_call4_v12) : IVec Cert.ReferenceIdeal.S_ 1) := by
  have e1 := (read_binary (L := kM1) kM1_writes 25 rfl (by decide) (by decide) (by decide) (W13 m ρ c))
  have e2 := (read_binary (L := rS14) rS14_writes 23 rfl (by decide) (by decide) (by decide) (rv14 V0))
  rw [← W15_eq_kM1 m ρ c] at e1
  rw [← rv15_eq_rS14 V0] at e2
  rw [e1, e2, s1_main_call2_v8 hK hR, s1_main_call2_cst_3 hK hR]
  all_goals rfl

theorem s1_main_call2_cst_4 (hK : KHolds m ρ c A) (hR : RHolds V0 A) :
    (W15 m ρ c (Proc.devRef .tc Cert.KernelIdeal.main_call2_cst_4) : FVec Ideal Cert.KernelIdeal.S_ .f32) = (rv15 V0 (Proc.devRef .tc Cert.ReferenceIdeal.main_call4_cst_4) : FVec Ideal Cert.ReferenceIdeal.S_ .f32) := by
  have e1 := (read_nullary (L := kM1) kM1_writes 26 rfl (by decide) (W13 m ρ c))
  have e2 := (read_nullary (L := rS14) rS14_writes 24 rfl (by decide) (rv14 V0))
  rw [← W15_eq_kM1 m ρ c] at e1
  rw [← rv15_eq_rS14 V0] at e2
  rw [e1, e2]
  all_goals rfl

theorem s1_main_call2_call0_v0 (hK : KHolds m ρ c A) (hR : RHolds V0 A) :
    (W15 m ρ c (Proc.devRef .tc Cert.KernelIdeal.main_call2_call0_v0) : FVec Ideal Cert.KernelIdeal.S_ .f32) = (rv15 V0 (Proc.devRef .tc Cert.ReferenceIdeal.main_call4_call0_v0) : FVec Ideal Cert.ReferenceIdeal.S_ .f32) := by
  have e1 := (read_unary (L := kM1) kM1_writes 27 rfl (by decide) (by decide) (W13 m ρ c))
  have e2 := (read_unary (L := rS14) rS14_writes 25 rfl (by decide) (by decide) (rv14 V0))
  rw [← W15_eq_kM1 m ρ c] at e1
  rw [← rv15_eq_rS14 V0] at e2
  rw [e1, e2, s1_main_call2_cst_4 hK hR]
  all_goals rfl

/-- The batch mean as a row: the kernel's keepdims mean is the reference's mean vector made a row. -/
theorem s1_mean (hK : KHolds m ρ c A) (hR : RHolds V0 A) :
    (W15 m ρ c (Proc.devRef .tc Cert.KernelIdeal.main_v102) : FVec Ideal Cert.KernelIdeal.S1x128 .f32) = (broadcastInDim Cert.ReferenceIdeal.S1x128 ![1] Cert.ReferenceIdeal.Facts₀.bcast_S128_S1x128_1 (rv15 V0 (Proc.devRef .tc Cert.ReferenceIdeal.main_v125))) := by
  have k5 := (read_binary (L := kM1) kM1_writes 5 rfl (by decide) (by decide) (by decide) (W13 m ρ c))
  have k2 := (read_unary (L := kM1) kM1_writes 2 rfl (by decide) (by decide) (W13 m ρ c))
  have k4 := (read_unary (L := kM1) kM1_writes 4 rfl (by decide) (by decide) (W13 m ρ c))
  rw [← W15_eq_kM1 m ρ c] at k5 k2 k4
  have r4 := (read_binary (L := rS14) rS14_writes 4 rfl (by decide) (by decide) (by decide) (rv14 V0))
  have r3 := (read_unary (L := rS14) rS14_writes 3 rfl (by decide) (by decide) (rv14 V0))
  rw [← rv15_eq_rS14 V0] at r4 r3
  rw [k5, k2, k4, r4, r3, s1_main_v99 hK hR, s1_main_cst_17 hK hR]
  exact Cert.Seams.mean_row_128 _ _

set_option maxRecDepth 200000 in
/-- The batch variance as a row: the kernel's keepdims variance is the reference's variance vector made a row. -/
theorem s1_var (hK : KHolds m ρ c A) (hR : RHolds V0 A) :
    (W15 m ρ c (Proc.devRef .tc Cert.KernelIdeal.main_v103) : FVec Ideal Cert.KernelIdeal.S1x128 .f32) = (broadcastInDim Cert.ReferenceIdeal.S1x128 ![1] Cert.ReferenceIdeal.Facts₀.bcast_S128_S1x128_1 (rv15 V0 (Proc.devRef .tc Cert.ReferenceIdeal.main_v126))) := by
  have k29 := (read_ternary (L := kM1) kM1_writes 29 rfl (by decide) (by decide) (by decide) (by decide) (W13 m ρ c))
  have k23 := (read_binary (L := kM1) kM1_writes 23 rfl (by decide) (by decide) (by decide) (W13 m ρ c))
  have k21 := (read_unary (L := kM1) kM1_writes 21 rfl (by decide) (by decide) (W13 m ρ c))
  have k22 := (read_unary (L := kM1) kM1_writes 22 rfl (by decide) (by decide) (W13 m ρ c))
  have k28 := (read_unary (L := kM1) kM1_writes 28 rfl (by decide) (by decide) (W13 m ρ c))
  rw [← W15_eq_kM1 m ρ c] at k29 k23 k21 k22 k28
  have r27 := (read_ternary (L := rS14) rS14_writes 27 rfl (by decide) (by decide) (by decide) (by decide) (rv14 V0))
  have r21 := (read_binary (L := rS14) rS14_writes 21 rfl (by decide) (by decide) (by decide) (rv14 V0))
  have r20 := (read_unary (L := rS14) rS14_writes 20 rfl (by decide) (by decide) (rv14 V0))
  have r26 := (read_unary (L := rS14) rS14_writes 26 rfl (by decide) (by decide) (rv14 V0))
  rw [← rv15_eq_rS14 V0] at r27 r21 r20 r26
  rw [k29, k23, k21, k22, k28, r27, r21, r20, r26, s1_main_call2_v13 hK hR, s1_main_call2_v9 hK hR, s1_main_call2_v8 hK hR, s1_main_call2_call0_v0 hK hR]
  exact Cert.Seams.var_row_128 (rv15 V0 (Proc.devRef .tc Cert.ReferenceIdeal.main_call4_v12)) (rv15 V0 (Proc.devRef .tc Cert.ReferenceIdeal.main_call4_v9)) (rv15 V0 (Proc.devRef .tc Cert.ReferenceIdeal.main_call4_v8)) (rv15 V0 (Proc.devRef .tc Cert.ReferenceIdeal.main_call4_call0_v0))

end Cert.Bridge

end
-- ==== Proof.BSt6.lean ====
/-
  The sixth region against the reference: normalise the first recovery layer by its batch statistics, scale, shift,
  relu, and apply the second layer. The reference's operations are read in three steps (the normalised input, its
  maximum with zero, the layer on top). It takes the reciprocal square root on the variance vector and then makes it a
  row; the kernel takes it on the row: the same entries (Seams.rsqrt_row).
-/
import proofs.«175455_j86191403696584_1_alg».proof.Proof.BStats1
import Idealize.ShloMosaic.Lib.IdealHost
import Idealize.ShloMosaic.Lib.ValueLayout

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Stages Cert.ReferenceIdeal.RunValue Cert.KernelIdeal.Regions Cert.Lib.Ssa

variable {m : (ℓ : Loc Cert.KernelIdeal.nD Cert.KernelIdeal.τ Cert.KernelIdeal.sig) → Buf (Elt Ideal) ℓ} {ρ : Dev Cert.KernelIdeal.nD → PrngReg} {c : Dev Cert.KernelIdeal.nD}
variable {V0 : Valuation Cert.ReferenceIdeal.τ Cert.ReferenceIdeal.sig (Elt Ideal)} {A : Args}

theorem R_v141 (hR : RHolds V0 A) :
    (rv16 V0 (Proc.devRef .tc Cert.ReferenceIdeal.main_v141) : FVec Ideal Cert.ReferenceIdeal.S160000x128 .f32) = addf (mulf (mulf (subf (rv15 V0 (Proc.devRef .tc Cert.ReferenceIdeal.main_v122)) (broadcastInDim Cert.ReferenceIdeal.S160000x128 ![0, 1] Cert.ReferenceIdeal.Facts₀.bcast_S1x128_S160000x128_0_1 (broadcastInDim Cert.ReferenceIdeal.S1x128 ![1] Cert.ReferenceIdeal.Facts₀.bcast_S128_S1x128_1 (rv15 V0 (Proc.devRef .tc Cert.ReferenceIdeal.main_v125))))) (broadcastInDim Cert.ReferenceIdeal.S160000x128 ![0, 1] Cert.ReferenceIdeal.Facts₀.bcast_S1x128_S160000x128_0_1 (broadcastInDim Cert.ReferenceIdeal.S1x128 ![1] Cert.ReferenceIdeal.Facts₀.bcast_S128_S1x128_1 (Host.rsqrt (addf (rv15 V0 (Proc.devRef .tc Cert.ReferenceIdeal.main_v126)) (broadcastInDim Cert.ReferenceIdeal.S128 ![] Cert.ReferenceIdeal.Facts₀.bcast_S_S128 (constant (F := Ideal) Cert.ReferenceIdeal.S_ .f32 0x3727C5AC#32))))))) (broadcastInDim Cert.ReferenceIdeal.S160000x128 ![0, 1] Cert.ReferenceIdeal.Facts₀.bcast_S1x128_S160000x128_0_1 (broadcastInDim Cert.ReferenceIdeal.S1x128 ![1] Cert.ReferenceIdeal.Facts₀.bcast_S128_S1x128_1 A.x17))) (broadcastInDim Cert.ReferenceIdeal.S160000x128 ![0, 1] Cert.ReferenceIdeal.Facts₀.bcast_S1x128_S160000x128_0_1 (broadcastInDim Cert.ReferenceIdeal.S1x128 ![1] Cert.ReferenceIdeal.Facts₀.bcast_S128_S1x128_1 A.x18)) := by
  have e15 := (read_binary (L := rS15) rS15_writes 15 rfl (by decide) (by decide) (by decide) (rv15 V0))
  have e14 := (read_unary (L := rS15) rS15_writes 14 rfl (by decide) (by decide) (rv15 V0))
  have e13 := (read_unary (L := rS15) rS15_writes 13 rfl (by decide) (by decide) (rv15 V0))
  have e12 := (read_binary (L := rS15) rS15_writes 12 rfl (by decide) (by decide) (by decide) (rv15 V0))
  have e11 := (read_unary (L := rS15) rS15_writes 11 rfl (by decide) (by decide) (rv15 V0))
  have e10 := (read_unary (L := rS15) rS15_writes 10 rfl (by decide) (by decide) (rv15 V0))
  have e9 := (read_binary (L := rS15) rS15_writes 9 rfl (by decide) (by decide) (by decide) (rv15 V0))
  have e8 := (read_unary (L := rS15) rS15_writes 8 rfl (by decide) (by decide) (rv15 V0))
  have e7 := (read_unary (L := rS15) rS15_writes 7 rfl (by decide) (by decide) (rv15 V0))
  have e6 := (read_unary (L := rS15) rS15_writes 6 rfl (by decide) (by decide) (rv15 V0))
  have e5 := (read_binary (L := rS15) rS15_writes 5 rfl (by decide) (by decide) (by decide) (rv15 V0))
  have e4 := (read_unary (L := rS15) rS15_writes 4 rfl (by decide) (by decide) (rv15 V0))
  have e3 := (read_nullary (L := rS15) rS15_writes 3 rfl (by decide) (rv15 V0))
  have e2 := (read_binary (L := rS15) rS15_writes 2 rfl (by decide) (by decide) (by decide) (rv15 V0))
  have e1 := (read_unary (L := rS15) rS15_writes 1 rfl (by decide) (by decide) (rv15 V0))
  have e0 := (read_unary (L := rS15) rS15_writes 0 rfl (by decide) (by decide) (rv15 V0))
  rw [rv16_eq_rS15 V0]
  rw [e15, e14, e13, e12, e11, e10, e9, e8, e7, e6, e5, e4, e3, e2, e1, e0]
  rw [read_keep (L := rS15) rS15_writes (r := Cert.ReferenceIdeal.main_v122) (by decide) (rv15 V0),
    read_keep (L := rS15) rS15_writes (r := Cert.ReferenceIdeal.main_v125) (by decide) (rv15 V0),
    read_keep (L := rS15) rS15_writes (r := Cert.ReferenceIdeal.main_v126) (by decide) (rv15 V0),
    read_keep (L := rS15) rS15_writes (r := Cert.ReferenceIdeal.main_arg17) (by decide) (rv15 V0),
    read_keep (L := rS15) rS15_writes (r := Cert.ReferenceIdeal.main_arg18) (by decide) (rv15 V0)]
  rw [((rv15_keep V0 Cert.ReferenceIdeal.main_arg17 (by decide)).trans ((rv14_keep V0 Cert.ReferenceIdeal.main_arg17 (by decide)).trans ((rv13_keep V0 Cert.ReferenceIdeal.main_arg17 (by decide)).trans ((rv12_keep V0 Cert.ReferenceIdeal.main_arg17 (by decide)).trans ((rv11_keep V0 Cert.ReferenceIdeal.main_arg17 (by decide)).trans ((rv10_keep V0 Cert.ReferenceIdeal.main_arg17 (by decide)).trans ((rv9_keep V0 Cert.ReferenceIdeal.main_arg17 (by decide)).trans ((rv8_keep V0 Cert.ReferenceIdeal.main_arg17 (by decide)).trans ((rv7_keep V0 Cert.ReferenceIdeal.main_arg17 (by decide)).trans ((rv6_keep V0 Cert.ReferenceIdeal.main_arg17 (by decide)).trans ((rv5_keep V0 Cert.ReferenceIdeal.main_arg17 (by decide)).trans ((rv4_keep V0 Cert.ReferenceIdeal.main_arg17 (by decide)).trans ((rv3_keep V0 Cert.ReferenceIdeal.main_arg17 (by decide)).trans ((rv2_keep V0 Cert.ReferenceIdeal.main_arg17 (by decide)).trans (rv1_keep V0 Cert.ReferenceIdeal.main_arg17 (by decide)))))))))))))))), rv0, hR.r17]
  rw [((rv15_keep V0 Cert.ReferenceIdeal.main_arg18 (by decide)).trans ((rv14_keep V0 Cert.ReferenceIdeal.main_arg18 (by decide)).trans ((rv13_keep V0 Cert.ReferenceIdeal.main_arg18 (by decide)).trans ((rv12_keep V0 Cert.ReferenceIdeal.main_arg18 (by decide)).trans ((rv11_keep V0 Cert.ReferenceIdeal.main_arg18 (by decide)).trans ((rv10_keep V0 Cert.ReferenceIdeal.main_arg18 (by decide)).trans ((rv9_keep V0 Cert.ReferenceIdeal.main_arg18 (by decide)).trans ((rv8_keep V0 Cert.ReferenceIdeal.main_arg18 (by decide)).trans ((rv7_keep V0 Cert.ReferenceIdeal.main_arg18 (by decide)).trans ((rv6_keep V0 Cert.ReferenceIdeal.main_arg18 (by decide)).trans ((rv5_keep V0 Cert.ReferenceIdeal.main_arg18 (by decide)).trans ((rv4_keep V0 Cert.ReferenceIdeal.main_arg18 (by decide)).trans ((rv3_keep V0 Cert.ReferenceIdeal.main_arg18 (by decide)).trans ((rv2_keep V0 Cert.ReferenceIdeal.main_arg18 (by decide)).trans (rv1_keep V0 Cert.ReferenceIdeal.main_arg18 (by decide)))))))))))))))), rv0, hR.r18]
  all_goals rfl

theorem R_v142  :
    (rv16 V0 (Proc.devRef .tc Cert.ReferenceIdeal.main_v142) : FVec Ideal Cert.ReferenceIdeal.S160000x128 .f32) = maximumf (rv16 V0 (Proc.devRef .tc Cert.ReferenceIdeal.main_v141)) (broadcastInDim Cert.ReferenceIdeal.S160000x128 ![] Cert.ReferenceIdeal.Facts₀.bcast_S_S160000x128 (constant (F := Ideal) Cert.ReferenceIdeal.S_ .f32 0x00000000#32)) := by
  have e18 := (read_binary (L := rS15) rS15_writes 18 rfl (by decide) (by decide) (by decide) (rv15 V0))
  have e17 := (read_unary (L := rS15) rS15_writes 17 rfl (by decide) (by decide) (rv15 V0))
  have e16 := (read_nullary (L := rS15) rS15_writes 16 rfl (by decide) (rv15 V0))
  rw [rv16_eq_rS15 V0]
  rw [e18, e17, e16]
  rw [← rv16_eq_rS15 V0]
  all_goals rfl

theorem R_v147c (hR : RHolds V0 A) :
    (rv16 V0 (Proc.devRef .tc Cert.ReferenceIdeal.main_v147) : FVec Ideal Cert.ReferenceIdeal.S160000x64 .f32) = addf (Host.dotGeneral (F := Ideal) (φ₁ := .f32) (φ₂ := .f32) Cert.ReferenceIdeal.dot_S160000x128_S128x64_S160000x64_1_0_0_1_n_n none (rv16 V0 (Proc.devRef .tc Cert.ReferenceIdeal.main_v142) : FVec Ideal Cert.ReferenceIdeal.S160000x128 .f32) (transpose Cert.ReferenceIdeal.S128x64 [1, 0] A.x19 Cert.ReferenceIdeal.Facts₀.transposes_S64x128_S128x64_1_0)) (broadcastInDim Cert.ReferenceIdeal.S160000x64 ![0, 1] Cert.ReferenceIdeal.Facts₀.bcast_S1x64_S160000x64_0_1 (broadcastInDim Cert.ReferenceIdeal.S1x64 ![1] Cert.ReferenceIdeal.Facts₀.bcast_S64_S1x64_1 A.x20)) := by
  have e23 := (read_binary (L := rS15) rS15_writes 23 rfl (by decide) (by decide) (by decide) (rv15 V0))
  have e22 := (read_unary (L := rS15) rS15_writes 22 rfl (by decide) (by decide) (rv15 V0))
  have e21 := (read_unary (L := rS15) rS15_writes 21 rfl (by decide) (by decide) (rv15 V0))
  have e20 := (read_binary (L := rS15) rS15_writes 20 rfl (by decide) (by decide) (by decide) (rv15 V0))
  have e19 := (read_unary (L := rS15) rS15_writes 19 rfl (by decide) (by decide) (rv15 V0))
  rw [rv16_eq_rS15 V0]
  rw [e23, e22, e21, e20, e19]
  rw [read_keep (L := rS15) rS15_writes (r := Cert.ReferenceIdeal.main_arg19) (by decide) (rv15 V0),
    read_keep (L := rS15) rS15_writes (r := Cert.ReferenceIdeal.main_arg20) (by decide) (rv15 V0)]
  rw [← rv16_eq_rS15 V0]
  rw [((rv15_keep V0 Cert.ReferenceIdeal.main_arg19 (by decide)).trans ((rv14_keep V0 Cert.ReferenceIdeal.main_arg19 (by decide)).trans ((rv13_keep V0 Cert.ReferenceIdeal.main_arg19 (by decide)).trans ((rv12_keep V0 Cert.ReferenceIdeal.main_arg19 (by decide)).trans ((rv11_keep V0 Cert.ReferenceIdeal.main_arg19 (by decide)).trans ((rv10_keep V0 Cert.ReferenceIdeal.main_arg19 (by decide)).trans ((rv9_keep V0 Cert.ReferenceIdeal.main_arg19 (by decide)).trans ((rv8_keep V0 Cert.ReferenceIdeal.main_arg19 (by decide)).trans ((rv7_keep V0 Cert.ReferenceIdeal.main_arg19 (by decide)).trans ((rv6_keep V0 Cert.ReferenceIdeal.main_arg19 (by decide)).trans ((rv5_keep V0 Cert.ReferenceIdeal.main_arg19 (by decide)).trans ((rv4_keep V0 Cert.ReferenceIdeal.main_arg19 (by decide)).trans ((rv3_keep V0 Cert.ReferenceIdeal.main_arg19 (by decide)).trans ((rv2_keep V0 Cert.ReferenceIdeal.main_arg19 (by decide)).trans (rv1_keep V0 Cert.ReferenceIdeal.main_arg19 (by decide)))))))))))))))), rv0, hR.r19]
  rw [((rv15_keep V0 Cert.ReferenceIdeal.main_arg20 (by decide)).trans ((rv14_keep V0 Cert.ReferenceIdeal.main_arg20 (by decide)).trans ((rv13_keep V0 Cert.ReferenceIdeal.main_arg20 (by decide)).trans ((rv12_keep V0 Cert.ReferenceIdeal.main_arg20 (by decide)).trans ((rv11_keep V0 Cert.ReferenceIdeal.main_arg20 (by decide)).trans ((rv10_keep V0 Cert.ReferenceIdeal.main_arg20 (by decide)).trans ((rv9_keep V0 Cert.ReferenceIdeal.main_arg20 (by decide)).trans ((rv8_keep V0 Cert.ReferenceIdeal.main_arg20 (by decide)).trans ((rv7_keep V0 Cert.ReferenceIdeal.main_arg20 (by decide)).trans ((rv6_keep V0 Cert.ReferenceIdeal.main_arg20 (by decide)).trans ((rv5_keep V0 Cert.ReferenceIdeal.main_arg20 (by decide)).trans ((rv4_keep V0 Cert.ReferenceIdeal.main_arg20 (by decide)).trans ((rv3_keep V0 Cert.ReferenceIdeal.main_arg20 (by decide)).trans ((rv2_keep V0 Cert.ReferenceIdeal.main_arg20 (by decide)).trans (rv1_keep V0 Cert.ReferenceIdeal.main_arg20 (by decide)))))))))))))))), rv0, hR.r20]
  all_goals rfl

theorem R_v147 (hR : RHolds V0 A) :
    (rv16 V0 (Proc.devRef .tc Cert.ReferenceIdeal.main_v147) : FVec Ideal Cert.ReferenceIdeal.S160000x64 .f32) = bnLin2 (rv15 V0 (Proc.devRef .tc Cert.ReferenceIdeal.main_v122)) (broadcastInDim Cert.ReferenceIdeal.S1x128 ![1] Cert.ReferenceIdeal.Facts₀.bcast_S128_S1x128_1 (rv15 V0 (Proc.devRef .tc Cert.ReferenceIdeal.main_v125))) (broadcastInDim Cert.ReferenceIdeal.S1x128 ![1] Cert.ReferenceIdeal.Facts₀.bcast_S128_S1x128_1 (rv15 V0 (Proc.devRef .tc Cert.ReferenceIdeal.main_v126))) (broadcastInDim Cert.ReferenceIdeal.S1x128 ![1] Cert.ReferenceIdeal.Facts₀.bcast_S128_S1x128_1 A.x17) (broadcastInDim Cert.ReferenceIdeal.S1x128 ![1] Cert.ReferenceIdeal.Facts₀.bcast_S128_S1x128_1 A.x18) (transpose Cert.ReferenceIdeal.S128x64 [1, 0] A.x19 Cert.ReferenceIdeal.Facts₀.transposes_S64x128_S128x64_1_0) (broadcastInDim Cert.ReferenceIdeal.S1x64 ![1] Cert.ReferenceIdeal.Facts₀.bcast_S64_S1x64_1 A.x20) := by
  rw [R_v147c hR, R_v142, R_v141 hR]
  unfold bnLin2
  rw [Cert.Seams.rsqrt_row_128]

/-- The second recovery layer, before normalisation. -/
theorem st_v104 (hK : KHolds m ρ c A) (hR : RHolds V0 A) :
    (W16 m ρ c (Proc.devRef .tc Cert.KernelIdeal.main_v104) : FVec Ideal Cert.KernelIdeal.S160000x64 .f32) = (rv16 V0 (Proc.devRef .tc Cert.ReferenceIdeal.main_v147) : FVec Ideal Cert.ReferenceIdeal.S160000x64 .f32) := by
  rw [Cert.KernelIdeal.Stages.W16_main_v104 m ρ c, R_v147 hR]
  show bnLin2 (W15 m ρ c (Proc.devRef .tc Cert.KernelIdeal.main_v98)) (W15 m ρ c (Proc.devRef .tc Cert.KernelIdeal.main_v102)) (W15 m ρ c (Proc.devRef .tc Cert.KernelIdeal.main_v103)) (W15 m ρ c (Proc.devRef .tc Cert.KernelIdeal.main_v53)) (W15 m ρ c (Proc.devRef .tc Cert.KernelIdeal.main_v54)) (W15 m ρ c (Proc.devRef .tc Cert.KernelIdeal.main_v55)) (W15 m ρ c (Proc.devRef .tc Cert.KernelIdeal.main_v56)) = _
  rw [s1_in_z hK hR,
    s1_mean hK hR,
    s1_var hK hR,
    ((W15_keep m ρ c Cert.KernelIdeal.main_v53 (by decide)).trans ((W14_keep m ρ c Cert.KernelIdeal.main_v53 (by decide)).trans ((W13_of_ne m ρ c Cert.KernelIdeal.main_v53 (by decide)).trans ((W12_of_ne m ρ c Cert.KernelIdeal.main_v53 (by decide)).trans ((W11_keep m ρ c Cert.KernelIdeal.main_v53 (by decide)).trans ((W10_of_ne m ρ c Cert.KernelIdeal.main_v53 (by decide)).trans ((W9_of_ne m ρ c Cert.KernelIdeal.main_v53 (by decide)).trans ((W8_keep m ρ c Cert.KernelIdeal.main_v53 (by decide)).trans ((W7_of_ne m ρ c Cert.KernelIdeal.main_v53 (by decide)).trans (W6_of_ne m ρ c Cert.KernelIdeal.main_v53 (by decide))))))))))), kp_main_v53 hK,
    ((W15_keep m ρ c Cert.KernelIdeal.main_v54 (by decide)).trans ((W14_keep m ρ c Cert.KernelIdeal.main_v54 (by decide)).trans ((W13_of_ne m ρ c Cert.KernelIdeal.main_v54 (by decide)).trans ((W12_of_ne m ρ c Cert.KernelIdeal.main_v54 (by decide)).trans ((W11_keep m ρ c Cert.KernelIdeal.main_v54 (by decide)).trans ((W10_of_ne m ρ c Cert.KernelIdeal.main_v54 (by decide)).trans ((W9_of_ne m ρ c Cert.KernelIdeal.main_v54 (by decide)).trans ((W8_keep m ρ c Cert.KernelIdeal.main_v54 (by decide)).trans ((W7_of_ne m ρ c Cert.KernelIdeal.main_v54 (by decide)).trans (W6_of_ne m ρ c Cert.KernelIdeal.main_v54 (by decide))))))))))), kp_main_v54 hK,
    ((W15_keep m ρ c Cert.KernelIdeal.main_v55 (by decide)).trans ((W14_keep m ρ c Cert.KernelIdeal.main_v55 (by decide)).trans ((W13_of_ne m ρ c Cert.KernelIdeal.main_v55 (by decide)).trans ((W12_of_ne m ρ c Cert.KernelIdeal.main_v55 (by decide)).trans ((W11_keep m ρ c Cert.KernelIdeal.main_v55 (by decide)).trans ((W10_of_ne m ρ c Cert.KernelIdeal.main_v55 (by decide)).trans ((W9_of_ne m ρ c Cert.KernelIdeal.main_v55 (by decide)).trans ((W8_keep m ρ c Cert.KernelIdeal.main_v55 (by decide)).trans ((W7_of_ne m ρ c Cert.KernelIdeal.main_v55 (by decide)).trans (W6_of_ne m ρ c Cert.KernelIdeal.main_v55 (by decide))))))))))), kp_main_v55 hK,
    ((W15_keep m ρ c Cert.KernelIdeal.main_v56 (by decide)).trans ((W14_keep m ρ c Cert.KernelIdeal.main_v56 (by decide)).trans ((W13_of_ne m ρ c Cert.KernelIdeal.main_v56 (by decide)).trans ((W12_of_ne m ρ c Cert.KernelIdeal.main_v56 (by decide)).trans ((W11_keep m ρ c Cert.KernelIdeal.main_v56 (by decide)).trans ((W10_of_ne m ρ c Cert.KernelIdeal.main_v56 (by decide)).trans ((W9_of_ne m ρ c Cert.KernelIdeal.main_v56 (by decide)).trans ((W8_keep m ρ c Cert.KernelIdeal.main_v56 (by decide)).trans ((W7_of_ne m ρ c Cert.KernelIdeal.main_v56 (by decide)).trans (W6_of_ne m ρ c Cert.KernelIdeal.main_v56 (by decide))))))))))), kp_main_v56 hK]
  all_goals rfl

end Cert.Bridge

end
-- ==== Proof.BStats2.lean ====
/-
  The batch statistics of the second recovery layer: the same mean and variance as for the first layer, over the 64
  columns of the second layer's output, kept as rows by one program and as vectors by the other.
-/
import proofs.«175455_j86191403696584_1_alg».proof.Proof.BSt6
import Idealize.ShloMosaic.Lib.IdealHost
import Idealize.ShloMosaic.Lib.ValueLayout

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Stages Cert.ReferenceIdeal.RunValue Cert.KernelIdeal.Regions Cert.Lib.Ssa

variable {m : (ℓ : Loc Cert.KernelIdeal.nD Cert.KernelIdeal.τ Cert.KernelIdeal.sig) → Buf (Elt Ideal) ℓ} {ρ : Dev Cert.KernelIdeal.nD → PrngReg} {c : Dev Cert.KernelIdeal.nD}
variable {V0 : Valuation Cert.ReferenceIdeal.τ Cert.ReferenceIdeal.sig (Elt Ideal)} {A : Args}

theorem s2_in_z (hK : KHolds m ρ c A) (hR : RHolds V0 A) :
    (W18 m ρ c (Proc.devRef .tc Cert.KernelIdeal.main_v104) : FVec Ideal Cert.KernelIdeal.S160000x64 .f32) = (rv17 V0 (Proc.devRef .tc Cert.ReferenceIdeal.main_v147) : FVec Ideal Cert.ReferenceIdeal.S160000x64 .f32) := by
  rw [((W18_keep m ρ c Cert.KernelIdeal.main_v104 (by decide)).trans (W17_keep m ρ c Cert.KernelIdeal.main_v104 (by decide))), (rv17_keep V0 Cert.ReferenceIdeal.main_v147 (by decide))]
  exact st_v104 hK hR

theorem s2_main_cst_19 (hK : KHolds m ρ c A) (hR : RHolds V0 A) :
    (W18 m ρ c (Proc.devRef .tc Cert.KernelIdeal.main_cst_19) : FVec Ideal Cert.KernelIdeal.S_ .f32) = (rv17 V0 (Proc.devRef .tc Cert.ReferenceIdeal.main_cst_20) : FVec Ideal Cert.ReferenceIdeal.S_ .f32) := by
  have e1 := (read_nullary (L := kM2) kM2_writes 0 rfl (by decide) (W16 m ρ c))
  have e2 := (read_nullary (L := rS16) rS16_writes 0 rfl (by decide) (rv16 V0))
  rw [← W18_eq_kM2 m ρ c] at e1
  rw [← rv17_eq_rS16 V0] at e2
  rw [e1, e2]
  all_goals rfl

theorem s2_main_v105 (hK : KHolds m ρ c A) (hR : RHolds V0 A) :
    (W18 m ρ c (Proc.devRef .tc Cert.KernelIdeal.main_v105) : FVec Ideal Cert.KernelIdeal.S64 .f32) = (rv17 V0 (Proc.devRef .tc Cert.ReferenceIdeal.main_v148) : FVec Ideal Cert.ReferenceIdeal.S64 .f32) := by
  have e1 := (read_binary (L := kM2) kM2_writes 1 rfl (by decide) (by decide) (by decide) (W16 m ρ c))
  have e2 := (read_binary (L := rS16) rS16_writes 1 rfl (by decide) (by decide) (by decide) (rv16 V0))
  rw [← W18_eq_kM2 m ρ c] at e1
  rw [← rv17_eq_rS16 V0] at e2
  rw [e1, e2, s2_in_z hK hR, s2_main_cst_19 hK hR]
  all_goals rfl

theorem s2_main_cst_20 (hK : KHolds m ρ c A) (hR : RHolds V0 A) :
    (W18 m ρ c (Proc.devRef .tc Cert.KernelIdeal.main_cst_20) : FVec Ideal Cert.KernelIdeal.S_ .f32) = (rv17 V0 (Proc.devRef .tc Cert.ReferenceIdeal.main_cst_21) : FVec Ideal Cert.ReferenceIdeal.S_ .f32) := by
  have e1 := (read_nullary (L := kM2) kM2_writes 3 rfl (by decide) (W16 m ρ c))
  have e2 := (read_nullary (L := rS16) rS16_writes 2 rfl (by decide) (rv16 V0))
  rw [← W18_eq_kM2 m ρ c] at e1
  rw [← rv17_eq_rS16 V0] at e2
  rw [e1, e2]
  all_goals rfl

theorem s2_main_c_21 (hK : KHolds m ρ c A) (hR : RHolds V0 A) :
    (W18 m ρ c (Proc.devRef .tc Cert.KernelIdeal.main_c_21) : IVec Cert.KernelIdeal.S_ 32) = (rv17 V0 (Proc.devRef .tc Cert.ReferenceIdeal.main_c_22) : IVec Cert.ReferenceIdeal.S_ 32) := by
  have e1 := (read_nullary (L := kM2) kM2_writes 6 rfl (by decide) (W16 m ρ c))
  have e2 := (read_nullary (L := rS16) rS16_writes 5 rfl (by decide) (rv16 V0))
  rw [← W18_eq_kM2 m ρ c] at e1
  rw [← rv17_eq_rS16 V0] at e2
  rw [e1, e2]
  all_goals rfl

theorem s2_main_call3_cst (hK : KHolds m ρ c A) (hR : RHolds V0 A) :
    (W18 m ρ c (Proc.devRef .tc Cert.KernelIdeal.main_call3_cst) : FVec Ideal Cert.KernelIdeal.S_ .f32) = (rv17 V0 (Proc.devRef .tc Cert.ReferenceIdeal.main_call6_cst) : FVec Ideal Cert.ReferenceIdeal.S_ .f32) := by
  have e1 := (read_nullary (L := kM2) kM2_writes 7 rfl (by decide) (W16 m ρ c))
  have e2 := (read_nullary (L := rS16) rS16_writes 6 rfl (by decide) (rv16 V0))
  rw [← W18_eq_kM2 m ρ c] at e1
  rw [← rv17_eq_rS16 V0] at e2
  rw [e1, e2]
  all_goals rfl

theorem s2_main_call3_v0 (hK : KHolds m ρ c A) (hR : RHolds V0 A) :
    (W18 m ρ c (Proc.devRef .tc Cert.KernelIdeal.main_call3_v0) : FVec Ideal Cert.KernelIdeal.S64 .f32) = (rv17 V0 (Proc.devRef .tc Cert.ReferenceIdeal.main_call6_v0) : FVec Ideal Cert.ReferenceIdeal.S64 .f32) := by
  have e1 := (read_binary (L := kM2) kM2_writes 8 rfl (by decide) (by decide) (by decide) (W16 m ρ c))
  have e2 := (read_binary (L := rS16) rS16_writes 7 rfl (by decide) (by decide) (by decide) (rv16 V0))
  rw [← W18_eq_kM2 m ρ c] at e1
  rw [← rv17_eq_rS16 V0] at e2
  rw [e1, e2, s2_in_z hK hR, s2_main_call3_cst hK hR]
  all_goals rfl

theorem s2_main_call3_v1 (hK : KHolds m ρ c A) (hR : RHolds V0 A) :
    (W18 m ρ c (Proc.devRef .tc Cert.KernelIdeal.main_call3_v1) : FVec Ideal Cert.KernelIdeal.S1x64 .f32) = (rv17 V0 (Proc.devRef .tc Cert.ReferenceIdeal.main_call6_v1) : FVec Ideal Cert.ReferenceIdeal.S1x64 .f32) := by
  have e1 := (read_unary (L := kM2) kM2_writes 9 rfl (by decide) (by decide) (W16 m ρ c))
  have e2 := (read_unary (L := rS16) rS16_writes 8 rfl (by decide) (by decide) (rv16 V0))
  rw [← W18_eq_kM2 m ρ c] at e1
  rw [← rv17_eq_rS16 V0] at e2
  rw [e1, e2, s2_main_call3_v0 hK hR]
  all_goals rfl

theorem s2_main_call3_cst_0 (hK : KHolds m ρ c A) (hR : RHolds V0 A) :
    (W18 m ρ c (Proc.devRef .tc Cert.KernelIdeal.main_call3_cst_0) : FVec Ideal Cert.KernelIdeal.S_ .f32) = (rv17 V0 (Proc.devRef .tc Cert.ReferenceIdeal.main_call6_cst_0) : FVec Ideal Cert.ReferenceIdeal.S_ .f32) := by
  have e1 := (read_nullary (L := kM2) kM2_writes 10 rfl (by decide) (W16 m ρ c))
  have e2 := (read_nullary (L := rS16) rS16_writes 9 rfl (by decide) (rv16 V0))
  rw [← W18_eq_kM2 m ρ c] at e1
  rw [← rv17_eq_rS16 V0] at e2
  rw [e1, e2]
  all_goals rfl

theorem s2_main_call3_v2 (hK : KHolds m ρ c A) (hR : RHolds V0 A) :
    (W18 m ρ c (Proc.devRef .tc Cert.KernelIdeal.main_call3_v2) : FVec Ideal Cert.KernelIdeal.S1x64 .f32) = (rv17 V0 (Proc.devRef .tc Cert.ReferenceIdeal.main_call6_v2) : FVec Ideal Cert.ReferenceIdeal.S1x64 .f32) := by
  have e1 := (read_unary (L := kM2) kM2_writes 11 rfl (by decide) (by decide) (W16 m ρ c))
  have e2 := (read_unary (L := rS16) rS16_writes 10 rfl (by decide) (by decide) (rv16 V0))
  rw [← W18_eq_kM2 m ρ c] at e1
  rw [← rv17_eq_rS16 V0] at e2
  rw [e1, e2, s2_main_call3_cst_0 hK hR]
  all_goals rfl

theorem s2_main_call3_v3 (hK : KHolds m ρ c A) (hR : RHolds V0 A) :
    (W18 m ρ c (Proc.devRef .tc Cert.KernelIdeal.main_call3_v3) : FVec Ideal Cert.KernelIdeal.S1x64 .f32) = (rv17 V0 (Proc.devRef .tc Cert.ReferenceIdeal.main_call6_v3) : FVec Ideal Cert.ReferenceIdeal.S1x64 .f32) := by
  have e1 := (read_binary (L := kM2) kM2_writes 12 rfl (by decide) (by decide) (by decide) (W16 m ρ c))
  have e2 := (read_binary (L := rS16) rS16_writes 11 rfl (by decide) (by decide) (by decide) (rv16 V0))
  rw [← W18_eq_kM2 m ρ c] at e1
  rw [← rv17_eq_rS16 V0] at e2
  rw [e1, e2, s2_main_call3_v1 hK hR, s2_main_call3_v2 hK hR]
  all_goals rfl

theorem s2_main_call3_v4 (hK : KHolds m ρ c A) (hR : RHolds V0 A) :
    (W18 m ρ c (Proc.devRef .tc Cert.KernelIdeal.main_call3_v4) : FVec Ideal Cert.KernelIdeal.S160000x64 .f32) = (rv17 V0 (Proc.devRef .tc Cert.ReferenceIdeal.main_call6_v4) : FVec Ideal Cert.ReferenceIdeal.S160000x64 .f32) := by
  have e1 := (read_unary (L := kM2) kM2_writes 13 rfl (by decide) (by decide) (W16 m ρ c))
  have e2 := (read_unary (L := rS16) rS16_writes 12 rfl (by decide) (by decide) (rv16 V0))
  rw [← W18_eq_kM2 m ρ c] at e1
  rw [← rv17_eq_rS16 V0] at e2
  rw [e1, e2, s2_main_call3_v3 hK hR]
  all_goals rfl

theorem s2_main_call3_v5 (hK : KHolds m ρ c A) (hR : RHolds V0 A) :
    (W18 m ρ c (Proc.devRef .tc Cert.KernelIdeal.main_call3_v5) : FVec Ideal Cert.KernelIdeal.S160000x64 .f32) = (rv17 V0 (Proc.devRef .tc Cert.ReferenceIdeal.main_call6_v5) : FVec Ideal Cert.ReferenceIdeal.S160000x64 .f32) := by
  have e1 := (read_binary (L := kM2) kM2_writes 14 rfl (by decide) (by decide) (by decide) (W16 m ρ c))
  have e2 := (read_binary (L := rS16) rS16_writes 13 rfl (by decide) (by decide) (by decide) (rv16 V0))
  rw [← W18_eq_kM2 m ρ c] at e1
  rw [← rv17_eq_rS16 V0] at e2
  rw [e1, e2, s2_in_z hK hR, s2_main_call3_v4 hK hR]
  all_goals rfl

theorem s2_main_call3_v6 (hK : KHolds m ρ c A) (hR : RHolds V0 A) :
    (W18 m ρ c (Proc.devRef .tc Cert.KernelIdeal.main_call3_v6) : FVec Ideal Cert.KernelIdeal.S160000x64 .f32) = (rv17 V0 (Proc.devRef .tc Cert.ReferenceIdeal.main_call6_v6) : FVec Ideal Cert.ReferenceIdeal.S160000x64 .f32) := by
  have e1 := (read_binary (L := kM2) kM2_writes 15 rfl (by decide) (by decide) (by decide) (W16 m ρ c))
  have e2 := (read_binary (L := rS16) rS16_writes 14 rfl (by decide) (by decide) (by decide) (rv16 V0))
  rw [← W18_eq_kM2 m ρ c] at e1
  rw [← rv17_eq_rS16 V0] at e2
  rw [e1, e2, s2_main_call3_v5 hK hR]
  all_goals rfl

theorem s2_main_call3_v7 (hK : KHolds m ρ c A) (hR : RHolds V0 A) :
    (W18 m ρ c (Proc.devRef .tc Cert.KernelIdeal.main_call3_v7) : FVec Ideal Cert.KernelIdeal.S_ .f32) = (rv17 V0 (Proc.devRef .tc Cert.ReferenceIdeal.main_call6_v7) : FVec Ideal Cert.ReferenceIdeal.S_ .f32) := by
  have e1 := (read_unary (L := kM2) kM2_writes 16 rfl (by decide) (by decide) (W16 m ρ c))
  have e2 := (read_unary (L := rS16) rS16_writes 15 rfl (by decide) (by decide) (rv16 V0))
  rw [← W18_eq_kM2 m ρ c] at e1
  rw [← rv17_eq_rS16 V0] at e2
  rw [e1, e2, s2_main_c_21 hK hR]
  all_goals rfl

theorem s2_main_call3_cst_1 (hK : KHolds m ρ c A) (hR : RHolds V0 A) :
    (W18 m ρ c (Proc.devRef .tc Cert.KernelIdeal.main_call3_cst_1) : FVec Ideal Cert.KernelIdeal.S_ .f32) = (rv17 V0 (Proc.devRef .tc Cert.ReferenceIdeal.main_call6_cst_1) : FVec Ideal Cert.ReferenceIdeal.S_ .f32) := by
  have e1 := (read_nullary (L := kM2) kM2_writes 17 rfl (by decide) (W16 m ρ c))
  have e2 := (read_nullary (L := rS16) rS16_writes 16 rfl (by decide) (rv16 V0))
  rw [← W18_eq_kM2 m ρ c] at e1
  rw [← rv17_eq_rS16 V0] at e2
  rw [e1, e2]
  all_goals rfl

theorem s2_main_call3_v8 (hK : KHolds m ρ c A) (hR : RHolds V0 A) :
    (W18 m ρ c (Proc.devRef .tc Cert.KernelIdeal.main_call3_v8) : FVec Ideal Cert.KernelIdeal.S_ .f32) = (rv17 V0 (Proc.devRef .tc Cert.ReferenceIdeal.main_call6_v8) : FVec Ideal Cert.ReferenceIdeal.S_ .f32) := by
  have e1 := (read_binary (L := kM2) kM2_writes 18 rfl (by decide) (by decide) (by decide) (W16 m ρ c))
  have e2 := (read_binary (L := rS16) rS16_writes 17 rfl (by decide) (by decide) (by decide) (rv16 V0))
  rw [← W18_eq_kM2 m ρ c] at e1
  rw [← rv17_eq_rS16 V0] at e2
  rw [e1, e2, s2_main_call3_cst_1 hK hR, s2_main_call3_v7 hK hR]
  all_goals rfl

theorem s2_main_call3_cst_2 (hK : KHolds m ρ c A) (hR : RHolds V0 A) :
    (W18 m ρ c (Proc.devRef .tc Cert.KernelIdeal.main_call3_cst_2) : FVec Ideal Cert.KernelIdeal.S_ .f32) = (rv17 V0 (Proc.devRef .tc Cert.ReferenceIdeal.main_call6_cst_2) : FVec Ideal Cert.ReferenceIdeal.S_ .f32) := by
  have e1 := (read_nullary (L := kM2) kM2_writes 19 rfl (by decide) (W16 m ρ c))
  have e2 := (read_nullary (L := rS16) rS16_writes 18 rfl (by decide) (rv16 V0))
  rw [← W18_eq_kM2 m ρ c] at e1
  rw [← rv17_eq_rS16 V0] at e2
  rw [e1, e2]
  all_goals rfl

theorem s2_main_call3_v9 (hK : KHolds m ρ c A) (hR : RHolds V0 A) :
    (W18 m ρ c (Proc.devRef .tc Cert.KernelIdeal.main_call3_v9) : FVec Ideal Cert.KernelIdeal.S64 .f32) = (rv17 V0 (Proc.devRef .tc Cert.ReferenceIdeal.main_call6_v9) : FVec Ideal Cert.ReferenceIdeal.S64 .f32) := by
  have e1 := (read_binary (L := kM2) kM2_writes 20 rfl (by decide) (by decide) (by decide) (W16 m ρ c))
  have e2 := (read_binary (L := rS16) rS16_writes 19 rfl (by decide) (by decide) (by decide) (rv16 V0))
  rw [← W18_eq_kM2 m ρ c] at e1
  rw [← rv17_eq_rS16 V0] at e2
  rw [e1, e2, s2_main_call3_v6 hK hR, s2_main_call3_cst_2 hK hR]
  all_goals rfl

theorem s2_main_call3_cst_3 (hK : KHolds m ρ c A) (hR : RHolds V0 A) :
    (W18 m ρ c (Proc.devRef .tc Cert.KernelIdeal.main_call3_cst_3) : FVec Ideal Cert.KernelIdeal.S_ .f32) = (rv17 V0 (Proc.devRef .tc Cert.ReferenceIdeal.main_call6_cst_3) : FVec Ideal Cert.ReferenceIdeal.S_ .f32) := by
  have e1 := (read_nullary (L := kM2) kM2_writes 24 rfl (by decide) (W16 m ρ c))
  have e2 := (read_nullary (L := rS16) rS16_writes 22 rfl (by decide) (rv16 V0))
  rw [← W18_eq_kM2 m ρ c] at e1
  rw [← rv17_eq_rS16 V0] at e2
  rw [e1, e2]
  all_goals rfl

theorem s2_main_call3_v13 (hK : KHolds m ρ c A) (hR : RHolds V0 A) :
    (W18 m ρ c (Proc.devRef .tc Cert.KernelIdeal.main_call3_v13) : IVec Cert.KernelIdeal.S_ 1) = (rv17 V0 (Proc.devRef .tc Cert.ReferenceIdeal.main_call6_v12) : IVec Cert.ReferenceIdeal.S_ 1) := by
  have e1 := (read_binary (L := kM2) kM2_writes 25 rfl (by decide) (by decide) (by decide) (W16 m ρ c))
  have e2 := (read_binary (L := rS16) rS16_writes 23 rfl (by decide) (by decide) (by decide) (rv16 V0))
  rw [← W18_eq_kM2 m ρ c] at e1
  rw [← rv17_eq_rS16 V0] at e2
  rw [e1, e2, s2_main_call3_v8 hK hR, s2_main_call3_cst_3 hK hR]
  all_goals rfl

theorem s2_main_call3_cst_4 (hK : KHolds m ρ c A) (hR : RHolds V0 A) :
    (W18 m ρ c (Proc.devRef .tc Cert.KernelIdeal.main_call3_cst_4) : FVec Ideal Cert.KernelIdeal.S_ .f32) = (rv17 V0 (Proc.devRef .tc Cert.ReferenceIdeal.main_call6_cst_4) : FVec Ideal Cert.ReferenceIdeal.S_ .f32) := by
  have e1 := (read_nullary (L := kM2) kM2_writes 26 rfl (by decide) (W16 m ρ c))
  have e2 := (read_nullary (L := rS16) rS16_writes 24 rfl (by decide) (rv16 V0))
  rw [← W18_eq_kM2 m ρ c] at e1
  rw [← rv17_eq_rS16 V0] at e2
  rw [e1, e2]
  all_goals rfl

theorem s2_main_call3_call0_v0 (hK : KHolds m ρ c A) (hR : RHolds V0 A) :
    (W18 m ρ c (Proc.devRef .tc Cert.KernelIdeal.main_call3_call0_v0) : FVec Ideal Cert.KernelIdeal.S_ .f32) = (rv17 V0 (Proc.devRef .tc Cert.ReferenceIdeal.main_call6_call0_v0) : FVec Ideal Cert.ReferenceIdeal.S_ .f32) := by
  have e1 := (read_unary (L := kM2) kM2_writes 27 rfl (by decide) (by decide) (W16 m ρ c))
  have e2 := (read_unary (L := rS16) rS16_writes 25 rfl (by decide) (by decide) (rv16 V0))
  rw [← W18_eq_kM2 m ρ c] at e1
  rw [← rv17_eq_rS16 V0] at e2
  rw [e1, e2, s2_main_call3_cst_4 hK hR]
  all_goals rfl

/-- The batch mean as a row: the kernel's keepdims mean is the reference's mean vector made a row. -/
theorem s2_mean (hK : KHolds m ρ c A) (hR : RHolds V0 A) :
    (W18 m ρ c (Proc.devRef .tc Cert.KernelIdeal.main_v108) : FVec Ideal Cert.KernelIdeal.S1x64 .f32) = (broadcastInDim Cert.ReferenceIdeal.S1x64 ![1] Cert.ReferenceIdeal.Facts₀.bcast_S64_S1x64_1 (rv17 V0 (Proc.devRef .tc Cert.ReferenceIdeal.main_v150))) := by
  have k5 := (read_binary (L := kM2) kM2_writes 5 rfl (by decide) (by decide) (by decide) (W16 m ρ c))
  have k2 := (read_unary (L := kM2) kM2_writes 2 rfl (by decide) (by decide) (W16 m ρ c))
  have k4 := (read_unary (L := kM2) kM2_writes 4 rfl (by decide) (by decide) (W16 m ρ c))
  rw [← W18_eq_kM2 m ρ c] at k5 k2 k4
  have r4 := (read_binary (L := rS16) rS16_writes 4 rfl (by decide) (by decide) (by decide) (rv16 V0))
  have r3 := (read_unary (L := rS16) rS16_writes 3 rfl (by decide) (by decide) (rv16 V0))
  rw [← rv17_eq_rS16 V0] at r4 r3
  rw [k5, k2, k4, r4, r3, s2_main_v105 hK hR, s2_main_cst_20 hK hR]
  exact Cert.Seams.mean_row_64 _ _

set_option maxRecDepth 200000 in
/-- The batch variance as a row: the kernel's keepdims variance is the reference's variance vector made a row. -/
theorem s2_var (hK : KHolds m ρ c A) (hR : RHolds V0 A) :
    (W18 m ρ c (Proc.devRef .tc Cert.KernelIdeal.main_v109) : FVec Ideal Cert.KernelIdeal.S1x64 .f32) = (broadcastInDim Cert.ReferenceIdeal.S1x64 ![1] Cert.ReferenceIdeal.Facts₀.bcast_S64_S1x64_1 (rv17 V0 (Proc.devRef .tc Cert.ReferenceIdeal.main_v151))) := by
  have k29 := (read_ternary (L := kM2) kM2_writes 29 rfl (by decide) (by decide) (by decide) (by decide) (W16 m ρ c))
  have k23 := (read_binary (L := kM2) kM2_writes 23 rfl (by decide) (by decide) (by decide) (W16 m ρ c))
  have k21 := (read_unary (L := kM2) kM2_writes 21 rfl (by decide) (by decide) (W16 m ρ c))
  have k22 := (read_unary (L := kM2) kM2_writes 22 rfl (by decide) (by decide) (W16 m ρ c))
  have k28 := (read_unary (L := kM2) kM2_writes 28 rfl (by decide) (by decide) (W16 m ρ c))
  rw [← W18_eq_kM2 m ρ c] at k29 k23 k21 k22 k28
  have r27 := (read_ternary (L := rS16) rS16_writes 27 rfl (by decide) (by decide) (by decide) (by decide) (rv16 V0))
  have r21 := (read_binary (L := rS16) rS16_writes 21 rfl (by decide) (by decide) (by decide) (rv16 V0))
  have r20 := (read_unary (L := rS16) rS16_writes 20 rfl (by decide) (by decide) (rv16 V0))
  have r26 := (read_unary (L := rS16) rS16_writes 26 rfl (by decide) (by decide) (rv16 V0))
  rw [← rv17_eq_rS16 V0] at r27 r21 r20 r26
  rw [k29, k23, k21, k22, k28, r27, r21, r20, r26, s2_main_call3_v13 hK hR, s2_main_call3_v9 hK hR, s2_main_call3_v8 hK hR, s2_main_call3_call0_v0 hK hR]
  exact Cert.Seams.var_row_64 (rv17 V0 (Proc.devRef .tc Cert.ReferenceIdeal.main_call6_v12)) (rv17 V0 (Proc.devRef .tc Cert.ReferenceIdeal.main_call6_v9)) (rv17 V0 (Proc.devRef .tc Cert.ReferenceIdeal.main_call6_v8)) (rv17 V0 (Proc.devRef .tc Cert.ReferenceIdeal.main_call6_call0_v0))

end Cert.Bridge

end
-- ==== Proof.BSt7.lean ====
/-
  The last region and the final reshape against the reference: normalise the second recovery layer by its batch
  statistics, scale, shift, relu, apply the last layer (64 → 1), and lay the 160000 results out as 32 graphs of 5000.
-/
import proofs.«175455_j86191403696584_1_alg».proof.Proof.BStats2
import Idealize.ShloMosaic.Lib.IdealHost
import Idealize.ShloMosaic.Lib.ValueLayout

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Gen Cert.KernelIdeal.Stages Cert.ReferenceIdeal.RunValue Cert.KernelIdeal.Regions Cert.Lib.Ssa

variable {m : (ℓ : Loc Cert.KernelIdeal.nD Cert.KernelIdeal.τ Cert.KernelIdeal.sig) → Buf (Elt Ideal) ℓ} {ρ : Dev Cert.KernelIdeal.nD → PrngReg} {c : Dev Cert.KernelIdeal.nD}
variable {V0 : Valuation Cert.ReferenceIdeal.τ Cert.ReferenceIdeal.sig (Elt Ideal)} {A : Args}

theorem R_v166 (hR : RHolds V0 A) :
    (rv19 V0 (Proc.devRef .tc Cert.ReferenceIdeal.main_v166) : FVec Ideal Cert.ReferenceIdeal.S160000x64 .f32) = addf (mulf (mulf (subf (rv17 V0 (Proc.devRef .tc Cert.ReferenceIdeal.main_v147)) (broadcastInDim Cert.ReferenceIdeal.S160000x64 ![0, 1] Cert.ReferenceIdeal.Facts₀.bcast_S1x64_S160000x64_0_1 (broadcastInDim Cert.ReferenceIdeal.S1x64 ![1] Cert.ReferenceIdeal.Facts₀.bcast_S64_S1x64_1 (rv17 V0 (Proc.devRef .tc Cert.ReferenceIdeal.main_v150))))) (broadcastInDim Cert.ReferenceIdeal.S160000x64 ![0, 1] Cert.ReferenceIdeal.Facts₀.bcast_S1x64_S160000x64_0_1 (broadcastInDim Cert.ReferenceIdeal.S1x64 ![1] Cert.ReferenceIdeal.Facts₀.bcast_S64_S1x64_1 (Host.rsqrt (addf (rv17 V0 (Proc.devRef .tc Cert.ReferenceIdeal.main_v151)) (broadcastInDim Cert.ReferenceIdeal.S64 ![] Cert.ReferenceIdeal.Facts₀.bcast_S_S64 (constant (F := Ideal) Cert.ReferenceIdeal.S_ .f32 0x3727C5AC#32))))))) (broadcastInDim Cert.ReferenceIdeal.S160000x64 ![0, 1] Cert.ReferenceIdeal.Facts₀.bcast_S1x64_S160000x64_0_1 (broadcastInDim Cert.ReferenceIdeal.S1x64 ![1] Cert.ReferenceIdeal.Facts₀.bcast_S64_S1x64_1 A.x21))) (broadcastInDim Cert.ReferenceIdeal.S160000x64 ![0, 1] Cert.ReferenceIdeal.Facts₀.bcast_S1x64_S160000x64_0_1 (broadcastInDim Cert.ReferenceIdeal.S1x64 ![1] Cert.ReferenceIdeal.Facts₀.bcast_S64_S1x64_1 A.x22)) := by
  have e15 := (read_binary (L := rS1718) rS1718_writes 15 rfl (by decide) (by decide) (by decide) (rv17 V0))
  have e14 := (read_unary (L := rS1718) rS1718_writes 14 rfl (by decide) (by decide) (rv17 V0))
  have e13 := (read_unary (L := rS1718) rS1718_writes 13 rfl (by decide) (by decide) (rv17 V0))
  have e12 := (read_binary (L := rS1718) rS1718_writes 12 rfl (by decide) (by decide) (by decide) (rv17 V0))
  have e11 := (read_unary (L := rS1718) rS1718_writes 11 rfl (by decide) (by decide) (rv17 V0))
  have e10 := (read_unary (L := rS1718) rS1718_writes 10 rfl (by decide) (by decide) (rv17 V0))
  have e9 := (read_binary (L := rS1718) rS1718_writes 9 rfl (by decide) (by decide) (by decide) (rv17 V0))
  have e8 := (read_unary (L := rS1718) rS1718_writes 8 rfl (by decide) (by decide) (rv17 V0))
  have e7 := (read_unary (L := rS1718) rS1718_writes 7 rfl (by decide) (by decide) (rv17 V0))
  have e6 := (read_unary (L := rS1718) rS1718_writes 6 rfl (by decide) (by decide) (rv17 V0))
  have e5 := (read_binary (L := rS1718) rS1718_writes 5 rfl (by decide) (by decide) (by decide) (rv17 V0))
  have e4 := (read_unary (L := rS1718) rS1718_writes 4 rfl (by decide) (by decide) (rv17 V0))
  have e3 := (read_nullary (L := rS1718) rS1718_writes 3 rfl (by decide) (rv17 V0))
  have e2 := (read_binary (L := rS1718) rS1718_writes 2 rfl (by decide) (by decide) (by decide) (rv17 V0))
  have e1 := (read_unary (L := rS1718) rS1718_writes 1 rfl (by decide) (by decide) (rv17 V0))
  have e0 := (read_unary (L := rS1718) rS1718_writes 0 rfl (by decide) (by decide) (rv17 V0))
  rw [rv19_eq_rS1718 V0]
  rw [e15, e14, e13, e12, e11, e10, e9, e8, e7, e6, e5, e4, e3, e2, e1, e0]
  rw [read_keep (L := rS1718) rS1718_writes (r := Cert.ReferenceIdeal.main_v147) (by decide) (rv17 V0),
    read_keep (L := rS1718) rS1718_writes (r := Cert.ReferenceIdeal.main_v150) (by decide) (rv17 V0),
    read_keep (L := rS1718) rS1718_writes (r := Cert.ReferenceIdeal.main_v151) (by decide) (rv17 V0),
    read_keep (L := rS1718) rS1718_writes (r := Cert.ReferenceIdeal.main_arg21) (by decide) (rv17 V0),
    read_keep (L := rS1718) rS1718_writes (r := Cert.ReferenceIdeal.main_arg22) (by decide) (rv17 V0)]
  rw [((rv17_keep V0 Cert.ReferenceIdeal.main_arg21 (by decide)).trans ((rv16_keep V0 Cert.ReferenceIdeal.main_arg21 (by decide)).trans ((rv15_keep V0 Cert.ReferenceIdeal.main_arg21 (by decide)).trans ((rv14_keep V0 Cert.ReferenceIdeal.main_arg21 (by decide)).trans ((rv13_keep V0 Cert.ReferenceIdeal.main_arg21 (by decide)).trans ((rv12_keep V0 Cert.ReferenceIdeal.main_arg21 (by decide)).trans ((rv11_keep V0 Cert.ReferenceIdeal.main_arg21 (by decide)).trans ((rv10_keep V0 Cert.ReferenceIdeal.main_arg21 (by decide)).trans ((rv9_keep V0 Cert.ReferenceIdeal.main_arg21 (by decide)).trans ((rv8_keep V0 Cert.ReferenceIdeal.main_arg21 (by decide)).trans ((rv7_keep V0 Cert.ReferenceIdeal.main_arg21 (by decide)).trans ((rv6_keep V0 Cert.ReferenceIdeal.main_arg21 (by decide)).trans ((rv5_keep V0 Cert.ReferenceIdeal.main_arg21 (by decide)).trans ((rv4_keep V0 Cert.ReferenceIdeal.main_arg21 (by decide)).trans ((rv3_keep V0 Cert.ReferenceIdeal.main_arg21 (by decide)).trans ((rv2_keep V0 Cert.ReferenceIdeal.main_arg21 (by decide)).trans (rv1_keep V0 Cert.ReferenceIdeal.main_arg21 (by decide)))))))))))))))))), rv0, hR.r21]
  rw [((rv17_keep V0 Cert.ReferenceIdeal.main_arg22 (by decide)).trans ((rv16_keep V0 Cert.ReferenceIdeal.main_arg22 (by decide)).trans ((rv15_keep V0 Cert.ReferenceIdeal.main_arg22 (by decide)).trans ((rv14_keep V0 Cert.ReferenceIdeal.main_arg22 (by decide)).trans ((rv13_keep V0 Cert.ReferenceIdeal.main_arg22 (by decide)).trans ((rv12_keep V0 Cert.ReferenceIdeal.main_arg22 (by decide)).trans ((rv11_keep V0 Cert.ReferenceIdeal.main_arg22 (by decide)).trans ((rv10_keep V0 Cert.ReferenceIdeal.main_arg22 (by decide)).trans ((rv9_keep V0 Cert.ReferenceIdeal.main_arg22 (by decide)).trans ((rv8_keep V0 Cert.ReferenceIdeal.main_arg22 (by decide)).trans ((rv7_keep V0 Cert.ReferenceIdeal.main_arg22 (by decide)).trans ((rv6_keep V0 Cert.ReferenceIdeal.main_arg22 (by decide)).trans ((rv5_keep V0 Cert.ReferenceIdeal.main_arg22 (by decide)).trans ((rv4_keep V0 Cert.ReferenceIdeal.main_arg22 (by decide)).trans ((rv3_keep V0 Cert.ReferenceIdeal.main_arg22 (by decide)).trans ((rv2_keep V0 Cert.ReferenceIdeal.main_arg22 (by decide)).trans (rv1_keep V0 Cert.ReferenceIdeal.main_arg22 (by decide)))))))))))))))))), rv0, hR.r22]
  all_goals rfl

theorem R_v167  :
    (rv19 V0 (Proc.devRef .tc Cert.ReferenceIdeal.main_v167) : FVec Ideal Cert.ReferenceIdeal.S160000x64 .f32) = maximumf (rv19 V0 (Proc.devRef .tc Cert.ReferenceIdeal.main_v166)) (broadcastInDim Cert.ReferenceIdeal.S160000x64 ![] Cert.ReferenceIdeal.Facts₀.bcast_S_S160000x64 (constant (F := Ideal) Cert.ReferenceIdeal.S_ .f32 0x00000000#32)) := by
  have e18 := (read_binary (L := rS1718) rS1718_writes 18 rfl (by decide) (by decide) (by decide) (rv17 V0))
  have e17 := (read_unary (L := rS1718) rS1718_writes 17 rfl (by decide) (by decide) (rv17 V0))
  have e16 := (read_nullary (L := rS1718) rS1718_writes 16 rfl (by decide) (rv17 V0))
  rw [rv19_eq_rS1718 V0]
  rw [e18, e17, e16]
  rw [← rv19_eq_rS1718 V0]
  all_goals rfl

theorem R_v172c (hR : RHolds V0 A) :
    (rv19 V0 (Proc.devRef .tc Cert.ReferenceIdeal.main_v172) : FVec Ideal Cert.ReferenceIdeal.S160000x1 .f32) = addf (Host.dotGeneral (F := Ideal) (φ₁ := .f32) (φ₂ := .f32) Cert.ReferenceIdeal.dot_S160000x64_S64x1_S160000x1_1_0_0_1_n_n none (rv19 V0 (Proc.devRef .tc Cert.ReferenceIdeal.main_v167) : FVec Ideal Cert.ReferenceIdeal.S160000x64 .f32) (transpose Cert.ReferenceIdeal.S64x1 [1, 0] A.x23 Cert.ReferenceIdeal.Facts₀.transposes_S1x64_S64x1_1_0)) (broadcastInDim Cert.ReferenceIdeal.S160000x1 ![0, 1] Cert.ReferenceIdeal.Facts₀.bcast_S1x1_S160000x1_0_1 (broadcastInDim Cert.ReferenceIdeal.S1x1 ![1] Cert.ReferenceIdeal.Facts₀.bcast_S1_S1x1_1 A.x24)) := by
  have e23 := (read_binary (L := rS1718) rS1718_writes 23 rfl (by decide) (by decide) (by decide) (rv17 V0))
  have e22 := (read_unary (L := rS1718) rS1718_writes 22 rfl (by decide) (by decide) (rv17 V0))
  have e21 := (read_unary (L := rS1718) rS1718_writes 21 rfl (by decide) (by decide) (rv17 V0))
  have e20 := (read_binary (L := rS1718) rS1718_writes 20 rfl (by decide) (by decide) (by decide) (rv17 V0))
  have e19 := (read_unary (L := rS1718) rS1718_writes 19 rfl (by decide) (by decide) (rv17 V0))
  rw [rv19_eq_rS1718 V0]
  rw [e23, e22, e21, e20, e19]
  rw [read_keep (L := rS1718) rS1718_writes (r := Cert.ReferenceIdeal.main_arg23) (by decide) (rv17 V0),
    read_keep (L := rS1718) rS1718_writes (r := Cert.ReferenceIdeal.main_arg24) (by decide) (rv17 V0)]
  rw [← rv19_eq_rS1718 V0]
  rw [((rv17_keep V0 Cert.ReferenceIdeal.main_arg23 (by decide)).trans ((rv16_keep V0 Cert.ReferenceIdeal.main_arg23 (by decide)).trans ((rv15_keep V0 Cert.ReferenceIdeal.main_arg23 (by decide)).trans ((rv14_keep V0 Cert.ReferenceIdeal.main_arg23 (by decide)).trans ((rv13_keep V0 Cert.ReferenceIdeal.main_arg23 (by decide)).trans ((rv12_keep V0 Cert.ReferenceIdeal.main_arg23 (by decide)).trans ((rv11_keep V0 Cert.ReferenceIdeal.main_arg23 (by decide)).trans ((rv10_keep V0 Cert.ReferenceIdeal.main_arg23 (by decide)).trans ((rv9_keep V0 Cert.ReferenceIdeal.main_arg23 (by decide)).trans ((rv8_keep V0 Cert.ReferenceIdeal.main_arg23 (by decide)).trans ((rv7_keep V0 Cert.ReferenceIdeal.main_arg23 (by decide)).trans ((rv6_keep V0 Cert.ReferenceIdeal.main_arg23 (by decide)).trans ((rv5_keep V0 Cert.ReferenceIdeal.main_arg23 (by decide)).trans ((rv4_keep V0 Cert.ReferenceIdeal.main_arg23 (by decide)).trans ((rv3_keep V0 Cert.ReferenceIdeal.main_arg23 (by decide)).trans ((rv2_keep V0 Cert.ReferenceIdeal.main_arg23 (by decide)).trans (rv1_keep V0 Cert.ReferenceIdeal.main_arg23 (by decide)))))))))))))))))), rv0, hR.r23]
  rw [((rv17_keep V0 Cert.ReferenceIdeal.main_arg24 (by decide)).trans ((rv16_keep V0 Cert.ReferenceIdeal.main_arg24 (by decide)).trans ((rv15_keep V0 Cert.ReferenceIdeal.main_arg24 (by decide)).trans ((rv14_keep V0 Cert.ReferenceIdeal.main_arg24 (by decide)).trans ((rv13_keep V0 Cert.ReferenceIdeal.main_arg24 (by decide)).trans ((rv12_keep V0 Cert.ReferenceIdeal.main_arg24 (by decide)).trans ((rv11_keep V0 Cert.ReferenceIdeal.main_arg24 (by decide)).trans ((rv10_keep V0 Cert.ReferenceIdeal.main_arg24 (by decide)).trans ((rv9_keep V0 Cert.ReferenceIdeal.main_arg24 (by decide)).trans ((rv8_keep V0 Cert.ReferenceIdeal.main_arg24 (by decide)).trans ((rv7_keep V0 Cert.ReferenceIdeal.main_arg24 (by decide)).trans ((rv6_keep V0 Cert.ReferenceIdeal.main_arg24 (by decide)).trans ((rv5_keep V0 Cert.ReferenceIdeal.main_arg24 (by decide)).trans ((rv4_keep V0 Cert.ReferenceIdeal.main_arg24 (by decide)).trans ((rv3_keep V0 Cert.ReferenceIdeal.main_arg24 (by decide)).trans ((rv2_keep V0 Cert.ReferenceIdeal.main_arg24 (by decide)).trans (rv1_keep V0 Cert.ReferenceIdeal.main_arg24 (by decide)))))))))))))))))), rv0, hR.r24]
  all_goals rfl

theorem R_v172 (hR : RHolds V0 A) :
    (rv19 V0 (Proc.devRef .tc Cert.ReferenceIdeal.main_v172) : FVec Ideal Cert.ReferenceIdeal.S160000x1 .f32) = bnLin3 (rv17 V0 (Proc.devRef .tc Cert.ReferenceIdeal.main_v147)) (broadcastInDim Cert.ReferenceIdeal.S1x64 ![1] Cert.ReferenceIdeal.Facts₀.bcast_S64_S1x64_1 (rv17 V0 (Proc.devRef .tc Cert.ReferenceIdeal.main_v150))) (broadcastInDim Cert.ReferenceIdeal.S1x64 ![1] Cert.ReferenceIdeal.Facts₀.bcast_S64_S1x64_1 (rv17 V0 (Proc.devRef .tc Cert.ReferenceIdeal.main_v151))) (broadcastInDim Cert.ReferenceIdeal.S1x64 ![1] Cert.ReferenceIdeal.Facts₀.bcast_S64_S1x64_1 A.x21) (broadcastInDim Cert.ReferenceIdeal.S1x64 ![1] Cert.ReferenceIdeal.Facts₀.bcast_S64_S1x64_1 A.x22) (transpose Cert.ReferenceIdeal.S64x1 [1, 0] A.x23 Cert.ReferenceIdeal.Facts₀.transposes_S1x64_S64x1_1_0) (broadcastInDim Cert.ReferenceIdeal.S1x1 ![1] Cert.ReferenceIdeal.Facts₀.bcast_S1_S1x1_1 A.x24) := by
  rw [R_v172c hR, R_v167, R_v166 hR]
  unfold bnLin3
  rw [Cert.Seams.rsqrt_row_64]

/-- The network's output, one value per node. -/
theorem st_v110 (hK : KHolds m ρ c A) (hR : RHolds V0 A) :
    (W19 m ρ c (Proc.devRef .tc Cert.KernelIdeal.main_v110) : FVec Ideal Cert.KernelIdeal.S160000x1 .f32) = (rv19 V0 (Proc.devRef .tc Cert.ReferenceIdeal.main_v172) : FVec Ideal Cert.ReferenceIdeal.S160000x1 .f32) := by
  rw [Cert.KernelIdeal.Stages.W19_main_v110 m ρ c, R_v172 hR]
  show bnLin3 (W18 m ρ c (Proc.devRef .tc Cert.KernelIdeal.main_v104)) (W18 m ρ c (Proc.devRef .tc Cert.KernelIdeal.main_v108)) (W18 m ρ c (Proc.devRef .tc Cert.KernelIdeal.main_v109)) (W18 m ρ c (Proc.devRef .tc Cert.KernelIdeal.main_v57)) (W18 m ρ c (Proc.devRef .tc Cert.KernelIdeal.main_v58)) (W18 m ρ c (Proc.devRef .tc Cert.KernelIdeal.main_v59)) (W18 m ρ c (Proc.devRef .tc Cert.KernelIdeal.main_v60)) = _
  rw [s2_in_z hK hR,
    s2_mean hK hR,
    s2_var hK hR,
    ((W18_keep m ρ c Cert.KernelIdeal.main_v57 (by decide)).trans ((W17_keep m ρ c Cert.KernelIdeal.main_v57 (by decide)).trans ((W16_of_ne m ρ c Cert.KernelIdeal.main_v57 (by decide)).trans ((W15_keep m ρ c Cert.KernelIdeal.main_v57 (by decide)).trans ((W14_keep m ρ c Cert.KernelIdeal.main_v57 (by decide)).trans ((W13_of_ne m ρ c Cert.KernelIdeal.main_v57 (by decide)).trans ((W12_of_ne m ρ c Cert.KernelIdeal.main_v57 (by decide)).trans ((W11_keep m ρ c Cert.KernelIdeal.main_v57 (by decide)).trans ((W10_of_ne m ρ c Cert.KernelIdeal.main_v57 (by decide)).trans ((W9_of_ne m ρ c Cert.KernelIdeal.main_v57 (by decide)).trans ((W8_keep m ρ c Cert.KernelIdeal.main_v57 (by decide)).trans ((W7_of_ne m ρ c Cert.KernelIdeal.main_v57 (by decide)).trans (W6_of_ne m ρ c Cert.KernelIdeal.main_v57 (by decide)))))))))))))), kp_main_v57 hK,
    ((W18_keep m ρ c Cert.KernelIdeal.main_v58 (by decide)).trans ((W17_keep m ρ c Cert.KernelIdeal.main_v58 (by decide)).trans ((W16_of_ne m ρ c Cert.KernelIdeal.main_v58 (by decide)).trans ((W15_keep m ρ c Cert.KernelIdeal.main_v58 (by decide)).trans ((W14_keep m ρ c Cert.KernelIdeal.main_v58 (by decide)).trans ((W13_of_ne m ρ c Cert.KernelIdeal.main_v58 (by decide)).trans ((W12_of_ne m ρ c Cert.KernelIdeal.main_v58 (by decide)).trans ((W11_keep m ρ c Cert.KernelIdeal.main_v58 (by decide)).trans ((W10_of_ne m ρ c Cert.KernelIdeal.main_v58 (by decide)).trans ((W9_of_ne m ρ c Cert.KernelIdeal.main_v58 (by decide)).trans ((W8_keep m ρ c Cert.KernelIdeal.main_v58 (by decide)).trans ((W7_of_ne m ρ c Cert.KernelIdeal.main_v58 (by decide)).trans (W6_of_ne m ρ c Cert.KernelIdeal.main_v58 (by decide)))))))))))))), kp_main_v58 hK,
    ((W18_keep m ρ c Cert.KernelIdeal.main_v59 (by decide)).trans ((W17_keep m ρ c Cert.KernelIdeal.main_v59 (by decide)).trans ((W16_of_ne m ρ c Cert.KernelIdeal.main_v59 (by decide)).trans ((W15_keep m ρ c Cert.KernelIdeal.main_v59 (by decide)).trans ((W14_keep m ρ c Cert.KernelIdeal.main_v59 (by decide)).trans ((W13_of_ne m ρ c Cert.KernelIdeal.main_v59 (by decide)).trans ((W12_of_ne m ρ c Cert.KernelIdeal.main_v59 (by decide)).trans ((W11_keep m ρ c Cert.KernelIdeal.main_v59 (by decide)).trans ((W10_of_ne m ρ c Cert.KernelIdeal.main_v59 (by decide)).trans ((W9_of_ne m ρ c Cert.KernelIdeal.main_v59 (by decide)).trans ((W8_keep m ρ c Cert.KernelIdeal.main_v59 (by decide)).trans ((W7_of_ne m ρ c Cert.KernelIdeal.main_v59 (by decide)).trans (W6_of_ne m ρ c Cert.KernelIdeal.main_v59 (by decide)))))))))))))), kp_main_v59 hK,
    ((W18_keep m ρ c Cert.KernelIdeal.main_v60 (by decide)).trans ((W17_keep m ρ c Cert.KernelIdeal.main_v60 (by decide)).trans ((W16_of_ne m ρ c Cert.KernelIdeal.main_v60 (by decide)).trans ((W15_keep m ρ c Cert.KernelIdeal.main_v60 (by decide)).trans ((W14_keep m ρ c Cert.KernelIdeal.main_v60 (by decide)).trans ((W13_of_ne m ρ c Cert.KernelIdeal.main_v60 (by decide)).trans ((W12_of_ne m ρ c Cert.KernelIdeal.main_v60 (by decide)).trans ((W11_keep m ρ c Cert.KernelIdeal.main_v60 (by decide)).trans ((W10_of_ne m ρ c Cert.KernelIdeal.main_v60 (by decide)).trans ((W9_of_ne m ρ c Cert.KernelIdeal.main_v60 (by decide)).trans ((W8_keep m ρ c Cert.KernelIdeal.main_v60 (by decide)).trans ((W7_of_ne m ρ c Cert.KernelIdeal.main_v60 (by decide)).trans (W6_of_ne m ρ c Cert.KernelIdeal.main_v60 (by decide)))))))))))))), kp_main_v60 hK]
  all_goals rfl

theorem f_in (hK : KHolds m ρ c A) (hR : RHolds V0 A) :
    (W20 m ρ c (Proc.devRef .tc Cert.KernelIdeal.main_v110) : FVec Ideal Cert.KernelIdeal.S160000x1 .f32) = (rv20 V0 (Proc.devRef .tc Cert.ReferenceIdeal.main_v172) : FVec Ideal Cert.ReferenceIdeal.S160000x1 .f32) := by
  rw [(W20_keep m ρ c Cert.KernelIdeal.main_v110 (by decide)), (rv20_keep V0 Cert.ReferenceIdeal.main_v172 (by decide))]
  exact st_v110 hK hR

theorem f_main_v111 (hK : KHolds m ρ c A) (hR : RHolds V0 A) :
    (W20 m ρ c (Proc.devRef .tc Cert.KernelIdeal.main_v111) : FVec Ideal Cert.KernelIdeal.S32x5000 .f32) = (rv20 V0 (Proc.devRef .tc Cert.ReferenceIdeal.main_v173) : FVec Ideal Cert.ReferenceIdeal.S32x5000 .f32) := by
  have e1 := (read_reshape (L := kH8) kH8_writes 0 rfl (by decide) (by decide) (W19 m ρ c))
  have e2 := (read_reshape (L := rS19) rS19_writes 0 rfl (by decide) (by decide) (rv19 V0))
  rw [← W20_eq_kH8 m ρ c] at e1
  rw [← rv20_eq_rS19 V0] at e2
  rw [e1, e2, f_in hK hR]
  all_goals rfl

end Cert.Bridge

end
-- ==== Proof.lean ====
/-
  The claims assembled.

  The two frame claims of the kernel programs are the generated frame certificates. The reference's frame is its run
  with the argument buffers read back: no operation of its twenty segments writes an argument. The idealized kernel and
  the idealized reference end with equal results: the kernel's run leaves the result buffer at the last boundary's
  contents; the reference's run leaves its result at the fold of its operations; and stage by stage the two folds hold
  the same arrays (the edge bookkeeping and the embedding renormalisation operation by operation, each region's output
  as the reference's own host operations on the whole arrays, the aggregations and batch statistics operation by
  operation), down to the final reshape. No step uses finiteness of the inputs: every comparison is between the same
  operations in the same order, regrouped only by rows.
-/
import proofs.«175455_j86191403696584_1_alg».proof.Defs
import proofs.«175455_j86191403696584_1_alg».proof.Proof.Gen.Kernel
import proofs.«175455_j86191403696584_1_alg».proof.Proof.Gen.Kernel.Frame
import proofs.«175455_j86191403696584_1_alg».proof.Proof.Gen.KernelIdeal
import proofs.«175455_j86191403696584_1_alg».proof.Proof.Gen.KernelIdeal.Frame
import proofs.«175455_j86191403696584_1_alg».proof.Proof.Gen.ReferenceIdeal
import proofs.«175455_j86191403696584_1_alg».proof.Proof.Gen.Pre_finite_inputs
import proofs.«175455_j86191403696584_1_alg».proof.Proof.KRun
import proofs.«175455_j86191403696584_1_alg».proof.Proof.BSt7

set_option maxRecDepth 16384

noncomputable section

namespace Cert.Proof

open Idealize.ShloMosaic Idealize.ShloMosaic.TcCoe Idealize.SL.Sem Idealize.ShloMosaic.StableHlo
open Cert.KernelIdeal.Gen Cert.ReferenceIdeal.RunValue Cert.Bridge

theorem keep_arg0 (V0 : Valuation Cert.ReferenceIdeal.τ Cert.ReferenceIdeal.sig (Elt Ideal)) :
    after Cert.ReferenceIdeal.RunValue.ops V0 (Proc.devRef .tc Cert.ReferenceIdeal.main_arg0) = V0 (Proc.devRef .tc Cert.ReferenceIdeal.main_arg0) :=
  (congrFun (after_ops V0) _).trans ((rv20_keep V0 Cert.ReferenceIdeal.main_arg0 (by decide)).trans ((rv19_keep V0 Cert.ReferenceIdeal.main_arg0 (by decide)).trans ((rv18_keep V0 Cert.ReferenceIdeal.main_arg0 (by decide)).trans ((rv17_keep V0 Cert.ReferenceIdeal.main_arg0 (by decide)).trans ((rv16_keep V0 Cert.ReferenceIdeal.main_arg0 (by decide)).trans ((rv15_keep V0 Cert.ReferenceIdeal.main_arg0 (by decide)).trans ((rv14_keep V0 Cert.ReferenceIdeal.main_arg0 (by decide)).trans ((rv13_keep V0 Cert.ReferenceIdeal.main_arg0 (by decide)).trans ((rv12_keep V0 Cert.ReferenceIdeal.main_arg0 (by decide)).trans ((rv11_keep V0 Cert.ReferenceIdeal.main_arg0 (by decide)).trans ((rv10_keep V0 Cert.ReferenceIdeal.main_arg0 (by decide)).trans ((rv9_keep V0 Cert.ReferenceIdeal.main_arg0 (by decide)).trans ((rv8_keep V0 Cert.ReferenceIdeal.main_arg0 (by decide)).trans ((rv7_keep V0 Cert.ReferenceIdeal.main_arg0 (by decide)).trans ((rv6_keep V0 Cert.ReferenceIdeal.main_arg0 (by decide)).trans ((rv5_keep V0 Cert.ReferenceIdeal.main_arg0 (by decide)).trans ((rv4_keep V0 Cert.ReferenceIdeal.main_arg0 (by decide)).trans ((rv3_keep V0 Cert.ReferenceIdeal.main_arg0 (by decide)).trans ((rv2_keep V0 Cert.ReferenceIdeal.main_arg0 (by decide)).trans (rv1_keep V0 Cert.ReferenceIdeal.main_arg0 (by decide)))))))))))))))))))))

theorem keep_arg1 (V0 : Valuation Cert.ReferenceIdeal.τ Cert.ReferenceIdeal.sig (Elt Ideal)) :
    after Cert.ReferenceIdeal.RunValue.ops V0 (Proc.devRef .tc Cert.ReferenceIdeal.main_arg1) = V0 (Proc.devRef .tc Cert.ReferenceIdeal.main_arg1) :=
  (congrFun (after_ops V0) _).trans ((rv20_keep V0 Cert.ReferenceIdeal.main_arg1 (by decide)).trans ((rv19_keep V0 Cert.ReferenceIdeal.main_arg1 (by decide)).trans ((rv18_keep V0 Cert.ReferenceIdeal.main_arg1 (by decide)).trans ((rv17_keep V0 Cert.ReferenceIdeal.main_arg1 (by decide)).trans ((rv16_keep V0 Cert.ReferenceIdeal.main_arg1 (by decide)).trans ((rv15_keep V0 Cert.ReferenceIdeal.main_arg1 (by decide)).trans ((rv14_keep V0 Cert.ReferenceIdeal.main_arg1 (by decide)).trans ((rv13_keep V0 Cert.ReferenceIdeal.main_arg1 (by decide)).trans ((rv12_keep V0 Cert.ReferenceIdeal.main_arg1 (by decide)).trans ((rv11_keep V0 Cert.ReferenceIdeal.main_arg1 (by decide)).trans ((rv10_keep V0 Cert.ReferenceIdeal.main_arg1 (by decide)).trans ((rv9_keep V0 Cert.ReferenceIdeal.main_arg1 (by decide)).trans ((rv8_keep V0 Cert.ReferenceIdeal.main_arg1 (by decide)).trans ((rv7_keep V0 Cert.ReferenceIdeal.main_arg1 (by decide)).trans ((rv6_keep V0 Cert.ReferenceIdeal.main_arg1 (by decide)).trans ((rv5_keep V0 Cert.ReferenceIdeal.main_arg1 (by decide)).trans ((rv4_keep V0 Cert.ReferenceIdeal.main_arg1 (by decide)).trans ((rv3_keep V0 Cert.ReferenceIdeal.main_arg1 (by decide)).trans ((rv2_keep V0 Cert.ReferenceIdeal.main_arg1 (by decide)).trans (rv1_keep V0 Cert.ReferenceIdeal.main_arg1 (by decide)))))))))))))))))))))

theorem keep_arg2 (V0 : Valuation Cert.ReferenceIdeal.τ Cert.ReferenceIdeal.sig (Elt Ideal)) :
    after Cert.ReferenceIdeal.RunValue.ops V0 (Proc.devRef .tc Cert.ReferenceIdeal.main_arg2) = V0 (Proc.devRef .tc Cert.ReferenceIdeal.main_arg2) :=
  (congrFun (after_ops V0) _).trans ((rv20_keep V0 Cert.ReferenceIdeal.main_arg2 (by decide)).trans ((rv19_keep V0 Cert.ReferenceIdeal.main_arg2 (by decide)).trans ((rv18_keep V0 Cert.ReferenceIdeal.main_arg2 (by decide)).trans ((rv17_keep V0 Cert.ReferenceIdeal.main_arg2 (by decide)).trans ((rv16_keep V0 Cert.ReferenceIdeal.main_arg2 (by decide)).trans ((rv15_keep V0 Cert.ReferenceIdeal.main_arg2 (by decide)).trans ((rv14_keep V0 Cert.ReferenceIdeal.main_arg2 (by decide)).trans ((rv13_keep V0 Cert.ReferenceIdeal.main_arg2 (by decide)).trans ((rv12_keep V0 Cert.ReferenceIdeal.main_arg2 (by decide)).trans ((rv11_keep V0 Cert.ReferenceIdeal.main_arg2 (by decide)).trans ((rv10_keep V0 Cert.ReferenceIdeal.main_arg2 (by decide)).trans ((rv9_keep V0 Cert.ReferenceIdeal.main_arg2 (by decide)).trans ((rv8_keep V0 Cert.ReferenceIdeal.main_arg2 (by decide)).trans ((rv7_keep V0 Cert.ReferenceIdeal.main_arg2 (by decide)).trans ((rv6_keep V0 Cert.ReferenceIdeal.main_arg2 (by decide)).trans ((rv5_keep V0 Cert.ReferenceIdeal.main_arg2 (by decide)).trans ((rv4_keep V0 Cert.ReferenceIdeal.main_arg2 (by decide)).trans ((rv3_keep V0 Cert.ReferenceIdeal.main_arg2 (by decide)).trans ((rv2_keep V0 Cert.ReferenceIdeal.main_arg2 (by decide)).trans (rv1_keep V0 Cert.ReferenceIdeal.main_arg2 (by decide)))))))))))))))))))))

theorem keep_arg3 (V0 : Valuation Cert.ReferenceIdeal.τ Cert.ReferenceIdeal.sig (Elt Ideal)) :
    after Cert.ReferenceIdeal.RunValue.ops V0 (Proc.devRef .tc Cert.ReferenceIdeal.main_arg3) = V0 (Proc.devRef .tc Cert.ReferenceIdeal.main_arg3) :=
  (congrFun (after_ops V0) _).trans ((rv20_keep V0 Cert.ReferenceIdeal.main_arg3 (by decide)).trans ((rv19_keep V0 Cert.ReferenceIdeal.main_arg3 (by decide)).trans ((rv18_keep V0 Cert.ReferenceIdeal.main_arg3 (by decide)).trans ((rv17_keep V0 Cert.ReferenceIdeal.main_arg3 (by decide)).trans ((rv16_keep V0 Cert.ReferenceIdeal.main_arg3 (by decide)).trans ((rv15_keep V0 Cert.ReferenceIdeal.main_arg3 (by decide)).trans ((rv14_keep V0 Cert.ReferenceIdeal.main_arg3 (by decide)).trans ((rv13_keep V0 Cert.ReferenceIdeal.main_arg3 (by decide)).trans ((rv12_keep V0 Cert.ReferenceIdeal.main_arg3 (by decide)).trans ((rv11_keep V0 Cert.ReferenceIdeal.main_arg3 (by decide)).trans ((rv10_keep V0 Cert.ReferenceIdeal.main_arg3 (by decide)).trans ((rv9_keep V0 Cert.ReferenceIdeal.main_arg3 (by decide)).trans ((rv8_keep V0 Cert.ReferenceIdeal.main_arg3 (by decide)).trans ((rv7_keep V0 Cert.ReferenceIdeal.main_arg3 (by decide)).trans ((rv6_keep V0 Cert.ReferenceIdeal.main_arg3 (by decide)).trans ((rv5_keep V0 Cert.ReferenceIdeal.main_arg3 (by decide)).trans ((rv4_keep V0 Cert.ReferenceIdeal.main_arg3 (by decide)).trans ((rv3_keep V0 Cert.ReferenceIdeal.main_arg3 (by decide)).trans ((rv2_keep V0 Cert.ReferenceIdeal.main_arg3 (by decide)).trans (rv1_keep V0 Cert.ReferenceIdeal.main_arg3 (by decide)))))))))))))))))))))

theorem keep_arg4 (V0 : Valuation Cert.ReferenceIdeal.τ Cert.ReferenceIdeal.sig (Elt Ideal)) :
    after Cert.ReferenceIdeal.RunValue.ops V0 (Proc.devRef .tc Cert.ReferenceIdeal.main_arg4) = V0 (Proc.devRef .tc Cert.ReferenceIdeal.main_arg4) :=
  (congrFun (after_ops V0) _).trans ((rv20_keep V0 Cert.ReferenceIdeal.main_arg4 (by decide)).trans ((rv19_keep V0 Cert.ReferenceIdeal.main_arg4 (by decide)).trans ((rv18_keep V0 Cert.ReferenceIdeal.main_arg4 (by decide)).trans ((rv17_keep V0 Cert.ReferenceIdeal.main_arg4 (by decide)).trans ((rv16_keep V0 Cert.ReferenceIdeal.main_arg4 (by decide)).trans ((rv15_keep V0 Cert.ReferenceIdeal.main_arg4 (by decide)).trans ((rv14_keep V0 Cert.ReferenceIdeal.main_arg4 (by decide)).trans ((rv13_keep V0 Cert.ReferenceIdeal.main_arg4 (by decide)).trans ((rv12_keep V0 Cert.ReferenceIdeal.main_arg4 (by decide)).trans ((rv11_keep V0 Cert.ReferenceIdeal.main_arg4 (by decide)).trans ((rv10_keep V0 Cert.ReferenceIdeal.main_arg4 (by decide)).trans ((rv9_keep V0 Cert.ReferenceIdeal.main_arg4 (by decide)).trans ((rv8_keep V0 Cert.ReferenceIdeal.main_arg4 (by decide)).trans ((rv7_keep V0 Cert.ReferenceIdeal.main_arg4 (by decide)).trans ((rv6_keep V0 Cert.ReferenceIdeal.main_arg4 (by decide)).trans ((rv5_keep V0 Cert.ReferenceIdeal.main_arg4 (by decide)).trans ((rv4_keep V0 Cert.ReferenceIdeal.main_arg4 (by decide)).trans ((rv3_keep V0 Cert.ReferenceIdeal.main_arg4 (by decide)).trans ((rv2_keep V0 Cert.ReferenceIdeal.main_arg4 (by decide)).trans (rv1_keep V0 Cert.ReferenceIdeal.main_arg4 (by decide)))))))))))))))))))))

theorem keep_arg5 (V0 : Valuation Cert.ReferenceIdeal.τ Cert.ReferenceIdeal.sig (Elt Ideal)) :
    after Cert.ReferenceIdeal.RunValue.ops V0 (Proc.devRef .tc Cert.ReferenceIdeal.main_arg5) = V0 (Proc.devRef .tc Cert.ReferenceIdeal.main_arg5) :=
  (congrFun (after_ops V0) _).trans ((rv20_keep V0 Cert.ReferenceIdeal.main_arg5 (by decide)).trans ((rv19_keep V0 Cert.ReferenceIdeal.main_arg5 (by decide)).trans ((rv18_keep V0 Cert.ReferenceIdeal.main_arg5 (by decide)).trans ((rv17_keep V0 Cert.ReferenceIdeal.main_arg5 (by decide)).trans ((rv16_keep V0 Cert.ReferenceIdeal.main_arg5 (by decide)).trans ((rv15_keep V0 Cert.ReferenceIdeal.main_arg5 (by decide)).trans ((rv14_keep V0 Cert.ReferenceIdeal.main_arg5 (by decide)).trans ((rv13_keep V0 Cert.ReferenceIdeal.main_arg5 (by decide)).trans ((rv12_keep V0 Cert.ReferenceIdeal.main_arg5 (by decide)).trans ((rv11_keep V0 Cert.ReferenceIdeal.main_arg5 (by decide)).trans ((rv10_keep V0 Cert.ReferenceIdeal.main_arg5 (by decide)).trans ((rv9_keep V0 Cert.ReferenceIdeal.main_arg5 (by decide)).trans ((rv8_keep V0 Cert.ReferenceIdeal.main_arg5 (by decide)).trans ((rv7_keep V0 Cert.ReferenceIdeal.main_arg5 (by decide)).trans ((rv6_keep V0 Cert.ReferenceIdeal.main_arg5 (by decide)).trans ((rv5_keep V0 Cert.ReferenceIdeal.main_arg5 (by decide)).trans ((rv4_keep V0 Cert.ReferenceIdeal.main_arg5 (by decide)).trans ((rv3_keep V0 Cert.ReferenceIdeal.main_arg5 (by decide)).trans ((rv2_keep V0 Cert.ReferenceIdeal.main_arg5 (by decide)).trans (rv1_keep V0 Cert.ReferenceIdeal.main_arg5 (by decide)))))))))))))))))))))

theorem keep_arg6 (V0 : Valuation Cert.ReferenceIdeal.τ Cert.ReferenceIdeal.sig (Elt Ideal)) :
    after Cert.ReferenceIdeal.RunValue.ops V0 (Proc.devRef .tc Cert.ReferenceIdeal.main_arg6) = V0 (Proc.devRef .tc Cert.ReferenceIdeal.main_arg6) :=
  (congrFun (after_ops V0) _).trans ((rv20_keep V0 Cert.ReferenceIdeal.main_arg6 (by decide)).trans ((rv19_keep V0 Cert.ReferenceIdeal.main_arg6 (by decide)).trans ((rv18_keep V0 Cert.ReferenceIdeal.main_arg6 (by decide)).trans ((rv17_keep V0 Cert.ReferenceIdeal.main_arg6 (by decide)).trans ((rv16_keep V0 Cert.ReferenceIdeal.main_arg6 (by decide)).trans ((rv15_keep V0 Cert.ReferenceIdeal.main_arg6 (by decide)).trans ((rv14_keep V0 Cert.ReferenceIdeal.main_arg6 (by decide)).trans ((rv13_keep V0 Cert.ReferenceIdeal.main_arg6 (by decide)).trans ((rv12_keep V0 Cert.ReferenceIdeal.main_arg6 (by decide)).trans ((rv11_keep V0 Cert.ReferenceIdeal.main_arg6 (by decide)).trans ((rv10_keep V0 Cert.ReferenceIdeal.main_arg6 (by decide)).trans ((rv9_keep V0 Cert.ReferenceIdeal.main_arg6 (by decide)).trans ((rv8_keep V0 Cert.ReferenceIdeal.main_arg6 (by decide)).trans ((rv7_keep V0 Cert.ReferenceIdeal.main_arg6 (by decide)).trans ((rv6_keep V0 Cert.ReferenceIdeal.main_arg6 (by decide)).trans ((rv5_keep V0 Cert.ReferenceIdeal.main_arg6 (by decide)).trans ((rv4_keep V0 Cert.ReferenceIdeal.main_arg6 (by decide)).trans ((rv3_keep V0 Cert.ReferenceIdeal.main_arg6 (by decide)).trans ((rv2_keep V0 Cert.ReferenceIdeal.main_arg6 (by decide)).trans (rv1_keep V0 Cert.ReferenceIdeal.main_arg6 (by decide)))))))))))))))))))))

theorem keep_arg7 (V0 : Valuation Cert.ReferenceIdeal.τ Cert.ReferenceIdeal.sig (Elt Ideal)) :
    after Cert.ReferenceIdeal.RunValue.ops V0 (Proc.devRef .tc Cert.ReferenceIdeal.main_arg7) = V0 (Proc.devRef .tc Cert.ReferenceIdeal.main_arg7) :=
  (congrFun (after_ops V0) _).trans ((rv20_keep V0 Cert.ReferenceIdeal.main_arg7 (by decide)).trans ((rv19_keep V0 Cert.ReferenceIdeal.main_arg7 (by decide)).trans ((rv18_keep V0 Cert.ReferenceIdeal.main_arg7 (by decide)).trans ((rv17_keep V0 Cert.ReferenceIdeal.main_arg7 (by decide)).trans ((rv16_keep V0 Cert.ReferenceIdeal.main_arg7 (by decide)).trans ((rv15_keep V0 Cert.ReferenceIdeal.main_arg7 (by decide)).trans ((rv14_keep V0 Cert.ReferenceIdeal.main_arg7 (by decide)).trans ((rv13_keep V0 Cert.ReferenceIdeal.main_arg7 (by decide)).trans ((rv12_keep V0 Cert.ReferenceIdeal.main_arg7 (by decide)).trans ((rv11_keep V0 Cert.ReferenceIdeal.main_arg7 (by decide)).trans ((rv10_keep V0 Cert.ReferenceIdeal.main_arg7 (by decide)).trans ((rv9_keep V0 Cert.ReferenceIdeal.main_arg7 (by decide)).trans ((rv8_keep V0 Cert.ReferenceIdeal.main_arg7 (by decide)).trans ((rv7_keep V0 Cert.ReferenceIdeal.main_arg7 (by decide)).trans ((rv6_keep V0 Cert.ReferenceIdeal.main_arg7 (by decide)).trans ((rv5_keep V0 Cert.ReferenceIdeal.main_arg7 (by decide)).trans ((rv4_keep V0 Cert.ReferenceIdeal.main_arg7 (by decide)).trans ((rv3_keep V0 Cert.ReferenceIdeal.main_arg7 (by decide)).trans ((rv2_keep V0 Cert.ReferenceIdeal.main_arg7 (by decide)).trans (rv1_keep V0 Cert.ReferenceIdeal.main_arg7 (by decide)))))))))))))))))))))

theorem keep_arg8 (V0 : Valuation Cert.ReferenceIdeal.τ Cert.ReferenceIdeal.sig (Elt Ideal)) :
    after Cert.ReferenceIdeal.RunValue.ops V0 (Proc.devRef .tc Cert.ReferenceIdeal.main_arg8) = V0 (Proc.devRef .tc Cert.ReferenceIdeal.main_arg8) :=
  (congrFun (after_ops V0) _).trans ((rv20_keep V0 Cert.ReferenceIdeal.main_arg8 (by decide)).trans ((rv19_keep V0 Cert.ReferenceIdeal.main_arg8 (by decide)).trans ((rv18_keep V0 Cert.ReferenceIdeal.main_arg8 (by decide)).trans ((rv17_keep V0 Cert.ReferenceIdeal.main_arg8 (by decide)).trans ((rv16_keep V0 Cert.ReferenceIdeal.main_arg8 (by decide)).trans ((rv15_keep V0 Cert.ReferenceIdeal.main_arg8 (by decide)).trans ((rv14_keep V0 Cert.ReferenceIdeal.main_arg8 (by decide)).trans ((rv13_keep V0 Cert.ReferenceIdeal.main_arg8 (by decide)).trans ((rv12_keep V0 Cert.ReferenceIdeal.main_arg8 (by decide)).trans ((rv11_keep V0 Cert.ReferenceIdeal.main_arg8 (by decide)).trans ((rv10_keep V0 Cert.ReferenceIdeal.main_arg8 (by decide)).trans ((rv9_keep V0 Cert.ReferenceIdeal.main_arg8 (by decide)).trans ((rv8_keep V0 Cert.ReferenceIdeal.main_arg8 (by decide)).trans ((rv7_keep V0 Cert.ReferenceIdeal.main_arg8 (by decide)).trans ((rv6_keep V0 Cert.ReferenceIdeal.main_arg8 (by decide)).trans ((rv5_keep V0 Cert.ReferenceIdeal.main_arg8 (by decide)).trans ((rv4_keep V0 Cert.ReferenceIdeal.main_arg8 (by decide)).trans ((rv3_keep V0 Cert.ReferenceIdeal.main_arg8 (by decide)).trans ((rv2_keep V0 Cert.ReferenceIdeal.main_arg8 (by decide)).trans (rv1_keep V0 Cert.ReferenceIdeal.main_arg8 (by decide)))))))))))))))))))))

theorem keep_arg9 (V0 : Valuation Cert.ReferenceIdeal.τ Cert.ReferenceIdeal.sig (Elt Ideal)) :
    after Cert.ReferenceIdeal.RunValue.ops V0 (Proc.devRef .tc Cert.ReferenceIdeal.main_arg9) = V0 (Proc.devRef .tc Cert.ReferenceIdeal.main_arg9) :=
  (congrFun (after_ops V0) _).trans ((rv20_keep V0 Cert.ReferenceIdeal.main_arg9 (by decide)).trans ((rv19_keep V0 Cert.ReferenceIdeal.main_arg9 (by decide)).trans ((rv18_keep V0 Cert.ReferenceIdeal.main_arg9 (by decide)).trans ((rv17_keep V0 Cert.ReferenceIdeal.main_arg9 (by decide)).trans ((rv16_keep V0 Cert.ReferenceIdeal.main_arg9 (by decide)).trans ((rv15_keep V0 Cert.ReferenceIdeal.main_arg9 (by decide)).trans ((rv14_keep V0 Cert.ReferenceIdeal.main_arg9 (by decide)).trans ((rv13_keep V0 Cert.ReferenceIdeal.main_arg9 (by decide)).trans ((rv12_keep V0 Cert.ReferenceIdeal.main_arg9 (by decide)).trans ((rv11_keep V0 Cert.ReferenceIdeal.main_arg9 (by decide)).trans ((rv10_keep V0 Cert.ReferenceIdeal.main_arg9 (by decide)).trans ((rv9_keep V0 Cert.ReferenceIdeal.main_arg9 (by decide)).trans ((rv8_keep V0 Cert.ReferenceIdeal.main_arg9 (by decide)).trans ((rv7_keep V0 Cert.ReferenceIdeal.main_arg9 (by decide)).trans ((rv6_keep V0 Cert.ReferenceIdeal.main_arg9 (by decide)).trans ((rv5_keep V0 Cert.ReferenceIdeal.main_arg9 (by decide)).trans ((rv4_keep V0 Cert.ReferenceIdeal.main_arg9 (by decide)).trans ((rv3_keep V0 Cert.ReferenceIdeal.main_arg9 (by decide)).trans ((rv2_keep V0 Cert.ReferenceIdeal.main_arg9 (by decide)).trans (rv1_keep V0 Cert.ReferenceIdeal.main_arg9 (by decide)))))))))))))))))))))

theorem keep_arg10 (V0 : Valuation Cert.ReferenceIdeal.τ Cert.ReferenceIdeal.sig (Elt Ideal)) :
    after Cert.ReferenceIdeal.RunValue.ops V0 (Proc.devRef .tc Cert.ReferenceIdeal.main_arg10) = V0 (Proc.devRef .tc Cert.ReferenceIdeal.main_arg10) :=
  (congrFun (after_ops V0) _).trans ((rv20_keep V0 Cert.ReferenceIdeal.main_arg10 (by decide)).trans ((rv19_keep V0 Cert.ReferenceIdeal.main_arg10 (by decide)).trans ((rv18_keep V0 Cert.ReferenceIdeal.main_arg10 (by decide)).trans ((rv17_keep V0 Cert.ReferenceIdeal.main_arg10 (by decide)).trans ((rv16_keep V0 Cert.ReferenceIdeal.main_arg10 (by decide)).trans ((rv15_keep V0 Cert.ReferenceIdeal.main_arg10 (by decide)).trans ((rv14_keep V0 Cert.ReferenceIdeal.main_arg10 (by decide)).trans ((rv13_keep V0 Cert.ReferenceIdeal.main_arg10 (by decide)).trans ((rv12_keep V0 Cert.ReferenceIdeal.main_arg10 (by decide)).trans ((rv11_keep V0 Cert.ReferenceIdeal.main_arg10 (by decide)).trans ((rv10_keep V0 Cert.ReferenceIdeal.main_arg10 (by decide)).trans ((rv9_keep V0 Cert.ReferenceIdeal.main_arg10 (by decide)).trans ((rv8_keep V0 Cert.ReferenceIdeal.main_arg10 (by decide)).trans ((rv7_keep V0 Cert.ReferenceIdeal.main_arg10 (by decide)).trans ((rv6_keep V0 Cert.ReferenceIdeal.main_arg10 (by decide)).trans ((rv5_keep V0 Cert.ReferenceIdeal.main_arg10 (by decide)).trans ((rv4_keep V0 Cert.ReferenceIdeal.main_arg10 (by decide)).trans ((rv3_keep V0 Cert.ReferenceIdeal.main_arg10 (by decide)).trans ((rv2_keep V0 Cert.ReferenceIdeal.main_arg10 (by decide)).trans (rv1_keep V0 Cert.ReferenceIdeal.main_arg10 (by decide)))))))))))))))))))))

theorem keep_arg11 (V0 : Valuation Cert.ReferenceIdeal.τ Cert.ReferenceIdeal.sig (Elt Ideal)) :
    after Cert.ReferenceIdeal.RunValue.ops V0 (Proc.devRef .tc Cert.ReferenceIdeal.main_arg11) = V0 (Proc.devRef .tc Cert.ReferenceIdeal.main_arg11) :=
  (congrFun (after_ops V0) _).trans ((rv20_keep V0 Cert.ReferenceIdeal.main_arg11 (by decide)).trans ((rv19_keep V0 Cert.ReferenceIdeal.main_arg11 (by decide)).trans ((rv18_keep V0 Cert.ReferenceIdeal.main_arg11 (by decide)).trans ((rv17_keep V0 Cert.ReferenceIdeal.main_arg11 (by decide)).trans ((rv16_keep V0 Cert.ReferenceIdeal.main_arg11 (by decide)).trans ((rv15_keep V0 Cert.ReferenceIdeal.main_arg11 (by decide)).trans ((rv14_keep V0 Cert.ReferenceIdeal.main_arg11 (by decide)).trans ((rv13_keep V0 Cert.ReferenceIdeal.main_arg11 (by decide)).trans ((rv12_keep V0 Cert.ReferenceIdeal.main_arg11 (by decide)).trans ((rv11_keep V0 Cert.ReferenceIdeal.main_arg11 (by decide)).trans ((rv10_keep V0 Cert.ReferenceIdeal.main_arg11 (by decide)).trans ((rv9_keep V0 Cert.ReferenceIdeal.main_arg11 (by decide)).trans ((rv8_keep V0 Cert.ReferenceIdeal.main_arg11 (by decide)).trans ((rv7_keep V0 Cert.ReferenceIdeal.main_arg11 (by decide)).trans ((rv6_keep V0 Cert.ReferenceIdeal.main_arg11 (by decide)).trans ((rv5_keep V0 Cert.ReferenceIdeal.main_arg11 (by decide)).trans ((rv4_keep V0 Cert.ReferenceIdeal.main_arg11 (by decide)).trans ((rv3_keep V0 Cert.ReferenceIdeal.main_arg11 (by decide)).trans ((rv2_keep V0 Cert.ReferenceIdeal.main_arg11 (by decide)).trans (rv1_keep V0 Cert.ReferenceIdeal.main_arg11 (by decide)))))))))))))))))))))

theorem keep_arg12 (V0 : Valuation Cert.ReferenceIdeal.τ Cert.ReferenceIdeal.sig (Elt Ideal)) :
    after Cert.ReferenceIdeal.RunValue.ops V0 (Proc.devRef .tc Cert.ReferenceIdeal.main_arg12) = V0 (Proc.devRef .tc Cert.ReferenceIdeal.main_arg12) :=
  (congrFun (after_ops V0) _).trans ((rv20_keep V0 Cert.ReferenceIdeal.main_arg12 (by decide)).trans ((rv19_keep V0 Cert.ReferenceIdeal.main_arg12 (by decide)).trans ((rv18_keep V0 Cert.ReferenceIdeal.main_arg12 (by decide)).trans ((rv17_keep V0 Cert.ReferenceIdeal.main_arg12 (by decide)).trans ((rv16_keep V0 Cert.ReferenceIdeal.main_arg12 (by decide)).trans ((rv15_keep V0 Cert.ReferenceIdeal.main_arg12 (by decide)).trans ((rv14_keep V0 Cert.ReferenceIdeal.main_arg12 (by decide)).trans ((rv13_keep V0 Cert.ReferenceIdeal.main_arg12 (by decide)).trans ((rv12_keep V0 Cert.ReferenceIdeal.main_arg12 (by decide)).trans ((rv11_keep V0 Cert.ReferenceIdeal.main_arg12 (by decide)).trans ((rv10_keep V0 Cert.ReferenceIdeal.main_arg12 (by decide)).trans ((rv9_keep V0 Cert.ReferenceIdeal.main_arg12 (by decide)).trans ((rv8_keep V0 Cert.ReferenceIdeal.main_arg12 (by decide)).trans ((rv7_keep V0 Cert.ReferenceIdeal.main_arg12 (by decide)).trans ((rv6_keep V0 Cert.ReferenceIdeal.main_arg12 (by decide)).trans ((rv5_keep V0 Cert.ReferenceIdeal.main_arg12 (by decide)).trans ((rv4_keep V0 Cert.ReferenceIdeal.main_arg12 (by decide)).trans ((rv3_keep V0 Cert.ReferenceIdeal.main_arg12 (by decide)).trans ((rv2_keep V0 Cert.ReferenceIdeal.main_arg12 (by decide)).trans (rv1_keep V0 Cert.ReferenceIdeal.main_arg12 (by decide)))))))))))))))))))))

theorem keep_arg13 (V0 : Valuation Cert.ReferenceIdeal.τ Cert.ReferenceIdeal.sig (Elt Ideal)) :
    after Cert.ReferenceIdeal.RunValue.ops V0 (Proc.devRef .tc Cert.ReferenceIdeal.main_arg13) = V0 (Proc.devRef .tc Cert.ReferenceIdeal.main_arg13) :=
  (congrFun (after_ops V0) _).trans ((rv20_keep V0 Cert.ReferenceIdeal.main_arg13 (by decide)).trans ((rv19_keep V0 Cert.ReferenceIdeal.main_arg13 (by decide)).trans ((rv18_keep V0 Cert.ReferenceIdeal.main_arg13 (by decide)).trans ((rv17_keep V0 Cert.ReferenceIdeal.main_arg13 (by decide)).trans ((rv16_keep V0 Cert.ReferenceIdeal.main_arg13 (by decide)).trans ((rv15_keep V0 Cert.ReferenceIdeal.main_arg13 (by decide)).trans ((rv14_keep V0 Cert.ReferenceIdeal.main_arg13 (by decide)).trans ((rv13_keep V0 Cert.ReferenceIdeal.main_arg13 (by decide)).trans ((rv12_keep V0 Cert.ReferenceIdeal.main_arg13 (by decide)).trans ((rv11_keep V0 Cert.ReferenceIdeal.main_arg13 (by decide)).trans ((rv10_keep V0 Cert.ReferenceIdeal.main_arg13 (by decide)).trans ((rv9_keep V0 Cert.ReferenceIdeal.main_arg13 (by decide)).trans ((rv8_keep V0 Cert.ReferenceIdeal.main_arg13 (by decide)).trans ((rv7_keep V0 Cert.ReferenceIdeal.main_arg13 (by decide)).trans ((rv6_keep V0 Cert.ReferenceIdeal.main_arg13 (by decide)).trans ((rv5_keep V0 Cert.ReferenceIdeal.main_arg13 (by decide)).trans ((rv4_keep V0 Cert.ReferenceIdeal.main_arg13 (by decide)).trans ((rv3_keep V0 Cert.ReferenceIdeal.main_arg13 (by decide)).trans ((rv2_keep V0 Cert.ReferenceIdeal.main_arg13 (by decide)).trans (rv1_keep V0 Cert.ReferenceIdeal.main_arg13 (by decide)))))))))))))))))))))

theorem keep_arg14 (V0 : Valuation Cert.ReferenceIdeal.τ Cert.ReferenceIdeal.sig (Elt Ideal)) :
    after Cert.ReferenceIdeal.RunValue.ops V0 (Proc.devRef .tc Cert.ReferenceIdeal.main_arg14) = V0 (Proc.devRef .tc Cert.ReferenceIdeal.main_arg14) :=
  (congrFun (after_ops V0) _).trans ((rv20_keep V0 Cert.ReferenceIdeal.main_arg14 (by decide)).trans ((rv19_keep V0 Cert.ReferenceIdeal.main_arg14 (by decide)).trans ((rv18_keep V0 Cert.ReferenceIdeal.main_arg14 (by decide)).trans ((rv17_keep V0 Cert.ReferenceIdeal.main_arg14 (by decide)).trans ((rv16_keep V0 Cert.ReferenceIdeal.main_arg14 (by decide)).trans ((rv15_keep V0 Cert.ReferenceIdeal.main_arg14 (by decide)).trans ((rv14_keep V0 Cert.ReferenceIdeal.main_arg14 (by decide)).trans ((rv13_keep V0 Cert.ReferenceIdeal.main_arg14 (by decide)).trans ((rv12_keep V0 Cert.ReferenceIdeal.main_arg14 (by decide)).trans ((rv11_keep V0 Cert.ReferenceIdeal.main_arg14 (by decide)).trans ((rv10_keep V0 Cert.ReferenceIdeal.main_arg14 (by decide)).trans ((rv9_keep V0 Cert.ReferenceIdeal.main_arg14 (by decide)).trans ((rv8_keep V0 Cert.ReferenceIdeal.main_arg14 (by decide)).trans ((rv7_keep V0 Cert.ReferenceIdeal.main_arg14 (by decide)).trans ((rv6_keep V0 Cert.ReferenceIdeal.main_arg14 (by decide)).trans ((rv5_keep V0 Cert.ReferenceIdeal.main_arg14 (by decide)).trans ((rv4_keep V0 Cert.ReferenceIdeal.main_arg14 (by decide)).trans ((rv3_keep V0 Cert.ReferenceIdeal.main_arg14 (by decide)).trans ((rv2_keep V0 Cert.ReferenceIdeal.main_arg14 (by decide)).trans (rv1_keep V0 Cert.ReferenceIdeal.main_arg14 (by decide)))))))))))))))))))))

theorem keep_arg15 (V0 : Valuation Cert.ReferenceIdeal.τ Cert.ReferenceIdeal.sig (Elt Ideal)) :
    after Cert.ReferenceIdeal.RunValue.ops V0 (Proc.devRef .tc Cert.ReferenceIdeal.main_arg15) = V0 (Proc.devRef .tc Cert.ReferenceIdeal.main_arg15) :=
  (congrFun (after_ops V0) _).trans ((rv20_keep V0 Cert.ReferenceIdeal.main_arg15 (by decide)).trans ((rv19_keep V0 Cert.ReferenceIdeal.main_arg15 (by decide)).trans ((rv18_keep V0 Cert.ReferenceIdeal.main_arg15 (by decide)).trans ((rv17_keep V0 Cert.ReferenceIdeal.main_arg15 (by decide)).trans ((rv16_keep V0 Cert.ReferenceIdeal.main_arg15 (by decide)).trans ((rv15_keep V0 Cert.ReferenceIdeal.main_arg15 (by decide)).trans ((rv14_keep V0 Cert.ReferenceIdeal.main_arg15 (by decide)).trans ((rv13_keep V0 Cert.ReferenceIdeal.main_arg15 (by decide)).trans ((rv12_keep V0 Cert.ReferenceIdeal.main_arg15 (by decide)).trans ((rv11_keep V0 Cert.ReferenceIdeal.main_arg15 (by decide)).trans ((rv10_keep V0 Cert.ReferenceIdeal.main_arg15 (by decide)).trans ((rv9_keep V0 Cert.ReferenceIdeal.main_arg15 (by decide)).trans ((rv8_keep V0 Cert.ReferenceIdeal.main_arg15 (by decide)).trans ((rv7_keep V0 Cert.ReferenceIdeal.main_arg15 (by decide)).trans ((rv6_keep V0 Cert.ReferenceIdeal.main_arg15 (by decide)).trans ((rv5_keep V0 Cert.ReferenceIdeal.main_arg15 (by decide)).trans ((rv4_keep V0 Cert.ReferenceIdeal.main_arg15 (by decide)).trans ((rv3_keep V0 Cert.ReferenceIdeal.main_arg15 (by decide)).trans ((rv2_keep V0 Cert.ReferenceIdeal.main_arg15 (by decide)).trans (rv1_keep V0 Cert.ReferenceIdeal.main_arg15 (by decide)))))))))))))))))))))

theorem keep_arg16 (V0 : Valuation Cert.ReferenceIdeal.τ Cert.ReferenceIdeal.sig (Elt Ideal)) :
    after Cert.ReferenceIdeal.RunValue.ops V0 (Proc.devRef .tc Cert.ReferenceIdeal.main_arg16) = V0 (Proc.devRef .tc Cert.ReferenceIdeal.main_arg16) :=
  (congrFun (after_ops V0) _).trans ((rv20_keep V0 Cert.ReferenceIdeal.main_arg16 (by decide)).trans ((rv19_keep V0 Cert.ReferenceIdeal.main_arg16 (by decide)).trans ((rv18_keep V0 Cert.ReferenceIdeal.main_arg16 (by decide)).trans ((rv17_keep V0 Cert.ReferenceIdeal.main_arg16 (by decide)).trans ((rv16_keep V0 Cert.ReferenceIdeal.main_arg16 (by decide)).trans ((rv15_keep V0 Cert.ReferenceIdeal.main_arg16 (by decide)).trans ((rv14_keep V0 Cert.ReferenceIdeal.main_arg16 (by decide)).trans ((rv13_keep V0 Cert.ReferenceIdeal.main_arg16 (by decide)).trans ((rv12_keep V0 Cert.ReferenceIdeal.main_arg16 (by decide)).trans ((rv11_keep V0 Cert.ReferenceIdeal.main_arg16 (by decide)).trans ((rv10_keep V0 Cert.ReferenceIdeal.main_arg16 (by decide)).trans ((rv9_keep V0 Cert.ReferenceIdeal.main_arg16 (by decide)).trans ((rv8_keep V0 Cert.ReferenceIdeal.main_arg16 (by decide)).trans ((rv7_keep V0 Cert.ReferenceIdeal.main_arg16 (by decide)).trans ((rv6_keep V0 Cert.ReferenceIdeal.main_arg16 (by decide)).trans ((rv5_keep V0 Cert.ReferenceIdeal.main_arg16 (by decide)).trans ((rv4_keep V0 Cert.ReferenceIdeal.main_arg16 (by decide)).trans ((rv3_keep V0 Cert.ReferenceIdeal.main_arg16 (by decide)).trans ((rv2_keep V0 Cert.ReferenceIdeal.main_arg16 (by decide)).trans (rv1_keep V0 Cert.ReferenceIdeal.main_arg16 (by decide)))))))))))))))))))))

theorem keep_arg17 (V0 : Valuation Cert.ReferenceIdeal.τ Cert.ReferenceIdeal.sig (Elt Ideal)) :
    after Cert.ReferenceIdeal.RunValue.ops V0 (Proc.devRef .tc Cert.ReferenceIdeal.main_arg17) = V0 (Proc.devRef .tc Cert.ReferenceIdeal.main_arg17) :=
  (congrFun (after_ops V0) _).trans ((rv20_keep V0 Cert.ReferenceIdeal.main_arg17 (by decide)).trans ((rv19_keep V0 Cert.ReferenceIdeal.main_arg17 (by decide)).trans ((rv18_keep V0 Cert.ReferenceIdeal.main_arg17 (by decide)).trans ((rv17_keep V0 Cert.ReferenceIdeal.main_arg17 (by decide)).trans ((rv16_keep V0 Cert.ReferenceIdeal.main_arg17 (by decide)).trans ((rv15_keep V0 Cert.ReferenceIdeal.main_arg17 (by decide)).trans ((rv14_keep V0 Cert.ReferenceIdeal.main_arg17 (by decide)).trans ((rv13_keep V0 Cert.ReferenceIdeal.main_arg17 (by decide)).trans ((rv12_keep V0 Cert.ReferenceIdeal.main_arg17 (by decide)).trans ((rv11_keep V0 Cert.ReferenceIdeal.main_arg17 (by decide)).trans ((rv10_keep V0 Cert.ReferenceIdeal.main_arg17 (by decide)).trans ((rv9_keep V0 Cert.ReferenceIdeal.main_arg17 (by decide)).trans ((rv8_keep V0 Cert.ReferenceIdeal.main_arg17 (by decide)).trans ((rv7_keep V0 Cert.ReferenceIdeal.main_arg17 (by decide)).trans ((rv6_keep V0 Cert.ReferenceIdeal.main_arg17 (by decide)).trans ((rv5_keep V0 Cert.ReferenceIdeal.main_arg17 (by decide)).trans ((rv4_keep V0 Cert.ReferenceIdeal.main_arg17 (by decide)).trans ((rv3_keep V0 Cert.ReferenceIdeal.main_arg17 (by decide)).trans ((rv2_keep V0 Cert.ReferenceIdeal.main_arg17 (by decide)).trans (rv1_keep V0 Cert.ReferenceIdeal.main_arg17 (by decide)))))))))))))))))))))

theorem keep_arg18 (V0 : Valuation Cert.ReferenceIdeal.τ Cert.ReferenceIdeal.sig (Elt Ideal)) :
    after Cert.ReferenceIdeal.RunValue.ops V0 (Proc.devRef .tc Cert.ReferenceIdeal.main_arg18) = V0 (Proc.devRef .tc Cert.ReferenceIdeal.main_arg18) :=
  (congrFun (after_ops V0) _).trans ((rv20_keep V0 Cert.ReferenceIdeal.main_arg18 (by decide)).trans ((rv19_keep V0 Cert.ReferenceIdeal.main_arg18 (by decide)).trans ((rv18_keep V0 Cert.ReferenceIdeal.main_arg18 (by decide)).trans ((rv17_keep V0 Cert.ReferenceIdeal.main_arg18 (by decide)).trans ((rv16_keep V0 Cert.ReferenceIdeal.main_arg18 (by decide)).trans ((rv15_keep V0 Cert.ReferenceIdeal.main_arg18 (by decide)).trans ((rv14_keep V0 Cert.ReferenceIdeal.main_arg18 (by decide)).trans ((rv13_keep V0 Cert.ReferenceIdeal.main_arg18 (by decide)).trans ((rv12_keep V0 Cert.ReferenceIdeal.main_arg18 (by decide)).trans ((rv11_keep V0 Cert.ReferenceIdeal.main_arg18 (by decide)).trans ((rv10_keep V0 Cert.ReferenceIdeal.main_arg18 (by decide)).trans ((rv9_keep V0 Cert.ReferenceIdeal.main_arg18 (by decide)).trans ((rv8_keep V0 Cert.ReferenceIdeal.main_arg18 (by decide)).trans ((rv7_keep V0 Cert.ReferenceIdeal.main_arg18 (by decide)).trans ((rv6_keep V0 Cert.ReferenceIdeal.main_arg18 (by decide)).trans ((rv5_keep V0 Cert.ReferenceIdeal.main_arg18 (by decide)).trans ((rv4_keep V0 Cert.ReferenceIdeal.main_arg18 (by decide)).trans ((rv3_keep V0 Cert.ReferenceIdeal.main_arg18 (by decide)).trans ((rv2_keep V0 Cert.ReferenceIdeal.main_arg18 (by decide)).trans (rv1_keep V0 Cert.ReferenceIdeal.main_arg18 (by decide)))))))))))))))))))))

theorem keep_arg19 (V0 : Valuation Cert.ReferenceIdeal.τ Cert.ReferenceIdeal.sig (Elt Ideal)) :
    after Cert.ReferenceIdeal.RunValue.ops V0 (Proc.devRef .tc Cert.ReferenceIdeal.main_arg19) = V0 (Proc.devRef .tc Cert.ReferenceIdeal.main_arg19) :=
  (congrFun (after_ops V0) _).trans ((rv20_keep V0 Cert.ReferenceIdeal.main_arg19 (by decide)).trans ((rv19_keep V0 Cert.ReferenceIdeal.main_arg19 (by decide)).trans ((rv18_keep V0 Cert.ReferenceIdeal.main_arg19 (by decide)).trans ((rv17_keep V0 Cert.ReferenceIdeal.main_arg19 (by decide)).trans ((rv16_keep V0 Cert.ReferenceIdeal.main_arg19 (by decide)).trans ((rv15_keep V0 Cert.ReferenceIdeal.main_arg19 (by decide)).trans ((rv14_keep V0 Cert.ReferenceIdeal.main_arg19 (by decide)).trans ((rv13_keep V0 Cert.ReferenceIdeal.main_arg19 (by decide)).trans ((rv12_keep V0 Cert.ReferenceIdeal.main_arg19 (by decide)).trans ((rv11_keep V0 Cert.ReferenceIdeal.main_arg19 (by decide)).trans ((rv10_keep V0 Cert.ReferenceIdeal.main_arg19 (by decide)).trans ((rv9_keep V0 Cert.ReferenceIdeal.main_arg19 (by decide)).trans ((rv8_keep V0 Cert.ReferenceIdeal.main_arg19 (by decide)).trans ((rv7_keep V0 Cert.ReferenceIdeal.main_arg19 (by decide)).trans ((rv6_keep V0 Cert.ReferenceIdeal.main_arg19 (by decide)).trans ((rv5_keep V0 Cert.ReferenceIdeal.main_arg19 (by decide)).trans ((rv4_keep V0 Cert.ReferenceIdeal.main_arg19 (by decide)).trans ((rv3_keep V0 Cert.ReferenceIdeal.main_arg19 (by decide)).trans ((rv2_keep V0 Cert.ReferenceIdeal.main_arg19 (by decide)).trans (rv1_keep V0 Cert.ReferenceIdeal.main_arg19 (by decide)))))))))))))))))))))

theorem keep_arg20 (V0 : Valuation Cert.ReferenceIdeal.τ Cert.ReferenceIdeal.sig (Elt Ideal)) :
    after Cert.ReferenceIdeal.RunValue.ops V0 (Proc.devRef .tc Cert.ReferenceIdeal.main_arg20) = V0 (Proc.devRef .tc Cert.ReferenceIdeal.main_arg20) :=
  (congrFun (after_ops V0) _).trans ((rv20_keep V0 Cert.ReferenceIdeal.main_arg20 (by decide)).trans ((rv19_keep V0 Cert.ReferenceIdeal.main_arg20 (by decide)).trans ((rv18_keep V0 Cert.ReferenceIdeal.main_arg20 (by decide)).trans ((rv17_keep V0 Cert.ReferenceIdeal.main_arg20 (by decide)).trans ((rv16_keep V0 Cert.ReferenceIdeal.main_arg20 (by decide)).trans ((rv15_keep V0 Cert.ReferenceIdeal.main_arg20 (by decide)).trans ((rv14_keep V0 Cert.ReferenceIdeal.main_arg20 (by decide)).trans ((rv13_keep V0 Cert.ReferenceIdeal.main_arg20 (by decide)).trans ((rv12_keep V0 Cert.ReferenceIdeal.main_arg20 (by decide)).trans ((rv11_keep V0 Cert.ReferenceIdeal.main_arg20 (by decide)).trans ((rv10_keep V0 Cert.ReferenceIdeal.main_arg20 (by decide)).trans ((rv9_keep V0 Cert.ReferenceIdeal.main_arg20 (by decide)).trans ((rv8_keep V0 Cert.ReferenceIdeal.main_arg20 (by decide)).trans ((rv7_keep V0 Cert.ReferenceIdeal.main_arg20 (by decide)).trans ((rv6_keep V0 Cert.ReferenceIdeal.main_arg20 (by decide)).trans ((rv5_keep V0 Cert.ReferenceIdeal.main_arg20 (by decide)).trans ((rv4_keep V0 Cert.ReferenceIdeal.main_arg20 (by decide)).trans ((rv3_keep V0 Cert.ReferenceIdeal.main_arg20 (by decide)).trans ((rv2_keep V0 Cert.ReferenceIdeal.main_arg20 (by decide)).trans (rv1_keep V0 Cert.ReferenceIdeal.main_arg20 (by decide)))))))))))))))))))))

theorem keep_arg21 (V0 : Valuation Cert.ReferenceIdeal.τ Cert.ReferenceIdeal.sig (Elt Ideal)) :
    after Cert.ReferenceIdeal.RunValue.ops V0 (Proc.devRef .tc Cert.ReferenceIdeal.main_arg21) = V0 (Proc.devRef .tc Cert.ReferenceIdeal.main_arg21) :=
  (congrFun (after_ops V0) _).trans ((rv20_keep V0 Cert.ReferenceIdeal.main_arg21 (by decide)).trans ((rv19_keep V0 Cert.ReferenceIdeal.main_arg21 (by decide)).trans ((rv18_keep V0 Cert.ReferenceIdeal.main_arg21 (by decide)).trans ((rv17_keep V0 Cert.ReferenceIdeal.main_arg21 (by decide)).trans ((rv16_keep V0 Cert.ReferenceIdeal.main_arg21 (by decide)).trans ((rv15_keep V0 Cert.ReferenceIdeal.main_arg21 (by decide)).trans ((rv14_keep V0 Cert.ReferenceIdeal.main_arg21 (by decide)).trans ((rv13_keep V0 Cert.ReferenceIdeal.main_arg21 (by decide)).trans ((rv12_keep V0 Cert.ReferenceIdeal.main_arg21 (by decide)).trans ((rv11_keep V0 Cert.ReferenceIdeal.main_arg21 (by decide)).trans ((rv10_keep V0 Cert.ReferenceIdeal.main_arg21 (by decide)).trans ((rv9_keep V0 Cert.ReferenceIdeal.main_arg21 (by decide)).trans ((rv8_keep V0 Cert.ReferenceIdeal.main_arg21 (by decide)).trans ((rv7_keep V0 Cert.ReferenceIdeal.main_arg21 (by decide)).trans ((rv6_keep V0 Cert.ReferenceIdeal.main_arg21 (by decide)).trans ((rv5_keep V0 Cert.ReferenceIdeal.main_arg21 (by decide)).trans ((rv4_keep V0 Cert.ReferenceIdeal.main_arg21 (by decide)).trans ((rv3_keep V0 Cert.ReferenceIdeal.main_arg21 (by decide)).trans ((rv2_keep V0 Cert.ReferenceIdeal.main_arg21 (by decide)).trans (rv1_keep V0 Cert.ReferenceIdeal.main_arg21 (by decide)))))))))))))))))))))

theorem keep_arg22 (V0 : Valuation Cert.ReferenceIdeal.τ Cert.ReferenceIdeal.sig (Elt Ideal)) :
    after Cert.ReferenceIdeal.RunValue.ops V0 (Proc.devRef .tc Cert.ReferenceIdeal.main_arg22) = V0 (Proc.devRef .tc Cert.ReferenceIdeal.main_arg22) :=
  (congrFun (after_ops V0) _).trans ((rv20_keep V0 Cert.ReferenceIdeal.main_arg22 (by decide)).trans ((rv19_keep V0 Cert.ReferenceIdeal.main_arg22 (by decide)).trans ((rv18_keep V0 Cert.ReferenceIdeal.main_arg22 (by decide)).trans ((rv17_keep V0 Cert.ReferenceIdeal.main_arg22 (by decide)).trans ((rv16_keep V0 Cert.ReferenceIdeal.main_arg22 (by decide)).trans ((rv15_keep V0 Cert.ReferenceIdeal.main_arg22 (by decide)).trans ((rv14_keep V0 Cert.ReferenceIdeal.main_arg22 (by decide)).trans ((rv13_keep V0 Cert.ReferenceIdeal.main_arg22 (by decide)).trans ((rv12_keep V0 Cert.ReferenceIdeal.main_arg22 (by decide)).trans ((rv11_keep V0 Cert.ReferenceIdeal.main_arg22 (by decide)).trans ((rv10_keep V0 Cert.ReferenceIdeal.main_arg22 (by decide)).trans ((rv9_keep V0 Cert.ReferenceIdeal.main_arg22 (by decide)).trans ((rv8_keep V0 Cert.ReferenceIdeal.main_arg22 (by decide)).trans ((rv7_keep V0 Cert.ReferenceIdeal.main_arg22 (by decide)).trans ((rv6_keep V0 Cert.ReferenceIdeal.main_arg22 (by decide)).trans ((rv5_keep V0 Cert.ReferenceIdeal.main_arg22 (by decide)).trans ((rv4_keep V0 Cert.ReferenceIdeal.main_arg22 (by decide)).trans ((rv3_keep V0 Cert.ReferenceIdeal.main_arg22 (by decide)).trans ((rv2_keep V0 Cert.ReferenceIdeal.main_arg22 (by decide)).trans (rv1_keep V0 Cert.ReferenceIdeal.main_arg22 (by decide)))))))))))))))))))))

theorem keep_arg23 (V0 : Valuation Cert.ReferenceIdeal.τ Cert.ReferenceIdeal.sig (Elt Ideal)) :
    after Cert.ReferenceIdeal.RunValue.ops V0 (Proc.devRef .tc Cert.ReferenceIdeal.main_arg23) = V0 (Proc.devRef .tc Cert.ReferenceIdeal.main_arg23) :=
  (congrFun (after_ops V0) _).trans ((rv20_keep V0 Cert.ReferenceIdeal.main_arg23 (by decide)).trans ((rv19_keep V0 Cert.ReferenceIdeal.main_arg23 (by decide)).trans ((rv18_keep V0 Cert.ReferenceIdeal.main_arg23 (by decide)).trans ((rv17_keep V0 Cert.ReferenceIdeal.main_arg23 (by decide)).trans ((rv16_keep V0 Cert.ReferenceIdeal.main_arg23 (by decide)).trans ((rv15_keep V0 Cert.ReferenceIdeal.main_arg23 (by decide)).trans ((rv14_keep V0 Cert.ReferenceIdeal.main_arg23 (by decide)).trans ((rv13_keep V0 Cert.ReferenceIdeal.main_arg23 (by decide)).trans ((rv12_keep V0 Cert.ReferenceIdeal.main_arg23 (by decide)).trans ((rv11_keep V0 Cert.ReferenceIdeal.main_arg23 (by decide)).trans ((rv10_keep V0 Cert.ReferenceIdeal.main_arg23 (by decide)).trans ((rv9_keep V0 Cert.ReferenceIdeal.main_arg23 (by decide)).trans ((rv8_keep V0 Cert.ReferenceIdeal.main_arg23 (by decide)).trans ((rv7_keep V0 Cert.ReferenceIdeal.main_arg23 (by decide)).trans ((rv6_keep V0 Cert.ReferenceIdeal.main_arg23 (by decide)).trans ((rv5_keep V0 Cert.ReferenceIdeal.main_arg23 (by decide)).trans ((rv4_keep V0 Cert.ReferenceIdeal.main_arg23 (by decide)).trans ((rv3_keep V0 Cert.ReferenceIdeal.main_arg23 (by decide)).trans ((rv2_keep V0 Cert.ReferenceIdeal.main_arg23 (by decide)).trans (rv1_keep V0 Cert.ReferenceIdeal.main_arg23 (by decide)))))))))))))))))))))

theorem keep_arg24 (V0 : Valuation Cert.ReferenceIdeal.τ Cert.ReferenceIdeal.sig (Elt Ideal)) :
    after Cert.ReferenceIdeal.RunValue.ops V0 (Proc.devRef .tc Cert.ReferenceIdeal.main_arg24) = V0 (Proc.devRef .tc Cert.ReferenceIdeal.main_arg24) :=
  (congrFun (after_ops V0) _).trans ((rv20_keep V0 Cert.ReferenceIdeal.main_arg24 (by decide)).trans ((rv19_keep V0 Cert.ReferenceIdeal.main_arg24 (by decide)).trans ((rv18_keep V0 Cert.ReferenceIdeal.main_arg24 (by decide)).trans ((rv17_keep V0 Cert.ReferenceIdeal.main_arg24 (by decide)).trans ((rv16_keep V0 Cert.ReferenceIdeal.main_arg24 (by decide)).trans ((rv15_keep V0 Cert.ReferenceIdeal.main_arg24 (by decide)).trans ((rv14_keep V0 Cert.ReferenceIdeal.main_arg24 (by decide)).trans ((rv13_keep V0 Cert.ReferenceIdeal.main_arg24 (by decide)).trans ((rv12_keep V0 Cert.ReferenceIdeal.main_arg24 (by decide)).trans ((rv11_keep V0 Cert.ReferenceIdeal.main_arg24 (by decide)).trans ((rv10_keep V0 Cert.ReferenceIdeal.main_arg24 (by decide)).trans ((rv9_keep V0 Cert.ReferenceIdeal.main_arg24 (by decide)).trans ((rv8_keep V0 Cert.ReferenceIdeal.main_arg24 (by decide)).trans ((rv7_keep V0 Cert.ReferenceIdeal.main_arg24 (by decide)).trans ((rv6_keep V0 Cert.ReferenceIdeal.main_arg24 (by decide)).trans ((rv5_keep V0 Cert.ReferenceIdeal.main_arg24 (by decide)).trans ((rv4_keep V0 Cert.ReferenceIdeal.main_arg24 (by decide)).trans ((rv3_keep V0 Cert.ReferenceIdeal.main_arg24 (by decide)).trans ((rv2_keep V0 Cert.ReferenceIdeal.main_arg24 (by decide)).trans (rv1_keep V0 Cert.ReferenceIdeal.main_arg24 (by decide)))))))))))))))))))))

theorem frame_k : Cert.frame_Kernel := fun m ρ _ => Cert.Kernel.Gen.frame m ρ
theorem frame_ki : Cert.frame_KernelIdeal := fun m ρ _ => Cert.KernelIdeal.Gen.frame m ρ

/-- The reference runs and leaves its arguments as launched. -/
theorem frame_ri : Cert.frame_ReferenceIdeal := fun m ρ _ =>
  (θ_run Cert.ReferenceIdeal.defs _ _).mono (fun r h c =>
    ⟨(h c Cert.ReferenceIdeal.main_arg0).trans (keep_arg0 _),
     (h c Cert.ReferenceIdeal.main_arg1).trans (keep_arg1 _),
     (h c Cert.ReferenceIdeal.main_arg2).trans (keep_arg2 _),
     (h c Cert.ReferenceIdeal.main_arg3).trans (keep_arg3 _),
     (h c Cert.ReferenceIdeal.main_arg4).trans (keep_arg4 _),
     (h c Cert.ReferenceIdeal.main_arg5).trans (keep_arg5 _),
     (h c Cert.ReferenceIdeal.main_arg6).trans (keep_arg6 _),
     (h c Cert.ReferenceIdeal.main_arg7).trans (keep_arg7 _),
     (h c Cert.ReferenceIdeal.main_arg8).trans (keep_arg8 _),
     (h c Cert.ReferenceIdeal.main_arg9).trans (keep_arg9 _),
     (h c Cert.ReferenceIdeal.main_arg10).trans (keep_arg10 _),
     (h c Cert.ReferenceIdeal.main_arg11).trans (keep_arg11 _),
     (h c Cert.ReferenceIdeal.main_arg12).trans (keep_arg12 _),
     (h c Cert.ReferenceIdeal.main_arg13).trans (keep_arg13 _),
     (h c Cert.ReferenceIdeal.main_arg14).trans (keep_arg14 _),
     (h c Cert.ReferenceIdeal.main_arg15).trans (keep_arg15 _),
     (h c Cert.ReferenceIdeal.main_arg16).trans (keep_arg16 _),
     (h c Cert.ReferenceIdeal.main_arg17).trans (keep_arg17 _),
     (h c Cert.ReferenceIdeal.main_arg18).trans (keep_arg18 _),
     (h c Cert.ReferenceIdeal.main_arg19).trans (keep_arg19 _),
     (h c Cert.ReferenceIdeal.main_arg20).trans (keep_arg20 _),
     (h c Cert.ReferenceIdeal.main_arg21).trans (keep_arg21 _),
     (h c Cert.ReferenceIdeal.main_arg22).trans (keep_arg22 _),
     (h c Cert.ReferenceIdeal.main_arg23).trans (keep_arg23 _),
     (h c Cert.ReferenceIdeal.main_arg24).trans (keep_arg24 _)⟩)
    (Cert.ReferenceIdeal.RunValue.run_all m ρ)

/-- The argument arrays of a launch memory of the kernel's program, at their literal types. -/
def argsOf (m : (ℓ : Loc Cert.KernelIdeal.nD Cert.KernelIdeal.τ Cert.KernelIdeal.sig) → Buf (Elt Ideal) ℓ) (c : Dev Cert.KernelIdeal.nD) : Args where
  x0 := m ((c.tc : Thread Cert.KernelIdeal.nD Cert.KernelIdeal.τ).loc Cert.KernelIdeal.main_arg0)
  x1 := m ((c.tc : Thread Cert.KernelIdeal.nD Cert.KernelIdeal.τ).loc Cert.KernelIdeal.main_arg1)
  x2 := m ((c.tc : Thread Cert.KernelIdeal.nD Cert.KernelIdeal.τ).loc Cert.KernelIdeal.main_arg2)
  x3 := m ((c.tc : Thread Cert.KernelIdeal.nD Cert.KernelIdeal.τ).loc Cert.KernelIdeal.main_arg3)
  x4 := m ((c.tc : Thread Cert.KernelIdeal.nD Cert.KernelIdeal.τ).loc Cert.KernelIdeal.main_arg4)
  x5 := m ((c.tc : Thread Cert.KernelIdeal.nD Cert.KernelIdeal.τ).loc Cert.KernelIdeal.main_arg5)
  x6 := m ((c.tc : Thread Cert.KernelIdeal.nD Cert.KernelIdeal.τ).loc Cert.KernelIdeal.main_arg6)
  x7 := m ((c.tc : Thread Cert.KernelIdeal.nD Cert.KernelIdeal.τ).loc Cert.KernelIdeal.main_arg7)
  x8 := m ((c.tc : Thread Cert.KernelIdeal.nD Cert.KernelIdeal.τ).loc Cert.KernelIdeal.main_arg8)
  x9 := m ((c.tc : Thread Cert.KernelIdeal.nD Cert.KernelIdeal.τ).loc Cert.KernelIdeal.main_arg9)
  x10 := m ((c.tc : Thread Cert.KernelIdeal.nD Cert.KernelIdeal.τ).loc Cert.KernelIdeal.main_arg10)
  x11 := m ((c.tc : Thread Cert.KernelIdeal.nD Cert.KernelIdeal.τ).loc Cert.KernelIdeal.main_arg11)
  x12 := m ((c.tc : Thread Cert.KernelIdeal.nD Cert.KernelIdeal.τ).loc Cert.KernelIdeal.main_arg12)
  x13 := m ((c.tc : Thread Cert.KernelIdeal.nD Cert.KernelIdeal.τ).loc Cert.KernelIdeal.main_arg13)
  x14 := m ((c.tc : Thread Cert.KernelIdeal.nD Cert.KernelIdeal.τ).loc Cert.KernelIdeal.main_arg14)
  x15 := m ((c.tc : Thread Cert.KernelIdeal.nD Cert.KernelIdeal.τ).loc Cert.KernelIdeal.main_arg15)
  x16 := m ((c.tc : Thread Cert.KernelIdeal.nD Cert.KernelIdeal.τ).loc Cert.KernelIdeal.main_arg16)
  x17 := m ((c.tc : Thread Cert.KernelIdeal.nD Cert.KernelIdeal.τ).loc Cert.KernelIdeal.main_arg17)
  x18 := m ((c.tc : Thread Cert.KernelIdeal.nD Cert.KernelIdeal.τ).loc Cert.KernelIdeal.main_arg18)
  x19 := m ((c.tc : Thread Cert.KernelIdeal.nD Cert.KernelIdeal.τ).loc Cert.KernelIdeal.main_arg19)
  x20 := m ((c.tc : Thread Cert.KernelIdeal.nD Cert.KernelIdeal.τ).loc Cert.KernelIdeal.main_arg20)
  x21 := m ((c.tc : Thread Cert.KernelIdeal.nD Cert.KernelIdeal.τ).loc Cert.KernelIdeal.main_arg21)
  x22 := m ((c.tc : Thread Cert.KernelIdeal.nD Cert.KernelIdeal.τ).loc Cert.KernelIdeal.main_arg22)
  x23 := m ((c.tc : Thread Cert.KernelIdeal.nD Cert.KernelIdeal.τ).loc Cert.KernelIdeal.main_arg23)
  x24 := m ((c.tc : Thread Cert.KernelIdeal.nD Cert.KernelIdeal.τ).loc Cert.KernelIdeal.main_arg24)

/-- The idealized kernel and the idealized reference, from memories that agree on the arguments, end with equal results. -/
theorem algebraic : Cert.algebraic_KernelIdeal_ReferenceIdeal := by
  intro m ρ m' ρ' _ hag
  refine ⟨fun c => W20 m ρ c (Proc.devRef .tc Cert.KernelIdeal.main_v111), ?_, ?_⟩
  · exact (θ_run Cert.KernelIdeal.defs _ _).mono (fun r h c =>
      ⟨h c _ (Cert.KernelIdeal.Gen.mem_uc Cert.KernelIdeal.main_v111 (by decide)),
       (h c _ (Cert.KernelIdeal.Gen.mem_uc Cert.KernelIdeal.main_arg0 (by decide))).trans (W20_main_arg0 m ρ c),
       (h c _ (Cert.KernelIdeal.Gen.mem_uc Cert.KernelIdeal.main_arg1 (by decide))).trans (W20_main_arg1 m ρ c),
       (h c _ (Cert.KernelIdeal.Gen.mem_uc Cert.KernelIdeal.main_arg2 (by decide))).trans (W20_main_arg2 m ρ c),
       (h c _ (Cert.KernelIdeal.Gen.mem_uc Cert.KernelIdeal.main_arg3 (by decide))).trans (W20_main_arg3 m ρ c),
       (h c _ (Cert.KernelIdeal.Gen.mem_uc Cert.KernelIdeal.main_arg4 (by decide))).trans (W20_main_arg4 m ρ c),
       (h c _ (Cert.KernelIdeal.Gen.mem_uc Cert.KernelIdeal.main_arg5 (by decide))).trans (W20_main_arg5 m ρ c),
       (h c _ (Cert.KernelIdeal.Gen.mem_uc Cert.KernelIdeal.main_arg6 (by decide))).trans (W20_main_arg6 m ρ c),
       (h c _ (Cert.KernelIdeal.Gen.mem_uc Cert.KernelIdeal.main_arg7 (by decide))).trans (W20_main_arg7 m ρ c),
       (h c _ (Cert.KernelIdeal.Gen.mem_uc Cert.KernelIdeal.main_arg8 (by decide))).trans (W20_main_arg8 m ρ c),
       (h c _ (Cert.KernelIdeal.Gen.mem_uc Cert.KernelIdeal.main_arg9 (by decide))).trans (W20_main_arg9 m ρ c),
       (h c _ (Cert.KernelIdeal.Gen.mem_uc Cert.KernelIdeal.main_arg10 (by decide))).trans (W20_main_arg10 m ρ c),
       (h c _ (Cert.KernelIdeal.Gen.mem_uc Cert.KernelIdeal.main_arg11 (by decide))).trans (W20_main_arg11 m ρ c),
       (h c _ (Cert.KernelIdeal.Gen.mem_uc Cert.KernelIdeal.main_arg12 (by decide))).trans (W20_main_arg12 m ρ c),
       (h c _ (Cert.KernelIdeal.Gen.mem_uc Cert.KernelIdeal.main_arg13 (by decide))).trans (W20_main_arg13 m ρ c),
       (h c _ (Cert.KernelIdeal.Gen.mem_uc Cert.KernelIdeal.main_arg14 (by decide))).trans (W20_main_arg14 m ρ c),
       (h c _ (Cert.KernelIdeal.Gen.mem_uc Cert.KernelIdeal.main_arg15 (by decide))).trans (W20_main_arg15 m ρ c),
       (h c _ (Cert.KernelIdeal.Gen.mem_uc Cert.KernelIdeal.main_arg16 (by decide))).trans (W20_main_arg16 m ρ c),
       (h c _ (Cert.KernelIdeal.Gen.mem_uc Cert.KernelIdeal.main_arg17 (by decide))).trans (W20_main_arg17 m ρ c),
       (h c _ (Cert.KernelIdeal.Gen.mem_uc Cert.KernelIdeal.main_arg18 (by decide))).trans (W20_main_arg18 m ρ c),
       (h c _ (Cert.KernelIdeal.Gen.mem_uc Cert.KernelIdeal.main_arg19 (by decide))).trans (W20_main_arg19 m ρ c),
       (h c _ (Cert.KernelIdeal.Gen.mem_uc Cert.KernelIdeal.main_arg20 (by decide))).trans (W20_main_arg20 m ρ c),
       (h c _ (Cert.KernelIdeal.Gen.mem_uc Cert.KernelIdeal.main_arg21 (by decide))).trans (W20_main_arg21 m ρ c),
       (h c _ (Cert.KernelIdeal.Gen.mem_uc Cert.KernelIdeal.main_arg22 (by decide))).trans (W20_main_arg22 m ρ c),
       (h c _ (Cert.KernelIdeal.Gen.mem_uc Cert.KernelIdeal.main_arg23 (by decide))).trans (W20_main_arg23 m ρ c),
       (h c _ (Cert.KernelIdeal.Gen.mem_uc Cert.KernelIdeal.main_arg24 (by decide))).trans (W20_main_arg24 m ρ c)⟩)
      (Cert.KernelIdeal.RunValue.run_all m ρ)
  · refine (θ_run Cert.ReferenceIdeal.defs _ _).mono (fun r h c =>
      ⟨?_,
       (h c Cert.ReferenceIdeal.main_arg0).trans (keep_arg0 _),
       (h c Cert.ReferenceIdeal.main_arg1).trans (keep_arg1 _),
       (h c Cert.ReferenceIdeal.main_arg2).trans (keep_arg2 _),
       (h c Cert.ReferenceIdeal.main_arg3).trans (keep_arg3 _),
       (h c Cert.ReferenceIdeal.main_arg4).trans (keep_arg4 _),
       (h c Cert.ReferenceIdeal.main_arg5).trans (keep_arg5 _),
       (h c Cert.ReferenceIdeal.main_arg6).trans (keep_arg6 _),
       (h c Cert.ReferenceIdeal.main_arg7).trans (keep_arg7 _),
       (h c Cert.ReferenceIdeal.main_arg8).trans (keep_arg8 _),
       (h c Cert.ReferenceIdeal.main_arg9).trans (keep_arg9 _),
       (h c Cert.ReferenceIdeal.main_arg10).trans (keep_arg10 _),
       (h c Cert.ReferenceIdeal.main_arg11).trans (keep_arg11 _),
       (h c Cert.ReferenceIdeal.main_arg12).trans (keep_arg12 _),
       (h c Cert.ReferenceIdeal.main_arg13).trans (keep_arg13 _),
       (h c Cert.ReferenceIdeal.main_arg14).trans (keep_arg14 _),
       (h c Cert.ReferenceIdeal.main_arg15).trans (keep_arg15 _),
       (h c Cert.ReferenceIdeal.main_arg16).trans (keep_arg16 _),
       (h c Cert.ReferenceIdeal.main_arg17).trans (keep_arg17 _),
       (h c Cert.ReferenceIdeal.main_arg18).trans (keep_arg18 _),
       (h c Cert.ReferenceIdeal.main_arg19).trans (keep_arg19 _),
       (h c Cert.ReferenceIdeal.main_arg20).trans (keep_arg20 _),
       (h c Cert.ReferenceIdeal.main_arg21).trans (keep_arg21 _),
       (h c Cert.ReferenceIdeal.main_arg22).trans (keep_arg22 _),
       (h c Cert.ReferenceIdeal.main_arg23).trans (keep_arg23 _),
       (h c Cert.ReferenceIdeal.main_arg24).trans (keep_arg24 _)⟩)
      (Cert.ReferenceIdeal.RunValue.run_all m' ρ')
    rw [h c Cert.ReferenceIdeal.main_v173, after_ops]
    have hK : KHolds m ρ c (argsOf m c) := ⟨rfl, rfl, rfl, rfl, rfl, rfl, rfl, rfl, rfl, rfl, rfl, rfl, rfl, rfl, rfl, rfl, rfl, rfl, rfl, rfl, rfl, rfl, rfl, rfl, rfl⟩
    have hR : RHolds (launchContents m' c) (argsOf m c) :=
      ⟨(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2.1, (hag c).2.2.2.2.2.2.2.2.2.2.2.2.2.1, (hag c).2.2.2.2.2.2.2.2.2.2.2.2.2.2.1, (hag c).2.2.2.2.2.2.2.2.2.2.2.2.2.2.2.1, (hag c).2.2.2.2.2.2.2.2.2.2.2.2.2.2.2.2.1, (hag c).2.2.2.2.2.2.2.2.2.2.2.2.2.2.2.2.2.1, (hag c).2.2.2.2.2.2.2.2.2.2.2.2.2.2.2.2.2.2.1, (hag c).2.2.2.2.2.2.2.2.2.2.2.2.2.2.2.2.2.2.2.1, (hag c).2.2.2.2.2.2.2.2.2.2.2.2.2.2.2.2.2.2.2.2.1, (hag c).2.2.2.2.2.2.2.2.2.2.2.2.2.2.2.2.2.2.2.2.2.1, (hag c).2.2.2.2.2.2.2.2.2.2.2.2.2.2.2.2.2.2.2.2.2.2.1, (hag c).2.2.2.2.2.2.2.2.2.2.2.2.2.2.2.2.2.2.2.2.2.2.2.1, (hag c).2.2.2.2.2.2.2.2.2.2.2.2.2.2.2.2.2.2.2.2.2.2.2.2⟩
    exact (f_main_v111 hK hR).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
